-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v222) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x2 : Shape := ⟨3, ![4096, 8, 2]⟩
abbrev S4096x64x8x2 : Shape := ⟨4, ![4096, 64, 8, 2]⟩
abbrev S4096 : Shape := ⟨1, ![4096]⟩
abbrev S4096x64 : Shape := ⟨2, ![4096, 64]⟩
abbrev S8x20x12x2 : Shape := ⟨4, ![8, 20, 12, 2]⟩
abbrev S8x128x40 : Shape := ⟨3, ![8, 128, 40]⟩
abbrev S8x128 : Shape := ⟨2, ![8, 128]⟩
abbrev S9x128x16 : Shape := ⟨3, ![9, 128, 16]⟩
abbrev S9x128 : Shape := ⟨2, ![9, 128]⟩
abbrev S_ : Shape := ⟨0, ![]⟩

class Facts : Prop where
  bcast_S_S4096x8x2 : S_.BroadcastsInDim S4096x8x2 (![] : Fin 0 → Fin S4096x8x2.rank)
  reducesTo_S4096x8x2_S_d0_1_2 : S4096x8x2.ReducesTo [0, 1, 2] S_
  h_S_ : 0 < S_.numel
  bcast_S_S4096x64x8x2 : S_.BroadcastsInDim S4096x64x8x2 (![] : Fin 0 → Fin S4096x64x8x2.rank)
  reducesTo_S4096x64x8x2_S_d0_1_2_3 : S4096x64x8x2.ReducesTo [0, 1, 2, 3] S_
  bcast_S_S8x20x12x2 : S_.BroadcastsInDim S8x20x12x2 (![] : Fin 0 → Fin S8x20x12x2.rank)
  reducesTo_S8x20x12x2_S_d0_1_2_3 : S8x20x12x2.ReducesTo [0, 1, 2, 3] S_
  bcast_S_S8x128x40 : S_.BroadcastsInDim S8x128x40 (![] : Fin 0 → Fin S8x128x40.rank)
  reducesTo_S8x128x40_S_d0_1_2 : S8x128x40.ReducesTo [0, 1, 2] S_
  bcast_S_S8x128 : S_.BroadcastsInDim S8x128 (![] : Fin 0 → Fin S8x128.rank)
  reducesTo_S8x128_S_d0_1 : S8x128.ReducesTo [0, 1] S_
  bcast_S_S9x128x16 : S_.BroadcastsInDim S9x128x16 (![] : Fin 0 → Fin S9x128x16.rank)
  reducesTo_S9x128x16_S_d0_1_2 : S9x128x16.ReducesTo [0, 1, 2] S_
  bcast_S_S9x128 : S_.BroadcastsInDim S9x128 (![] : Fin 0 → Fin S9x128.rank)
  reducesTo_S9x128_S_d0_1 : S9x128.ReducesTo [0, 1] S_

variable [Facts]

def fn_part1 {F : FTy → Type} [FloatOps F] (main_arg6 : FVec F S8x128 .f32) (main_arg7 : FVec F S9x128x16 .f32) (main_arg8 : FVec F S9x128 .f32) (main_v13 : IVec S_ 1) (main_v16 : IVec S8x128x40 1) : IVec S_ 1 :=
  let main_c_5 : IVec S_ 1 := constantI S_ 1 1#1
  let main_v17 : IVec S_ 1 := (fun x v => Host.reduce IntOp.andi x v reducesTo_S8x128x40_S_d0_1_2 h_S_) main_v16 main_c_5
  let main_v18 : IVec S_ 1 := andi main_v13 main_v17
  let main_v19 : FVec F S8x128 .f32 := Host.absf main_arg6
  let main_cst_6 : FVec F S_ .f32 := constant S_ .f32 0x7F800000#32
  let main_v20 : FVec F S8x128 .f32 := broadcastInDim S8x128 ![] bcast_S_S8x128 main_cst_6
  let main_v21 : IVec S8x128 1 := cmpf .olt main_v19 main_v20
  let main_c_7 : IVec S_ 1 := constantI S_ 1 1#1
  let main_v22 : IVec S_ 1 := (fun x v => Host.reduce IntOp.andi x v reducesTo_S8x128_S_d0_1 h_S_) main_v21 main_c_7
  let main_v23 : IVec S_ 1 := andi main_v18 main_v22
  let main_v24 : FVec F S9x128x16 .f32 := Host.absf main_arg7
  let main_cst_8 : FVec F S_ .f32 := constant S_ .f32 0x7F800000#32
  let main_v25 : FVec F S9x128x16 .f32 := broadcastInDim S9x128x16 ![] bcast_S_S9x128x16 main_cst_8
  let main_v26 : IVec S9x128x16 1 := cmpf .olt main_v24 main_v25
  let main_c_9 : IVec S_ 1 := constantI S_ 1 1#1
  let main_v27 : IVec S_ 1 := (fun x v => Host.reduce IntOp.andi x v reducesTo_S9x128x16_S_d0_1_2 h_S_) main_v26 main_c_9
  let main_v28 : IVec S_ 1 := andi main_v23 main_v27
  let main_v29 : FVec F S9x128 .f32 := Host.absf main_arg8
  let main_cst_10 : FVec F S_ .f32 := constant S_ .f32 0x7F800000#32
  let main_v30 : FVec F S9x128 .f32 := broadcastInDim S9x128 ![] bcast_S_S9x128 main_cst_10
  let main_v31 : IVec S9x128 1 := cmpf .olt main_v29 main_v30
  let main_c_11 : IVec S_ 1 := constantI S_ 1 1#1
  let main_v32 : IVec S_ 1 := (fun x v => Host.reduce IntOp.andi x v reducesTo_S9x128_S_d0_1 h_S_) main_v31 main_c_11
  let main_v33 : IVec S_ 1 := andi main_v28 main_v32
  main_v33

def fn {F : FTy → Type} [FloatOps F] (main_arg0 : FVec F S4096x8x2 .f32) (main_arg1 : FVec F S4096x64x8x2 .f32) (main_arg2 : IVec S4096 32) (main_arg3 : IVec S4096x64 32) (main_arg4 : FVec F S8x20x12x2 .f32) (main_arg5 : FVec F S8x128x40 .f32) (main_arg6 : FVec F S8x128 .f32) (main_arg7 : FVec F S9x128x16 .f32) (main_arg8 : FVec F S9x128 .f32) : IVec S_ 1 :=
  let main_v0 : FVec F S4096x8x2 .f32 := Host.absf main_arg0
  let main_cst : FVec F S_ .f32 := constant S_ .f32 0x7F800000#32
  let main_v1 : FVec F S4096x8x2 .f32 := broadcastInDim S4096x8x2 ![] bcast_S_S4096x8x2 main_cst
  let main_v2 : IVec S4096x8x2 1 := cmpf .olt main_v0 main_v1
  let main_c : IVec S_ 1 := constantI S_ 1 1#1
  let main_v3 : IVec S_ 1 := (fun x v => Host.reduce IntOp.andi x v reducesTo_S4096x8x2_S_d0_1_2 h_S_) main_v2 main_c
  let main_v4 : FVec F S4096x64x8x2 .f32 := Host.absf main_arg1
  let main_cst_0 : FVec F S_ .f32 := constant S_ .f32 0x7F800000#32
  let main_v5 : FVec F S4096x64x8x2 .f32 := broadcastInDim S4096x64x8x2 ![] bcast_S_S4096x64x8x2 main_cst_0
  let main_v6 : IVec S4096x64x8x2 1 := cmpf .olt main_v4 main_v5
  let main_c_1 : IVec S_ 1 := constantI S_ 1 1#1
  let main_v7 : IVec S_ 1 := (fun x v => Host.reduce IntOp.andi x v reducesTo_S4096x64x8x2_S_d0_1_2_3 h_S_) main_v6 main_c_1
  let main_v8 : IVec S_ 1 := andi main_v3 main_v7
  let main_v9 : FVec F S8x20x12x2 .f32 := Host.absf main_arg4
  let main_cst_2 : FVec F S_ .f32 := constant S_ .f32 0x7F800000#32
  let main_v10 : FVec F S8x20x12x2 .f32 := broadcastInDim S8x20x12x2 ![] bcast_S_S8x20x12x2 main_cst_2
  let main_v11 : IVec S8x20x12x2 1 := cmpf .olt main_v9 main_v10
  let main_c_3 : IVec S_ 1 := constantI S_ 1 1#1
  let main_v12 : IVec S_ 1 := (fun x v => Host.reduce IntOp.andi x v reducesTo_S8x20x12x2_S_d0_1_2_3 h_S_) main_v11 main_c_3
  let main_v13 : IVec S_ 1 := andi main_v8 main_v12
  let main_v14 : FVec F S8x128x40 .f32 := Host.absf main_arg5
  let main_cst_4 : FVec F S_ .f32 := constant S_ .f32 0x7F800000#32
  let main_v15 : FVec F S8x128x40 .f32 := broadcastInDim S8x128x40 ![] bcast_S_S8x128x40 main_cst_4
  let main_v16 : IVec S8x128x40 1 := cmpf .olt main_v14 main_v15
  fn_part1 (F := F) main_arg6 main_arg7 main_arg8 main_v13 main_v16
-- ==== Kernel.lean ====
abbrev S4096x8x2 : Shape := ⟨3, ![4096, 8, 2]⟩
abbrev S4096x64x8x2 : Shape := ⟨4, ![4096, 64, 8, 2]⟩
abbrev S4096 : Shape := ⟨1, ![4096]⟩
abbrev S4096x64 : Shape := ⟨2, ![4096, 64]⟩
abbrev S8x20x12x2 : Shape := ⟨4, ![8, 20, 12, 2]⟩
abbrev S8x128x40 : Shape := ⟨3, ![8, 128, 40]⟩
abbrev S8x128 : Shape := ⟨2, ![8, 128]⟩
abbrev S9x128x16 : Shape := ⟨3, ![9, 128, 16]⟩
abbrev S9x128 : Shape := ⟨2, ![9, 128]⟩
abbrev S4096x16 : Shape := ⟨2, ![4096, 16]⟩
abbrev S8x480 : Shape := ⟨2, ![8, 480]⟩
abbrev S8x40x128 : Shape := ⟨3, ![8, 40, 128]⟩
abbrev S320x128 : Shape := ⟨2, ![320, 128]⟩
abbrev S328x128 : Shape := ⟨2, ![328, 128]⟩
abbrev S262144x16 : Shape := ⟨2, ![262144, 16]⟩
abbrev S9x16x128 : Shape := ⟨3, ![9, 16, 128]⟩
abbrev S144x128 : Shape := ⟨2, ![144, 128]⟩
abbrev S153x128 : Shape := ⟨2, ![153, 128]⟩
abbrev S32x1x128 : Shape := ⟨3, ![32, 1, 128]⟩
abbrev S81920x128 : Shape := ⟨2, ![81920, 128]⟩
abbrev S128x1x2048 : Shape := ⟨3, ![128, 1, 2048]⟩
abbrev S262144x128 : Shape := ⟨2, ![262144, 128]⟩
abbrev S4096x20x128 : Shape := ⟨3, ![4096, 20, 128]⟩
abbrev S4096x64x128 : Shape := ⟨3, ![4096, 64, 128]⟩
abbrev S1x1x128 : Shape := ⟨3, ![1, 1, 128]⟩
abbrev S128x16 : Shape := ⟨2, ![128, 16]⟩
abbrev S2560x128 : Shape := ⟨2, ![2560, 128]⟩
abbrev S128 : Shape := ⟨1, ![128]⟩
abbrev S128x8 : Shape := ⟨2, ![128, 8]⟩
abbrev S128x1 : Shape := ⟨2, ![128, 1]⟩
abbrev S128x480 : Shape := ⟨2, ![128, 480]⟩
abbrev S128x1x16 : Shape := ⟨3, ![128, 1, 16]⟩
abbrev S128x20x16 : Shape := ⟨3, ![128, 20, 16]⟩
abbrev S128x20x24 : Shape := ⟨3, ![128, 20, 24]⟩
abbrev S128x20x40 : Shape := ⟨3, ![128, 20, 40]⟩
abbrev S2560x1x40 : Shape := ⟨3, ![2560, 1, 40]⟩
abbrev S128x1x8 : Shape := ⟨3, ![128, 1, 8]⟩
abbrev S128x20x8 : Shape := ⟨3, ![128, 20, 8]⟩
abbrev S2560x8x1 : Shape := ⟨3, ![2560, 8, 1]⟩
abbrev S2560x8x40 : Shape := ⟨3, ![2560, 8, 40]⟩
abbrev S2560x320 : Shape := ⟨2, ![2560, 320]⟩
abbrev S2560x8 : Shape := ⟨2, ![2560, 8]⟩
abbrev S2560x328 : Shape := ⟨2, ![2560, 328]⟩
abbrev S1x1x2048 : Shape := ⟨3, ![1, 1, 2048]⟩
abbrev S2048x16 : Shape := ⟨2, ![2048, 16]⟩
abbrev S2048x128 : Shape := ⟨2, ![2048, 128]⟩
abbrev S2048 : Shape := ⟨1, ![2048]⟩
abbrev S2048x9 : Shape := ⟨2, ![2048, 9]⟩
abbrev S2048x1 : Shape := ⟨2, ![2048, 1]⟩
abbrev S2048x1x16 : Shape := ⟨3, ![2048, 1, 16]⟩
abbrev S2048x9x1 : Shape := ⟨3, ![2048, 9, 1]⟩
abbrev S2048x9x16 : Shape := ⟨3, ![2048, 9, 16]⟩
abbrev S2048x144 : Shape := ⟨2, ![2048, 144]⟩
abbrev S2048x153 : Shape := ⟨2, ![2048, 153]⟩

abbrev nBuf : Space → Nat
  | .hbm => 24
  | .vmem => 15
  | .smem => 0
  | _ => 0

abbrev bufTy : (tb : Table) → Fin (tcTables nBuf tb) → BufTy
  | .hbm, ⟨0, _⟩ => ⟨S4096x8x2, .f32⟩
  | .hbm, ⟨1, _⟩ => ⟨S4096x64x8x2, .f32⟩
  | .hbm, ⟨2, _⟩ => ⟨S4096, .i32⟩
  | .hbm, ⟨3, _⟩ => ⟨S4096x64, .i32⟩
  | .hbm, ⟨4, _⟩ => ⟨S8x20x12x2, .f32⟩
  | .hbm, ⟨5, _⟩ => ⟨S8x128x40, .f32⟩
  | .hbm, ⟨6, _⟩ => ⟨S8x128, .f32⟩
  | .hbm, ⟨7, _⟩ => ⟨S9x128x16, .f32⟩
  | .hbm, ⟨8, _⟩ => ⟨S9x128, .f32⟩
  | .hbm, ⟨9, _⟩ => ⟨S4096x16, .f32⟩
  | .hbm, ⟨10, _⟩ => ⟨S8x480, .f32⟩
  | .hbm, ⟨11, _⟩ => ⟨S8x40x128, .f32⟩
  | .hbm, ⟨12, _⟩ => ⟨S320x128, .f32⟩
  | .hbm, ⟨13, _⟩ => ⟨S328x128, .f32⟩
  | .hbm, ⟨14, _⟩ => ⟨S262144x16, .f32⟩
  | .hbm, ⟨15, _⟩ => ⟨S9x16x128, .f32⟩
  | .hbm, ⟨16, _⟩ => ⟨S144x128, .f32⟩
  | .hbm, ⟨17, _⟩ => ⟨S153x128, .f32⟩
  | .hbm, ⟨18, _⟩ => ⟨S32x1x128, .i32⟩
  | .hbm, ⟨19, _⟩ => ⟨S81920x128, .f32⟩
  | .hbm, ⟨20, _⟩ => ⟨S128x1x2048, .i32⟩
  | .hbm, ⟨21, _⟩ => ⟨S262144x128, .f32⟩
  | .hbm, ⟨22, _⟩ => ⟨S4096x20x128, .f32⟩
  | .hbm, ⟨23, _⟩ => ⟨S4096x64x128, .f32⟩
  | .local _ .vmem, ⟨0, _⟩ => ⟨S1x1x128, .i32⟩
  | .local _ .vmem, ⟨1, _⟩ => ⟨S1x1x128, .i32⟩
  | .local _ .vmem, ⟨2, _⟩ => ⟨S128x16, .f32⟩
  | .local _ .vmem, ⟨3, _⟩ => ⟨S128x16, .f32⟩
  | .local _ .vmem, ⟨4, _⟩ => ⟨S8x480, .f32⟩
  | .local _ .vmem, ⟨5, _⟩ => ⟨S328x128, .f32⟩
  | .local _ .vmem, ⟨6, _⟩ => ⟨S2560x128, .f32⟩
  | .local _ .vmem, ⟨7, _⟩ => ⟨S2560x128, .f32⟩
  | .local _ .vmem, ⟨8, _⟩ => ⟨S1x1x2048, .i32⟩
  | .local _ .vmem, ⟨9, _⟩ => ⟨S1x1x2048, .i32⟩
  | .local _ .vmem, ⟨10, _⟩ => ⟨S2048x16, .f32⟩
  | .local _ .vmem, ⟨11, _⟩ => ⟨S2048x16, .f32⟩
  | .local _ .vmem, ⟨12, _⟩ => ⟨S153x128, .f32⟩
  | .local _ .vmem, ⟨13, _⟩ => ⟨S2048x128, .f32⟩
  | .local _ .vmem, ⟨14, _⟩ => ⟨S2048x128, .f32⟩
  | _, _ => ⟨S4096x8x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_v0_0 : Ref sig .tc := ⟨.hbm, 22, rfl⟩
abbrev main_v0_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S328x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2560x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1x1x2048 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S153x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S4096x8x2_S4096x16 : S4096x8x2.ShapeCasts S4096x16
  shapeCasts_S8x20x12x2_S8x480 : S8x20x12x2.ShapeCasts S8x480
  transposes_S8x128x40_S8x40x128_0_2_1 : S8x128x40.Transposes [0, 2, 1] S8x40x128
  shapeCasts_S8x40x128_S320x128 : S8x40x128.ShapeCasts S320x128
  concatenates_S320x128_S8x128_S328x128_d0 : Shape.Concatenates [S320x128, S8x128] S328x128 0
  shapeCasts_S4096x64x8x2_S262144x16 : S4096x64x8x2.ShapeCasts S262144x16
  transposes_S9x128x16_S9x16x128_0_2_1 : S9x128x16.Transposes [0, 2, 1] S9x16x128
  shapeCasts_S9x16x128_S144x128 : S9x16x128.ShapeCasts S144x128
  concatenates_S144x128_S9x128_S153x128_d0 : Shape.Concatenates [S144x128, S9x128] S153x128 0
  shapeCasts_S4096_S32x1x128 : S4096.ShapeCasts S32x1x128
  shapeCasts_S4096x64_S128x1x2048 : S4096x64.ShapeCasts S128x1x2048
  shapeCasts_S81920x128_S4096x20x128 : S81920x128.ShapeCasts S4096x20x128
  shapeCasts_S262144x128_S4096x64x128 : S262144x128.ShapeCasts S4096x64x128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  iota_S128x8_d1_w32 : S128x8.Iotas .tc 32 [1]
  shapeCasts_S128_S128x1 : S128.ShapeCasts S128x1
  broadcasts_S128x1_S128x8 : S128x1.Broadcasts S128x8
  natLt_1_32 : 1 < 32
  inb_S8x480_S8x480_0_0 : ∀ a, (![0, 0] : Fin 2 → Nat) a + S8x480.size a ≤ S8x480.size a
  h_S8x480 : 0 < S8x480.numel
  shapeCasts_S8x480_S8x480 : S8x480.ShapeCasts S8x480
  inb_S128x16_S128x16_0_0 : ∀ a, (![0, 0] : Fin 2 → Nat) a + S128x16.size a ≤ S128x16.size a
  h_S128x16 : 0 < S128x16.numel
  shapeCasts_S128x16_S128x16 : S128x16.ShapeCasts S128x16
  shapeCasts_S128x16_S128x1x16 : S128x16.ShapeCasts S128x1x16
  shapeCasts_S128x1x16_S128x1x16 : S128x1x16.ShapeCasts S128x1x16
  broadcasts_S128x1x16_S128x20x16 : S128x1x16.Broadcasts S128x20x16
  shapeCasts_S128x480_S128x20x24 : S128x480.ShapeCasts S128x20x24
  concatenates_S128x20x16_S128x20x24_S128x20x40_d2 : Shape.Concatenates [S128x20x16, S128x20x24] S128x20x40 2
  shapeCasts_S128x20x40_S2560x1x40 : S128x20x40.ShapeCasts S2560x1x40
  shapeCasts_S128x8_S128x1x8 : S128x8.ShapeCasts S128x1x8
  shapeCasts_S128x1x8_S128x1x8 : S128x1x8.ShapeCasts S128x1x8
  broadcasts_S128x1x8_S128x20x8 : S128x1x8.Broadcasts S128x20x8
  shapeCasts_S128x20x8_S2560x8x1 : S128x20x8.ShapeCasts S2560x8x1
  broadcasts_S2560x1x40_S2560x8x40 : S2560x1x40.Broadcasts S2560x8x40
  broadcasts_S2560x8x1_S2560x8x40 : S2560x8x1.Broadcasts S2560x8x40
  shapeCasts_S2560x8x40_S2560x320 : S2560x8x40.ShapeCasts S2560x320
  shapeCasts_S2560x8x1_S2560x8 : S2560x8x1.ShapeCasts S2560x8
  concatenates_S2560x320_S2560x8_S2560x328_d1 : Shape.Concatenates [S2560x320, S2560x8] S2560x328 1
  inb_S328x128_S328x128_0_0 : ∀ a, (![0, 0] : Fin 2 → Nat) a + S328x128.size a ≤ S328x128.size a
  h_S328x128 : 0 < S328x128.numel
  shapeCasts_S328x128_S328x128 : S328x128.ShapeCasts S328x128
  inb_S2560x128_S2560x128_0_0 : ∀ a, (![0, 0] : Fin 2 → Nat) a + S2560x128.size a ≤ S2560x128.size a
  h_S2560x128 : 0 < S2560x128.numel
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  iota_S2048x9_d1_w32 : S2048x9.Iotas .tc 32 [1]
  shapeCasts_S2048_S2048x1 : S2048.ShapeCasts S2048x1
  broadcasts_S2048x1_S2048x9 : S2048x1.Broadcasts S2048x9
  shapeCasts_S2048x16_S2048x1x16 : S2048x16.ShapeCasts S2048x1x16
  shapeCasts_S2048x9_S2048x9x1 : S2048x9.ShapeCasts S2048x9x1
  broadcasts_S2048x1x16_S2048x9x16 : S2048x1x16.Broadcasts S2048x9x16
  broadcasts_S2048x9x1_S2048x9x16 : S2048x9x1.Broadcasts S2048x9x16
  shapeCasts_S2048x9x16_S2048x144 : S2048x9x16.ShapeCasts S2048x144
  concatenates_S2048x144_S2048x9_S2048x153_d1 : Shape.Concatenates [S2048x144, S2048x9] S2048x153 1
  inb_S153x128_S153x128_0_0 : ∀ a, (![0, 0] : Fin 2 → Nat) a + S153x128.size a ≤ S153x128.size a
  h_S153x128 : 0 < S153x128.numel
  shapeCasts_S153x128_S153x128 : S153x128.ShapeCasts S153x128
  inb_S2048x128_S2048x128_0_0 : ∀ a, (![0, 0] : Fin 2 → Nat) a + S2048x128.size a ≤ S2048x128.size a
  h_S2048x128 : 0 < S2048x128.numel
  dot_S128x8_S8x480_S128x480_1_0_0_1_n_n_wf : DotDims.WF S128x8 S8x480 S128x480 [1] [0] [0] [1] [] []
  dot_S2560x328_S328x128_S2560x128_1_0_0_1_n_n_wf : DotDims.WF S2560x328 S328x128 S2560x128 [1] [0] [0] [1] [] []
  dot_S2048x153_S153x128_S2048x128_1_0_0_1_n_n_wf : DotDims.WF S2048x153 S153x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x128.size a ≤ S32x1x128.size a
  hwx0_0 : ∀ i : grid0.Coords, EltTy.bits .i32 = 32 ∨ (Rect.block (s := S32x1x128) S1x1x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S4096x16.size a
  hwx0_1 : ∀ i : grid0.Coords, EltTy.bits .f32 = 32 ∨ (Rect.block (s := S4096x16) S128x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x480.size a ≤ S8x480.size a
  hwx0_2 : ∀ i : grid0.Coords, EltTy.bits .f32 = 32 ∨ (Rect.block (s := S8x480) S8x480.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S328x128.size a ≤ S328x128.size a
  hwx0_3 : ∀ i : grid0.Coords, EltTy.bits .f32 = 32 ∨ (Rect.block (s := S328x128) S328x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2560x128.size a ≤ S81920x128.size a
  hwx0_4 : ∀ i : grid0.Coords, EltTy.bits .f32 = 32 ∨ (Rect.block (s := S81920x128) S2560x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x2048.size a ≤ S128x1x2048.size a
  hwx1_0 : ∀ i : grid1.Coords, EltTy.bits .i32 = 32 ∨ (Rect.block (s := S128x1x2048) S1x1x2048.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S262144x16.size a
  hwx1_1 : ∀ i : grid1.Coords, EltTy.bits .f32 = 32 ∨ (Rect.block (s := S262144x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S153x128.size a ≤ S153x128.size a
  hwx1_2 : ∀ i : grid1.Coords, EltTy.bits .f32 = 32 ∨ (Rect.block (s := S153x128) S153x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S262144x128.size a
  hwx1_3 : ∀ i : grid1.Coords, EltTy.bits .f32 = 32 ∨ (Rect.block (s := S262144x128) S2048x128.size (cc1_transform_3 i) (hinb1_3 i)).WholeWords (EltTy.packing .f32)

variable [Facts₀]

def dot_S128x8_S8x480_S128x480_1_0_0_1_n_n : DotDims S128x8 S8x480 S128x480 where
  lhsContracting := [1]
  rhsContracting := [0]
  lhsNonContracting := [0]
  rhsNonContracting := [1]
  lhsBatch := []
  rhsBatch := []
  wf := dot_S128x8_S8x480_S128x480_1_0_0_1_n_n_wf
def dot_S2560x328_S328x128_S2560x128_1_0_0_1_n_n : DotDims S2560x328 S328x128 S2560x128 where
  lhsContracting := [1]
  rhsContracting := [0]
  lhsNonContracting := [0]
  rhsNonContracting := [1]
  lhsBatch := []
  rhsBatch := []
  wf := dot_S2560x328_S328x128_S2560x128_1_0_0_1_n_n_wf
def dot_S2048x153_S153x128_S2048x128_1_0_0_1_n_n : DotDims S2048x153 S153x128 S2048x128 where
  lhsContracting := [1]
  rhsContracting := [0]
  lhsNonContracting := [0]
  rhsNonContracting := [1]
  lhsBatch := []
  rhsBatch := []
  wf := dot_S2048x153_S153x128_S2048x128_1_0_0_1_n_n_wf

abbrev win0_0 : Pipeline.Window sig grid0 :=
  Pipeline.Window.ofSpec (Memref.whole main_call0_v9) S1x1x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S128x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S8x480.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S328x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v10) S2560x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_call0_v11) S1x1x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v5) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v8) S153x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v12) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x8x2 : Shape := ⟨3, ![4096, 8, 2]⟩
abbrev S4096x64x8x2 : Shape := ⟨4, ![4096, 64, 8, 2]⟩
abbrev S4096 : Shape := ⟨1, ![4096]⟩
abbrev S4096x64 : Shape := ⟨2, ![4096, 64]⟩
abbrev S8x20x12x2 : Shape := ⟨4, ![8, 20, 12, 2]⟩
abbrev S8x128x40 : Shape := ⟨3, ![8, 128, 40]⟩
abbrev S8x128 : Shape := ⟨2, ![8, 128]⟩
abbrev S9x128x16 : Shape := ⟨3, ![9, 128, 16]⟩
abbrev S9x128 : Shape := ⟨2, ![9, 128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x20x12x2 : Shape := ⟨4, ![4096, 20, 12, 2]⟩
abbrev S4096x1x8x2 : Shape := ⟨4, ![4096, 1, 8, 2]⟩
abbrev S4096x20x8x2 : Shape := ⟨4, ![4096, 20, 8, 2]⟩
abbrev S4096x20x20x2 : Shape := ⟨4, ![4096, 20, 20, 2]⟩
abbrev S4096x20x40 : Shape := ⟨3, ![4096, 20, 40]⟩
abbrev S4096x20x128 : Shape := ⟨3, ![4096, 20, 128]⟩
abbrev S1x128x40 : Shape := ⟨3, ![1, 128, 40]⟩
abbrev S128x40 : Shape := ⟨2, ![128, 40]⟩
abbrev S1x128 : Shape := ⟨2, ![1, 128]⟩
abbrev S128 : Shape := ⟨1, ![128]⟩
abbrev S1x1x128 : Shape := ⟨3, ![1, 1, 128]⟩
abbrev S4096x1x1 : Shape := ⟨3, ![4096, 1, 1]⟩
abbrev S4096x64x16 : Shape := ⟨3, ![4096, 64, 16]⟩
abbrev S4096x64x128 : Shape := ⟨3, ![4096, 64, 128]⟩
abbrev S1x128x16 : Shape := ⟨3, ![1, 128, 16]⟩
abbrev S128x16 : Shape := ⟨2, ![128, 16]⟩
abbrev S4096x64x1 : Shape := ⟨3, ![4096, 64, 1]⟩

abbrev nBuf : Space → Nat
  | .hbm => 295
  | .vmem => 0
  | .smem => 0
  | _ => 0

abbrev hbmTy0_0 (i : Nat) : BufTy := match i % 128 with
  | 0 => ⟨S4096x8x2, .f32⟩
  | 1 => ⟨S4096x64x8x2, .f32⟩
  | 2 => ⟨S4096, .i32⟩
  | 3 => ⟨S4096x64, .i32⟩
  | 4 => ⟨S8x20x12x2, .f32⟩
  | 5 => ⟨S8x128x40, .f32⟩
  | 6 => ⟨S8x128, .f32⟩
  | 7 => ⟨S9x128x16, .f32⟩
  | 8 => ⟨S9x128, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S1, .i32⟩
  | 18 => ⟨S_, .i32⟩
  | 19 => ⟨S4096x1, .i32⟩
  | 20 => ⟨S4096x1, .i1⟩
  | 21 => ⟨S1x1, .i32⟩
  | 22 => ⟨S4096x1, .i32⟩
  | 23 => ⟨S4096x1, .i1⟩
  | 24 => ⟨S4096x1, .i1⟩
  | 25 => ⟨S_, .i1⟩
  | 26 => ⟨S4096, .i1⟩
  | 27 => ⟨S4096x20x12x2, .f32⟩
  | 28 => ⟨S4096x20x12x2, .i1⟩
  | 29 => ⟨S_, .f32⟩
  | 30 => ⟨S4096x20x12x2, .f32⟩
  | 31 => ⟨S4096x20x12x2, .f32⟩
  | 32 => ⟨S4096x1x8x2, .f32⟩
  | 33 => ⟨S4096x20x8x2, .f32⟩
  | 34 => ⟨S4096x20x20x2, .f32⟩
  | 35 => ⟨S4096x20x40, .f32⟩
  | 36 => ⟨S_, .f32⟩
  | 37 => ⟨S4096x20x128, .f32⟩
  | 38 => ⟨S1x128x40, .f32⟩
  | 39 => ⟨S128x40, .f32⟩
  | 40 => ⟨S4096x20x128, .f32⟩
  | 41 => ⟨S1x128, .f32⟩
  | 42 => ⟨S128, .f32⟩
  | 43 => ⟨S1x1x128, .f32⟩
  | 44 => ⟨S4096x20x128, .f32⟩
  | 45 => ⟨S4096x20x128, .f32⟩
  | 46 => ⟨S_, .i32⟩
  | 47 => ⟨S4096, .i32⟩
  | 48 => ⟨S4096, .i1⟩
  | 49 => ⟨S4096x1x1, .i1⟩
  | 50 => ⟨S4096x20x128, .i1⟩
  | 51 => ⟨S4096x20x128, .f32⟩
  | 52 => ⟨S1x128x40, .f32⟩
  | 53 => ⟨S128x40, .f32⟩
  | 54 => ⟨S4096x20x128, .f32⟩
  | 55 => ⟨S1x128, .f32⟩
  | 56 => ⟨S128, .f32⟩
  | 57 => ⟨S1x1x128, .f32⟩
  | 58 => ⟨S4096x20x128, .f32⟩
  | 59 => ⟨S4096x20x128, .f32⟩
  | 60 => ⟨S_, .i32⟩
  | 61 => ⟨S4096, .i32⟩
  | 62 => ⟨S4096, .i1⟩
  | 63 => ⟨S4096x1x1, .i1⟩
  | 64 => ⟨S4096x20x128, .i1⟩
  | 65 => ⟨S4096x20x128, .f32⟩
  | 66 => ⟨S1x128x40, .f32⟩
  | 67 => ⟨S128x40, .f32⟩
  | 68 => ⟨S4096x20x128, .f32⟩
  | 69 => ⟨S1x128, .f32⟩
  | 70 => ⟨S128, .f32⟩
  | 71 => ⟨S1x1x128, .f32⟩
  | 72 => ⟨S4096x20x128, .f32⟩
  | 73 => ⟨S4096x20x128, .f32⟩
  | 74 => ⟨S_, .i32⟩
  | 75 => ⟨S4096, .i32⟩
  | 76 => ⟨S4096, .i1⟩
  | 77 => ⟨S4096x1x1, .i1⟩
  | 78 => ⟨S4096x20x128, .i1⟩
  | 79 => ⟨S4096x20x128, .f32⟩
  | 80 => ⟨S1x128x40, .f32⟩
  | 81 => ⟨S128x40, .f32⟩
  | 82 => ⟨S4096x20x128, .f32⟩
  | 83 => ⟨S1x128, .f32⟩
  | 84 => ⟨S128, .f32⟩
  | 85 => ⟨S1x1x128, .f32⟩
  | 86 => ⟨S4096x20x128, .f32⟩
  | 87 => ⟨S4096x20x128, .f32⟩
  | 88 => ⟨S_, .i32⟩
  | 89 => ⟨S4096, .i32⟩
  | 90 => ⟨S4096, .i1⟩
  | 91 => ⟨S4096x1x1, .i1⟩
  | 92 => ⟨S4096x20x128, .i1⟩
  | 93 => ⟨S4096x20x128, .f32⟩
  | 94 => ⟨S1x128x40, .f32⟩
  | 95 => ⟨S128x40, .f32⟩
  | 96 => ⟨S4096x20x128, .f32⟩
  | 97 => ⟨S1x128, .f32⟩
  | 98 => ⟨S128, .f32⟩
  | 99 => ⟨S1x1x128, .f32⟩
  | 100 => ⟨S4096x20x128, .f32⟩
  | 101 => ⟨S4096x20x128, .f32⟩
  | 102 => ⟨S_, .i32⟩
  | 103 => ⟨S4096, .i32⟩
  | 104 => ⟨S4096, .i1⟩
  | 105 => ⟨S4096x1x1, .i1⟩
  | 106 => ⟨S4096x20x128, .i1⟩
  | 107 => ⟨S4096x20x128, .f32⟩
  | 108 => ⟨S1x128x40, .f32⟩
  | 109 => ⟨S128x40, .f32⟩
  | 110 => ⟨S4096x20x128, .f32⟩
  | 111 => ⟨S1x128, .f32⟩
  | 112 => ⟨S128, .f32⟩
  | 113 => ⟨S1x1x128, .f32⟩
  | 114 => ⟨S4096x20x128, .f32⟩
  | 115 => ⟨S4096x20x128, .f32⟩
  | 116 => ⟨S_, .i32⟩
  | 117 => ⟨S4096, .i32⟩
  | 118 => ⟨S4096, .i1⟩
  | 119 => ⟨S4096x1x1, .i1⟩
  | 120 => ⟨S4096x20x128, .i1⟩
  | 121 => ⟨S4096x20x128, .f32⟩
  | 122 => ⟨S1x128x40, .f32⟩
  | 123 => ⟨S128x40, .f32⟩
  | 124 => ⟨S4096x20x128, .f32⟩
  | 125 => ⟨S1x128, .f32⟩
  | 126 => ⟨S128, .f32⟩
  | 127 => ⟨S1x1x128, .f32⟩
  | _ => ⟨S4096x8x2, .f32⟩

abbrev hbmTy0_1 (i : Nat) : BufTy := match i % 128 with
  | 0 => ⟨S4096x20x128, .f32⟩
  | 1 => ⟨S4096x20x128, .f32⟩
  | 2 => ⟨S_, .i32⟩
  | 3 => ⟨S4096, .i32⟩
  | 4 => ⟨S4096, .i1⟩
  | 5 => ⟨S4096x1x1, .i1⟩
  | 6 => ⟨S4096x20x128, .i1⟩
  | 7 => ⟨S4096x20x128, .f32⟩
  | 8 => ⟨S1x128x40, .f32⟩
  | 9 => ⟨S128x40, .f32⟩
  | 10 => ⟨S4096x20x128, .f32⟩
  | 11 => ⟨S1x128, .f32⟩
  | 12 => ⟨S128, .f32⟩
  | 13 => ⟨S1x1x128, .f32⟩
  | 14 => ⟨S4096x20x128, .f32⟩
  | 15 => ⟨S4096x20x128, .f32⟩
  | 16 => ⟨S_, .i32⟩
  | 17 => ⟨S4096, .i32⟩
  | 18 => ⟨S4096, .i1⟩
  | 19 => ⟨S4096x1x1, .i1⟩
  | 20 => ⟨S4096x20x128, .i1⟩
  | 21 => ⟨S4096x20x128, .f32⟩
  | 22 => ⟨S4096x64x16, .f32⟩
  | 23 => ⟨S_, .f32⟩
  | 24 => ⟨S4096x64x16, .f32⟩
  | 25 => ⟨S4096x64x16, .i1⟩
  | 26 => ⟨S_, .f32⟩
  | 27 => ⟨S4096x64x16, .f32⟩
  | 28 => ⟨S4096x64x16, .f32⟩
  | 29 => ⟨S_, .f32⟩
  | 30 => ⟨S4096x64x16, .f32⟩
  | 31 => ⟨S4096x64x16, .f32⟩
  | 32 => ⟨S_, .f32⟩
  | 33 => ⟨S4096x64x16, .f32⟩
  | 34 => ⟨S4096x64x16, .f32⟩
  | 35 => ⟨S_, .f32⟩
  | 36 => ⟨S4096x64x16, .f32⟩
  | 37 => ⟨S4096x64x16, .f32⟩
  | 38 => ⟨S4096x64x16, .f32⟩
  | 39 => ⟨S_, .f32⟩
  | 40 => ⟨S4096x64x128, .f32⟩
  | 41 => ⟨S1x128x16, .f32⟩
  | 42 => ⟨S128x16, .f32⟩
  | 43 => ⟨S4096x64x128, .f32⟩
  | 44 => ⟨S1x128, .f32⟩
  | 45 => ⟨S128, .f32⟩
  | 46 => ⟨S1x1x128, .f32⟩
  | 47 => ⟨S4096x64x128, .f32⟩
  | 48 => ⟨S4096x64x128, .f32⟩
  | 49 => ⟨S_, .i32⟩
  | 50 => ⟨S4096x64, .i32⟩
  | 51 => ⟨S4096x64, .i1⟩
  | 52 => ⟨S4096x64x1, .i1⟩
  | 53 => ⟨S4096x64x128, .i1⟩
  | 54 => ⟨S4096x64x128, .f32⟩
  | 55 => ⟨S1x128x16, .f32⟩
  | 56 => ⟨S128x16, .f32⟩
  | 57 => ⟨S4096x64x128, .f32⟩
  | 58 => ⟨S1x128, .f32⟩
  | 59 => ⟨S128, .f32⟩
  | 60 => ⟨S1x1x128, .f32⟩
  | 61 => ⟨S4096x64x128, .f32⟩
  | 62 => ⟨S4096x64x128, .f32⟩
  | 63 => ⟨S_, .i32⟩
  | 64 => ⟨S4096x64, .i32⟩
  | 65 => ⟨S4096x64, .i1⟩
  | 66 => ⟨S4096x64x1, .i1⟩
  | 67 => ⟨S4096x64x128, .i1⟩
  | 68 => ⟨S4096x64x128, .f32⟩
  | 69 => ⟨S1x128x16, .f32⟩
  | 70 => ⟨S128x16, .f32⟩
  | 71 => ⟨S4096x64x128, .f32⟩
  | 72 => ⟨S1x128, .f32⟩
  | 73 => ⟨S128, .f32⟩
  | 74 => ⟨S1x1x128, .f32⟩
  | 75 => ⟨S4096x64x128, .f32⟩
  | 76 => ⟨S4096x64x128, .f32⟩
  | 77 => ⟨S_, .i32⟩
  | 78 => ⟨S4096x64, .i32⟩
  | 79 => ⟨S4096x64, .i1⟩
  | 80 => ⟨S4096x64x1, .i1⟩
  | 81 => ⟨S4096x64x128, .i1⟩
  | 82 => ⟨S4096x64x128, .f32⟩
  | 83 => ⟨S1x128x16, .f32⟩
  | 84 => ⟨S128x16, .f32⟩
  | 85 => ⟨S4096x64x128, .f32⟩
  | 86 => ⟨S1x128, .f32⟩
  | 87 => ⟨S128, .f32⟩
  | 88 => ⟨S1x1x128, .f32⟩
  | 89 => ⟨S4096x64x128, .f32⟩
  | 90 => ⟨S4096x64x128, .f32⟩
  | 91 => ⟨S_, .i32⟩
  | 92 => ⟨S4096x64, .i32⟩
  | 93 => ⟨S4096x64, .i1⟩
  | 94 => ⟨S4096x64x1, .i1⟩
  | 95 => ⟨S4096x64x128, .i1⟩
  | 96 => ⟨S4096x64x128, .f32⟩
  | 97 => ⟨S1x128x16, .f32⟩
  | 98 => ⟨S128x16, .f32⟩
  | 99 => ⟨S4096x64x128, .f32⟩
  | 100 => ⟨S1x128, .f32⟩
  | 101 => ⟨S128, .f32⟩
  | 102 => ⟨S1x1x128, .f32⟩
  | 103 => ⟨S4096x64x128, .f32⟩
  | 104 => ⟨S4096x64x128, .f32⟩
  | 105 => ⟨S_, .i32⟩
  | 106 => ⟨S4096x64, .i32⟩
  | 107 => ⟨S4096x64, .i1⟩
  | 108 => ⟨S4096x64x1, .i1⟩
  | 109 => ⟨S4096x64x128, .i1⟩
  | 110 => ⟨S4096x64x128, .f32⟩
  | 111 => ⟨S1x128x16, .f32⟩
  | 112 => ⟨S128x16, .f32⟩
  | 113 => ⟨S4096x64x128, .f32⟩
  | 114 => ⟨S1x128, .f32⟩
  | 115 => ⟨S128, .f32⟩
  | 116 => ⟨S1x1x128, .f32⟩
  | 117 => ⟨S4096x64x128, .f32⟩
  | 118 => ⟨S4096x64x128, .f32⟩
  | 119 => ⟨S_, .i32⟩
  | 120 => ⟨S4096x64, .i32⟩
  | 121 => ⟨S4096x64, .i1⟩
  | 122 => ⟨S4096x64x1, .i1⟩
  | 123 => ⟨S4096x64x128, .i1⟩
  | 124 => ⟨S4096x64x128, .f32⟩
  | 125 => ⟨S1x128x16, .f32⟩
  | 126 => ⟨S128x16, .f32⟩
  | 127 => ⟨S4096x64x128, .f32⟩
  | _ => ⟨S4096x8x2, .f32⟩

abbrev hbmTy0_2 (i : Nat) : BufTy := match i % 128 with
  | 0 => ⟨S1x128, .f32⟩
  | 1 => ⟨S128, .f32⟩
  | 2 => ⟨S1x1x128, .f32⟩
  | 3 => ⟨S4096x64x128, .f32⟩
  | 4 => ⟨S4096x64x128, .f32⟩
  | 5 => ⟨S_, .i32⟩
  | 6 => ⟨S4096x64, .i32⟩
  | 7 => ⟨S4096x64, .i1⟩
  | 8 => ⟨S4096x64x1, .i1⟩
  | 9 => ⟨S4096x64x128, .i1⟩
  | 10 => ⟨S4096x64x128, .f32⟩
  | 11 => ⟨S1x128x16, .f32⟩
  | 12 => ⟨S128x16, .f32⟩
  | 13 => ⟨S4096x64x128, .f32⟩
  | 14 => ⟨S1x128, .f32⟩
  | 15 => ⟨S128, .f32⟩
  | 16 => ⟨S1x1x128, .f32⟩
  | 17 => ⟨S4096x64x128, .f32⟩
  | 18 => ⟨S4096x64x128, .f32⟩
  | 19 => ⟨S_, .i32⟩
  | 20 => ⟨S4096x64, .i32⟩
  | 21 => ⟨S4096x64, .i1⟩
  | 22 => ⟨S4096x64x1, .i1⟩
  | 23 => ⟨S4096x64x128, .i1⟩
  | 24 => ⟨S4096x64x128, .f32⟩
  | 25 => ⟨S1x128x16, .f32⟩
  | 26 => ⟨S128x16, .f32⟩
  | 27 => ⟨S4096x64x128, .f32⟩
  | 28 => ⟨S1x128, .f32⟩
  | 29 => ⟨S128, .f32⟩
  | 30 => ⟨S1x1x128, .f32⟩
  | 31 => ⟨S4096x64x128, .f32⟩
  | 32 => ⟨S4096x64x128, .f32⟩
  | 33 => ⟨S_, .i32⟩
  | 34 => ⟨S4096x64, .i32⟩
  | 35 => ⟨S4096x64, .i1⟩
  | 36 => ⟨S4096x64x1, .i1⟩
  | 37 => ⟨S4096x64x128, .i1⟩
  | 38 => ⟨S4096x64x128, .f32⟩
  | _ => ⟨S4096x8x2, .f32⟩

abbrev hbmTy (i : Nat) : BufTy := match i / 128 with
  | 0 => hbmTy0_0 i
  | 1 => hbmTy0_1 i
  | 2 => hbmTy0_2 i
  | _ => ⟨S4096x8x2, .f32⟩

abbrev bufTy : (tb : Table) → Fin (tcTables nBuf tb) → BufTy
  | .hbm, ⟨i, _⟩ => hbmTy i
  | _, _ => ⟨S4096x8x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_c : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_call1_v0 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_c_0 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_call2_v0 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_c_1 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call3_v0 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_c_2 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_call4_v0 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_3 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_call5_v0 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_c_4 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_call6_v0 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_5 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call7_v0 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_c_6 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_call8_v0 : Ref sig .tc := ⟨.hbm, 148, rfl⟩
abbrev main_v101 : Ref sig .tc := ⟨.hbm, 149, rfl⟩
abbrev main_v102 : Ref sig .tc := ⟨.hbm, 150, rfl⟩
abbrev main_cst_7 : Ref sig .tc := ⟨.hbm, 151, rfl⟩
abbrev main_v103 : Ref sig .tc := ⟨.hbm, 152, rfl⟩
abbrev main_v104 : Ref sig .tc := ⟨.hbm, 153, rfl⟩
abbrev main_cst_8 : Ref sig .tc := ⟨.hbm, 154, rfl⟩
abbrev main_v105 : Ref sig .tc := ⟨.hbm, 155, rfl⟩
abbrev main_v106 : Ref sig .tc := ⟨.hbm, 156, rfl⟩
abbrev main_cst_9 : Ref sig .tc := ⟨.hbm, 157, rfl⟩
abbrev main_v107 : Ref sig .tc := ⟨.hbm, 158, rfl⟩
abbrev main_v108 : Ref sig .tc := ⟨.hbm, 159, rfl⟩
abbrev main_cst_10 : Ref sig .tc := ⟨.hbm, 160, rfl⟩
abbrev main_v109 : Ref sig .tc := ⟨.hbm, 161, rfl⟩
abbrev main_v110 : Ref sig .tc := ⟨.hbm, 162, rfl⟩
abbrev main_cst_11 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_cst_12 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_c_13 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_call10_v0 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_c_14 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_call11_v0 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_c_15 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_call12_v0 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_c_16 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_call13_v0 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_c_17 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_call14_v0 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_18 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_call15_v0 : Ref sig .tc := ⟨.hbm, 251, rfl⟩
abbrev main_v186 : Ref sig .tc := ⟨.hbm, 252, rfl⟩
abbrev main_v187 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_c_19 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_call16_v0 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_c_20 : Ref sig .tc := ⟨.hbm, 275, rfl⟩
abbrev main_v207 : Ref sig .tc := ⟨.hbm, 276, rfl⟩
abbrev main_v208 : Ref sig .tc := ⟨.hbm, 277, rfl⟩
abbrev main_v209 : Ref sig .tc := ⟨.hbm, 278, rfl⟩
abbrev main_call17_v0 : Ref sig .tc := ⟨.hbm, 279, rfl⟩
abbrev main_v210 : Ref sig .tc := ⟨.hbm, 280, rfl⟩
abbrev main_v211 : Ref sig .tc := ⟨.hbm, 281, rfl⟩
abbrev main_v212 : Ref sig .tc := ⟨.hbm, 282, rfl⟩
abbrev main_v213 : Ref sig .tc := ⟨.hbm, 283, rfl⟩
abbrev main_v214 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_v218 : Ref sig .tc := ⟨.hbm, 288, rfl⟩
abbrev main_c_21 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_call18_v0 : Ref sig .tc := ⟨.hbm, 293, rfl⟩
abbrev main_v222 : Ref sig .tc := ⟨.hbm, 294, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  h_S_ : 0 < S_.numel
  bcast_S4096_S4096x20x12x2_0 : S4096.BroadcastsInDim S4096x20x12x2 (![0] : Fin 1 → Fin S4096x20x12x2.rank)
  bcast_S_S4096x20x12x2 : S_.BroadcastsInDim S4096x20x12x2 (![] : Fin 0 → Fin S4096x20x12x2.rank)
  bcast_S4096x8x2_S4096x1x8x2_0_2_3 : S4096x8x2.BroadcastsInDim S4096x1x8x2 (![0, 2, 3] : Fin 3 → Fin S4096x1x8x2.rank)
  bcast_S4096x1x8x2_S4096x20x8x2_0_1_2_3 : S4096x1x8x2.BroadcastsInDim S4096x20x8x2 (![0, 1, 2, 3] : Fin 4 → Fin S4096x20x8x2.rank)
  concatenates_S4096x20x8x2_S4096x20x12x2_S4096x20x20x2_d2 : Shape.Concatenates [S4096x20x8x2, S4096x20x12x2] S4096x20x20x2 2
  shapeCasts_S4096x20x20x2_S4096x20x40 : S4096x20x20x2.ShapeCasts S4096x20x40
  bcast_S_S4096x20x128 : S_.BroadcastsInDim S4096x20x128 (![] : Fin 0 → Fin S4096x20x128.rank)
  slices_S8x128x40_S1x128x40_0_0_0 : S8x128x40.Slices ![0, 0, 0] S1x128x40
  shapeCasts_S1x128x40_S128x40 : S1x128x40.ShapeCasts S128x40
  slices_S8x128_S1x128_0_0 : S8x128.Slices ![0, 0] S1x128
  shapeCasts_S1x128_S128 : S1x128.ShapeCasts S128
  bcast_S128_S1x1x128_2 : S128.BroadcastsInDim S1x1x128 (![2] : Fin 1 → Fin S1x1x128.rank)
  bcast_S1x1x128_S4096x20x128_0_1_2 : S1x1x128.BroadcastsInDim S4096x20x128 (![0, 1, 2] : Fin 3 → Fin S4096x20x128.rank)
  bcast_S4096_S4096x1x1_0 : S4096.BroadcastsInDim S4096x1x1 (![0] : Fin 1 → Fin S4096x1x1.rank)
  bcast_S4096x1x1_S4096x20x128_0_1_2 : S4096x1x1.BroadcastsInDim S4096x20x128 (![0, 1, 2] : Fin 3 → Fin S4096x20x128.rank)
  slices_S8x128x40_S1x128x40_1_0_0 : S8x128x40.Slices ![1, 0, 0] S1x128x40
  slices_S8x128_S1x128_1_0 : S8x128.Slices ![1, 0] S1x128
  slices_S8x128x40_S1x128x40_2_0_0 : S8x128x40.Slices ![2, 0, 0] S1x128x40
  slices_S8x128_S1x128_2_0 : S8x128.Slices ![2, 0] S1x128
  slices_S8x128x40_S1x128x40_3_0_0 : S8x128x40.Slices ![3, 0, 0] S1x128x40
  slices_S8x128_S1x128_3_0 : S8x128.Slices ![3, 0] S1x128
  slices_S8x128x40_S1x128x40_4_0_0 : S8x128x40.Slices ![4, 0, 0] S1x128x40
  slices_S8x128_S1x128_4_0 : S8x128.Slices ![4, 0] S1x128
  slices_S8x128x40_S1x128x40_5_0_0 : S8x128x40.Slices ![5, 0, 0] S1x128x40
  slices_S8x128_S1x128_5_0 : S8x128.Slices ![5, 0] S1x128
  slices_S8x128x40_S1x128x40_6_0_0 : S8x128x40.Slices ![6, 0, 0] S1x128x40
  slices_S8x128_S1x128_6_0 : S8x128.Slices ![6, 0] S1x128
  slices_S8x128x40_S1x128x40_7_0_0 : S8x128x40.Slices ![7, 0, 0] S1x128x40
  slices_S8x128_S1x128_7_0 : S8x128.Slices ![7, 0] S1x128
  shapeCasts_S4096x64x8x2_S4096x64x16 : S4096x64x8x2.ShapeCasts S4096x64x16
  bcast_S_S4096x64x16 : S_.BroadcastsInDim S4096x64x16 (![] : Fin 0 → Fin S4096x64x16.rank)
  bcast_S_S4096x64x128 : S_.BroadcastsInDim S4096x64x128 (![] : Fin 0 → Fin S4096x64x128.rank)
  slices_S9x128x16_S1x128x16_0_0_0 : S9x128x16.Slices ![0, 0, 0] S1x128x16
  shapeCasts_S1x128x16_S128x16 : S1x128x16.ShapeCasts S128x16
  slices_S9x128_S1x128_0_0 : S9x128.Slices ![0, 0] S1x128
  bcast_S1x1x128_S4096x64x128_0_1_2 : S1x1x128.BroadcastsInDim S4096x64x128 (![0, 1, 2] : Fin 3 → Fin S4096x64x128.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x128_0_1_2 : S4096x64x1.BroadcastsInDim S4096x64x128 (![0, 1, 2] : Fin 3 → Fin S4096x64x128.rank)
  slices_S9x128x16_S1x128x16_1_0_0 : S9x128x16.Slices ![1, 0, 0] S1x128x16
  slices_S9x128_S1x128_1_0 : S9x128.Slices ![1, 0] S1x128
  slices_S9x128x16_S1x128x16_2_0_0 : S9x128x16.Slices ![2, 0, 0] S1x128x16
  slices_S9x128_S1x128_2_0 : S9x128.Slices ![2, 0] S1x128
  slices_S9x128x16_S1x128x16_3_0_0 : S9x128x16.Slices ![3, 0, 0] S1x128x16
  slices_S9x128_S1x128_3_0 : S9x128.Slices ![3, 0] S1x128
  slices_S9x128x16_S1x128x16_4_0_0 : S9x128x16.Slices ![4, 0, 0] S1x128x16
  slices_S9x128_S1x128_4_0 : S9x128.Slices ![4, 0] S1x128
  slices_S9x128x16_S1x128x16_5_0_0 : S9x128x16.Slices ![5, 0, 0] S1x128x16
  slices_S9x128_S1x128_5_0 : S9x128.Slices ![5, 0] S1x128
  slices_S9x128x16_S1x128x16_6_0_0 : S9x128x16.Slices ![6, 0, 0] S1x128x16
  slices_S9x128_S1x128_6_0 : S9x128.Slices ![6, 0] S1x128
  slices_S9x128x16_S1x128x16_7_0_0 : S9x128x16.Slices ![7, 0, 0] S1x128x16
  slices_S9x128_S1x128_7_0 : S9x128.Slices ![7, 0] S1x128
  slices_S9x128x16_S1x128x16_8_0_0 : S9x128x16.Slices ![8, 0, 0] S1x128x16
  slices_S9x128_S1x128_8_0 : S9x128.Slices ![8, 0] S1x128
  gather_S8x20x12x2_S4096x1_S4096x20x12x2_123_0_n_n_0_1_120122_wf : GatherDims.WF S8x20x12x2 S4096x1 S4096x20x12x2 [1, 2, 3] [0] [] [0] [] 1 ![1, 20, 12, 2]
  dot_S4096x20x40_S128x40_S4096x20x128_2_1_01_0_n_n_wf : DotDims.WF S4096x20x40 S128x40 S4096x20x128 [2] [1] [0, 1] [0] [] []
  dot_S4096x64x16_S128x16_S4096x64x128_2_1_01_0_n_n_wf : DotDims.WF S4096x64x16 S128x16 S4096x64x128 [2] [1] [0, 1] [0] [] []

variable [Facts₀]

def gather_S8x20x12x2_S4096x1_S4096x20x12x2_123_0_n_n_0_1_120122 : GatherDims S8x20x12x2 S4096x1 S4096x20x12x2 where
  offsetDims := [1, 2, 3]
  collapsedSliceDims := [0]
  operandBatchingDims := []
  startIndicesBatchingDims := []
  startIndexMap := [0]
  indexVectorDim := 1
  sliceSizes := ![1, 20, 12, 2]
  wf := gather_S8x20x12x2_S4096x1_S4096x20x12x2_123_0_n_n_0_1_120122_wf
def dot_S4096x20x40_S128x40_S4096x20x128_2_1_01_0_n_n : DotDims S4096x20x40 S128x40 S4096x20x128 where
  lhsContracting := [2]
  rhsContracting := [1]
  lhsNonContracting := [0, 1]
  rhsNonContracting := [0]
  lhsBatch := []
  rhsBatch := []
  wf := dot_S4096x20x40_S128x40_S4096x20x128_2_1_01_0_n_n_wf
def dot_S4096x64x16_S128x16_S4096x64x128_2_1_01_0_n_n : DotDims S4096x64x16 S128x16 S4096x64x128 where
  lhsContracting := [2]
  rhsContracting := [1]
  lhsNonContracting := [0, 1]
  rhsNonContracting := [0]
  lhsBatch := []
  rhsBatch := []
  wf := dot_S4096x64x16_S128x16_S4096x64x128_2_1_01_0_n_n_wf

class Facts : Prop extends Facts₀ where

variable [Facts]
-- ==== Proof.KernelRun.lean ====
/-
  The idealized kernel program's run with its two results NAMED.  @main is five segments: the host line that
  lays the operands out, the self-stage region, one host reshape, the neighbour-stage region, and the two final
  reshapes.  The generated frame folds the buffers' contents through those segments (`Gen.W0` … `Gen.W5`) and
  keeps, of the last contents, only the arguments.  Here the same launch over the same segments is read at the
  two result buffers as well: every weakly fair execution terminates, nothing faults, and each result buffer holds
  what the fold `Gen.W5` holds there; the arguments end as launched.
-/
import proofs.«108484_g15788299780126_cont_week2b_740_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; each result buffer ends at the last
    boundary's contents there, each argument as launched. -/
theorem run_named : θ_run defs (onTc (τ := τ) (main (F := F))) ⟨m, fun _ => 0, ρ⟩ (fun r => ∀ c : Dev nD,
      r.2.mem ((c.tc : Thread nD τ).loc main_v0_0) = W5 m ρ c (Proc.devRef .tc main_v0_0)
      ∧ r.2.mem ((c.tc : Thread nD τ).loc main_v0_1) = W5 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c)⟩)

end Cert.KernelIdeal.Run

end
-- ==== Proof.KernelLayout.lean ====
/-
  The kernel program's host-side re-layouts read at coordinates.  All reshapes are row-major: an index keeps its
  position in the flattened array.  `[4096,8,2] → [4096,16]` sends column `d` to point `d / 2`, coordinate `d % 2`;
  `[8,20,12,2] → [8,480]` sends column `j` to trajectory `j / 24`, point `(j % 24) / 2`, coordinate `j % 2`;
  the weights `[C,128,D]` transposed to `[C,D,128]` and flattened to `[C·D,128]` hold at row `j` the class `j / D`,
  input `j % D`, and the bias rows follow below them; a label vector cut into blocks of `R` holds at `(t,0,r)` label
  `t·R + r`; and the result `[B·K,128] → [B,K,128]` holds at `(b,k,e)` row `b·K + k`.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

variable {α : Type}

/-- `[4096,8,2] → [4096,16]`. -/
theorem obs2_apply (x : (⟨3, ![4096, 8, 2]⟩ : Shape).Idx → α)
    (h : (⟨3, ![4096, 8, 2]⟩ : Shape).ShapeCasts ⟨2, ![4096, 16]⟩) (b : Fin 4096) (d : Fin 16) :
    shapeCast ⟨2, ![4096, 16]⟩ x h (ix2 b d)
      = x (ix3 b (⟨d.val / 2, by omega⟩ : Fin 8) (⟨d.val % 2, by omega⟩ : Fin 2)) := by
  refine shapeCast_apply x h _ _ ?_
  rw [Shape.rowMajor_val_three, Shape.rowMajor_val_two]
  show (b.val * 8 + d.val / 2) * 2 + d.val % 2 = b.val * 16 + d.val
  omega

/-- `[8,20,12,2] → [8,480]`. -/
theorem init2_apply (x : (⟨4, ![8, 20, 12, 2]⟩ : Shape).Idx → α)
    (h : (⟨4, ![8, 20, 12, 2]⟩ : Shape).ShapeCasts ⟨2, ![8, 480]⟩) (c : Fin 8) (j : Fin 480) :
    shapeCast ⟨2, ![8, 480]⟩ x h (ix2 c j)
      = x (ix4 c (⟨j.val / 24, by omega⟩ : Fin 20) (⟨j.val % 24 / 2, by omega⟩ : Fin 12) (⟨j.val % 2, by omega⟩ : Fin 2)) := by
  refine shapeCast_apply x h _ _ ?_
  rw [Shape.rowMajor_val_four, Shape.rowMajor_val_two]
  show ((c.val * 20 + j.val / 24) * 12 + j.val % 24 / 2) * 2 + j.val % 2 = c.val * 480 + j.val
  omega

/-- `[4096,64,8,2] → [262144,16]`. -/
theorem neis2_apply (x : (⟨4, ![4096, 64, 8, 2]⟩ : Shape).Idx → α)
    (h : (⟨4, ![4096, 64, 8, 2]⟩ : Shape).ShapeCasts ⟨2, ![262144, 16]⟩) (q : Fin 262144) (d : Fin 16) :
    shapeCast ⟨2, ![262144, 16]⟩ x h (ix2 q d)
      = x (ix4 (⟨q.val / 64, by omega⟩ : Fin 4096) (⟨q.val % 64, by omega⟩ : Fin 64) (⟨d.val / 2, by omega⟩ : Fin 8) (⟨d.val % 2, by omega⟩ : Fin 2)) := by
  refine shapeCast_apply x h _ _ ?_
  rw [Shape.rowMajor_val_four, Shape.rowMajor_val_two]
  show ((q.val / 64 * 64 + q.val % 64) * 8 + d.val / 2) * 2 + d.val % 2 = q.val * 16 + d.val
  omega

/-- A stack `[C,128,D]` of weight matrices, each transposed, flattened to `[C·D,128]`: row `j` is class `j / D`,
    input `j % D`. -/
theorem wflat_apply {C D : Nat} (hD : 0 < D) (x : (⟨3, ![C, 128, D]⟩ : Shape).Idx → α)
    (ht : (⟨3, ![C, 128, D]⟩ : Shape).Transposes [0, 2, 1] ⟨3, ![C, D, 128]⟩)
    (h : (⟨3, ![C, D, 128]⟩ : Shape).ShapeCasts ⟨2, ![C * D, 128]⟩) (j : Fin (C * D)) (e : Fin 128) :
    shapeCast ⟨2, ![C * D, 128]⟩ (transpose ⟨3, ![C, D, 128]⟩ [0, 2, 1] x ht) h (ix2 j e)
      = x (ix3 (⟨j.val / D, (Nat.div_lt_iff_lt_mul hD).2 j.isLt⟩ : Fin C) e (⟨j.val % D, Nat.mod_lt _ hD⟩ : Fin D)) := by
  rw [← transpose_ix3_021_apply x ht (⟨j.val / D, (Nat.div_lt_iff_lt_mul hD).2 j.isLt⟩ : Fin C) (⟨j.val % D, Nat.mod_lt _ hD⟩ : Fin D) e]
  refine shapeCast_apply _ h _ _ ?_
  rw [Shape.rowMajor_val_three, Shape.rowMajor_val_two]
  show (j.val / D * D + j.val % D) * 128 + e.val = j.val * 128 + e.val
  rw [Nat.div_add_mod']

/-- Two matrices stacked along axis 0, read in the upper one. -/
theorem stack_upper {A B N : Nat} (x : (⟨2, ![A, 128]⟩ : Shape).Idx → α) (y : (⟨2, ![B, 128]⟩ : Shape).Idx → α)
    (h : Shape.Concatenates [(⟨2, ![A, 128]⟩ : Shape), ⟨2, ![B, 128]⟩] ⟨2, ![N, 128]⟩ (0 : Fin 2))
    (j : Fin N) (e : Fin 128) (hj : j.val < A) :
    concatenate ⟨2, ![N, 128]⟩ (0 : Fin 2) [⟨⟨2, ![A, 128]⟩, x⟩, ⟨⟨2, ![B, 128]⟩, y⟩] h (ix2 j e) = x (ix2 (⟨j.val, hj⟩ : Fin A) e) :=
  concatenate_pair_apply_left (0 : Fin 2) x y h (ix2 j e) rfl (ix2 (⟨j.val, hj⟩ : Fin A) e)
    fun b => match b with | ⟨0, _⟩ => rfl | ⟨1, _⟩ => rfl

/-- Two matrices stacked along axis 0, read in the lower one. -/
theorem stack_lower {A B N : Nat} (x : (⟨2, ![A, 128]⟩ : Shape).Idx → α) (y : (⟨2, ![B, 128]⟩ : Shape).Idx → α)
    (h : Shape.Concatenates [(⟨2, ![A, 128]⟩ : Shape), ⟨2, ![B, 128]⟩] ⟨2, ![N, 128]⟩ (0 : Fin 2))
    (j : Fin N) (e : Fin 128) (i : Fin B) (hj : i.val + A = j.val) :
    concatenate ⟨2, ![N, 128]⟩ (0 : Fin 2) [⟨⟨2, ![A, 128]⟩, x⟩, ⟨⟨2, ![B, 128]⟩, y⟩] h (ix2 j e) = y (ix2 i e) :=
  concatenate_pair_apply_right (0 : Fin 2) x y h (ix2 j e) rfl rfl (ix2 i e)
    (fun b hb => match b, hb with | ⟨0, _⟩, hb => absurd rfl hb | ⟨1, _⟩, _ => rfl) hj

/-- `[4096] → [32,1,128]`: entry `(t,0,r)` is label `t·128 + r`. -/
theorem lab1_apply (x : (⟨1, ![4096]⟩ : Shape).Idx → α)
    (h : (⟨1, ![4096]⟩ : Shape).ShapeCasts ⟨3, ![32, 1, 128]⟩) (t : Fin 32) (r : Fin 128) :
    shapeCast ⟨3, ![32, 1, 128]⟩ x h (ix3 t (0 : Fin 1) r) = x (ix1 (⟨t.val * 128 + r.val, by omega⟩ : Fin 4096)) := by
  refine shapeCast_apply x h _ _ ?_
  rw [Shape.rowMajor_val_three, Shape.rowMajor_val_one]
  show t.val * 128 + r.val = (t.val * 1 + 0) * 128 + r.val
  omega

/-- `[4096,64] → [128,1,2048]`: entry `(t,0,r)` is the label of flat position `q = t·2048 + r`, agent `q / 64`,
    neighbour `q % 64`. -/
theorem lab2_apply (x : (⟨2, ![4096, 64]⟩ : Shape).Idx → α)
    (h : (⟨2, ![4096, 64]⟩ : Shape).ShapeCasts ⟨3, ![128, 1, 2048]⟩) (t : Fin 128) (r : Fin 2048) :
    shapeCast ⟨3, ![128, 1, 2048]⟩ x h (ix3 t (0 : Fin 1) r)
      = x (ix2 (⟨(t.val * 2048 + r.val) / 64, by omega⟩ : Fin 4096) (⟨(t.val * 2048 + r.val) % 64, by omega⟩ : Fin 64)) := by
  refine shapeCast_apply x h _ _ ?_
  rw [Shape.rowMajor_val_three, Shape.rowMajor_val_two]
  show (t.val * 2048 + r.val) / 64 * 64 + (t.val * 2048 + r.val) % 64 = (t.val * 1 + 0) * 2048 + r.val
  omega

/-- `[B·K,128] → [B,K,128]`: entry `(b,k,e)` is row `b·K + k`. -/
theorem rows3_apply {B K : Nat} (x : (⟨2, ![B * K, 128]⟩ : Shape).Idx → α)
    (h : (⟨2, ![B * K, 128]⟩ : Shape).ShapeCasts ⟨3, ![B, K, 128]⟩) (b : Fin B) (k : Fin K) (e : Fin 128) :
    shapeCast ⟨3, ![B, K, 128]⟩ x h (ix3 b k e)
      = x (ix2 (⟨b.val * K + k.val, by
          have hb := b.isLt; have hk := k.isLt
          calc b.val * K + k.val < b.val * K + K := by omega
            _ = (b.val + 1) * K := by ring
            _ ≤ B * K := Nat.mul_le_mul_right K hb⟩ : Fin (B * K)) e) := by
  refine shapeCast_apply x h _ _ ?_
  rw [Shape.rowMajor_val_three, Shape.rowMajor_val_two]
  rfl

end Cert.Layout

end
-- ==== Proof.KernelEntry.lean ====
/-
  What each region of the kernel program finds in the arrays its windows stage, entry by entry, in terms of the
  argument arrays as launched.  The self-stage region is entered after the host line that lays the operands out;
  the neighbour-stage region after the self-stage region (which writes none of the neighbour stage's operands)
  and one more reshape.  Each array is a reshape, or a stack of a transposed-and-flattened weight array over a
  bias array, of an argument: read at coordinates by the row-major rules.
-/
import proofs.«108484_g15788299780126_cont_week2b_740_2_alg».proof.Proof.Gen.KernelIdeal.Frame
import proofs.«108484_g15788299780126_cont_week2b_740_2_alg».proof.Proof.KernelLayout
import Idealize.ShloMosaic.Lib.StableHlo.Run

set_option maxRecDepth 16384

noncomputable section

namespace Cert.KernelIdeal.Entry

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-! ## The self-stage region's operands -/

/-- Its label block `t`, row `r`, is label `t·128 + r`. -/
theorem self_lab (c : Dev nD) (t : Fin 32) (r : Fin 128) :
    V1 m ρ c main_call0_v9 (ix3 t (0 : Fin 1) r)
      = m ((c.tc : Thread nD τ).loc main_arg2) (ix1 (⟨t.val * 128 + r.val, by omega⟩ : Fin 4096)) := by
  show StableHlo.after hostOps0 (W0 m ρ c) (Proc.devRef .tc main_call0_v9) (ix3 t (0 : Fin 1) r) = _
  after_results
  exact Cert.Layout.lab1_apply _ _ t r

/-- Its observations: 16 numbers per agent. -/
theorem self_obs (c : Dev nD) (b : Fin 4096) (d : Fin 16) :
    V1 m ρ c main_call0_v0 (ix2 b d)
      = m ((c.tc : Thread nD τ).loc main_arg0) (ix3 b (⟨d.val / 2, by omega⟩ : Fin 8) (⟨d.val % 2, by omega⟩ : Fin 2)) := by
  show StableHlo.after hostOps0 (W0 m ρ c) (Proc.devRef .tc main_call0_v0) (ix2 b d) = _
  after_results
  exact Cert.Layout.obs2_apply _ _ b d

/-- Its table of initial trajectories: 480 numbers per class. -/
theorem self_init (c : Dev nD) (cl : Fin 8) (j : Fin 480) :
    V1 m ρ c main_call0_v1 (ix2 cl j)
      = m ((c.tc : Thread nD τ).loc main_arg4)
          (ix4 cl (⟨j.val / 24, by omega⟩ : Fin 20) (⟨j.val % 24 / 2, by omega⟩ : Fin 12) (⟨j.val % 2, by omega⟩ : Fin 2)) := by
  show StableHlo.after hostOps0 (W0 m ρ c) (Proc.devRef .tc main_call0_v1) (ix2 cl j) = _
  after_results
  exact Cert.Layout.init2_apply _ _ cl j

/-- Its stacked weights, a weight row: row `j < 320` is class `j / 40`, input `j % 40`. -/
theorem self_w (c : Dev nD) (j : Fin 328) (e : Fin 128) (hj : j.val < 320) :
    V1 m ρ c main_call0_v4 (ix2 j e)
      = m ((c.tc : Thread nD τ).loc main_arg5) (ix3 (⟨j.val / 40, by omega⟩ : Fin 8) e (⟨j.val % 40, by omega⟩ : Fin 40)) := by
  show StableHlo.after hostOps0 (W0 m ρ c) (Proc.devRef .tc main_call0_v4) (ix2 j e) = _
  after_results
  refine (Cert.Layout.stack_upper (A := 320) (B := 8) (N := 328) _ _ Facts₀.concatenates_S320x128_S8x128_S328x128_d0 j e hj).trans ?_
  exact Cert.Layout.wflat_apply (C := 8) (D := 40) (by decide) _ Facts₀.transposes_S8x128x40_S8x40x128_0_2_1
    Facts₀.shapeCasts_S8x40x128_S320x128 (⟨j.val, hj⟩ : Fin (8 * 40)) e

/-- Its stacked weights, a bias row: row `320 + cl` is class `cl`'s bias. -/
theorem self_b (c : Dev nD) (cl : Fin 8) (e : Fin 128) :
    V1 m ρ c main_call0_v4 (ix2 (⟨320 + cl.val, by omega⟩ : Fin 328) e)
      = m ((c.tc : Thread nD τ).loc main_arg6) (ix2 cl e) := by
  show StableHlo.after hostOps0 (W0 m ρ c) (Proc.devRef .tc main_call0_v4) (ix2 (⟨320 + cl.val, by omega⟩ : Fin 328) e) = _
  after_results
  exact Cert.Layout.stack_lower (A := 320) (B := 8) (N := 328) _ _ Facts₀.concatenates_S320x128_S8x128_S328x128_d0
    (⟨320 + cl.val, by omega⟩ : Fin 328) e cl (by show cl.val + 320 = 320 + cl.val; omega)

/-! ## The neighbour-stage region's operands -/

/-- Its label block `t`, row `r`, is the label at flat position `t·2048 + r`. -/
theorem nei_lab (c : Dev nD) (t : Fin 128) (r : Fin 2048) :
    V3 m ρ c main_call0_v11 (ix3 t (0 : Fin 1) r)
      = m ((c.tc : Thread nD τ).loc main_arg3)
          (ix2 (⟨(t.val * 2048 + r.val) / 64, by omega⟩ : Fin 4096) (⟨(t.val * 2048 + r.val) % 64, by omega⟩ : Fin 64)) := by
  show StableHlo.after hostOps1 (W2 m ρ c) (Proc.devRef .tc main_call0_v11) (ix3 t (0 : Fin 1) r) = _
  after_results
  have e : W2 m ρ c (Proc.devRef .tc main_arg3) = m ((c.tc : Thread nD τ).loc main_arg3) := by
    rw [W2_of_ne m ρ c main_arg3 (by decide)]
    show StableHlo.after hostOps0 (W0 m ρ c) (Proc.devRef .tc main_arg3) = _
    after_results
  exact (Cert.Layout.lab2_apply _ _ t r).trans (congrFun e _)

/-- Its neighbour coordinates: 16 numbers per (agent, neighbour). -/
theorem nei_x (c : Dev nD) (q : Fin 262144) (d : Fin 16) :
    V3 m ρ c main_call0_v5 (ix2 q d)
      = m ((c.tc : Thread nD τ).loc main_arg1)
          (ix4 (⟨q.val / 64, by omega⟩ : Fin 4096) (⟨q.val % 64, by omega⟩ : Fin 64) (⟨d.val / 2, by omega⟩ : Fin 8) (⟨d.val % 2, by omega⟩ : Fin 2)) := by
  show StableHlo.after hostOps1 (W2 m ρ c) (Proc.devRef .tc main_call0_v5) (ix2 q d) = _
  after_results
  rw [W2_of_ne m ρ c main_call0_v5 (by decide)]
  show StableHlo.after hostOps0 (W0 m ρ c) (Proc.devRef .tc main_call0_v5) (ix2 q d) = _
  after_results
  exact Cert.Layout.neis2_apply _ _ q d

/-- Its stacked weights, a weight row: row `j < 144` is class `j / 16`, input `j % 16`. -/
theorem nei_w (c : Dev nD) (j : Fin 153) (e : Fin 128) (hj : j.val < 144) :
    V3 m ρ c main_call0_v8 (ix2 j e)
      = m ((c.tc : Thread nD τ).loc main_arg7) (ix3 (⟨j.val / 16, by omega⟩ : Fin 9) e (⟨j.val % 16, by omega⟩ : Fin 16)) := by
  show StableHlo.after hostOps1 (W2 m ρ c) (Proc.devRef .tc main_call0_v8) (ix2 j e) = _
  after_results
  rw [W2_of_ne m ρ c main_call0_v8 (by decide)]
  show StableHlo.after hostOps0 (W0 m ρ c) (Proc.devRef .tc main_call0_v8) (ix2 j e) = _
  after_results
  refine (Cert.Layout.stack_upper (A := 144) (B := 9) (N := 153) _ _ Facts₀.concatenates_S144x128_S9x128_S153x128_d0 j e hj).trans ?_
  exact Cert.Layout.wflat_apply (C := 9) (D := 16) (by decide) _ Facts₀.transposes_S9x128x16_S9x16x128_0_2_1
    Facts₀.shapeCasts_S9x16x128_S144x128 (⟨j.val, hj⟩ : Fin (9 * 16)) e

/-- Its stacked weights, a bias row: row `144 + cl` is class `cl`'s bias. -/
theorem nei_b (c : Dev nD) (cl : Fin 9) (e : Fin 128) :
    V3 m ρ c main_call0_v8 (ix2 (⟨144 + cl.val, by omega⟩ : Fin 153) e)
      = m ((c.tc : Thread nD τ).loc main_arg8) (ix2 cl e) := by
  show StableHlo.after hostOps1 (W2 m ρ c) (Proc.devRef .tc main_call0_v8) (ix2 (⟨144 + cl.val, by omega⟩ : Fin 153) e) = _
  after_results
  rw [W2_of_ne m ρ c main_call0_v8 (by decide)]
  show StableHlo.after hostOps0 (W0 m ρ c) (Proc.devRef .tc main_call0_v8) (ix2 (⟨144 + cl.val, by omega⟩ : Fin 153) e) = _
  after_results
  exact Cert.Layout.stack_lower (A := 144) (B := 9) (N := 153) _ _ Facts₀.concatenates_S144x128_S9x128_S153x128_d0
    (⟨144 + cl.val, by omega⟩ : Fin 153) e cl (by show cl.val + 144 = 144 + cl.val; omega)

/-! ## The results, back through the last host line -/

/-- The first result is the self-stage region's output array, its 81920 rows regrouped by agent. -/
theorem res_self (c : Dev nD) (b : Fin 4096) (k : Fin 20) (e : Fin 128) :
    W5 m ρ c (Proc.devRef .tc main_v0_0) (ix3 b k e)
      = (dat0 (V1 m ρ) c).arrAt 4 cfg0.N (ix2 (⟨b.val * 20 + k.val, by omega⟩ : Fin 81920) e) := by
  have e4 : W4 m ρ c (Proc.devRef .tc main_call0_v10) = (dat0 (V1 m ρ) c).arrAt 4 cfg0.N := by
    rw [W4_of_ne m ρ c main_call0_v10 (by decide)]
    show StableHlo.after hostOps1 (W2 m ρ c) (Proc.devRef .tc main_call0_v10) = _
    after_results
    exact W2_arr m ρ c 4
  show StableHlo.after hostOps2 (W4 m ρ c) (Proc.devRef .tc main_v0_0) (ix3 b k e) = _
  after_results
  exact (Cert.Layout.rows3_apply (B := 4096) (K := 20) _ _ b k e).trans (congrFun e4 _)

/-- The second result is the neighbour-stage region's output array, its 262144 rows regrouped by agent. -/
theorem res_nei (c : Dev nD) (b : Fin 4096) (n : Fin 64) (e : Fin 128) :
    W5 m ρ c (Proc.devRef .tc main_v0_1) (ix3 b n e)
      = (dat1 (V3 m ρ) c).arrAt 3 cfg1.N (ix2 (⟨b.val * 64 + n.val, by omega⟩ : Fin 262144) e) := by
  show StableHlo.after hostOps2 (W4 m ρ c) (Proc.devRef .tc main_v0_1) (ix3 b n e) = _
  after_results
  exact (Cert.Layout.rows3_apply (B := 4096) (K := 64) _ _ b n e).trans (congrFun (W4_arr m ρ c 3) _)

end Cert.KernelIdeal.Entry

end
-- ==== Proof.Spec.lean ====
/-
  What both programs compute, as two functions of the argument arrays on the extended reals.

  Self stage.  Agent `b` has a class label `sl b`.  For a class `c` its `k`-th trajectory is the 16 observed
  numbers of `b` followed by the 24 numbers of class `c`'s `k`-th initial trajectory (`traj`), and the class's
  expert maps it to `W_self[c] · traj + b_self[c]` (`selfExpert`).  The result at `(b, k, e)` is the expert of the
  class whose number the label is, and `0` when the label is no class number: written as the sum over the eight
  classes of "the expert's value if the label is this class, else 0" (`selfAt`), a sum with at most one non-zero term.

  Neighbour stage.  Every coordinate `f` of a neighbour is first sent to `1 / (f + ε)` for `f ≥ 0` and to
  `1 / (f - ε)` otherwise (`tnei`, `ε` the single-precision number nearest `1e-4`), then the same routing over nine
  classes with `W_nei`, `b_nei` (`neiExpert`, `neiAt`).
-/
import Idealize.ShloMosaic.PureOps.Ideal
import Idealize.ShloMosaic.Lib.ValueIdx

noncomputable section

open scoped BigOperators

namespace Cert.Spec

open Idealize.ShloMosaic Idealize.ShloMosaic.ValueIdx

/-- The `d`-th of the 40 numbers of agent `b`'s `k`-th trajectory under class `c`: the observation's 8 points
    (2 numbers each) first, then the 12 points of class `c`'s `k`-th initial trajectory. -/
def traj (obs : FVec Ideal ⟨3, ![4096, 8, 2]⟩ .f32) (init : FVec Ideal ⟨4, ![8, 20, 12, 2]⟩ .f32)
    (c : Fin 8) (b : Fin 4096) (k : Fin 20) (d : Fin 40) : EReal :=
  if h : d.val < 16 then obs (ix3 b (⟨d.val / 2, by omega⟩ : Fin 8) (⟨d.val % 2, by omega⟩ : Fin 2))
  else init (ix4 c k (⟨(d.val - 16) / 2, by omega⟩ : Fin 12) (⟨(d.val - 16) % 2, by omega⟩ : Fin 2))

/-- Class `c`'s expert on that trajectory: `W_self[c] · traj + b_self[c]` at output channel `e`. -/
def selfExpert (obs : FVec Ideal ⟨3, ![4096, 8, 2]⟩ .f32) (init : FVec Ideal ⟨4, ![8, 20, 12, 2]⟩ .f32)
    (Ws : FVec Ideal ⟨3, ![8, 128, 40]⟩ .f32) (bs : FVec Ideal ⟨2, ![8, 128]⟩ .f32)
    (c : Fin 8) (b : Fin 4096) (k : Fin 20) (e : Fin 128) : EReal :=
  (∑ d : Fin 40, traj obs init c b k d * Ws (ix3 c e d)) + bs (ix2 c e)

/-- The self stage at `(b, k, e)`: the expert of the class the label names, `0` if it names none. -/
def selfAt (obs : FVec Ideal ⟨3, ![4096, 8, 2]⟩ .f32) (sl : IVec ⟨1, ![4096]⟩ 32)
    (init : FVec Ideal ⟨4, ![8, 20, 12, 2]⟩ .f32) (Ws : FVec Ideal ⟨3, ![8, 128, 40]⟩ .f32)
    (bs : FVec Ideal ⟨2, ![8, 128]⟩ .f32) (b : Fin 4096) (k : Fin 20) (e : Fin 128) : EReal :=
  ∑ c : Fin 8, if sl (ix1 b) = BitVec.ofNat 32 c.val then selfExpert obs init Ws bs c b k e else 0

/-- The self stage as an array. -/
def selfSpec (obs : FVec Ideal ⟨3, ![4096, 8, 2]⟩ .f32) (sl : IVec ⟨1, ![4096]⟩ 32)
    (init : FVec Ideal ⟨4, ![8, 20, 12, 2]⟩ .f32) (Ws : FVec Ideal ⟨3, ![8, 128, 40]⟩ .f32)
    (bs : FVec Ideal ⟨2, ![8, 128]⟩ .f32) : FVec Ideal ⟨3, ![4096, 20, 128]⟩ .f32 :=
  fun j => selfAt obs sl init Ws bs (j 0) (j 1) (j 2)

theorem selfSpec_ix3 (obs : FVec Ideal ⟨3, ![4096, 8, 2]⟩ .f32) (sl : IVec ⟨1, ![4096]⟩ 32)
    (init : FVec Ideal ⟨4, ![8, 20, 12, 2]⟩ .f32) (Ws : FVec Ideal ⟨3, ![8, 128, 40]⟩ .f32)
    (bs : FVec Ideal ⟨2, ![8, 128]⟩ .f32) (b : Fin 4096) (k : Fin 20) (e : Fin 128) :
    selfSpec obs sl init Ws bs (ix3 b k e) = selfAt obs sl init Ws bs b k e := rfl

/-- A neighbour coordinate `f` becomes `1 / (f + ε)` when `f ≥ 0` and `1 / (f - ε)` otherwise. -/
def tnei (f : Ideal .f32) : Ideal .f32 :=
  Scalar.select (FloatOps.cmpf (F := Ideal) .oge f (Ideal.ofBits .f32 0x00000000#32))
    (Ideal.div (Ideal.ofBits .f32 0x3F800000#32) (f + Ideal.ofBits .f32 0x38D1B717#32))
    (Ideal.div (Ideal.ofBits .f32 0x3F800000#32) (f - Ideal.ofBits .f32 0x38D1B717#32))

/-- Class `c`'s neighbour expert: `W_nei[c] · tnei(neighbour) + b_nei[c]` at output channel `e`. -/
def neiExpert (neis : FVec Ideal ⟨4, ![4096, 64, 8, 2]⟩ .f32) (Wn : FVec Ideal ⟨3, ![9, 128, 16]⟩ .f32)
    (bn : FVec Ideal ⟨2, ![9, 128]⟩ .f32) (c : Fin 9) (b : Fin 4096) (n : Fin 64) (e : Fin 128) : EReal :=
  (∑ d : Fin 16, tnei (neis (ix4 b n (⟨d.val / 2, by omega⟩ : Fin 8) (⟨d.val % 2, by omega⟩ : Fin 2))) * Wn (ix3 c e d))
    + bn (ix2 c e)

/-- The neighbour stage at `(b, n, e)`: the expert of the class the label names, `0` if it names none. -/
def neiAt (neis : FVec Ideal ⟨4, ![4096, 64, 8, 2]⟩ .f32) (nl : IVec ⟨2, ![4096, 64]⟩ 32)
    (Wn : FVec Ideal ⟨3, ![9, 128, 16]⟩ .f32) (bn : FVec Ideal ⟨2, ![9, 128]⟩ .f32)
    (b : Fin 4096) (n : Fin 64) (e : Fin 128) : EReal :=
  ∑ c : Fin 9, if nl (ix2 b n) = BitVec.ofNat 32 c.val then neiExpert neis Wn bn c b n e else 0

/-- The neighbour stage as an array. -/
def neiSpec (neis : FVec Ideal ⟨4, ![4096, 64, 8, 2]⟩ .f32) (nl : IVec ⟨2, ![4096, 64]⟩ 32)
    (Wn : FVec Ideal ⟨3, ![9, 128, 16]⟩ .f32) (bn : FVec Ideal ⟨2, ![9, 128]⟩ .f32) :
    FVec Ideal ⟨3, ![4096, 64, 128]⟩ .f32 :=
  fun j => neiAt neis nl Wn bn (j 0) (j 1) (j 2)

theorem neiSpec_ix3 (neis : FVec Ideal ⟨4, ![4096, 64, 8, 2]⟩ .f32) (nl : IVec ⟨2, ![4096, 64]⟩ 32)
    (Wn : FVec Ideal ⟨3, ![9, 128, 16]⟩ .f32) (bn : FVec Ideal ⟨2, ![9, 128]⟩ .f32)
    (b : Fin 4096) (n : Fin 64) (e : Fin 128) :
    neiSpec neis nl Wn bn (ix3 b n e) = neiAt neis nl Wn bn b n e := rfl

/-- A routed sum has at most one live term: if the label is class `c`'s number it is that class's term. -/
theorem routed_hit {n : Nat} (hn : n ≤ 9) (x : BitVec 32) (f : Fin n → EReal) (c : Fin n) (h : x = BitVec.ofNat 32 c.val) :
    (∑ c' : Fin n, if x = BitVec.ofNat 32 c'.val then f c' else 0) = f c := by
  rw [Finset.sum_eq_single c]
  · rw [if_pos h]
  · intro c' _ hne
    rw [if_neg]
    intro h'
    apply hne
    have : BitVec.ofNat 32 c'.val = BitVec.ofNat 32 c.val := h'.symm.trans h
    have h1 := congrArg BitVec.toNat this
    simp only [BitVec.toNat_ofNat] at h1
    have hc := c.isLt; have hc' := c'.isLt
    rw [Nat.mod_eq_of_lt (by omega), Nat.mod_eq_of_lt (by omega)] at h1
    exact Fin.ext h1
  · intro hc; exact absurd (Finset.mem_univ c) hc

/-- … and if it is no class's number the routed sum is `0`. -/
theorem routed_miss {n : Nat} (x : BitVec 32) (f : Fin n → EReal) (h : ∀ c : Fin n, x ≠ BitVec.ofNat 32 c.val) :
    (∑ c' : Fin n, if x = BitVec.ofNat 32 c'.val then f c' else 0) = 0 :=
  Finset.sum_eq_zero fun c' _ => if_neg (h c')

end Cert.Spec

end
-- ==== Proof.KernelPoints.lean ====
/-
  One grid point of each stage against the specification.  A block's entries are entries of the argument arrays:
  the block of point `t` holds the labels, observations or neighbour coordinates of the rows `t·R + r`, and the
  whole tables of initial trajectories and of stacked weights.  Substituting these into the routed sum a body
  computes gives the specification's routed sum at the row's agent: the same terms, index by index (the stacked
  weights' row `c·D + d` is class `c`, input `d`, because `d < D`; the initial trajectories' column
  `k·24 + (d − 16)` is trajectory `k`, point `(d − 16) / 2`, coordinate `(d − 16) % 2`, because `d − 16 < 24`).
-/
import proofs.«108484_g15788299780126_cont_week2b_740_2_alg».proof.Proof.Spec

noncomputable section

open scoped BigOperators

namespace Cert.Points

open Idealize.ShloMosaic Idealize.ShloMosaic.ValueIdx Cert.Spec

/-- The self stage at row `r` of block `t`, trajectory `k`, channel `e`. -/
theorem self_point
    (lab : (⟨3, ![1, 1, 128]⟩ : Shape).Idx → BitVec 32) (obs2 : FVec Ideal ⟨2, ![128, 16]⟩ .f32)
    (init2 : FVec Ideal ⟨2, ![8, 480]⟩ .f32) (wcat : FVec Ideal ⟨2, ![328, 128]⟩ .f32)
    (obs : FVec Ideal ⟨3, ![4096, 8, 2]⟩ .f32) (sl : IVec ⟨1, ![4096]⟩ 32)
    (init : FVec Ideal ⟨4, ![8, 20, 12, 2]⟩ .f32) (Ws : FVec Ideal ⟨3, ![8, 128, 40]⟩ .f32)
    (bs : FVec Ideal ⟨2, ![8, 128]⟩ .f32) (b : Fin 4096) (r : Fin 128) (k : Fin 20) (e : Fin 128)
    (h0 : lab (ix3 (0 : Fin 1) (0 : Fin 1) r) = sl (ix1 b))
    (h1 : ∀ d : Fin 16, obs2 (ix2 r d) = obs (ix3 b (⟨d.val / 2, by omega⟩ : Fin 8) (⟨d.val % 2, by omega⟩ : Fin 2)))
    (h2 : ∀ (c : Fin 8) (j : Fin 480), init2 (ix2 c j)
      = init (ix4 c (⟨j.val / 24, by omega⟩ : Fin 20) (⟨j.val % 24 / 2, by omega⟩ : Fin 12) (⟨j.val % 2, by omega⟩ : Fin 2)))
    (h3 : ∀ (j : Fin 328) (hj : j.val < 320), wcat (ix2 j e)
      = Ws (ix3 (⟨j.val / 40, by omega⟩ : Fin 8) e (⟨j.val % 40, by omega⟩ : Fin 40)))
    (h4 : ∀ c : Fin 8, wcat (ix2 (⟨320 + c.val, by omega⟩ : Fin 328) e) = bs (ix2 c e)) :
    (∑ c : Fin 8, if lab (ix3 (0 : Fin 1) (0 : Fin 1) r) = BitVec.ofNat 32 c.val then
        (∑ d : Fin 40, (if h : d.val < 16 then obs2 (ix2 r (⟨d.val, by omega⟩ : Fin 16))
                        else init2 (ix2 c (⟨k.val * 24 + (d.val - 16), by omega⟩ : Fin 480)))
                       * wcat (ix2 (⟨c.val * 40 + d.val, by omega⟩ : Fin 328) e))
        + wcat (ix2 (⟨320 + c.val, by omega⟩ : Fin 328) e)
      else 0)
    = selfAt obs sl init Ws bs b k e := by
  unfold selfAt
  refine Finset.sum_congr rfl fun c _ => ?_
  rw [h0]
  refine if_congr Iff.rfl ?_ rfl
  unfold selfExpert
  rw [h4 c]
  refine congrArg (· + bs (ix2 c e)) (Finset.sum_congr rfl fun d _ => ?_)
  have hw : wcat (ix2 (⟨c.val * 40 + d.val, by omega⟩ : Fin 328) e) = Ws (ix3 c e d) := by
    rw [h3 _ (by show c.val * 40 + d.val < 320; omega)]
    have e1 : (⟨(c.val * 40 + d.val) / 40, by omega⟩ : Fin 8) = c := Fin.ext (by show (c.val * 40 + d.val) / 40 = c.val; omega)
    have e2 : (⟨(c.val * 40 + d.val) % 40, by omega⟩ : Fin 40) = d := Fin.ext (by show (c.val * 40 + d.val) % 40 = d.val; omega)
    rw [e1, e2]
  rw [hw]
  refine congrArg (· * Ws (ix3 c e d)) ?_
  unfold traj
  by_cases hd : d.val < 16
  · rw [dif_pos hd, dif_pos hd, h1]
  · rw [dif_neg hd, dif_neg hd, h2]
    have e1 : (⟨(k.val * 24 + (d.val - 16)) / 24, by omega⟩ : Fin 20) = k := Fin.ext (by show (k.val * 24 + (d.val - 16)) / 24 = k.val; omega)
    have e2 : (⟨(k.val * 24 + (d.val - 16)) % 24 / 2, by omega⟩ : Fin 12) = (⟨(d.val - 16) / 2, by omega⟩ : Fin 12) :=
      Fin.ext (by show (k.val * 24 + (d.val - 16)) % 24 / 2 = (d.val - 16) / 2; omega)
    have e3 : (⟨(k.val * 24 + (d.val - 16)) % 2, by omega⟩ : Fin 2) = (⟨(d.val - 16) % 2, by omega⟩ : Fin 2) :=
      Fin.ext (by show (k.val * 24 + (d.val - 16)) % 2 = (d.val - 16) % 2; omega)
    rw [e1, e2, e3]

/-- The neighbour stage at row `r` of a block whose row `r` is agent `b`'s neighbour `n`, channel `e`. -/
theorem nei_point
    (nb : FVec Ideal ⟨2, ![2048, 16]⟩ .f32) (lab : (⟨3, ![1, 1, 2048]⟩ : Shape).Idx → BitVec 32)
    (wcat : FVec Ideal ⟨2, ![153, 128]⟩ .f32)
    (neis : FVec Ideal ⟨4, ![4096, 64, 8, 2]⟩ .f32) (nl : IVec ⟨2, ![4096, 64]⟩ 32)
    (Wn : FVec Ideal ⟨3, ![9, 128, 16]⟩ .f32) (bn : FVec Ideal ⟨2, ![9, 128]⟩ .f32)
    (b : Fin 4096) (n : Fin 64) (r : Fin 2048) (e : Fin 128)
    (h0 : lab (ix3 (0 : Fin 1) (0 : Fin 1) r) = nl (ix2 b n))
    (h1 : ∀ d : Fin 16, nb (ix2 r d) = neis (ix4 b n (⟨d.val / 2, by omega⟩ : Fin 8) (⟨d.val % 2, by omega⟩ : Fin 2)))
    (h2 : ∀ (j : Fin 153) (hj : j.val < 144), wcat (ix2 j e)
      = Wn (ix3 (⟨j.val / 16, by omega⟩ : Fin 9) e (⟨j.val % 16, by omega⟩ : Fin 16)))
    (h3 : ∀ c : Fin 9, wcat (ix2 (⟨144 + c.val, by omega⟩ : Fin 153) e) = bn (ix2 c e)) :
    (∑ c : Fin 9, if lab (ix3 (0 : Fin 1) (0 : Fin 1) r) = BitVec.ofNat 32 c.val then
        (∑ d : Fin 16, tnei (nb (ix2 r d)) * wcat (ix2 (⟨c.val * 16 + d.val, by omega⟩ : Fin 153) e))
        + wcat (ix2 (⟨144 + c.val, by omega⟩ : Fin 153) e)
      else 0)
    = neiAt neis nl Wn bn b n e := by
  unfold neiAt
  refine Finset.sum_congr rfl fun c _ => ?_
  rw [h0]
  refine if_congr Iff.rfl ?_ rfl
  unfold neiExpert
  rw [h3 c]
  refine congrArg (· + bn (ix2 c e)) (Finset.sum_congr rfl fun d _ => ?_)
  have hw : wcat (ix2 (⟨c.val * 16 + d.val, by omega⟩ : Fin 153) e) = Wn (ix3 c e d) := by
    rw [h2 _ (by show c.val * 16 + d.val < 144; omega)]
    have e1 : (⟨(c.val * 16 + d.val) / 16, by omega⟩ : Fin 9) = c := Fin.ext (by show (c.val * 16 + d.val) / 16 = c.val; omega)
    have e2 : (⟨(c.val * 16 + d.val) % 16, by omega⟩ : Fin 16) = d := Fin.ext (by show (c.val * 16 + d.val) % 16 = d.val; omega)
    rw [e1, e2]
  rw [hw, h1]

end Cert.Points

end
-- ==== Proof.SelfLayout.lean ====
/-
  Casts, broadcasts and a join of rank-3 arrays, read at an index written by coordinates.

  A shape cast keeps the row-major position; a broadcast reads the operand at 0 on its unit axes; a join of two arrays
  along the last axis reads the first array on its columns and the second array past them.  Each lemma names the operand
  index by coordinates, so that a chain of them reduces a re-laid-out value at an index to the original value at an index.
-/
import Idealize.ShloMosaic.Lib.ValueIdx
import Idealize.ShloMosaic.Lib.Pipeline.Value

namespace Cert.KernelIdeal.SelfLayout

open Idealize.ShloMosaic Idealize.ShloMosaic.ValueIdx

variable {α : Type}

/-- A `[1, 1, n]` block cast to an `[n]` vector reads, at `p`, the block at `(0, 0, p)`. -/
theorem shapeCast_11n_n_apply {n : ℕ} (x : (⟨3, ![1, 1, n]⟩ : Shape).Idx → α)
    (h : (⟨3, ![1, 1, n]⟩ : Shape).ShapeCasts ⟨1, ![n]⟩) (p : Fin n) :
    shapeCast ⟨1, ![n]⟩ x h (ix1 p) = x (ix3 (0 : Fin 1) (0 : Fin 1) p) :=
  shapeCast_apply x h _ _ (by
    rw [Shape.rowMajor_val_three, Shape.rowMajor_val_one]
    show ((0 : ℕ) * 1 + 0) * n + p.val = p.val
    simp)

/-- An `[a]` vector cast to an `[a, 1]` column reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, m]` matrix cast to `[a, b, c]` reads, at `(i, j, k)`, the matrix at row `i`, column `q = j·c + k`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c)
    (q : Fin m) (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * m + q.val = (i.val * b + j.val) * c + k.val
    rw [hq, hm, Nat.add_mul, Nat.mul_assoc, Nat.add_assoc])

/-- An `[a, b, c]` stack cast to `[a, m]` reads, at row `i`, column `q = j·c + k`, the stack at `(i, j, k)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (q : Fin m) (j : Fin b)
    (k : Fin c) (hq : q.val = j.val * c + k.val) :
    shapeCast ⟨2, ![a, m]⟩ x h (ix2 i q) = x (ix3 i j k) :=
  shapeCast_apply x h _ _ (by
    rw [Shape.rowMajor_val_three, Shape.rowMajor_val_two]
    show (i.val * b + j.val) * c + k.val = i.val * m + q.val
    rw [hq, hm, Nat.add_mul, Nat.mul_assoc, Nat.add_assoc])

/-- An `[a, b, c]` stack cast to `[n, 1, c]` reads, at `(r, u, k)` with `r = i·b + j`, the stack at `(i, j, k)`. -/
theorem shapeCast_abc_n1c_apply {a b c n : ℕ} (x : (⟨3, ![a, b, c]⟩ : Shape).Idx → α)
    (h : (⟨3, ![a, b, c]⟩ : Shape).ShapeCasts ⟨3, ![n, 1, c]⟩) (r : Fin n) (u : Fin 1) (k : Fin c) (i : Fin a)
    (j : Fin b) (hr : r.val = i.val * b + j.val) :
    shapeCast ⟨3, ![n, 1, c]⟩ x h (ix3 r u k) = x (ix3 i j k) :=
  shapeCast_apply x h _ _ (by
    have hu : u.val = 0 := by omega
    rw [Shape.rowMajor_val_three, Shape.rowMajor_val_three]
    show (i.val * b + j.val) * c + k.val = (r.val * 1 + u.val) * c + k.val
    rw [hu, hr, Nat.mul_one, Nat.add_zero])

/-- An `[a, b, c]` stack cast to `[n, c, 1]` reads, at `(r, k, u)` with `r = i·b + j`, the stack at `(i, j, k)`. -/
theorem shapeCast_abc_nc1_apply {a b c n : ℕ} (x : (⟨3, ![a, b, c]⟩ : Shape).Idx → α)
    (h : (⟨3, ![a, b, c]⟩ : Shape).ShapeCasts ⟨3, ![n, c, 1]⟩) (r : Fin n) (k : Fin c) (u : Fin 1) (i : Fin a)
    (j : Fin b) (hr : r.val = i.val * b + j.val) :
    shapeCast ⟨3, ![n, c, 1]⟩ x h (ix3 r k u) = x (ix3 i j k) :=
  shapeCast_apply x h _ _ (by
    have hu : u.val = 0 := by omega
    rw [Shape.rowMajor_val_three, Shape.rowMajor_val_three]
    show (i.val * b + j.val) * c + k.val = (r.val * c + k.val) * 1 + u.val
    rw [hu, hr, Nat.mul_one, Nat.add_zero])

/-- An `[a, b, 1]` stack cast to an `[a, b]` matrix reads, at `(i, j)`, the stack at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` stack broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- Entry `(r, s, c)` of two stacks joined along the last axis, for a position `c` that falls in the first: it is the
    first stack's entry `(r, s, c)`. -/
theorem join_last_left {R S A B N : ℕ} (u : (⟨3, ![R, S, A]⟩ : Shape).Idx → α) (v : (⟨3, ![R, S, B]⟩ : Shape).Idx → α)
    (h : Shape.Concatenates [(⟨3, ![R, S, A]⟩ : Shape), ⟨3, ![R, S, B]⟩] ⟨3, ![R, S, N]⟩ 2)
    (r : Fin R) (s : Fin S) (c : Fin N) (d : Fin A) (hc : c.val = d.val) :
    concatenate (⟨3, ![R, S, N]⟩ : Shape) 2 [⟨⟨3, ![R, S, A]⟩, u⟩, ⟨⟨3, ![R, S, B]⟩, v⟩] h (ix3 r s c) = u (ix3 r s d) :=
  concatenate_pair_apply_left 2 u v h (ix3 r s c) rfl (ix3 r s d) (fun b => match b with
    | ⟨0, _⟩ => rfl
    | ⟨1, _⟩ => rfl
    | ⟨2, _⟩ => hc.symm)

/-- Entry `(r, s, c)` of two stacks joined along the last axis, for a position `c` past the first stack's `A`: it is
    the second stack's entry `(r, s, c − A)`. -/
theorem join_last_right {R S A B N : ℕ} (u : (⟨3, ![R, S, A]⟩ : Shape).Idx → α) (v : (⟨3, ![R, S, B]⟩ : Shape).Idx → α)
    (h : Shape.Concatenates [(⟨3, ![R, S, A]⟩ : Shape), ⟨3, ![R, S, B]⟩] ⟨3, ![R, S, N]⟩ 2)
    (r : Fin R) (s : Fin S) (c : Fin N) (d : Fin B) (hc : c.val = A + d.val) :
    concatenate (⟨3, ![R, S, N]⟩ : Shape) 2 [⟨⟨3, ![R, S, A]⟩, u⟩, ⟨⟨3, ![R, S, B]⟩, v⟩] h (ix3 r s c) = v (ix3 r s d) :=
  concatenate_pair_apply_right 2 u v h (ix3 r s c) rfl rfl (ix3 r s d) (fun b hb => match b, hb with
    | ⟨0, _⟩, _ => rfl
    | ⟨1, _⟩, _ => rfl
    | ⟨2, _⟩, hb => absurd rfl hb)
    (by show d.val + A = c.val; omega)

end Cert.KernelIdeal.SelfLayout
-- ==== Proof.LibColumnBroadcast.lean ====
/-
  A column broadcast along the rows of a matrix, read at an index.

  A vector kept as an `[a, 1]` column (one entry per row) and broadcast to `[a, b]` repeats each row's entry across
  that row: at `(p, c)` the result is the column's entry of row `p`, whatever the column `c`. This is the form a
  per-row scale, bias or divisor takes before it meets an `[a, b]` matrix elementwise.
-/
import Idealize.ShloMosaic.Lib.ValueLayout

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.SelfOnehot.lean ====
/-
  The indicator matrix of a block of labels, read at an index.

  From a `[1, 1, n]` block of 32-bit labels the body builds the `[n, m]` matrix whose entry `(r, c)` is the float of the
  bit "label `r` equals `c`": the labels stood up as a column and repeated along the rows, compared for equality with
  the matrix of column numbers, the bit widened to a word and the word read as a signed integer.  Over the extended reals
  the entry is `1` when label `r` is the word `c` and `0` otherwise.
-/
import Idealize.ShloMosaic.PureOps.Ideal
import Idealize.ShloMosaic.Lib.ValueIdx
import Idealize.ShloMosaic.Lib.Pipeline.Value
import proofs.«108484_g15788299780126_cont_week2b_740_2_alg».proof.Proof.SelfLayout
import proofs.«108484_g15788299780126_cont_week2b_740_2_alg».proof.Proof.LibColumnBroadcast

noncomputable section

namespace Cert.KernelIdeal.SelfOnehot

open Idealize.ShloMosaic Idealize.ShloMosaic.ValueIdx Cert.KernelIdeal.SelfLayout

/-- The set bit, widened to a word and read as a signed integer, is the real `1`. -/
theorem sitofp_bit_one : FloatOps.sitofp (F := Ideal) .f32 ((1#1 : BitVec 1).setWidth 32) = 1 := by
  show (((((1#1 : BitVec 1).setWidth 32).toInt : ℤ) : ℝ) : EReal) = 1
  have h : ((1#1 : BitVec 1).setWidth 32).toInt = 1 := by decide
  rw [h]; simp

/-- The clear bit, widened to a word and read as a signed integer, is the real `0`. -/
theorem sitofp_bit_zero : FloatOps.sitofp (F := Ideal) .f32 ((0#1 : BitVec 1).setWidth 32) = 0 := by
  show (((((0#1 : BitVec 1).setWidth 32).toInt : ℤ) : ℝ) : EReal) = 0
  have h : ((0#1 : BitVec 1).setWidth 32).toInt = 0 := by decide
  rw [h]; simp

/-- The float of the widened equality bit of two words: `1` if they are equal, `0` otherwise. -/
theorem sitofp_eq_bit (x y : BitVec 32) :
    FloatOps.sitofp (F := Ideal) .f32 ((IntOp.cmpi .eq x y).setWidth 32) = if x = y then 1 else 0 := by
  by_cases h : x = y
  · rw [if_pos h]
    have : IntOp.cmpi .eq x y = 1#1 := by simp [IntOp.cmpi, h]
    rw [this]; exact sitofp_bit_one
  · rw [if_neg h]
    have : IntOp.cmpi .eq x y = 0#1 := by
      have hb : (x == y) = false := by simpa using h
      simp [IntOp.cmpi, hb]
    rw [this]; exact sitofp_bit_zero

/-- THE INDICATOR MATRIX at `(r, c)`: `1` if label `r` is the word `c`, else `0`. -/
theorem onehot_apply {n m : ℕ} (lab : IVec ⟨3, ![1, 1, n]⟩ 32)
    (h1 : (⟨3, ![1, 1, n]⟩ : Shape).ShapeCasts ⟨1, ![n]⟩) (h2 : (⟨1, ![n]⟩ : Shape).ShapeCasts ⟨2, ![n, 1]⟩)
    (h3 : (⟨2, ![n, 1]⟩ : Shape).Broadcasts ⟨2, ![n, m]⟩) (h4 : (⟨2, ![n, m]⟩ : Shape).Iotas .tc 32 [1]) (h5 : 1 < 32)
    (r : Fin n) (c : Fin m) :
    (sitofp .f32 (extui 32 (cmpi .eq
        (broadcastTo ⟨2, ![n, m]⟩ (shapeCast ⟨2, ![n, 1]⟩ (shapeCast ⟨1, ![n]⟩ lab h1) h2) h3)
        (iota .tc ⟨2, ![n, m]⟩ 32 [1] h4)) h5) : FVec Ideal ⟨2, ![n, m]⟩ .f32) (ix2 r c)
      = if lab (ix3 (0 : Fin 1) (0 : Fin 1) r) = BitVec.ofNat 32 c.val then 1 else 0 := by
  have e1 : broadcastTo ⟨2, ![n, m]⟩ (shapeCast ⟨2, ![n, 1]⟩ (shapeCast ⟨1, ![n]⟩ lab h1) h2) h3 (ix2 r c)
      = lab (ix3 (0 : Fin 1) (0 : Fin 1) r) :=
    (broadcastTo_a1_ab_apply _ h3 r c).trans
      ((shapeCast_a_a1_apply _ h2 r (0 : Fin 1)).trans (shapeCast_11n_n_apply lab h1 r))
  have e2 : iota .tc ⟨2, ![n, m]⟩ 32 [1] h4 (ix2 r c) = BitVec.ofNat 32 c.val :=
    iota_single_apply .tc ⟨2, ![n, m]⟩ 32 1 h4 (ix2 r c)
  show FloatOps.sitofp (F := Ideal) .f32 ((IntOp.cmpi .eq
      (broadcastTo ⟨2, ![n, m]⟩ (shapeCast ⟨2, ![n, 1]⟩ (shapeCast ⟨1, ![n]⟩ lab h1) h2) h3 (ix2 r c))
      (iota .tc ⟨2, ![n, m]⟩ 32 [1] h4 (ix2 r c))).setWidth 32) = _
  rw [e1, e2]
  exact sitofp_eq_bit _ _

end Cert.KernelIdeal.SelfOnehot

end
-- ==== Proof.LibPairStack.lean ====
/-
  Casts and broadcasts between a matrix, a stack of its rows, and the flattened stack, read at an index.

  A kernel that scores every pair `(i, j)` of rows builds, from an `[a, c]` and a `[b, c]` matrix, the `[a, b, c]` stack of
  their pairwise row combinations — each matrix gets a unit axis and is broadcast along it —, flattens the pair axes into
  one (`[a·b, c]`: the pair `(i, j)` becomes row `i·b + j`) for a matrix product, and unflattens the result.  Each lemma
  reads one of these re-layouts at an index written by coordinates: a cast keeps the row-major position, a broadcast
  reads the operand at `0` on its unit axes.  Also: a `[1, 1]` array broadcast to a matrix, and the index a reduction
  over the last axis of a rank-3 array sums over.
-/
import Idealize.ShloMosaic.Lib.ValueIdx
import Idealize.ShloMosaic.Lib.Pipeline.Value
import Idealize.ShloMosaic.PureOps.Reduce

namespace Idealize.ShloMosaic.PairStack

open Idealize.ShloMosaic Idealize.ShloMosaic.ValueIdx

variable {α : Type}

/-- An `[a, c]` matrix cast to `[a, 1, c]` reads, at `(i, u, k)`, the matrix at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- An `[a, 1, c]` stack broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` stack broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` row broadcast to `[a, b, c]` reads, at `(i, j, k)`, the row at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- THE FLATTENING: an `[a, b, c]` stack cast to `[n, c]` reads, at row `r = i·b + j` and column `k`, the stack at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (k : Fin c) (i : Fin a) (j : Fin b)
    (hr : r.val = i.val * b + j.val) :
    shapeCast ⟨2, ![n, c]⟩ x h (ix2 r k) = x (ix3 i j k) :=
  shapeCast_apply x h _ _ (by
    rw [Shape.rowMajor_val_three, Shape.rowMajor_val_two]
    show (i.val * b + j.val) * c + k.val = r.val * c + k.val
    rw [hr])

/-- THE UNFLATTENING: an `[n, c]` matrix cast to `[a, b, c]` reads, at `(i, j, k)`, the matrix at row `r = i·b + j`, column `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) :
    shapeCast ⟨3, ![a, b, c]⟩ x h (ix3 i j k) = x (ix2 r k) :=
  shapeCast_apply x h _ _ (by
    rw [Shape.rowMajor_val_three, Shape.rowMajor_val_two]
    show r.val * c + k.val = (i.val * b + j.val) * c + k.val
    rw [hr])

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

/-- The source index a reduction over the LAST axis of an `[a, b, c]` array sums over at result index `(i, j)`: `(i, j, k)`. -/
theorem lift_last {a b c : ℕ} (h : (⟨3, ![a, b, c]⟩ : Shape).Reduces [2] (⟨2, ![a, b]⟩ : Shape)) (i : Fin a) (j : Fin b)
    (k : Fin ((⟨3, ![a, b, c]⟩ : Shape).size 2)) : h.lift (ix2 i j) k = ix3 i j (⟨k.val, k.isLt⟩ : Fin c) := by
  funext d; apply Fin.ext
  fin_cases d <;> rfl

end Idealize.ShloMosaic.PairStack
-- ==== Proof.LibColumnJoin.lean ====
/-
  Two general facts used to read a matrix product whose operands are joined along the feature axis.

  * Joining an [R, A] matrix u and an [R, B] matrix v along axis 1 gives an [R, N] matrix (N = A + B) whose entry (r, c)
    is u (r, c) for c < A and v (r, c − A) for A ≤ c (`join_cols_left`, `join_cols_right`).
  * In any commutative additive monoid, a sum over n + m consecutive indices is the sum over the first n plus the sum over
    the last m (`sum_fin_split`), with the two ranges given as explicit `Fin N` values so that no index type has to be
    spelt as a sum.
-/
import Idealize.ShloMosaic.Lib.Pipeline.Value
import Idealize.ShloMosaic.Lib.ValueIdx

noncomputable section

namespace Idealize.ShloMosaic.ColumnJoin

open Idealize.ShloMosaic Idealize.ShloMosaic.ValueIdx

variable {α : Type}

/-- Entry (r, c) of [u | v], for a column c that falls in u: it is u (r, c). -/
theorem join_cols_left {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin A) (hc : c.val = d.val) :
    concatenate (⟨2, ![R, N]⟩ : Shape) 1 [⟨⟨2, ![R, A]⟩, u⟩, ⟨⟨2, ![R, B]⟩, v⟩] h (ix2 r c) = u (ix2 r d) :=
  concatenate_pair_apply_left 1 u v h (ix2 r c) rfl (ix2 r d) (fun b => match b with
    | ⟨0, _⟩ => rfl
    | ⟨1, _⟩ => hc.symm)

/-- Entry (r, c) of [u | v], for a column c past u's A columns: it is v (r, c − A). -/
theorem join_cols_right {R A B N : Nat} (u : (⟨2, ![R, A]⟩ : Shape).Idx → α) (v : (⟨2, ![R, B]⟩ : Shape).Idx → α)
    (h : Shape.Concatenates [(⟨2, ![R, A]⟩ : Shape), ⟨2, ![R, B]⟩] ⟨2, ![R, N]⟩ 1)
    (r : Fin R) (c : Fin N) (d : Fin B) (hc : c.val = A + d.val) :
    concatenate (⟨2, ![R, N]⟩ : Shape) 1 [⟨⟨2, ![R, A]⟩, u⟩, ⟨⟨2, ![R, B]⟩, v⟩] h (ix2 r c) = v (ix2 r d) :=
  concatenate_pair_apply_right 1 u v h (ix2 r c) rfl rfl (ix2 r d) (fun b hb => match b, hb with
    | ⟨0, _⟩, _ => rfl
    | ⟨1, _⟩, hb => absurd rfl hb)
    (by show d.val + A = c.val; omega)

/-- A sum over `N = n + m` indices is the sum over the first `n` plus the sum over the last `m`. -/
theorem sum_fin_split {M : Type*} [AddCommMonoid M] {N : Nat} (n m : Nat) (hN : N = n + m) (f : Fin N → M) :
    ∑ k : Fin N, f k
      = (∑ d : Fin n, f ⟨d.val, by have := d.isLt; omega⟩) + ∑ d : Fin m, f ⟨n + d.val, by have := d.isLt; omega⟩ := by
  subst hN
  exact Fin.sum_univ_add f

end Idealize.ShloMosaic.ColumnJoin

end
-- ==== Proof.SelfTraj.lean ====
/-
  The block's trajectories and its matrix of class-gated features, read at an index.

  * The trajectory stack joins, along the last axis, the observation rows (an `[R, A]` matrix given a unit axis and repeated
    `S` times) and the initial rows (an `[R, M]` matrix, `M = S·B`, cut into `S` pieces of `B`): entry `(r, s, c)` is the
    observation `(r, c)` for `c < A` and the initial row's entry `(r, s·B + (c − A))` past it (`traj_lo`, `traj_hi`).
  * The feature matrix has one row per pair `(r, s)` (row `r·S + s`) and, for an `[R, m]` gate matrix `x`, the columns
    `cc·C + d ↦ t (r, s, d) · x (r, cc)` followed by the `m` columns `cc ↦ x (r, cc)` (`feat_lo`, `feat_hi`).
-/
import Idealize.ShloMosaic.PureOps.Ideal
import Idealize.ShloMosaic.Lib.ValueIdx
import Idealize.ShloMosaic.Lib.Pipeline.Value
import proofs.«108484_g15788299780126_cont_week2b_740_2_alg».proof.Proof.SelfLayout
import proofs.«108484_g15788299780126_cont_week2b_740_2_alg».proof.Proof.LibPairStack
import proofs.«108484_g15788299780126_cont_week2b_740_2_alg».proof.Proof.LibColumnJoin

noncomputable section

namespace Cert.KernelIdeal.SelfTraj

open Idealize.ShloMosaic Idealize.ShloMosaic.ValueIdx Idealize.ShloMosaic.PairStack Idealize.ShloMosaic.ColumnJoin
open Cert.KernelIdeal.SelfLayout

section Traj
variable {α : Type}

/-- The trajectory stack at `(r, s, c)`, `c` among the first `A`: the observation `(r, c)`. -/
theorem traj_lo {R S A B N M : ℕ} (obs : (⟨2, ![R, A]⟩ : Shape).Idx → α) (y : (⟨2, ![R, M]⟩ : Shape).Idx → α)
    (g1 : (⟨2, ![R, A]⟩ : Shape).ShapeCasts ⟨2, ![R, A]⟩) (g2 : (⟨2, ![R, A]⟩ : Shape).ShapeCasts ⟨3, ![R, 1, A]⟩)
    (g3 : (⟨3, ![R, 1, A]⟩ : Shape).ShapeCasts ⟨3, ![R, 1, A]⟩) (g4 : (⟨3, ![R, 1, A]⟩ : Shape).Broadcasts ⟨3, ![R, S, A]⟩)
    (g5 : (⟨2, ![R, M]⟩ : Shape).ShapeCasts ⟨3, ![R, S, B]⟩)
    (g6 : Shape.Concatenates [(⟨3, ![R, S, A]⟩ : Shape), ⟨3, ![R, S, B]⟩] ⟨3, ![R, S, N]⟩ 2)
    (r : Fin R) (s : Fin S) (c : Fin N) (d : Fin A) (hc : c.val = d.val) :
    concatenate (⟨3, ![R, S, N]⟩ : Shape) 2
        [⟨⟨3, ![R, S, A]⟩, broadcastTo ⟨3, ![R, S, A]⟩
            (shapeCast ⟨3, ![R, 1, A]⟩ (shapeCast ⟨3, ![R, 1, A]⟩ (shapeCast ⟨2, ![R, A]⟩ obs g1) g2) g3) g4⟩,
         ⟨⟨3, ![R, S, B]⟩, shapeCast ⟨3, ![R, S, B]⟩ y g5⟩] g6 (ix3 r s c)
      = obs (ix2 r d) :=
  (join_last_left _ _ g6 r s c d hc).trans
    ((broadcastTo_a1c_abc_apply _ g4 r s d).trans
      ((congrFun (shapeCast_self _ g3) _).trans
        ((shapeCast_ac_a1c_apply _ g2 r (0 : Fin 1) d).trans (congrFun (shapeCast_self obs g1) _))))

/-- The trajectory stack at `(r, s, c)`, `c = A + d` past the observation: the initial row's entry `(r, s·B + d)`. -/
theorem traj_hi {R S A B N M : ℕ} (obs : (⟨2, ![R, A]⟩ : Shape).Idx → α) (y : (⟨2, ![R, M]⟩ : Shape).Idx → α)
    (g1 : (⟨2, ![R, A]⟩ : Shape).ShapeCasts ⟨2, ![R, A]⟩) (g2 : (⟨2, ![R, A]⟩ : Shape).ShapeCasts ⟨3, ![R, 1, A]⟩)
    (g3 : (⟨3, ![R, 1, A]⟩ : Shape).ShapeCasts ⟨3, ![R, 1, A]⟩) (g4 : (⟨3, ![R, 1, A]⟩ : Shape).Broadcasts ⟨3, ![R, S, A]⟩)
    (g5 : (⟨2, ![R, M]⟩ : Shape).ShapeCasts ⟨3, ![R, S, B]⟩)
    (g6 : Shape.Concatenates [(⟨3, ![R, S, A]⟩ : Shape), ⟨3, ![R, S, B]⟩] ⟨3, ![R, S, N]⟩ 2)
    (hM : M = S * B) (r : Fin R) (s : Fin S) (c : Fin N) (d : Fin B) (hc : c.val = A + d.val)
    (q : Fin M) (hq : q.val = s.val * B + d.val) :
    concatenate (⟨3, ![R, S, N]⟩ : Shape) 2
        [⟨⟨3, ![R, S, A]⟩, broadcastTo ⟨3, ![R, S, A]⟩
            (shapeCast ⟨3, ![R, 1, A]⟩ (shapeCast ⟨3, ![R, 1, A]⟩ (shapeCast ⟨2, ![R, A]⟩ obs g1) g2) g3) g4⟩,
         ⟨⟨3, ![R, S, B]⟩, shapeCast ⟨3, ![R, S, B]⟩ y g5⟩] g6 (ix3 r s c)
      = y (ix2 r q) :=
  (join_last_right _ _ g6 r s c d hc).trans (shapeCast_am_abc_apply y g5 hM r s d q hq)

/-- The gate matrix repeated along the pairs and stood up with a trailing unit axis: at `(r·S + s, cc, u)` it is the
    gate `(r, cc)`. -/
theorem gateStack_apply {R S m n : ℕ} (x : (⟨2, ![R, m]⟩ : Shape).Idx → α)
    (k1 : (⟨2, ![R, m]⟩ : Shape).ShapeCasts ⟨3, ![R, 1, m]⟩) (k2 : (⟨3, ![R, 1, m]⟩ : Shape).ShapeCasts ⟨3, ![R, 1, m]⟩)
    (k3 : (⟨3, ![R, 1, m]⟩ : Shape).Broadcasts ⟨3, ![R, S, m]⟩) (k4 : (⟨3, ![R, S, m]⟩ : Shape).ShapeCasts ⟨3, ![n, m, 1]⟩)
    (row : Fin n) (cc : Fin m) (u : Fin 1) (r : Fin R) (s : Fin S) (hrow : row.val = r.val * S + s.val) :
    shapeCast ⟨3, ![n, m, 1]⟩ (broadcastTo ⟨3, ![R, S, m]⟩
        (shapeCast ⟨3, ![R, 1, m]⟩ (shapeCast ⟨3, ![R, 1, m]⟩ x k1) k2) k3) k4 (ix3 row cc u)
      = x (ix2 r cc) :=
  (shapeCast_abc_nc1_apply _ k4 row cc u r s hrow).trans
    ((broadcastTo_a1c_abc_apply _ k3 r s cc).trans
      ((congrFun (shapeCast_self _ k2) _).trans (shapeCast_ac_a1c_apply x k1 r (0 : Fin 1) cc)))

end Traj

/-- The feature matrix at row `r·S + s`, column `cc·C + d`: the trajectory's `d`-th number times the gate `(r, cc)`. -/
theorem feat_lo {R S C m n mc N : ℕ} (x : FVec Ideal ⟨2, ![R, m]⟩ .f32) (t : FVec Ideal ⟨3, ![R, S, C]⟩ .f32)
    (k1 : (⟨2, ![R, m]⟩ : Shape).ShapeCasts ⟨3, ![R, 1, m]⟩) (k2 : (⟨3, ![R, 1, m]⟩ : Shape).ShapeCasts ⟨3, ![R, 1, m]⟩)
    (k3 : (⟨3, ![R, 1, m]⟩ : Shape).Broadcasts ⟨3, ![R, S, m]⟩) (k4 : (⟨3, ![R, S, m]⟩ : Shape).ShapeCasts ⟨3, ![n, m, 1]⟩)
    (q1 : (⟨3, ![R, S, C]⟩ : Shape).ShapeCasts ⟨3, ![n, 1, C]⟩) (q2 : (⟨3, ![n, 1, C]⟩ : Shape).Broadcasts ⟨3, ![n, m, C]⟩)
    (q3 : (⟨3, ![n, m, 1]⟩ : Shape).Broadcasts ⟨3, ![n, m, C]⟩) (q4 : (⟨3, ![n, m, C]⟩ : Shape).ShapeCasts ⟨2, ![n, mc]⟩)
    (q5 : (⟨3, ![n, m, 1]⟩ : Shape).ShapeCasts ⟨2, ![n, m]⟩)
    (q6 : Shape.Concatenates [(⟨2, ![n, mc]⟩ : Shape), ⟨2, ![n, m]⟩] ⟨2, ![n, N]⟩ 1)
    (hmc : mc = m * C) (row : Fin n) (col : Fin N) (r : Fin R) (s : Fin S) (cc : Fin m) (d : Fin C)
    (hrow : row.val = r.val * S + s.val) (hcol : col.val = cc.val * C + d.val) :
    concatenate (⟨2, ![n, N]⟩ : Shape) 1
        [⟨⟨2, ![n, mc]⟩, shapeCast ⟨2, ![n, mc]⟩
            (mulf (broadcastTo ⟨3, ![n, m, C]⟩ (shapeCast ⟨3, ![n, 1, C]⟩ t q1) q2)
              (broadcastTo ⟨3, ![n, m, C]⟩ (shapeCast ⟨3, ![n, m, 1]⟩ (broadcastTo ⟨3, ![R, S, m]⟩
                (shapeCast ⟨3, ![R, 1, m]⟩ (shapeCast ⟨3, ![R, 1, m]⟩ x k1) k2) k3) k4) q3)) q4⟩,
         ⟨⟨2, ![n, m]⟩, shapeCast ⟨2, ![n, m]⟩ (shapeCast ⟨3, ![n, m, 1]⟩ (broadcastTo ⟨3, ![R, S, m]⟩
                (shapeCast ⟨3, ![R, 1, m]⟩ (shapeCast ⟨3, ![R, 1, m]⟩ x k1) k2) k3) k4) q5⟩] q6 (ix2 row col)
      = t (ix3 r s d) * x (ix2 r cc) := by
  have hlt : col.val < mc := by
    have := d.isLt; have := cc.isLt
    rw [hcol, hmc]
    calc cc.val * C + d.val < cc.val * C + C := by omega
      _ = (cc.val + 1) * C := by rw [Nat.add_mul, Nat.one_mul]
      _ ≤ m * C := Nat.mul_le_mul_right C (by omega)
  refine (join_cols_left _ _ q6 row col (⟨col.val, hlt⟩ : Fin mc) rfl).trans ?_
  refine (shapeCast_abc_am_apply _ q4 hmc row (⟨col.val, hlt⟩ : Fin mc) cc d hcol).trans ?_
  show broadcastTo ⟨3, ![n, m, C]⟩ (shapeCast ⟨3, ![n, 1, C]⟩ t q1) q2 (ix3 row cc d)
      * broadcastTo ⟨3, ![n, m, C]⟩ (shapeCast ⟨3, ![n, m, 1]⟩ (broadcastTo ⟨3, ![R, S, m]⟩
          (shapeCast ⟨3, ![R, 1, m]⟩ (shapeCast ⟨3, ![R, 1, m]⟩ x k1) k2) k3) k4) q3 (ix3 row cc d) = _
  have e1 : broadcastTo ⟨3, ![n, m, C]⟩ (shapeCast ⟨3, ![n, 1, C]⟩ t q1) q2 (ix3 row cc d) = t (ix3 r s d) :=
    (broadcastTo_a1c_abc_apply _ q2 row cc d).trans (shapeCast_abc_n1c_apply t q1 row (0 : Fin 1) d r s hrow)
  have e2 : broadcastTo ⟨3, ![n, m, C]⟩ (shapeCast ⟨3, ![n, m, 1]⟩ (broadcastTo ⟨3, ![R, S, m]⟩
          (shapeCast ⟨3, ![R, 1, m]⟩ (shapeCast ⟨3, ![R, 1, m]⟩ x k1) k2) k3) k4) q3 (ix3 row cc d) = x (ix2 r cc) :=
    (broadcastTo_ab1_abc_apply _ q3 row cc d).trans (gateStack_apply x k1 k2 k3 k4 row cc (0 : Fin 1) r s hrow)
  rw [e1, e2]

/-- The feature matrix at row `r·S + s`, column `mc + cc` past the gated features: the gate `(r, cc)` itself. -/
theorem feat_hi {R S C m n mc N : ℕ} (x : FVec Ideal ⟨2, ![R, m]⟩ .f32) (t : FVec Ideal ⟨3, ![R, S, C]⟩ .f32)
    (k1 : (⟨2, ![R, m]⟩ : Shape).ShapeCasts ⟨3, ![R, 1, m]⟩) (k2 : (⟨3, ![R, 1, m]⟩ : Shape).ShapeCasts ⟨3, ![R, 1, m]⟩)
    (k3 : (⟨3, ![R, 1, m]⟩ : Shape).Broadcasts ⟨3, ![R, S, m]⟩) (k4 : (⟨3, ![R, S, m]⟩ : Shape).ShapeCasts ⟨3, ![n, m, 1]⟩)
    (q1 : (⟨3, ![R, S, C]⟩ : Shape).ShapeCasts ⟨3, ![n, 1, C]⟩) (q2 : (⟨3, ![n, 1, C]⟩ : Shape).Broadcasts ⟨3, ![n, m, C]⟩)
    (q3 : (⟨3, ![n, m, 1]⟩ : Shape).Broadcasts ⟨3, ![n, m, C]⟩) (q4 : (⟨3, ![n, m, C]⟩ : Shape).ShapeCasts ⟨2, ![n, mc]⟩)
    (q5 : (⟨3, ![n, m, 1]⟩ : Shape).ShapeCasts ⟨2, ![n, m]⟩)
    (q6 : Shape.Concatenates [(⟨2, ![n, mc]⟩ : Shape), ⟨2, ![n, m]⟩] ⟨2, ![n, N]⟩ 1)
    (row : Fin n) (col : Fin N) (r : Fin R) (s : Fin S) (cc : Fin m)
    (hrow : row.val = r.val * S + s.val) (hcol : col.val = mc + cc.val) :
    concatenate (⟨2, ![n, N]⟩ : Shape) 1
        [⟨⟨2, ![n, mc]⟩, shapeCast ⟨2, ![n, mc]⟩
            (mulf (broadcastTo ⟨3, ![n, m, C]⟩ (shapeCast ⟨3, ![n, 1, C]⟩ t q1) q2)
              (broadcastTo ⟨3, ![n, m, C]⟩ (shapeCast ⟨3, ![n, m, 1]⟩ (broadcastTo ⟨3, ![R, S, m]⟩
                (shapeCast ⟨3, ![R, 1, m]⟩ (shapeCast ⟨3, ![R, 1, m]⟩ x k1) k2) k3) k4) q3)) q4⟩,
         ⟨⟨2, ![n, m]⟩, shapeCast ⟨2, ![n, m]⟩ (shapeCast ⟨3, ![n, m, 1]⟩ (broadcastTo ⟨3, ![R, S, m]⟩
                (shapeCast ⟨3, ![R, 1, m]⟩ (shapeCast ⟨3, ![R, 1, m]⟩ x k1) k2) k3) k4) q5⟩] q6 (ix2 row col)
      = x (ix2 r cc) :=
  (join_cols_right _ _ q6 row col cc hcol).trans
    ((shapeCast_ab1_ab_apply _ q5 row cc).trans (gateStack_apply x k1 k2 k3 k4 row cc (0 : Fin 1) r s hrow))

end Cert.KernelIdeal.SelfTraj

end
-- ==== Proof.LibIndexSums.lean ====
/-
  Finite sums over an array's index set, re-bracketed: general lemmas over any commutative additive monoid.

  * A sum over the index set of a rank-3 or rank-4 shape is the nested sum over its coordinates (the rank-2 case is
    the library's own).
  * A sum over Fin (m * n) is the sum over the quotient a : Fin m and the remainder b : Fin n of the value at
    b + n * a — the step that turns a sum over a long axis into a sum over blocks and positions inside a block, or a
    sum over a row-major grid of points into a sum over the grid's two coordinates.
-/
import Idealize.ShloMosaic.Lib.ValueIdx

open scoped BigOperators

namespace Cert.IndexSums

open Idealize.ShloMosaic Idealize.ShloMosaic.ValueIdx

variable {M : Type*} [AddCommMonoid M]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges … -/
def idxEquiv4 {n0 n1 n2 n3 : Nat} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over `Fin (m * n)` is the sum over the quotient `a : Fin m` and the remainder `b : Fin n` of the value at
    `b + n * a`. -/
theorem sum_fin_mul {m n : Nat} (f : Fin (m * n) → M) :
    ∑ k, f k = ∑ a : Fin m, ∑ b : Fin n, f (finProdFinEquiv (a, b)) := by
  rw [← Equiv.sum_comp finProdFinEquiv f, Fintype.sum_prod_type]

end Cert.IndexSums
-- ==== Proof.SelfSums.lean ====
/-
  A sum over the 328 feature columns, bracketed by class.

  The 328 columns are eight groups of forty (column `c·40 + d`) followed by eight single columns (column `320 + c`): in any
  commutative additive monoid the sum over all of them is the sum over the class `c` of (the sum over `d` of the value at
  `c·40 + d`) plus the value at `320 + c`.
-/
import proofs.«108484_g15788299780126_cont_week2b_740_2_alg».proof.Proof.LibIndexSums
import proofs.«108484_g15788299780126_cont_week2b_740_2_alg».proof.Proof.LibColumnJoin

open scoped BigOperators

namespace Cert.KernelIdeal.SelfSums

open Idealize.ShloMosaic.ColumnJoin Cert.IndexSums

/-- A sum over `m·n + m` columns: the sum over `c < m` of the `n` columns `c·n + d` and of the column `m·n + c`. -/
theorem sum_groups_and_tail {M : Type*} [AddCommMonoid M] {N : ℕ} (m n : ℕ) (hN : N = m * n + m) (f : Fin N → M) :
    ∑ j : Fin N, f j
      = ∑ c : Fin m, ((∑ d : Fin n, f ⟨c.val * n + d.val, by
            have hc := c.isLt; have hd := d.isLt
            have : c.val * n + d.val < m * n := by
              calc c.val * n + d.val < c.val * n + n := by omega
                _ = (c.val + 1) * n := by rw [Nat.add_mul, Nat.one_mul]
                _ ≤ m * n := Nat.mul_le_mul_right n (by omega)
            omega⟩)
          + f ⟨m * n + c.val, by have := c.isLt; omega⟩) := by
  rw [sum_fin_split (m * n) m hN f, Finset.sum_add_distrib]
  congr 1
  rw [sum_fin_mul (m := m) (n := n) (fun k : Fin (m * n) => f ⟨k.val, by have := k.isLt; omega⟩)]
  refine Finset.sum_congr rfl fun c _ => Finset.sum_congr rfl fun d _ => ?_
  refine congrArg f (Fin.ext ?_)
  show (finProdFinEquiv (c, d)).val = c.val * n + d.val
  simp [finProdFinEquiv, Nat.mul_comm, Nat.add_comm]

end Cert.KernelIdeal.SelfSums
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.LibRowsTimes.lean ====
/-
  A plain matrix product over the extended reals, as one function of its two operands.

  `rowsTimes x w` is the array whose entry `(r, c)` is the sum over `k` of `x (r, k) · w (k, c)`. Both the matrix unit's
  product into a zero accumulator and the host's `dot_general` ARE this function when their dimension numbers are the plain
  product's (the left operand contracted on its second axis, the right on its first, no batch axis): each is by definition
  the sum, over the contraction index, of the products of the operands' entries at the record's operand indices, and that
  sum is re-indexed by `k : Fin K` (`PlainDot.plain_sum`). Nothing here uses finiteness: the two sides are the same sum of
  the same products, term by term.
-/
import proofs.«108484_g15788299780126_cont_week2b_740_2_alg».proof.Proof.LibPlainDot
import Idealize.ShloMosaic.PureOps.Ideal.Laws

noncomputable section

namespace Idealize.ShloMosaic.RowsTimes

open Idealize.ShloMosaic Idealize.ShloMosaic.ValueIdx

/-- Entry `(r, c)` is the sum over `k` of `x (r, k) · w (k, c)`. -/
def rowsTimes {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

theorem rowsTimes_apply {M K N : Nat} (x : (⟨2, ![M, K]⟩ : Shape).Idx → EReal) (w : (⟨2, ![K, N]⟩ : Shape).Idx → EReal)
    (r : Fin M) (c : Fin N) : rowsTimes x w (ix2 r c) = ∑ k : Fin K, x (ix2 r k) * w (ix2 k c) := rfl

/-- The matrix unit's product into the zero accumulator, at an entry: the plain sum of products. -/
theorem matmul_zero_apply {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) (r : Fin M) (c : Fin N) :
    FloatOps.matmul d prec x w (constant ⟨2, ![M, N]⟩ .f32 0x00000000#32) (ix2 r c)
      = ∑ k : Fin K, x (ix2 r k) * w (ix2 k c) :=
  (Ideal.matmul_constant_zero_apply d prec x w (ix2 r c)).trans
    (PlainDot.plain_sum d h1 h2 h3 h4 h5 h6 hr hs (fun i j => x i * w j) r c)

/-- The host's `dot_general` of a plain product IS `rowsTimes` of its operands. -/
theorem hostDot_eq {M K N : Nat} {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (prec : Option ContractPrecision)
    (x : FVec Ideal ⟨2, ![M, K]⟩ φ₁) (w : FVec Ideal ⟨2, ![K, N]⟩ φ₂) :
    Host.dotGeneral (F := Ideal) d prec x w = rowsTimes x w := by
  funext i
  obtain ⟨r, c, rfl⟩ : ∃ (r : Fin M) (c : Fin N), i = ix2 r c := ⟨i 0, i 1, eq_ix2 i⟩
  unfold Host.dotGeneral
  rw [Ideal.dotGeneral_apply]
  exact PlainDot.plain_sum d h1 h2 h3 h4 h5 h6 hr hs (fun i j => x i * w j) r c

end Idealize.ShloMosaic.RowsTimes

end
-- ==== Proof.SelfBody.lean ====
/-
  The self stage's body, read at an index.

  The value the body stores is a matrix product `E · W`: `W` the `[328, 128]` concatenated weights, and `E` the `[2560, 328]`
  feature matrix whose row `r·20 + k` holds, for each class `c`, the forty numbers of agent `r`'s `k`-th trajectory times the
  indicator "label `r` is `c`" (columns `c·40 + d`), followed by the eight indicators themselves (columns `320 + c`).  The
  trajectory's last 24 numbers come from the product of the indicator matrix with the table of initial trajectories.
  Bracketing the sum over the 328 columns by class, the class whose number the label is contributes its expert's value and
  every other class contributes `0`: only `0 · x = 0` and `1 · x = x` are used, which hold for every extended real.
-/
import proofs.«108484_g15788299780126_cont_week2b_740_2_alg».proof.Proof.Gen.KernelIdeal.Skeleton
import proofs.«108484_g15788299780126_cont_week2b_740_2_alg».proof.Proof.Spec
import proofs.«108484_g15788299780126_cont_week2b_740_2_alg».proof.Proof.SelfOnehot
import proofs.«108484_g15788299780126_cont_week2b_740_2_alg».proof.Proof.SelfTraj
import proofs.«108484_g15788299780126_cont_week2b_740_2_alg».proof.Proof.SelfSums
import proofs.«108484_g15788299780126_cont_week2b_740_2_alg».proof.Proof.LibRowsTimes

noncomputable section

open scoped BigOperators

namespace Cert.KernelIdeal.SelfBody

open Idealize.ShloMosaic Idealize.ShloMosaic.ValueIdx Cert.KernelIdeal

/-- The indicator matrix of the block's labels: entry `(r, c)` is the float of "label `r` equals `c`". -/
def gate (lab : IVec S1x1x128 32) : FVec Ideal S128x8 .f32 :=
  sitofp .f32 (extui 32 (cmpi .eq
    (broadcastTo S128x8 (shapeCast S128x1 (shapeCast S128 lab Gen.shapeCasts_S1x1x128_S128) Gen.shapeCasts_S128_S128x1)
      Gen.broadcasts_S128x1_S128x8)
    (iota .tc S128x8 32 [1] Gen.iota_S128x8_d1_w32)) Gen.natLt_1_32)

/-- The block's initial rows: the indicator matrix times the table of initial trajectories. -/
def initRows (x : FVec Ideal S128x8 .f32) (init2 : FVec Ideal S8x480 .f32) : FVec Ideal S128x480 .f32 :=
  matmul (F := Ideal) dot_S128x8_S8x480_S128x480_1_0_0_1_n_n none x
    (shapeCast S8x480 init2 Gen.shapeCasts_S8x480_S8x480) (constant (F := Ideal) S128x480 .f32 0x00000000#32)

/-- The block's trajectories: the observation rows joined with the initial rows cut in twenty. -/
def trajStack (y : FVec Ideal S128x480 .f32) (obs2 : FVec Ideal S128x16 .f32) : FVec Ideal S128x20x40 .f32 :=
  concatenate S128x20x40 2
    [⟨S128x20x16, broadcastTo S128x20x16 (shapeCast S128x1x16 (shapeCast S128x1x16
        (shapeCast S128x16 obs2 Gen.shapeCasts_S128x16_S128x16) Gen.shapeCasts_S128x16_S128x1x16)
        Gen.shapeCasts_S128x1x16_S128x1x16) Gen.broadcasts_S128x1x16_S128x20x16⟩,
     ⟨S128x20x24, shapeCast S128x20x24 y Gen.shapeCasts_S128x480_S128x20x24⟩]
    Gen.concatenates_S128x20x16_S128x20x24_S128x20x40_d2

/-- The feature matrix: per class the trajectory times the indicator, then the indicators. -/
def feat (x : FVec Ideal S128x8 .f32) (t : FVec Ideal S128x20x40 .f32) : FVec Ideal S2560x328 .f32 :=
  concatenate S2560x328 1
    [⟨S2560x320, shapeCast S2560x320
        (mulf (broadcastTo S2560x8x40 (shapeCast S2560x1x40 t Gen.shapeCasts_S128x20x40_S2560x1x40)
            Gen.broadcasts_S2560x1x40_S2560x8x40)
          (broadcastTo S2560x8x40 (shapeCast S2560x8x1 (broadcastTo S128x20x8
            (shapeCast S128x1x8 (shapeCast S128x1x8 x Gen.shapeCasts_S128x8_S128x1x8) Gen.shapeCasts_S128x1x8_S128x1x8)
            Gen.broadcasts_S128x1x8_S128x20x8) Gen.shapeCasts_S128x20x8_S2560x8x1)
            Gen.broadcasts_S2560x8x1_S2560x8x40))
        Gen.shapeCasts_S2560x8x40_S2560x320⟩,
     ⟨S2560x8, shapeCast S2560x8 (shapeCast S2560x8x1 (broadcastTo S128x20x8
            (shapeCast S128x1x8 (shapeCast S128x1x8 x Gen.shapeCasts_S128x8_S128x1x8) Gen.shapeCasts_S128x1x8_S128x1x8)
            Gen.broadcasts_S128x1x8_S128x20x8) Gen.shapeCasts_S128x20x8_S2560x8x1)
        Gen.shapeCasts_S2560x8x1_S2560x8⟩]
    Gen.concatenates_S2560x320_S2560x8_S2560x328_d1

/-- The stored value is the feature matrix times the weights. -/
theorem pay_eq (lab : Vec Ideal S1x1x128 .i32) (init2 : Vec Ideal S8x480 .f32) (obs2 : Vec Ideal S128x16 .f32)
    (wcat : Vec Ideal S328x128 .f32) :
    Gen.k0_pay1 (F := Ideal) lab init2 obs2 wcat
      = matmul (F := Ideal) (φ₁ := .f32) (φ₂ := .f32) dot_S2560x328_S328x128_S2560x128_1_0_0_1_n_n none
          (feat (gate lab) (trajStack (initRows (gate lab) init2) obs2))
          (shapeCast S328x128 (wcat : FVec Ideal S328x128 .f32) Gen.shapeCasts_S328x128_S328x128)
          (constant (F := Ideal) S2560x128 .f32 0x00000000#32) := rfl

/-- The indicator matrix at `(r, c)`: `1` if label `r` is the word `c`, else `0`. -/
theorem gate_apply (lab : IVec S1x1x128 32) (r : Fin 128) (c : Fin 8) :
    gate lab (ix2 r c) = if lab (ix3 (0 : Fin 1) (0 : Fin 1) r) = BitVec.ofNat 32 c.val then 1 else 0 :=
  SelfOnehot.onehot_apply lab _ _ _ _ _ r c

/-- The initial rows at `(r, q)`: the sum over the classes of the gate times the table's entry. -/
theorem initRows_apply (x : FVec Ideal S128x8 .f32) (init2 : FVec Ideal S8x480 .f32) (r : Fin 128) (q : Fin 480) :
    initRows x init2 (ix2 r q) = ∑ c : Fin 8, x (ix2 r c) * init2 (ix2 c q) := by
  refine (RowsTimes.matmul_zero_apply dot_S128x8_S8x480_S128x480_1_0_0_1_n_n rfl rfl rfl rfl rfl rfl rfl rfl none x _ r q).trans ?_
  rw [shapeCast_self]

/-- With the indicator matrix as the gate and label `r` the word `c`, the initial row `r` is the table's row `c`: every
    other class's term is `0 · x = 0`. -/
theorem initRows_hit (lab : IVec S1x1x128 32) (init2 : FVec Ideal S8x480 .f32) (r : Fin 128) (c : Fin 8)
    (hl : lab (ix3 (0 : Fin 1) (0 : Fin 1) r) = BitVec.ofNat 32 c.val) (q : Fin 480) :
    initRows (gate lab) init2 (ix2 r q) = init2 (ix2 c q) := by
  rw [initRows_apply]
  have ht : ∀ c' : Fin 8, gate lab (ix2 r c') * init2 (ix2 c' q)
      = if lab (ix3 (0 : Fin 1) (0 : Fin 1) r) = BitVec.ofNat 32 c'.val then init2 (ix2 c' q) else 0 := fun c' => by
    rw [gate_apply]
    split
    · rw [one_mul]
    · rw [zero_mul]
  rw [Finset.sum_congr rfl fun c' _ => ht c']
  exact Cert.Spec.routed_hit (by omega) _ (fun c' : Fin 8 => init2 (ix2 c' q)) c hl

/-- The trajectory stack on its first 16 numbers: the observation. -/
theorem trajStack_lo (y : FVec Ideal S128x480 .f32) (obs2 : FVec Ideal S128x16 .f32) (r : Fin 128) (k : Fin 20) (d : Fin 40)
    (h : d.val < 16) : trajStack y obs2 (ix3 r k d) = obs2 (ix2 r (⟨d.val, h⟩ : Fin 16)) :=
  SelfTraj.traj_lo obs2 y _ _ _ _ _ _ r k d (⟨d.val, h⟩ : Fin 16) rfl

/-- The trajectory stack on its last 24 numbers: the initial row's piece `k`. -/
theorem trajStack_hi (y : FVec Ideal S128x480 .f32) (obs2 : FVec Ideal S128x16 .f32) (r : Fin 128) (k : Fin 20) (d : Fin 40)
    (h : ¬ d.val < 16) :
    trajStack y obs2 (ix3 r k d) = y (ix2 r (⟨k.val * 24 + (d.val - 16), by omega⟩ : Fin 480)) :=
  SelfTraj.traj_hi obs2 y _ _ _ _ _ _ rfl r k d (⟨d.val - 16, by omega⟩ : Fin 24) (by show d.val = 16 + (d.val - 16); omega)
    (⟨k.val * 24 + (d.val - 16), by omega⟩ : Fin 480) rfl

/-- The feature matrix on the gated columns. -/
theorem feat_lo (x : FVec Ideal S128x8 .f32) (t : FVec Ideal S128x20x40 .f32) (r : Fin 128) (k : Fin 20) (c : Fin 8)
    (d : Fin 40) :
    feat x t (ix2 (⟨r.val * 20 + k.val, by omega⟩ : Fin 2560) (⟨c.val * 40 + d.val, by omega⟩ : Fin 328))
      = t (ix3 r k d) * x (ix2 r c) :=
  SelfTraj.feat_lo x t _ _ _ _ _ _ _ _ _ _ rfl _ _ r k c d rfl rfl

/-- The feature matrix on the last eight columns. -/
theorem feat_hi (x : FVec Ideal S128x8 .f32) (t : FVec Ideal S128x20x40 .f32) (r : Fin 128) (k : Fin 20) (c : Fin 8) :
    feat x t (ix2 (⟨r.val * 20 + k.val, by omega⟩ : Fin 2560) (⟨320 + c.val, by omega⟩ : Fin 328)) = x (ix2 r c) :=
  SelfTraj.feat_hi x t _ _ _ _ _ _ _ _ _ _ _ _ r k c rfl rfl

/-- The sum over the 328 columns, bracketed by class. -/
theorem sum_cols {M : Type*} [AddCommMonoid M] (f : Fin 328 → M) :
    ∑ j : Fin 328, f j
      = ∑ c : Fin 8, ((∑ d : Fin 40, f (⟨c.val * 40 + d.val, by omega⟩ : Fin 328)) + f (⟨320 + c.val, by omega⟩ : Fin 328)) :=
  SelfSums.sum_groups_and_tail 8 40 rfl f

/-- THE BODY'S STORED VALUE at row `r·20 + k`, column `e`: the routed sum over the eight classes. -/
theorem pay_apply (lab : Vec Ideal S1x1x128 .i32) (init2 : Vec Ideal S8x480 .f32) (obs2 : Vec Ideal S128x16 .f32)
    (wcat : Vec Ideal S328x128 .f32) (r : Fin 128) (k : Fin 20) (e : Fin 128) :
    Gen.k0_pay1 (F := Ideal) lab init2 obs2 wcat (ix2 (⟨r.val * 20 + k.val, by omega⟩ : Fin 2560) e)
      = ∑ c : Fin 8, if lab (ix3 (0 : Fin 1) (0 : Fin 1) r) = BitVec.ofNat 32 c.val then
          (∑ d : Fin 40, (if h : d.val < 16 then obs2 (ix2 r (⟨d.val, by omega⟩ : Fin 16))
                          else init2 (ix2 c (⟨k.val * 24 + (d.val - 16), by omega⟩ : Fin 480)))
                         * wcat (ix2 (⟨c.val * 40 + d.val, by omega⟩ : Fin 328) e))
          + wcat (ix2 (⟨320 + c.val, by omega⟩ : Fin 328) e)
        else 0 := by
  rw [pay_eq]
  refine (RowsTimes.matmul_zero_apply dot_S2560x328_S328x128_S2560x128_1_0_0_1_n_n rfl rfl rfl rfl rfl rfl rfl rfl none _ _
    (⟨r.val * 20 + k.val, by omega⟩ : Fin 2560) e).trans ?_
  rw [shapeCast_self]
  refine (sum_cols _).trans ?_
  refine Finset.sum_congr rfl fun c _ => ?_
  have hhi := feat_hi (gate lab) (trajStack (initRows (gate lab) init2) obs2) r k c
  have hlo := fun d : Fin 40 => feat_lo (gate lab) (trajStack (initRows (gate lab) init2) obs2) r k c d
  show (∑ d : Fin 40, feat (gate lab) (trajStack (initRows (gate lab) init2) obs2)
          (ix2 (⟨r.val * 20 + k.val, by omega⟩ : Fin 2560) (⟨c.val * 40 + d.val, by omega⟩ : Fin 328))
          * wcat (ix2 (⟨c.val * 40 + d.val, by omega⟩ : Fin 328) e))
      + feat (gate lab) (trajStack (initRows (gate lab) init2) obs2)
          (ix2 (⟨r.val * 20 + k.val, by omega⟩ : Fin 2560) (⟨320 + c.val, by omega⟩ : Fin 328))
          * wcat (ix2 (⟨320 + c.val, by omega⟩ : Fin 328) e) = _
  rw [hhi]
  by_cases hl : lab (ix3 (0 : Fin 1) (0 : Fin 1) r) = BitVec.ofNat 32 c.val
  · have hg : gate lab (ix2 r c) = 1 := by rw [gate_apply, if_pos hl]
    rw [if_pos hl, hg, one_mul]
    congr 1
    refine Finset.sum_congr rfl fun d _ => ?_
    rw [hlo d, hg, mul_one]
    congr 1
    by_cases hd : d.val < 16
    · rw [dif_pos hd]
      exact trajStack_lo _ _ r k d hd
    · rw [dif_neg hd]
      exact (trajStack_hi _ _ r k d hd).trans (initRows_hit lab init2 r c hl _)
  · have hg : gate lab (ix2 r c) = 0 := by rw [gate_apply, if_neg hl]
    rw [if_neg hl, hg, zero_mul, add_zero]
    refine Finset.sum_eq_zero fun d _ => ?_
    rw [hlo d, hg, mul_zero, zero_mul]

end Cert.KernelIdeal.SelfBody

end
-- ==== Proof.KernelSelf.lean ====
/-
  The self-stage region's output array after the region, as one function of the argument arrays.  Point `t` of the
  grid stages labels and observations of the agents `t·128 … t·128 + 127` and the whole tables; the body stores one
  value that covers its output block; that value at row `r·20 + k` is the routed sum of the block's entries, and
  the block's entries are entries of the argument arrays, so it is the specification at agent `t·128 + r`,
  trajectory `k`.  The 32 output blocks of 2560 rows tile the 81920 rows, so the array is the specification
  everywhere.
-/
import proofs.«108484_g15788299780126_cont_week2b_740_2_alg».proof.Proof.Gen.KernelIdeal.Frame
import proofs.«108484_g15788299780126_cont_week2b_740_2_alg».proof.Proof.KernelEntry
import proofs.«108484_g15788299780126_cont_week2b_740_2_alg».proof.Proof.KernelPoints
import proofs.«108484_g15788299780126_cont_week2b_740_2_alg».proof.Proof.SelfBody
import Idealize.ShloMosaic.Lib.Pipeline.Value
set_option maxRecDepth 16384
noncomputable section
open scoped BigOperators

namespace Cert.KernelIdeal.SelfArr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store covers the staging buffer: the buffer after the body is the stored value. -/
theorem out_apply (x0 : Vec Ideal S1x1x128 .i32) (x1 : Vec Ideal S128x16 .f32) (x2 : Vec Ideal S8x480 .f32) (x3 : Vec Ideal S328x128 .f32) :
    out0_4 (F := Ideal) x0 x1 x2 x3 = k0_pay1 x0 x2 x1 x3 := by
  unfold out0_4
  rw [View.canon_unit_zero hz2]
  simp only [View.ld_unit_zero (S := S1x1x128) hz3, View.ld_unit_zero (S := S8x480) hz2, View.ld_unit_zero (S := S128x16) hz2,
    View.ld_unit_zero (S := S328x128) hz2]

theorem idx_facts : ∀ t : Fin cfg0.N, win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem tlt (t : Fin cfg0.N) : t.val < 32 := lt_of_lt_of_eq t.isLt N_0

/-- Block reads: each window's block at point `t` is a part of its array. -/
theorem read0 (c : Dev nD) (t : Fin cfg0.N) (r : Fin 128) :
    iblk0 (V1 m ρ) c 0 t (ix3 (0 : Fin 1) (0 : Fin 1) r) = V1 m ρ c main_call0_v9 (ix3 (⟨t.val, tlt t⟩ : Fin 32) (0 : Fin 1) r) := by
  obtain ⟨e0, e1, e2, -⟩ := idx_facts t
  show V1 m ρ c (Pipeline.arrRef spec0 0) (((cfg0.win 0).blk t).view.emb (ix3 (0 : Fin 1) (0 : Fin 1) r)) = _
  refine congrArg (V1 m ρ c main_call0_v9) (funext fun a => Fin.ext ?_)
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 128 + 1 * r.val = r.val; omega

theorem read1 (c : Dev nD) (t : Fin cfg0.N) (r : Fin 128) (d : Fin 16) :
    iblk0 (V1 m ρ) c 1 t (ix2 r d) = V1 m ρ c main_call0_v0 (ix2 (⟨t.val * 128 + r.val, by have := tlt t; omega⟩ : Fin 4096) d) := by
  obtain ⟨-, -, -, e3, e4, -⟩ := idx_facts t
  show V1 m ρ c (Pipeline.arrRef spec0 1) (((cfg0.win 1).blk t).view.emb (ix2 r d)) = _
  refine congrArg (V1 m ρ c main_call0_v0) (funext fun a => Fin.ext ?_)
  match a with
  | ⟨0, _⟩ => show win0_1.index t (0 : Fin 2) * 128 + 1 * r.val = t.val * 128 + r.val; omega
  | ⟨1, _⟩ => show win0_1.index t (1 : Fin 2) * 16 + 1 * d.val = d.val; omega

theorem read2 (c : Dev nD) (t : Fin cfg0.N) (cl : Fin 8) (j : Fin 480) :
    iblk0 (V1 m ρ) c 2 t (ix2 cl j) = V1 m ρ c main_call0_v1 (ix2 cl j) := by
  obtain ⟨-, -, -, -, -, e5, e6, -⟩ := idx_facts t
  show V1 m ρ c (Pipeline.arrRef spec0 2) (((cfg0.win 2).blk t).view.emb (ix2 cl j)) = _
  refine congrArg (V1 m ρ c main_call0_v1) (funext fun a => Fin.ext ?_)
  match a with
  | ⟨0, _⟩ => show win0_2.index t (0 : Fin 2) * 8 + 1 * cl.val = cl.val; omega
  | ⟨1, _⟩ => show win0_2.index t (1 : Fin 2) * 480 + 1 * j.val = j.val; omega

theorem read3 (c : Dev nD) (t : Fin cfg0.N) (j : Fin 328) (e : Fin 128) :
    iblk0 (V1 m ρ) c 3 t (ix2 j e) = V1 m ρ c main_call0_v4 (ix2 j e) := by
  obtain ⟨-, -, -, -, -, -, -, e7, e8, -⟩ := idx_facts t
  show V1 m ρ c (Pipeline.arrRef spec0 3) (((cfg0.win 3).blk t).view.emb (ix2 j e)) = _
  refine congrArg (V1 m ρ c main_call0_v4) (funext fun a => Fin.ext ?_)
  match a with
  | ⟨0, _⟩ => show win0_3.index t (0 : Fin 2) * 328 + 1 * j.val = j.val; omega
  | ⟨1, _⟩ => show win0_3.index t (1 : Fin 2) * 128 + 1 * e.val = e.val; omega

/-- What point `t` leaves at row `row`, channel `e` of its output block is the specification at agent
    `t·128 + row / 20`, trajectory `row % 20`. -/
theorem point (c : Dev nD) (t : Fin cfg0.N) (row : Fin 2560) (e : Fin 128) :
    out0_4 (iblk0 (V1 m ρ) c 0 t) (iblk0 (V1 m ρ) c 1 t) (iblk0 (V1 m ρ) c 2 t) (iblk0 (V1 m ρ) c 3 t) (ix2 row e)
      = Cert.Spec.selfAt (m ((c.tc : Thread nD τ).loc main_arg0)) (m ((c.tc : Thread nD τ).loc main_arg2))
          (m ((c.tc : Thread nD τ).loc main_arg4)) (m ((c.tc : Thread nD τ).loc main_arg5)) (m ((c.tc : Thread nD τ).loc main_arg6))
          (⟨t.val * 128 + row.val / 20, by have := tlt t; omega⟩ : Fin 4096) (⟨row.val % 20, by omega⟩ : Fin 20) e := by
  refine (congrFun (out_apply _ _ _ _) _).trans ?_
  have hrow : row = (⟨(⟨row.val / 20, by omega⟩ : Fin 128).val * 20 + (⟨row.val % 20, by omega⟩ : Fin 20).val, by omega⟩ : Fin 2560) :=
    Fin.ext (by show row.val = row.val / 20 * 20 + row.val % 20; omega)
  refine (congrArg (fun z : Fin 2560 => k0_pay1 (F := Ideal) (iblk0 (V1 m ρ) c 0 t) (iblk0 (V1 m ρ) c 2 t) (iblk0 (V1 m ρ) c 1 t)
    (iblk0 (V1 m ρ) c 3 t) (ix2 z e)) hrow).trans ?_
  refine (Cert.KernelIdeal.SelfBody.pay_apply (iblk0 (V1 m ρ) c 0 t) (iblk0 (V1 m ρ) c 2 t) (iblk0 (V1 m ρ) c 1 t)
    (iblk0 (V1 m ρ) c 3 t) (⟨row.val / 20, by omega⟩ : Fin 128) (⟨row.val % 20, by omega⟩ : Fin 20) e).trans ?_
  refine Cert.Points.self_point (iblk0 (V1 m ρ) c 0 t) (iblk0 (V1 m ρ) c 1 t) (iblk0 (V1 m ρ) c 2 t) (iblk0 (V1 m ρ) c 3 t)
    (m ((c.tc : Thread nD τ).loc main_arg0)) (m ((c.tc : Thread nD τ).loc main_arg2))
    (m ((c.tc : Thread nD τ).loc main_arg4)) (m ((c.tc : Thread nD τ).loc main_arg5)) (m ((c.tc : Thread nD τ).loc main_arg6))
    (⟨t.val * 128 + row.val / 20, by have := tlt t; omega⟩ : Fin 4096)
    (⟨row.val / 20, by omega⟩ : Fin 128) (⟨row.val % 20, by omega⟩ : Fin 20) e ?_ ?_ ?_ ?_ ?_
  · exact (read0 m ρ c t _).trans (Cert.KernelIdeal.Entry.self_lab m ρ c (⟨t.val, tlt t⟩ : Fin 32) _)
  · intro d; exact (read1 m ρ c t _ d).trans (Cert.KernelIdeal.Entry.self_obs m ρ c _ d)
  · intro cl j; exact (read2 m ρ c t cl j).trans (Cert.KernelIdeal.Entry.self_init m ρ c cl j)
  · intro j hj; exact (read3 m ρ c t j e).trans (Cert.KernelIdeal.Entry.self_w m ρ c j e hj)
  · intro cl; exact (read3 m ρ c t _ e).trans (Cert.KernelIdeal.Entry.self_b m ρ c cl e)

/-- The self-stage region's output array as one function of the arguments: row `q` is agent `q / 20`,
    trajectory `q % 20`. -/
def G0 (c : Dev nD) : S81920x128.Idx → Elt Ideal .f32 := fun i =>
  Cert.Spec.selfAt (m ((c.tc : Thread nD τ).loc main_arg0)) (m ((c.tc : Thread nD τ).loc main_arg2))
    (m ((c.tc : Thread nD τ).loc main_arg4)) (m ((c.tc : Thread nD τ).loc main_arg5)) (m ((c.tc : Thread nD τ).loc main_arg6))
    (⟨(i 0).val / 20, by have := idx2_lt0 i; omega⟩ : Fin 4096) (⟨(i 0).val % 20, Nat.mod_lt _ (by decide)⟩ : Fin 20)
    (⟨(i 1).val, idx2_lt1 i⟩ : Fin 128)

/-- What point `t` writes back is block `t` of that function. -/
theorem flushed_eq (c : Dev nD) (t : Fin cfg0.N) :
    (dat0 (V1 m ρ) c).flushed 4 t = ((cfg0.win 4).blk t).view.read (Elt Ideal) (G0 m c) := by
  show (cfg0.win 4).cut (grid0.coords t) ((dat0 (V1 m ρ) c).after 4 t) = _
  rw [after0_4]
  funext j
  obtain ⟨row, e, rfl⟩ : ∃ (row : Fin 2560) (e : Fin 128), j = ix2 row e := ⟨j 0, j 1, eq_ix2 j⟩
  show out0_4 (iblk0 (V1 m ρ) c 0 t) (iblk0 (V1 m ρ) c 1 t) (iblk0 (V1 m ρ) c 2 t) (iblk0 (V1 m ρ) c 3 t) (ix2 row e)
    = G0 m c (((cfg0.win 4).blk t).view.emb (ix2 row e))
  refine (point m ρ c t row e).trans ?_
  obtain ⟨-, -, -, -, -, -, -, -, -, e9, e10⟩ := idx_facts t
  have h0 : ((((cfg0.win 4).blk t).view.emb (ix2 row e)) 0).val = t.val * 2560 + row.val := by
    show win0_4.index t (0 : Fin 2) * 2560 + 1 * row.val = _; omega
  have h1 : ((((cfg0.win 4).blk t).view.emb (ix2 row e)) 1).val = e.val := by
    show win0_4.index t (1 : Fin 2) * 128 + 1 * e.val = _; omega
  unfold G0
  have ea : (⟨t.val * 128 + row.val / 20, by have := tlt t; omega⟩ : Fin 4096)
      = ⟨((((cfg0.win 4).blk t).view.emb (ix2 row e)) 0).val / 20, by rw [h0]; have := tlt t; omega⟩ := Fin.ext (by show t.val * 128 + row.val / 20 = ((((cfg0.win 4).blk t).view.emb (ix2 row e)) 0).val / 20; rw [h0]; omega)
  have ek : (⟨row.val % 20, by omega⟩ : Fin 20)
      = ⟨((((cfg0.win 4).blk t).view.emb (ix2 row e)) 0).val % 20, Nat.mod_lt _ (by decide)⟩ := Fin.ext (by show row.val % 20 = ((((cfg0.win 4).blk t).view.emb (ix2 row e)) 0).val % 20; rw [h0]; omega)
  have ee : e = (⟨((((cfg0.win 4).blk t).view.emb (ix2 row e)) 1).val, by rw [h1]; exact e.isLt⟩ : Fin 128) := Fin.ext h1.symm
  rw [ea, ek]
  exact congrArg _ ee

/-- An index of the array is in point `t`'s block iff each coordinate is in the block's range on its axis. -/
theorem mem_blk (t : Fin cfg0.N) (i : S81920x128.Idx) :
    i ∈ ((cfg0.win 4).blk t).view.set ↔ ∀ a : Fin 2, win0_4.index t a * S2560x128.size a ≤ (i a).val ∧ (i a).val < win0_4.index t a * S2560x128.size a + S2560x128.size a := by
  show i ∈ ((View.whole main_call0_v10).slice (win0_4.rect t)).set ↔ _
  rw [View.set_slice_whole, Rect.mem_set_unit]
  exact Iff.rfl

/-- Every row of the array is in the block of the point `row / 2560`. -/
theorem cover (i : S81920x128.Idx) : ∃ t : Fin cfg0.N, (cfg0.win 4).flush t = true ∧ i ∈ ((cfg0.win 4).blk t).view.set := by
  have hi0 : (i 0).val < 81920 := idx2_lt0 i
  have hi1 : (i 1).val < 128 := idx2_lt1 i
  have ht : (i 0).val / 2560 < cfg0.N := lt_of_lt_of_eq (by omega) N_0.symm
  obtain ⟨-, -, -, -, -, -, -, -, -, e9, e10⟩ := idx_facts ⟨(i 0).val / 2560, ht⟩
  refine ⟨⟨(i 0).val / 2560, ht⟩, flush0_4 _, ?_⟩
  rw [mem_blk]
  intro a
  match a with
  | ⟨0, _⟩ =>
    show win0_4.index ⟨(i 0).val / 2560, ht⟩ (0 : Fin 2) * 2560 ≤ (i 0).val ∧ (i 0).val < win0_4.index ⟨(i 0).val / 2560, ht⟩ (0 : Fin 2) * 2560 + 2560
    have : win0_4.index ⟨(i 0).val / 2560, ht⟩ (0 : Fin 2) = (i 0).val / 2560 := e9
    omega
  | ⟨1, _⟩ =>
    show win0_4.index ⟨(i 0).val / 2560, ht⟩ (1 : Fin 2) * 128 ≤ (i 1).val ∧ (i 1).val < win0_4.index ⟨(i 0).val / 2560, ht⟩ (1 : Fin 2) * 128 + 128
    omega

/-- So after the region its output array is that function. -/
theorem final (c : Dev nD) : (dat0 (V1 m ρ) c).arrAt 4 cfg0.N = G0 m c :=
  (dat0 (V1 m ρ) c).arrAt_eq_of_cover 4 (G0 m c) (fun t _ => flushed_eq m ρ c t) cover

end Cert.KernelIdeal.SelfArr
end
-- ==== Proof.NeiScalar.lean ====
/-
  Scalar facts of the neighbour stage over the extended reals.

  * The word `0xB8D1B717` denotes the negative of what `0x38D1B717` denotes (same exponent and significand, sign bit set).
  * `1 / (f + s)`, with `s` chosen between `ε` and `-ε` by the bit of `f ≥ 0`, is the transformed coordinate
    `1 / (f + ε)` for `f ≥ 0` and `1 / (f - ε)` otherwise: by cases on the bit, and `f + -ε = f - ε`.
  * A comparison bit widened to 32 bits and converted to a float is `1` when the bit is set and `0` otherwise.
-/
import Idealize.ShloMosaic.PureOps.Ideal
import Idealize.ShloMosaic.PureOps.Ideal.Laws
import Idealize.ShloMosaic.Lib.ValueIdx
import proofs.«108484_g15788299780126_cont_week2b_740_2_alg».proof.Proof.Spec

noncomputable section

namespace Cert.NeiScalar

open Idealize.ShloMosaic Idealize.ShloMosaic.ValueIdx

/-- The word with the sign bit set denotes the negative of the word without it. -/
theorem neg_eps : Ideal.ofBits .f32 0xB8D1B717#32 = -(Ideal.ofBits .f32 0x38D1B717#32) := by
  simp [Ideal.ofBits, Ideal.ieee]

/-- A bit, widened to 32 bits and converted to a float, is `1` when set and `0` otherwise. -/
theorem onehot_val (b : BitVec 1) :
    FloatOps.sitofp (F := Ideal) .f32 (b.setWidth 32) = if b = 1#1 then (1 : EReal) else 0 := by
  rcases BitVec.eq_zero_or_eq_one b with h | h
  · subst h
    rw [if_neg (by decide)]
    show ((((0#1 : BitVec 1).setWidth 32).toInt : ℝ) : EReal) = 0
    simp
  · subst h
    rw [if_pos rfl]
    show ((((1#1 : BitVec 1).setWidth 32).toInt : ℝ) : EReal) = 1
    simp

/-- `1 / (f + s)` with `s` chosen between `ε` and `-ε` by the bit of `f ≥ 0` is the transformed coordinate. -/
theorem tnei_of_select (f : EReal) :
    Ideal.div (Ideal.ofBits .f32 0x3F800000#32)
        (f + Scalar.select (FloatOps.cmpf (F := Ideal) .oge f (Ideal.ofBits .f32 0x00000000#32))
              (Ideal.ofBits .f32 0x38D1B717#32) (Ideal.ofBits .f32 0xB8D1B717#32))
      = Cert.Spec.tnei f := by
  unfold Cert.Spec.tnei
  rcases BitVec.eq_zero_or_eq_one (FloatOps.cmpf (F := Ideal) .oge f (Ideal.ofBits .f32 0x00000000#32)) with h | h
  · rw [h, select_zero, select_zero, neg_eps, sub_eq_add_neg]
  · rw [h, select_one, select_one]

end Cert.NeiScalar

end
-- ==== Proof.NeiLayout.lean ====
/-
  Casts and broadcasts of the neighbour kernel's feature matrix, read at an index written by coordinates.

  A cast keeps the row-major position; a broadcast reads the operand at `0` on its unit axes.
-/
import Idealize.ShloMosaic.Lib.ValueIdx
import Idealize.ShloMosaic.Lib.Pipeline.Value

namespace Cert.NeiLayout

open Idealize.ShloMosaic Idealize.ShloMosaic.ValueIdx

variable {α : Type}

/-- A `[1, 1, n]` array cast to `[n]` reads, at `r`, the array at `(0, 0, r)`. -/
theorem shapeCast_11n_n_apply {n : ℕ} (x : (⟨3, ![1, 1, n]⟩ : Shape).Idx → α)
    (h : (⟨3, ![1, 1, n]⟩ : Shape).ShapeCasts ⟨1, ![n]⟩) (r : Fin n) :
    shapeCast ⟨1, ![n]⟩ x h (ix1 r) = x (ix3 (0 : Fin 1) (0 : Fin 1) r) :=
  shapeCast_apply x h _ _ (by
    rw [Shape.rowMajor_val_three, Shape.rowMajor_val_one]
    show (0 * 1 + 0) * n + r.val = r.val
    simp)

/-- An `[n]` vector cast to an `[n, 1]` column reads, at `(r, u)`, the vector at `r`. -/
theorem shapeCast_n_n1_apply {n : ℕ} (x : (⟨1, ![n]⟩ : Shape).Idx → α)
    (h : (⟨1, ![n]⟩ : Shape).ShapeCasts ⟨2, ![n, 1]⟩) (r : Fin n) (u : Fin 1) :
    shapeCast ⟨2, ![n, 1]⟩ x h (ix2 r u) = x (ix1 r) :=
  shapeCast_apply x h _ _ (by
    have hu : u.val = 0 := by omega
    rw [Shape.rowMajor_val_one, Shape.rowMajor_val_two]
    show r.val = r.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b, 1]` stack broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` stack with its last two axes flattened (`[a, m]`, `m = b·c`) reads, at row `i` and column
    `q = j·c + k`, the stack at `(i, j, k)`. -/
theorem shapeCast_abc_am_apply {a b c m : ℕ} (x : (⟨3, ![a, b, c]⟩ : Shape).Idx → α)
    (h : (⟨3, ![a, b, c]⟩ : Shape).ShapeCasts ⟨2, ![a, m]⟩) (hm : m = b * c) (i : Fin a) (q : Fin m) (j : Fin b) (k : Fin c)
    (hq : q.val = j.val * c + k.val) :
    shapeCast ⟨2, ![a, m]⟩ x h (ix2 i q) = x (ix3 i j k) :=
  shapeCast_apply x h _ _ (by
    rw [Shape.rowMajor_val_three, Shape.rowMajor_val_two]
    show (i.val * b + j.val) * c + k.val = i.val * m + q.val
    rw [hq, hm, Nat.add_mul, Nat.mul_assoc, Nat.add_assoc])

/-- The reverse: an `[a, m]` matrix (`m = b·c`) cast to `[a, b, c]` reads, at `(i, j, k)`, the matrix at row `i`, column
    `q = j·c + k`. -/
theorem shapeCast_am_abc_apply {a b c m : ℕ} (x : (⟨2, ![a, m]⟩ : Shape).Idx → α)
    (h : (⟨2, ![a, m]⟩ : Shape).ShapeCasts ⟨3, ![a, b, c]⟩) (hm : m = b * c) (i : Fin a) (j : Fin b) (k : Fin c) (q : Fin m)
    (hq : q.val = j.val * c + k.val) :
    shapeCast ⟨3, ![a, b, c]⟩ x h (ix3 i j k) = x (ix2 i q) :=
  shapeCast_apply x h _ _ (by
    rw [Shape.rowMajor_val_three, Shape.rowMajor_val_two]
    show i.val * m + q.val = (i.val * b + j.val) * c + k.val
    rw [hq, hm, Nat.add_mul, Nat.mul_assoc, Nat.add_assoc])

end Cert.NeiLayout
-- ==== Proof.NeiAlgebra.lean ====
/-
  The routed feature product, as pure algebra over the extended reals.

  A row `F` of 153 features holds, at position `c·16 + d`, the product `t d · h c` and, at position `144 + c`, the
  number `h c`, where `h c` is `1` when the row is routed to class `c` and `0` otherwise. Its product with a column
  `W` of 153 weights is then the sum over the nine classes of the class's term `(Σ_d t d · W (c·16 + d)) + W (144 + c)`
  when the row is routed to `c`, and of `0` otherwise: `x · 1 = x`, `1 · x = x`, `x · 0 = 0` and `0 · x = 0` hold for
  every extended real, so no distributivity and no finiteness is used.
-/
import Idealize.ShloMosaic.PureOps.Ideal
import proofs.«108484_g15788299780126_cont_week2b_740_2_alg».proof.Proof.LibColumnJoin
import proofs.«108484_g15788299780126_cont_week2b_740_2_alg».proof.Proof.LibIndexSums

open scoped BigOperators

namespace Cert.NeiAlgebra

open Idealize.ShloMosaic

/-- A sum over 144 positions is the sum over nine blocks of sixteen. -/
theorem sum_blocks {M : Type*} [AddCommMonoid M] (g : Fin 144 → M) :
    ∑ k, g k = ∑ c : Fin 9, ∑ d : Fin 16, g ⟨c.val * 16 + d.val, by omega⟩ := by
  refine (Cert.IndexSums.sum_fin_mul (m := 9) (n := 16) g).trans ?_
  refine Finset.sum_congr rfl fun c _ => Finset.sum_congr rfl fun d _ => congrArg g (Fin.ext ?_)
  show d.val + 16 * c.val = c.val * 16 + d.val
  omega

/-- The routed feature product. -/
theorem routed_features (F W : Fin 153 → EReal) (t : Fin 16 → EReal) (h : Fin 9 → EReal) (P : Fin 9 → Prop)
    [DecidablePred P]
    (hF1 : ∀ (c : Fin 9) (d : Fin 16), F ⟨c.val * 16 + d.val, by omega⟩ = t d * h c)
    (hF2 : ∀ c : Fin 9, F ⟨144 + c.val, by omega⟩ = h c)
    (hh : ∀ c, h c = if P c then 1 else 0) :
    ∑ k, F k * W k
      = ∑ c : Fin 9, if P c then
          (∑ d : Fin 16, t d * W ⟨c.val * 16 + d.val, by omega⟩) + W ⟨144 + c.val, by omega⟩
        else 0 := by
  rw [ColumnJoin.sum_fin_split 144 9 rfl (fun k => F k * W k)]
  rw [sum_blocks (fun k : Fin 144 => F ⟨k.val, by omega⟩ * W ⟨k.val, by omega⟩)]
  rw [← Finset.sum_add_distrib]
  refine Finset.sum_congr rfl fun c _ => ?_
  have e1 : ∀ d : Fin 16, F ⟨c.val * 16 + d.val, by omega⟩ * W ⟨c.val * 16 + d.val, by omega⟩
      = (t d * h c) * W ⟨c.val * 16 + d.val, by omega⟩ := fun d => by rw [hF1 c d]
  have e2 : F ⟨144 + c.val, by omega⟩ * W ⟨144 + c.val, by omega⟩ = h c * W ⟨144 + c.val, by omega⟩ := by rw [hF2 c]
  refine (congrArg₂ (· + ·) (Finset.sum_congr rfl fun d _ => e1 d) e2).trans ?_
  rw [hh c]
  by_cases hp : P c
  · simp only [if_pos hp, mul_one, one_mul]
  · simp only [if_neg hp, mul_zero, zero_mul, Finset.sum_const_zero, add_zero]

end Cert.NeiAlgebra
-- ==== Proof.NeiBody.lean ====
/-
  The neighbour kernel's arithmetic read at an index.

  The kernel multiplies a `[2048, 153]` feature matrix into the `[153, 128]` concatenated weights. Row `r` of the
  feature matrix holds, at column `c·16 + d`, the transformed coordinate `d` of row `r` times the indicator that row
  `r`'s label is class `c`, and at column `144 + c` that indicator. So entry `(r, e)` of the product is the sum over
  the nine classes of the class's term when the label is that class (`1 · x = x`) and of `0` otherwise (`0 · x = 0` for
  every extended real): no distributivity and no finiteness is used.
-/
import proofs.«108484_g15788299780126_cont_week2b_740_2_alg».proof.Proof.Gen.KernelIdeal.Skeleton
import proofs.«108484_g15788299780126_cont_week2b_740_2_alg».proof.Proof.Spec
import proofs.«108484_g15788299780126_cont_week2b_740_2_alg».proof.Proof.NeiScalar
import proofs.«108484_g15788299780126_cont_week2b_740_2_alg».proof.Proof.NeiLayout
import proofs.«108484_g15788299780126_cont_week2b_740_2_alg».proof.Proof.LibRowsTimes
import proofs.«108484_g15788299780126_cont_week2b_740_2_alg».proof.Proof.LibColumnJoin
import proofs.«108484_g15788299780126_cont_week2b_740_2_alg».proof.Proof.LibIndexSums
import proofs.«108484_g15788299780126_cont_week2b_740_2_alg».proof.Proof.LibPairStack
import proofs.«108484_g15788299780126_cont_week2b_740_2_alg».proof.Proof.NeiAlgebra
import Idealize.ShloMosaic.Lib.Affine

noncomputable section

open scoped BigOperators

namespace Cert.KernelIdeal.NeiBody

open Idealize.ShloMosaic Idealize.ShloMosaic.ValueIdx Cert.KernelIdeal
open Cert.KernelIdeal.Facts₀ Cert.KernelIdeal.Facts

/-- The transformed coordinates of the block, as the kernel computes them. -/
def tn (nb : Vec Ideal S2048x16 .f32) : FVec Ideal S2048x16 .f32 :=
  divf (broadcast S2048x16 (Scalar.ofBits (F := Ideal) .f32 0x3F800000#32))
    (addf (shapeCast S2048x16 nb shapeCasts_S2048x16_S2048x16)
      (select (cmpf .oge (shapeCast S2048x16 nb shapeCasts_S2048x16_S2048x16) (broadcast S2048x16 (Scalar.ofBits (F := Ideal) .f32 0x00000000#32)))
        (broadcast S2048x16 (Scalar.ofBits (F := Ideal) .f32 0x38D1B717#32))
        (broadcast S2048x16 (Scalar.ofBits (F := Ideal) .f32 0xB8D1B717#32))))

theorem tn_apply (nb : Vec Ideal S2048x16 .f32) (r : Fin 2048) (d : Fin 16) :
    tn nb (ix2 r d) = Cert.Spec.tnei (nb (ix2 r d)) := by
  unfold tn
  rw [shapeCast_self]
  exact Cert.NeiScalar.tnei_of_select (nb (ix2 r d))

/-- The block's labels, one row per label, repeated over the nine classes. -/
def labs (lab : Vec Ideal S1x1x2048 .i32) : IVec S2048x9 32 :=
  broadcastTo S2048x9 (shapeCast S2048x1 (shapeCast S2048 lab shapeCasts_S1x1x2048_S2048) shapeCasts_S2048_S2048x1)
    broadcasts_S2048x1_S2048x9

theorem labs_apply (lab : Vec Ideal S1x1x2048 .i32) (r : Fin 2048) (c : Fin 9) :
    labs lab (ix2 r c) = lab (ix3 (0 : Fin 1) (0 : Fin 1) r) := by
  unfold labs
  refine (Cert.NeiLayout.broadcastTo_a1_ab_apply _ broadcasts_S2048x1_S2048x9 r c).trans ?_
  refine (Cert.NeiLayout.shapeCast_n_n1_apply _ shapeCasts_S2048_S2048x1 r 0).trans ?_
  exact Cert.NeiLayout.shapeCast_11n_n_apply lab shapeCasts_S1x1x2048_S2048 r

/-- The indicator of "row `r`'s label is class `c`", as a float. -/
def onehot (lab : Vec Ideal S1x1x2048 .i32) : FVec Ideal S2048x9 .f32 :=
  sitofp .f32 (extui 32 (cmpi .eq (labs lab) (iota .tc S2048x9 32 [1] iota_S2048x9_d1_w32)) natLt_1_32)

theorem onehot_apply (lab : Vec Ideal S1x1x2048 .i32) (r : Fin 2048) (c : Fin 9) :
    onehot lab (ix2 r c) = if lab (ix3 (0 : Fin 1) (0 : Fin 1) r) = BitVec.ofNat 32 c.val then (1 : EReal) else 0 := by
  unfold onehot
  rw [sitofp_apply, extui_apply]
  refine (Cert.NeiScalar.onehot_val _).trans ?_
  have hc : cmpi .eq (labs lab) (iota .tc S2048x9 32 [1] iota_S2048x9_d1_w32) (ix2 r c)
      = IntOp.cmpi .eq (lab (ix3 (0 : Fin 1) (0 : Fin 1) r)) (BitVec.ofNat 32 c.val) := by
    show IntOp.cmpi .eq (labs lab (ix2 r c)) (iota .tc S2048x9 32 [1] iota_S2048x9_d1_w32 (ix2 r c)) = _
    rw [labs_apply, iota_single_apply]
  rw [hc]
  by_cases h : lab (ix3 (0 : Fin 1) (0 : Fin 1) r) = BitVec.ofNat 32 c.val
  · rw [if_pos h, if_pos (IntOp.cmpi_eq.mpr h)]
  · rw [if_neg h, if_neg (fun h' => h (IntOp.cmpi_eq.mp h'))]

/-- The feature matrix. -/
def feat (nb : Vec Ideal S2048x16 .f32) (lab : Vec Ideal S1x1x2048 .i32) : FVec Ideal S2048x153 .f32 :=
  concatenate S2048x153 1
    [⟨S2048x144, shapeCast S2048x144
        (mulf (broadcastTo S2048x9x16 (shapeCast S2048x1x16 (tn nb) shapeCasts_S2048x16_S2048x1x16) broadcasts_S2048x1x16_S2048x9x16)
              (broadcastTo S2048x9x16 (shapeCast S2048x9x1 (onehot lab) shapeCasts_S2048x9_S2048x9x1) broadcasts_S2048x9x1_S2048x9x16))
        shapeCasts_S2048x9x16_S2048x144⟩,
     ⟨S2048x9, onehot lab⟩] concatenates_S2048x144_S2048x9_S2048x153_d1

theorem pay_eq (nb : Vec Ideal S2048x16 .f32) (lab : Vec Ideal S1x1x2048 .i32) (wcat : Vec Ideal S153x128 .f32) :
    Gen.k1_pay1 (F := Ideal) nb lab wcat
      = matmul dot_S2048x153_S153x128_S2048x128_1_0_0_1_n_n none (feat nb lab)
          (shapeCast S153x128 wcat shapeCasts_S153x128_S153x128 : FVec Ideal S153x128 .f32) (constant S2048x128 .f32 0x00000000#32) := rfl

/-- Column `c·16 + d` of the feature matrix: the transformed coordinate `d` times the indicator of class `c`. -/
theorem feat_left (nb : Vec Ideal S2048x16 .f32) (lab : Vec Ideal S1x1x2048 .i32) (r : Fin 2048) (c : Fin 9) (d : Fin 16) :
    feat nb lab (ix2 r (⟨c.val * 16 + d.val, by omega⟩ : Fin 153)) = tn nb (ix2 r d) * onehot lab (ix2 r c) := by
  unfold feat
  refine (ColumnJoin.join_cols_left _ _ concatenates_S2048x144_S2048x9_S2048x153_d1 r _
    (⟨c.val * 16 + d.val, by omega⟩ : Fin 144) rfl).trans ?_
  refine (Cert.NeiLayout.shapeCast_abc_am_apply _ shapeCasts_S2048x9x16_S2048x144 rfl r _ c d rfl).trans ?_
  refine (mulf_apply _ _ _).trans ?_
  exact congrArg₂ (· * ·)
    ((PairStack.broadcastTo_a1c_abc_apply _ broadcasts_S2048x1x16_S2048x9x16 r c d).trans
      (PairStack.shapeCast_ac_a1c_apply _ shapeCasts_S2048x16_S2048x1x16 r 0 d))
    ((Cert.NeiLayout.broadcastTo_ab1_abc_apply _ broadcasts_S2048x9x1_S2048x9x16 r c d).trans
      (Cert.NeiLayout.shapeCast_ab_ab1_apply _ shapeCasts_S2048x9_S2048x9x1 r c 0))

/-- Column `144 + c` of the feature matrix: the indicator of class `c`. -/
theorem feat_right (nb : Vec Ideal S2048x16 .f32) (lab : Vec Ideal S1x1x2048 .i32) (r : Fin 2048) (c : Fin 9) :
    feat nb lab (ix2 r (⟨144 + c.val, by omega⟩ : Fin 153)) = onehot lab (ix2 r c) := by
  unfold feat
  exact ColumnJoin.join_cols_right _ _ concatenates_S2048x144_S2048x9_S2048x153_d1 r _ c rfl

/-- THE KERNEL'S ARITHMETIC AT AN ENTRY. -/
theorem pay_apply (nb : Vec Ideal S2048x16 .f32) (lab : Vec Ideal S1x1x2048 .i32) (wcat : Vec Ideal S153x128 .f32) (r : Fin 2048) (e : Fin 128) :
    Gen.k1_pay1 (F := Ideal) nb lab wcat (ix2 r e)
      = ∑ c : Fin 9, if lab (ix3 (0 : Fin 1) (0 : Fin 1) r) = BitVec.ofNat 32 c.val then
          (∑ d : Fin 16, Cert.Spec.tnei (nb (ix2 r d)) * wcat (ix2 (⟨c.val * 16 + d.val, by omega⟩ : Fin 153) e))
          + wcat (ix2 (⟨144 + c.val, by omega⟩ : Fin 153) e)
        else 0 := by
  rw [pay_eq, shapeCast_self]
  refine (RowsTimes.matmul_zero_apply dot_S2048x153_S153x128_S2048x128_1_0_0_1_n_n rfl rfl rfl rfl rfl rfl rfl rfl none
    (feat nb lab) wcat r e).trans ?_
  exact Cert.NeiAlgebra.routed_features (fun k => feat nb lab (ix2 r k)) (fun k => wcat (ix2 k e))
    (fun d => Cert.Spec.tnei (nb (ix2 r d))) (fun c => onehot lab (ix2 r c))
    (fun c => lab (ix3 (0 : Fin 1) (0 : Fin 1) r) = BitVec.ofNat 32 c.val)
    (fun c d => (feat_left nb lab r c d).trans (congrArg (· * onehot lab (ix2 r c)) (tn_apply nb r d)))
    (fun c => feat_right nb lab r c)
    (fun c => onehot_apply lab r c)

end Cert.KernelIdeal.NeiBody

end
-- ==== Proof.KernelNei.lean ====
/-
  The neighbour-stage region's output array after the region, as one function of the argument arrays.  Point `t` of
  the grid stages the labels and coordinates of the flat positions `t·2048 … t·2048 + 2047` (agent `q / 64`,
  neighbour `q % 64`) and the whole stacked weights; the body stores one value covering its output block, which at
  row `r` is the routed sum of the block's entries, that is the specification at position `t·2048 + r`.  The 128
  output blocks of 2048 rows tile the 262144 rows.
-/
import proofs.«108484_g15788299780126_cont_week2b_740_2_alg».proof.Proof.Gen.KernelIdeal.Frame
import proofs.«108484_g15788299780126_cont_week2b_740_2_alg».proof.Proof.KernelEntry
import proofs.«108484_g15788299780126_cont_week2b_740_2_alg».proof.Proof.KernelPoints
import proofs.«108484_g15788299780126_cont_week2b_740_2_alg».proof.Proof.NeiBody
import Idealize.ShloMosaic.Lib.Pipeline.Value
set_option maxRecDepth 16384
noncomputable section
open scoped BigOperators

namespace Cert.KernelIdeal.NeiArr

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's one store covers the staging buffer: the buffer after the body is the stored value. -/
theorem out_apply (x0 : Vec Ideal S1x1x2048 .i32) (x1 : Vec Ideal S2048x16 .f32) (x2 : Vec Ideal S153x128 .f32) :
    out1_3 (F := Ideal) x0 x1 x2 = k1_pay1 x1 x0 x2 := by
  unfold out1_3
  rw [View.canon_unit_zero hz2]
  simp only [View.ld_unit_zero (S := S1x1x2048) hz3, View.ld_unit_zero (S := S2048x16) hz2, View.ld_unit_zero (S := S153x128) hz2]

/-- The printed index maps over the grid: labels, coordinates and output move with the point; the weights stay. -/
theorem idx_facts : ∀ t : Fin cfg1.N, win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem tlt (t : Fin cfg1.N) : t.val < 128 := lt_of_lt_of_eq t.isLt N_1

theorem read0 (c : Dev nD) (t : Fin cfg1.N) (r : Fin 2048) :
    iblk1 (V3 m ρ) c 0 t (ix3 (0 : Fin 1) (0 : Fin 1) r) = V3 m ρ c main_call0_v11 (ix3 (⟨t.val, tlt t⟩ : Fin 128) (0 : Fin 1) r) := by
  obtain ⟨e0, e1, e2, -⟩ := idx_facts t
  show V3 m ρ c (Pipeline.arrRef spec1 0) (((cfg1.win 0).blk t).view.emb (ix3 (0 : Fin 1) (0 : Fin 1) r)) = _
  refine congrArg (V3 m ρ c main_call0_v11) (funext fun a => Fin.ext ?_)
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 2048 + 1 * r.val = r.val; omega

theorem read1 (c : Dev nD) (t : Fin cfg1.N) (r : Fin 2048) (d : Fin 16) :
    iblk1 (V3 m ρ) c 1 t (ix2 r d) = V3 m ρ c main_call0_v5 (ix2 (⟨t.val * 2048 + r.val, by have := tlt t; omega⟩ : Fin 262144) d) := by
  obtain ⟨-, -, -, e3, e4, -⟩ := idx_facts t
  show V3 m ρ c (Pipeline.arrRef spec1 1) (((cfg1.win 1).blk t).view.emb (ix2 r d)) = _
  refine congrArg (V3 m ρ c main_call0_v5) (funext fun a => Fin.ext ?_)
  match a with
  | ⟨0, _⟩ => show win1_1.index t (0 : Fin 2) * 2048 + 1 * r.val = t.val * 2048 + r.val; omega
  | ⟨1, _⟩ => show win1_1.index t (1 : Fin 2) * 16 + 1 * d.val = d.val; omega

theorem read2 (c : Dev nD) (t : Fin cfg1.N) (j : Fin 153) (e : Fin 128) :
    iblk1 (V3 m ρ) c 2 t (ix2 j e) = V3 m ρ c main_call0_v8 (ix2 j e) := by
  obtain ⟨-, -, -, -, -, e5, e6, -⟩ := idx_facts t
  show V3 m ρ c (Pipeline.arrRef spec1 2) (((cfg1.win 2).blk t).view.emb (ix2 j e)) = _
  refine congrArg (V3 m ρ c main_call0_v8) (funext fun a => Fin.ext ?_)
  match a with
  | ⟨0, _⟩ => show win1_2.index t (0 : Fin 2) * 153 + 1 * j.val = j.val; omega
  | ⟨1, _⟩ => show win1_2.index t (1 : Fin 2) * 128 + 1 * e.val = e.val; omega

/-- What point `t` leaves at row `r`, channel `e` of its output block is the specification at flat position
    `q = t·2048 + r`: agent `q / 64`, neighbour `q % 64`. -/
theorem point (c : Dev nD) (t : Fin cfg1.N) (r : Fin 2048) (e : Fin 128) :
    out1_3 (iblk1 (V3 m ρ) c 0 t) (iblk1 (V3 m ρ) c 1 t) (iblk1 (V3 m ρ) c 2 t) (ix2 r e)
      = Cert.Spec.neiAt (m ((c.tc : Thread nD τ).loc main_arg1)) (m ((c.tc : Thread nD τ).loc main_arg3))
          (m ((c.tc : Thread nD τ).loc main_arg7)) (m ((c.tc : Thread nD τ).loc main_arg8))
          (⟨(t.val * 2048 + r.val) / 64, by have := tlt t; omega⟩ : Fin 4096) (⟨(t.val * 2048 + r.val) % 64, by omega⟩ : Fin 64) e := by
  refine (congrFun (out_apply _ _ _) _).trans ?_
  refine (Cert.KernelIdeal.NeiBody.pay_apply (iblk1 (V3 m ρ) c 1 t) (iblk1 (V3 m ρ) c 0 t) (iblk1 (V3 m ρ) c 2 t) r e).trans ?_
  refine Cert.Points.nei_point (iblk1 (V3 m ρ) c 1 t) (iblk1 (V3 m ρ) c 0 t) (iblk1 (V3 m ρ) c 2 t)
    (m ((c.tc : Thread nD τ).loc main_arg1)) (m ((c.tc : Thread nD τ).loc main_arg3))
    (m ((c.tc : Thread nD τ).loc main_arg7)) (m ((c.tc : Thread nD τ).loc main_arg8))
    (⟨(t.val * 2048 + r.val) / 64, by have := tlt t; omega⟩ : Fin 4096) (⟨(t.val * 2048 + r.val) % 64, by omega⟩ : Fin 64) r e ?_ ?_ ?_ ?_
  · exact (read0 m ρ c t r).trans (Cert.KernelIdeal.Entry.nei_lab m ρ c (⟨t.val, tlt t⟩ : Fin 128) r)
  · intro d; exact (read1 m ρ c t r d).trans (Cert.KernelIdeal.Entry.nei_x m ρ c _ d)
  · intro j hj; exact (read2 m ρ c t j e).trans (Cert.KernelIdeal.Entry.nei_w m ρ c j e hj)
  · intro cl; exact (read2 m ρ c t _ e).trans (Cert.KernelIdeal.Entry.nei_b m ρ c cl e)

/-- The neighbour-stage region's output array as one function of the arguments: row `q` is agent `q / 64`,
    neighbour `q % 64`. -/
def G1 (c : Dev nD) : S262144x128.Idx → Elt Ideal .f32 := fun i =>
  Cert.Spec.neiAt (m ((c.tc : Thread nD τ).loc main_arg1)) (m ((c.tc : Thread nD τ).loc main_arg3))
    (m ((c.tc : Thread nD τ).loc main_arg7)) (m ((c.tc : Thread nD τ).loc main_arg8))
    (⟨(i 0).val / 64, by have := idx2_lt0 i; omega⟩ : Fin 4096) (⟨(i 0).val % 64, Nat.mod_lt _ (by decide)⟩ : Fin 64)
    (⟨(i 1).val, idx2_lt1 i⟩ : Fin 128)

/-- What point `t` writes back is block `t` of that function. -/
theorem flushed_eq (c : Dev nD) (t : Fin cfg1.N) :
    (dat1 (V3 m ρ) c).flushed 3 t = ((cfg1.win 3).blk t).view.read (Elt Ideal) (G1 m c) := by
  show (cfg1.win 3).cut (grid1.coords t) ((dat1 (V3 m ρ) c).after 3 t) = _
  rw [after1_3]
  funext j
  obtain ⟨r, e, rfl⟩ : ∃ (r : Fin 2048) (e : Fin 128), j = ix2 r e := ⟨j 0, j 1, eq_ix2 j⟩
  show out1_3 (iblk1 (V3 m ρ) c 0 t) (iblk1 (V3 m ρ) c 1 t) (iblk1 (V3 m ρ) c 2 t) (ix2 r e)
    = G1 m c (((cfg1.win 3).blk t).view.emb (ix2 r e))
  refine (point m ρ c t r e).trans ?_
  obtain ⟨-, -, -, -, -, -, -, e7, e8⟩ := idx_facts t
  have h0 : ((((cfg1.win 3).blk t).view.emb (ix2 r e)) 0).val = t.val * 2048 + r.val := by
    show win1_3.index t (0 : Fin 2) * 2048 + 1 * r.val = _; omega
  have h1 : ((((cfg1.win 3).blk t).view.emb (ix2 r e)) 1).val = e.val := by
    show win1_3.index t (1 : Fin 2) * 128 + 1 * e.val = _; omega
  unfold G1
  have ea : (⟨(t.val * 2048 + r.val) / 64, by have := tlt t; omega⟩ : Fin 4096)
      = ⟨((((cfg1.win 3).blk t).view.emb (ix2 r e)) 0).val / 64, by rw [h0]; have := tlt t; omega⟩ :=
    Fin.ext (by show (t.val * 2048 + r.val) / 64 = ((((cfg1.win 3).blk t).view.emb (ix2 r e)) 0).val / 64; rw [h0])
  have ek : (⟨(t.val * 2048 + r.val) % 64, by omega⟩ : Fin 64)
      = ⟨((((cfg1.win 3).blk t).view.emb (ix2 r e)) 0).val % 64, Nat.mod_lt _ (by decide)⟩ :=
    Fin.ext (by show (t.val * 2048 + r.val) % 64 = ((((cfg1.win 3).blk t).view.emb (ix2 r e)) 0).val % 64; rw [h0])
  have ee : e = (⟨((((cfg1.win 3).blk t).view.emb (ix2 r e)) 1).val, by rw [h1]; exact e.isLt⟩ : Fin 128) := Fin.ext h1.symm
  rw [ea, ek]
  exact congrArg _ ee

/-- An index of the array is in point `t`'s block iff each coordinate is in the block's range on its axis. -/
theorem mem_blk (t : Fin cfg1.N) (i : S262144x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_call0_v12).slice (win1_3.rect t)).set ↔ _
  rw [View.set_slice_whole, Rect.mem_set_unit]
  exact Iff.rfl

/-- Every row of the array is in the block of the point `row / 2048`. -/
theorem cover (i : S262144x128.Idx) : ∃ t : Fin cfg1.N, (cfg1.win 3).flush t = true ∧ i ∈ ((cfg1.win 3).blk t).view.set := by
  have hi0 : (i 0).val < 262144 := idx2_lt0 i
  have hi1 : (i 1).val < 128 := idx2_lt1 i
  have ht : (i 0).val / 2048 < cfg1.N := lt_of_lt_of_eq (by omega) N_1.symm
  obtain ⟨-, -, -, -, -, -, -, e7, e8⟩ := idx_facts ⟨(i 0).val / 2048, ht⟩
  refine ⟨⟨(i 0).val / 2048, ht⟩, flush1_3 _, ?_⟩
  rw [mem_blk]
  intro a
  match a with
  | ⟨0, _⟩ =>
    show win1_3.index ⟨(i 0).val / 2048, ht⟩ (0 : Fin 2) * 2048 ≤ (i 0).val ∧ (i 0).val < win1_3.index ⟨(i 0).val / 2048, ht⟩ (0 : Fin 2) * 2048 + 2048
    have : win1_3.index ⟨(i 0).val / 2048, ht⟩ (0 : Fin 2) = (i 0).val / 2048 := e7
    omega
  | ⟨1, _⟩ =>
    show win1_3.index ⟨(i 0).val / 2048, ht⟩ (1 : Fin 2) * 128 ≤ (i 1).val ∧ (i 1).val < win1_3.index ⟨(i 0).val / 2048, ht⟩ (1 : Fin 2) * 128 + 128
    omega

/-- So after the region its output array is that function. -/
theorem final (c : Dev nD) : (dat1 (V3 m ρ) c).arrAt 3 cfg1.N = G1 m c :=
  (dat1 (V3 m ρ) c).arrAt_eq_of_cover 3 (G1 m c) (fun t _ => flushed_eq m ρ c t) cover

end Cert.KernelIdeal.NeiArr
end
-- ==== Proof.KernelValue.lean ====
/-
  The idealized kernel program's value.  The run with the two results named (the five segments' fold read at the
  result buffers) is read back: the last host line regroups each region's output rows by agent, each region's
  output array is its stage's specification of the arguments, so each result is the specification, entry by entry
  (row `b·K + k` is agent `b`, item `k`).
-/
import proofs.«108484_g15788299780126_cont_week2b_740_2_alg».proof.Proof.KernelRun
import proofs.«108484_g15788299780126_cont_week2b_740_2_alg».proof.Proof.KernelSelf
import proofs.«108484_g15788299780126_cont_week2b_740_2_alg».proof.Proof.KernelNei

set_option maxRecDepth 16384

noncomputable section

namespace Cert.KernelIdeal.Value

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (ρ : Dev nD → PrngReg)

/-- The first result buffer's last contents are the self-stage specification of the arguments. -/
theorem res_self (c : Dev nD) : W5 m ρ c (Proc.devRef .tc main_v0_0)
    = Cert.Spec.selfSpec (m ((c.tc : Thread nD τ).loc main_arg0)) (m ((c.tc : Thread nD τ).loc main_arg2))
        (m ((c.tc : Thread nD τ).loc main_arg4)) (m ((c.tc : Thread nD τ).loc main_arg5)) (m ((c.tc : Thread nD τ).loc main_arg6)) := by
  funext j
  obtain ⟨b, k, e, rfl⟩ : ∃ (b : Fin 4096) (k : Fin 20) (e : Fin 128), j = ix3 b k e := ⟨j 0, j 1, j 2, eq_ix3 j⟩
  refine (Cert.KernelIdeal.Entry.res_self m ρ c b k e).trans ?_
  rw [Cert.KernelIdeal.SelfArr.final m ρ c]
  show Cert.KernelIdeal.SelfArr.G0 m c (ix2 (⟨b.val * 20 + k.val, by omega⟩ : Fin 81920) e) = Cert.Spec.selfAt _ _ _ _ _ b k e
  unfold Cert.KernelIdeal.SelfArr.G0
  have eb : (⟨(b.val * 20 + k.val) / 20, by omega⟩ : Fin 4096) = b := Fin.ext (by show (b.val * 20 + k.val) / 20 = b.val; omega)
  have ek : (⟨(b.val * 20 + k.val) % 20, Nat.mod_lt _ (by decide)⟩ : Fin 20) = k := Fin.ext (by show (b.val * 20 + k.val) % 20 = k.val; omega)
  show Cert.Spec.selfAt _ _ _ _ _ (⟨(b.val * 20 + k.val) / 20, _⟩ : Fin 4096) (⟨(b.val * 20 + k.val) % 20, _⟩ : Fin 20) (⟨e.val, _⟩ : Fin 128) = _
  rw [eb, ek]

/-- The second result buffer's last contents are the neighbour-stage specification of the arguments. -/
theorem res_nei (c : Dev nD) : W5 m ρ c (Proc.devRef .tc main_v0_1)
    = Cert.Spec.neiSpec (m ((c.tc : Thread nD τ).loc main_arg1)) (m ((c.tc : Thread nD τ).loc main_arg3))
        (m ((c.tc : Thread nD τ).loc main_arg7)) (m ((c.tc : Thread nD τ).loc main_arg8)) := by
  funext j
  obtain ⟨b, n, e, rfl⟩ : ∃ (b : Fin 4096) (n : Fin 64) (e : Fin 128), j = ix3 b n e := ⟨j 0, j 1, j 2, eq_ix3 j⟩
  refine (Cert.KernelIdeal.Entry.res_nei m ρ c b n e).trans ?_
  rw [Cert.KernelIdeal.NeiArr.final m ρ c]
  have eb : (⟨(b.val * 64 + n.val) / 64, by omega⟩ : Fin 4096) = b := Fin.ext (by show (b.val * 64 + n.val) / 64 = b.val; omega)
  have ek : (⟨(b.val * 64 + n.val) % 64, Nat.mod_lt _ (by decide)⟩ : Fin 64) = n := Fin.ext (by show (b.val * 64 + n.val) % 64 = n.val; omega)
  show Cert.Spec.neiAt _ _ _ _ (⟨(b.val * 64 + n.val) / 64, _⟩ : Fin 4096) (⟨(b.val * 64 + n.val) % 64, _⟩ : Fin 64) (⟨e.val, _⟩ : Fin 128) = Cert.Spec.neiAt _ _ _ _ b n e
  rw [eb, ek]

/-- The idealized kernel program's run: every weakly fair execution terminates without a fault with the two results
    at the specification of the arguments and the arguments as launched. -/
theorem run : θ_run (defs (F := Ideal)) (onTc (τ := τ) (main (F := Ideal))) ⟨m, fun _ => 0, ρ⟩ (fun r => ∀ c : Dev nD,
      r.2.mem ((c.tc : Thread nD τ).loc main_v0_0)
        = Cert.Spec.selfSpec (m ((c.tc : Thread nD τ).loc main_arg0)) (m ((c.tc : Thread nD τ).loc main_arg2))
            (m ((c.tc : Thread nD τ).loc main_arg4)) (m ((c.tc : Thread nD τ).loc main_arg5)) (m ((c.tc : Thread nD τ).loc main_arg6))
      ∧ r.2.mem ((c.tc : Thread nD τ).loc main_v0_1)
        = Cert.Spec.neiSpec (m ((c.tc : Thread nD τ).loc main_arg1)) (m ((c.tc : Thread nD τ).loc main_arg3))
            (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (res_self m ρ c), (h c).2.1.trans (res_nei m ρ c), (h c).2.2⟩)
    (Cert.KernelIdeal.Run.run_named m ρ)

end Cert.KernelIdeal.Value

end
-- ==== Proof.RefOps0.lean ====
import proofs.«108484_g15788299780126_cont_week2b_740_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 0 in order (86), the bodies of the functions it calls written out at the calls. -/
def ops0 : List (HloOp τ sig (Elt F)) :=
  [ StableHlo.TRef.nullary main_call0.c (constantI S_ 32 0#32),
    StableHlo.TRef.unary main_call0.c main_call0.v0 (broadcastInDim S4096 ![] bcast_S_S4096),
    StableHlo.TRef.binary (.of main_arg2 : StableHlo.TRef sig ⟨S4096, .i32⟩) main_call0.v0 main_call0.v1 (cmpi .slt),
    StableHlo.TRef.nullary main_call0.c_0 (constantI S_ 32 8#32),
    StableHlo.TRef.unary main_call0.c_0 main_call0.v2 (broadcastInDim S4096 ![] bcast_S_S4096),
    StableHlo.TRef.binary (.of main_arg2 : StableHlo.TRef sig ⟨S4096, .i32⟩) main_call0.v2 main_call0.v3 addi,
    StableHlo.TRef.ternary main_call0.v1 main_call0.v3 (.of main_arg2 : StableHlo.TRef sig ⟨S4096, .i32⟩) main_call0.call0.v0 select,
    StableHlo.TRef.unary main_call0.call0.v0 main_call0.v5 (broadcastInDim S4096x1 ![0] bcast_S4096_S4096x1_0),
    StableHlo.TRef.nullary main_call0.c_1 (constantI S1 32 7#32),
    StableHlo.TRef.nullary main_call0.c_2 (constantI S_ 32 0#32),
    StableHlo.TRef.unary main_call0.c_2 main_call0.v6 (broadcastInDim S4096x1 ![] bcast_S_S4096x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S4096x1 ![0, 1] bcast_S1x1_S4096x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1_S4096_d1 h_S_),
    StableHlo.TRef.binary (.of main_arg4 : StableHlo.TRef sig ⟨S8x20x12x2, .f32⟩) main_call0.v5 main_call0.v13 (fun x i => Host.gather gather_S8x20x12x2_S4096x1_S4096x20x12x2_123_0_n_n_0_1_120122 x i),
    StableHlo.TRef.unary main_call0.v12 main_call0.v14 (broadcastInDim S4096x20x12x2 ![0] bcast_S4096_S4096x20x12x2_0),
    StableHlo.TRef.nullary main_call0.cst (constant S_ .f32 0x7FC00000#32),
    StableHlo.TRef.unary main_call0.cst main_call0.v15 (broadcastInDim S4096x20x12x2 ![] bcast_S_S4096x20x12x2),
    StableHlo.TRef.ternary main_call0.v14 main_call0.v13 main_call0.v15 main_call0.v16 select,
    StableHlo.unary main_arg0 main_v1 (broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)),
    StableHlo.unary main_v1 main_v2 (broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)),
    StableHlo.binary main_v2 main_v0 main_v3 ((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)),
    StableHlo.reshape main_v3 main_v4 rfl shapeCasts_S4096x20x20x2_S4096x20x40,
    StableHlo.nullary main_cst (constant S_ .f32 0x00000000#32),
    StableHlo.unary main_cst main_v5 (broadcastInDim S4096x20x128 ![] bcast_S_S4096x20x128 : (⟨S_, .f32⟩ : BufTy).Contents (Elt F) → (⟨S4096x20x128, .f32⟩ : BufTy).Contents (Elt F)),
    StableHlo.unary main_arg5 main_v6 ((extractStridedSlice S1x128x40 ![0, 0, 0] · slices_S8x128x40_S1x128x40_0_0_0) : (⟨S8x128x40, .f32⟩ : BufTy).Contents (Elt F) → (⟨S1x128x40, .f32⟩ : BufTy).Contents (Elt F)),
    StableHlo.reshape main_v6 main_v7 rfl shapeCasts_S1x128x40_S128x40,
    StableHlo.binary main_v4 main_v7 main_v8 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v9 ((extractStridedSlice S1x128 ![0, 0] · slices_S8x128_S1x128_0_0) : (⟨S8x128, .f32⟩ : BufTy).Contents (Elt F) → (⟨S1x128, .f32⟩ : BufTy).Contents (Elt F)),
    StableHlo.reshape main_v9 main_v10 rfl shapeCasts_S1x128_S128,
    StableHlo.unary main_v10 main_v11 (broadcastInDim S1x1x128 ![2] bcast_S128_S1x1x128_2 : (⟨S128, .f32⟩ : BufTy).Contents (Elt F) → (⟨S1x1x128, .f32⟩ : BufTy).Contents (Elt F)),
    StableHlo.unary main_v11 main_v12 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v8 main_v12 main_v13 (addf : (⟨S4096x20x128, .f32⟩ : BufTy).Contents (Elt F) → (⟨S4096x20x128, .f32⟩ : BufTy).Contents (Elt F) → (⟨S4096x20x128, .f32⟩ : BufTy).Contents (Elt F)),
    StableHlo.nullary main_c (constantI S_ 32 0#32),
    StableHlo.unary main_c main_v14 (broadcastInDim S4096 ![] bcast_S_S4096 : (⟨S_, .i32⟩ : BufTy).Contents (Elt F) → (⟨S4096, .i32⟩ : BufTy).Contents (Elt F)),
    StableHlo.binary main_arg2 main_v14 main_v15 (cmpi .eq : (⟨S4096, .i32⟩ : BufTy).Contents (Elt F) → (⟨S4096, .i32⟩ : BufTy).Contents (Elt F) → (⟨S4096, .i1⟩ : BufTy).Contents (Elt F)),
    StableHlo.unary main_v15 main_v16 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v16 : StableHlo.TRef sig ⟨S4096x1x1, .i1⟩) main_call1.v0 (broadcastInDim S4096x20x128 ![0, 1, 2] bcast_S4096x1x1_S4096x20x128_0_1_2),
    StableHlo.TRef.ternary main_call1.v0 (.of main_v13 : StableHlo.TRef sig ⟨S4096x20x128, .f32⟩) (.of main_v5 : StableHlo.TRef sig ⟨S4096x20x128, .f32⟩) main_call1.v1 select,
    StableHlo.unary main_arg5 main_v18 ((extractStridedSlice S1x128x40 ![1, 0, 0] · slices_S8x128x40_S1x128x40_1_0_0) : (⟨S8x128x40, .f32⟩ : BufTy).Contents (Elt F) → (⟨S1x128x40, .f32⟩ : BufTy).Contents (Elt F)),
    StableHlo.reshape main_v18 main_v19 rfl shapeCasts_S1x128x40_S128x40,
    StableHlo.binary main_v4 main_v19 main_v20 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v21 ((extractStridedSlice S1x128 ![1, 0] · slices_S8x128_S1x128_1_0) : (⟨S8x128, .f32⟩ : BufTy).Contents (Elt F) → (⟨S1x128, .f32⟩ : BufTy).Contents (Elt F)),
    StableHlo.reshape main_v21 main_v22 rfl shapeCasts_S1x128_S128,
    StableHlo.unary main_v22 main_v23 (broadcastInDim S1x1x128 ![2] bcast_S128_S1x1x128_2 : (⟨S128, .f32⟩ : BufTy).Contents (Elt F) → (⟨S1x1x128, .f32⟩ : BufTy).Contents (Elt F)),
    StableHlo.unary main_v23 main_v24 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v20 main_v24 main_v25 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_0 (constantI S_ 32 1#32),
    StableHlo.unary main_c_0 main_v26 (broadcastInDim S4096 ![] bcast_S_S4096 : (⟨S_, .i32⟩ : BufTy).Contents (Elt F) → (⟨S4096, .i32⟩ : BufTy).Contents (Elt F)),
    StableHlo.binary main_arg2 main_v26 main_v27 (cmpi .eq : (⟨S4096, .i32⟩ : BufTy).Contents (Elt F) → (⟨S4096, .i32⟩ : BufTy).Contents (Elt F) → (⟨S4096, .i1⟩ : BufTy).Contents (Elt F)),
    StableHlo.unary main_v27 main_v28 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v28 : StableHlo.TRef sig ⟨S4096x1x1, .i1⟩) main_call2.v0 (broadcastInDim S4096x20x128 ![0, 1, 2] bcast_S4096x1x1_S4096x20x128_0_1_2),
    StableHlo.TRef.ternary main_call2.v0 (.of main_v25 : StableHlo.TRef sig ⟨S4096x20x128, .f32⟩) (.of main_v17 : StableHlo.TRef sig ⟨S4096x20x128, .f32⟩) main_call2.v1 select,
    StableHlo.unary main_arg5 main_v30 ((extractStridedSlice S1x128x40 ![2, 0, 0] · slices_S8x128x40_S1x128x40_2_0_0) : (⟨S8x128x40, .f32⟩ : BufTy).Contents (Elt F) → (⟨S1x128x40, .f32⟩ : BufTy).Contents (Elt F)),
    StableHlo.reshape main_v30 main_v31 rfl shapeCasts_S1x128x40_S128x40,
    StableHlo.binary main_v4 main_v31 main_v32 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v33 ((extractStridedSlice S1x128 ![2, 0] · slices_S8x128_S1x128_2_0) : (⟨S8x128, .f32⟩ : BufTy).Contents (Elt F) → (⟨S1x128, .f32⟩ : BufTy).Contents (Elt F)),
    StableHlo.reshape main_v33 main_v34 rfl shapeCasts_S1x128_S128,
    StableHlo.unary main_v34 main_v35 (broadcastInDim S1x1x128 ![2] bcast_S128_S1x1x128_2 : (⟨S128, .f32⟩ : BufTy).Contents (Elt F) → (⟨S1x1x128, .f32⟩ : BufTy).Contents (Elt F)),
    StableHlo.unary main_v35 main_v36 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v32 main_v36 main_v37 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_1 (constantI S_ 32 2#32),
    StableHlo.unary main_c_1 main_v38 (broadcastInDim S4096 ![] bcast_S_S4096 : (⟨S_, .i32⟩ : BufTy).Contents (Elt F) → (⟨S4096, .i32⟩ : BufTy).Contents (Elt F)),
    StableHlo.binary main_arg2 main_v38 main_v39 (cmpi .eq : (⟨S4096, .i32⟩ : BufTy).Contents (Elt F) → (⟨S4096, .i32⟩ : BufTy).Contents (Elt F) → (⟨S4096, .i1⟩ : BufTy).Contents (Elt F)),
    StableHlo.unary main_v39 main_v40 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v40 : StableHlo.TRef sig ⟨S4096x1x1, .i1⟩) main_call3.v0 (broadcastInDim S4096x20x128 ![0, 1, 2] bcast_S4096x1x1_S4096x20x128_0_1_2),
    StableHlo.TRef.ternary main_call3.v0 (.of main_v37 : StableHlo.TRef sig ⟨S4096x20x128, .f32⟩) (.of main_v29 : StableHlo.TRef sig ⟨S4096x20x128, .f32⟩) main_call3.v1 select,
    StableHlo.unary main_arg5 main_v42 ((extractStridedSlice S1x128x40 ![3, 0, 0] · slices_S8x128x40_S1x128x40_3_0_0) : (⟨S8x128x40, .f32⟩ : BufTy).Contents (Elt F) → (⟨S1x128x40, .f32⟩ : BufTy).Contents (Elt F)),
    StableHlo.reshape main_v42 main_v43 rfl shapeCasts_S1x128x40_S128x40,
    StableHlo.binary main_v4 main_v43 main_v44 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v45 ((extractStridedSlice S1x128 ![3, 0] · slices_S8x128_S1x128_3_0) : (⟨S8x128, .f32⟩ : BufTy).Contents (Elt F) → (⟨S1x128, .f32⟩ : BufTy).Contents (Elt F)),
    StableHlo.reshape main_v45 main_v46 rfl shapeCasts_S1x128_S128,
    StableHlo.unary main_v46 main_v47 (broadcastInDim S1x1x128 ![2] bcast_S128_S1x1x128_2 : (⟨S128, .f32⟩ : BufTy).Contents (Elt F) → (⟨S1x1x128, .f32⟩ : BufTy).Contents (Elt F)),
    StableHlo.unary main_v47 main_v48 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v44 main_v48 main_v49 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_2 (constantI S_ 32 3#32),
    StableHlo.unary main_c_2 main_v50 (broadcastInDim S4096 ![] bcast_S_S4096 : (⟨S_, .i32⟩ : BufTy).Contents (Elt F) → (⟨S4096, .i32⟩ : BufTy).Contents (Elt F)),
    StableHlo.binary main_arg2 main_v50 main_v51 (cmpi .eq : (⟨S4096, .i32⟩ : BufTy).Contents (Elt F) → (⟨S4096, .i32⟩ : BufTy).Contents (Elt F) → (⟨S4096, .i1⟩ : BufTy).Contents (Elt F)),
    StableHlo.unary main_v51 main_v52 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v52 : StableHlo.TRef sig ⟨S4096x1x1, .i1⟩) main_call4.v0 (broadcastInDim S4096x20x128 ![0, 1, 2] bcast_S4096x1x1_S4096x20x128_0_1_2),
    StableHlo.TRef.ternary main_call4.v0 (.of main_v49 : StableHlo.TRef sig ⟨S4096x20x128, .f32⟩) (.of main_v41 : StableHlo.TRef sig ⟨S4096x20x128, .f32⟩) main_call4.v1 select,
    StableHlo.unary main_arg5 main_v54 ((extractStridedSlice S1x128x40 ![4, 0, 0] · slices_S8x128x40_S1x128x40_4_0_0) : (⟨S8x128x40, .f32⟩ : BufTy).Contents (Elt F) → (⟨S1x128x40, .f32⟩ : BufTy).Contents (Elt F)) ]

set_option maxRecDepth 8192 in
set_option maxHeartbeats 4000000 in
/-- The window is that line: the called functions unfolded, both sides are one chain of steps. -/
theorem part0_eq (c : Dev nD) : main_part0 (F := F) c = seq ops0 := by
  rfl

theorem ops0_sub : (ops0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., unary_bufs_sub .., binary_bufs_sub .., reshape_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub ..⟩

set_option maxRecDepth 8192 in
/-- Every operation of the window determines its results. -/
theorem ops0_fresh : ∀ op ∈ (ops0 : List (HloOp τ sig (Elt F))), op.fresh = ∅ := by
  intro op h; unfold ops0 at h; (repeat (cases h with | head => rfl | tail _ h => ?_)); exact nomatch h

end Cert.ReferenceIdeal.RefRun

end
-- ==== Proof.RefWin0.lean ====
import proofs.«108484_g15788299780126_cont_week2b_740_2_alg».proof.Proof.RefOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem w0_arg0 (V : Valuation τ sig (Elt F)) : after ops0 V (main_arg0 : DevRef τ sig) = V (main_arg0 : DevRef τ sig) := by
  unfold ops0; after_results_simp

theorem w0_arg1 (V : Valuation τ sig (Elt F)) : after ops0 V (main_arg1 : DevRef τ sig) = V (main_arg1 : DevRef τ sig) := by
  unfold ops0; after_results_simp

theorem w0_arg2 (V : Valuation τ sig (Elt F)) : after ops0 V (main_arg2 : DevRef τ sig) = V (main_arg2 : DevRef τ sig) := by
  unfold ops0; after_results_simp

theorem w0_arg3 (V : Valuation τ sig (Elt F)) : after ops0 V (main_arg3 : DevRef τ sig) = V (main_arg3 : DevRef τ sig) := by
  unfold ops0; after_results_simp

theorem w0_arg4 (V : Valuation τ sig (Elt F)) : after ops0 V (main_arg4 : DevRef τ sig) = V (main_arg4 : DevRef τ sig) := by
  unfold ops0; after_results_simp

theorem w0_arg5 (V : Valuation τ sig (Elt F)) : after ops0 V (main_arg5 : DevRef τ sig) = V (main_arg5 : DevRef τ sig) := by
  unfold ops0; after_results_simp

theorem w0_arg6 (V : Valuation τ sig (Elt F)) : after ops0 V (main_arg6 : DevRef τ sig) = V (main_arg6 : DevRef τ sig) := by
  unfold ops0; after_results_simp

theorem w0_arg7 (V : Valuation τ sig (Elt F)) : after ops0 V (main_arg7 : DevRef τ sig) = V (main_arg7 : DevRef τ sig) := by
  unfold ops0; after_results_simp

theorem w0_arg8 (V : Valuation τ sig (Elt F)) : after ops0 V (main_arg8 : DevRef τ sig) = V (main_arg8 : DevRef τ sig) := by
  unfold ops0; after_results_simp

/-- What the window leaves in the buffer of value v4, from the buffers it reads. -/
def w0_v4_fn (i_main_arg0 : (⟨S4096x8x2, .f32⟩ : BufTy).Contents (Elt F)) (i_main_arg2 : (⟨S4096, .i32⟩ : BufTy).Contents (Elt F)) (i_main_arg4 : (⟨S8x20x12x2, .f32⟩ : BufTy).Contents (Elt F)) :
    (⟨S4096x20x40, .f32⟩ : BufTy).Contents (Elt F) :=
  (shapeCast S4096x20x40 (((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)) ((broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)) ((broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)) i_main_arg0)) (select (((broadcastInDim S4096x20x12x2 ![0] bcast_S4096_S4096x20x12x2_0) (((fun x v => Host.reduce IntOp.andi x v reducesTo_S4096x1_S4096_d1 h_S_) ((andi (((cmpi .sge) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![] bcast_S_S4096x1) ((constantI S_ 32 0#32) : (⟨S_, .i32⟩ : BufTy).Contents (Elt F))) : (⟨S4096x1, .i32⟩ : BufTy).Contents (Elt F))) : (⟨S4096x1, .i1⟩ : BufTy).Contents (Elt F)) (((cmpi .sle) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![0, 1] bcast_S1x1_S4096x1_0_1) (((broadcastInDim S1x1 ![1] bcast_S1_S1x1_1) ((constantI S1 32 7#32) : (⟨S1, .i32⟩ : BufTy).Contents (Elt F))) : (⟨S1x1, .i32⟩ : BufTy).Contents (Elt F))) : (⟨S4096x1, .i32⟩ : BufTy).Contents (Elt F))) : (⟨S4096x1, .i1⟩ : BufTy).Contents (Elt F))) : (⟨S4096x1, .i1⟩ : BufTy).Contents (Elt F)) ((constantI S_ 1 1#1) : (⟨S_, .i1⟩ : BufTy).Contents (Elt F))) : (⟨S4096, .i1⟩ : BufTy).Contents (Elt F))) : (⟨S4096x20x12x2, .i1⟩ : BufTy).Contents (Elt F)) (((fun x i => Host.gather gather_S8x20x12x2_S4096x1_S4096x20x12x2_123_0_n_n_0_1_120122 x i) (i_main_arg4 : (⟨S8x20x12x2, .f32⟩ : BufTy).Contents (Elt F)) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F))) : (⟨S4096x20x12x2, .f32⟩ : BufTy).Contents (Elt F)) (((broadcastInDim S4096x20x12x2 ![] bcast_S_S4096x20x12x2) ((constant S_ .f32 0x7FC00000#32) : (⟨S_, .f32⟩ : BufTy).Contents (Elt F))) : (⟨S4096x20x12x2, .f32⟩ : BufTy).Contents (Elt F)))) shapeCasts_S4096x20x20x2_S4096x20x40)

set_option maxRecDepth 8192 in
set_option maxHeartbeats 4000000 in
theorem w0_v4 (V : Valuation τ sig (Elt F)) : after ops0 V (main_v4 : DevRef τ sig)
    = w0_v4_fn (V (main_arg0 : DevRef τ sig)) (V (main_arg2 : DevRef τ sig)) (V (main_arg4 : DevRef τ sig)) := by
  unfold ops0; after_results_simp; rfl

/-- What the window leaves in the buffer of value v53, from the buffers it reads. -/
def w0_v53_fn (i_main_arg0 : (⟨S4096x8x2, .f32⟩ : BufTy).Contents (Elt F)) (i_main_arg2 : (⟨S4096, .i32⟩ : BufTy).Contents (Elt F)) (i_main_arg4 : (⟨S8x20x12x2, .f32⟩ : BufTy).Contents (Elt F)) (i_main_arg5 : (⟨S8x128x40, .f32⟩ : BufTy).Contents (Elt F)) (i_main_arg6 : (⟨S8x128, .f32⟩ : BufTy).Contents (Elt F)) :
    (⟨S4096x20x128, .f32⟩ : BufTy).Contents (Elt F) :=
  (select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 3#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) (shapeCast S4096x20x40 (((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)) ((broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)) ((broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)) i_main_arg0)) (select (((broadcastInDim S4096x20x12x2 ![0] bcast_S4096_S4096x20x12x2_0) (((fun x v => Host.reduce IntOp.andi x v reducesTo_S4096x1_S4096_d1 h_S_) ((andi (((cmpi .sge) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![] bcast_S_S4096x1) ((constantI S_ 32 0#32) : (⟨S_, .i32⟩ : BufTy).Contents (Elt F))) : (⟨S4096x1, .i32⟩ : BufTy).Contents (Elt F))) : (⟨S4096x1, .i1⟩ : BufTy).Contents (Elt F)) (((cmpi .sle) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![0, 1] bcast_S1x1_S4096x1_0_1) (((broadcastInDim S1x1 ![1] bcast_S1_S1x1_1) ((constantI S1 32 7#32) : (⟨S1, .i32⟩ : BufTy).Contents (Elt F))) : (⟨S1x1, .i32⟩ : BufTy).Contents (Elt F))) : (⟨S4096x1, .i32⟩ : BufTy).Contents (Elt F))) : (⟨S4096x1, .i1⟩ : BufTy).Contents (Elt F))) : (⟨S4096x1, .i1⟩ : BufTy).Contents (Elt F)) ((constantI S_ 1 1#1) : (⟨S_, .i1⟩ : BufTy).Contents (Elt F))) : (⟨S4096, .i1⟩ : BufTy).Contents (Elt F))) : (⟨S4096x20x12x2, .i1⟩ : BufTy).Contents (Elt F)) (((fun x i => Host.gather gather_S8x20x12x2_S4096x1_S4096x20x12x2_123_0_n_n_0_1_120122 x i) (i_main_arg4 : (⟨S8x20x12x2, .f32⟩ : BufTy).Contents (Elt F)) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F))) : (⟨S4096x20x12x2, .f32⟩ : BufTy).Contents (Elt F)) (((broadcastInDim S4096x20x12x2 ![] bcast_S_S4096x20x12x2) ((constant S_ .f32 0x7FC00000#32) : (⟨S_, .f32⟩ : BufTy).Contents (Elt F))) : (⟨S4096x20x12x2, .f32⟩ : BufTy).Contents (Elt F)))) shapeCasts_S4096x20x20x2_S4096x20x40) (shapeCast S128x40 (((extractStridedSlice S1x128x40 ![3, 0, 0] · slices_S8x128x40_S1x128x40_3_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![3, 0] · slices_S8x128_S1x128_3_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 2#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) (shapeCast S4096x20x40 (((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)) ((broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)) ((broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)) i_main_arg0)) (select (((broadcastInDim S4096x20x12x2 ![0] bcast_S4096_S4096x20x12x2_0) (((fun x v => Host.reduce IntOp.andi x v reducesTo_S4096x1_S4096_d1 h_S_) ((andi (((cmpi .sge) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![] bcast_S_S4096x1) ((constantI S_ 32 0#32) : (⟨S_, .i32⟩ : BufTy).Contents (Elt F))) : (⟨S4096x1, .i32⟩ : BufTy).Contents (Elt F))) : (⟨S4096x1, .i1⟩ : BufTy).Contents (Elt F)) (((cmpi .sle) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![0, 1] bcast_S1x1_S4096x1_0_1) (((broadcastInDim S1x1 ![1] bcast_S1_S1x1_1) ((constantI S1 32 7#32) : (⟨S1, .i32⟩ : BufTy).Contents (Elt F))) : (⟨S1x1, .i32⟩ : BufTy).Contents (Elt F))) : (⟨S4096x1, .i32⟩ : BufTy).Contents (Elt F))) : (⟨S4096x1, .i1⟩ : BufTy).Contents (Elt F))) : (⟨S4096x1, .i1⟩ : BufTy).Contents (Elt F)) ((constantI S_ 1 1#1) : (⟨S_, .i1⟩ : BufTy).Contents (Elt F))) : (⟨S4096, .i1⟩ : BufTy).Contents (Elt F))) : (⟨S4096x20x12x2, .i1⟩ : BufTy).Contents (Elt F)) (((fun x i => Host.gather gather_S8x20x12x2_S4096x1_S4096x20x12x2_123_0_n_n_0_1_120122 x i) (i_main_arg4 : (⟨S8x20x12x2, .f32⟩ : BufTy).Contents (Elt F)) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F))) : (⟨S4096x20x12x2, .f32⟩ : BufTy).Contents (Elt F)) (((broadcastInDim S4096x20x12x2 ![] bcast_S_S4096x20x12x2) ((constant S_ .f32 0x7FC00000#32) : (⟨S_, .f32⟩ : BufTy).Contents (Elt F))) : (⟨S4096x20x12x2, .f32⟩ : BufTy).Contents (Elt F)))) shapeCasts_S4096x20x20x2_S4096x20x40) (shapeCast S128x40 (((extractStridedSlice S1x128x40 ![2, 0, 0] · slices_S8x128x40_S1x128x40_2_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![2, 0] · slices_S8x128_S1x128_2_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 1#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) (shapeCast S4096x20x40 (((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)) ((broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)) ((broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)) i_main_arg0)) (select (((broadcastInDim S4096x20x12x2 ![0] bcast_S4096_S4096x20x12x2_0) (((fun x v => Host.reduce IntOp.andi x v reducesTo_S4096x1_S4096_d1 h_S_) ((andi (((cmpi .sge) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![] bcast_S_S4096x1) ((constantI S_ 32 0#32) : (⟨S_, .i32⟩ : BufTy).Contents (Elt F))) : (⟨S4096x1, .i32⟩ : BufTy).Contents (Elt F))) : (⟨S4096x1, .i1⟩ : BufTy).Contents (Elt F)) (((cmpi .sle) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![0, 1] bcast_S1x1_S4096x1_0_1) (((broadcastInDim S1x1 ![1] bcast_S1_S1x1_1) ((constantI S1 32 7#32) : (⟨S1, .i32⟩ : BufTy).Contents (Elt F))) : (⟨S1x1, .i32⟩ : BufTy).Contents (Elt F))) : (⟨S4096x1, .i32⟩ : BufTy).Contents (Elt F))) : (⟨S4096x1, .i1⟩ : BufTy).Contents (Elt F))) : (⟨S4096x1, .i1⟩ : BufTy).Contents (Elt F)) ((constantI S_ 1 1#1) : (⟨S_, .i1⟩ : BufTy).Contents (Elt F))) : (⟨S4096, .i1⟩ : BufTy).Contents (Elt F))) : (⟨S4096x20x12x2, .i1⟩ : BufTy).Contents (Elt F)) (((fun x i => Host.gather gather_S8x20x12x2_S4096x1_S4096x20x12x2_123_0_n_n_0_1_120122 x i) (i_main_arg4 : (⟨S8x20x12x2, .f32⟩ : BufTy).Contents (Elt F)) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F))) : (⟨S4096x20x12x2, .f32⟩ : BufTy).Contents (Elt F)) (((broadcastInDim S4096x20x12x2 ![] bcast_S_S4096x20x12x2) ((constant S_ .f32 0x7FC00000#32) : (⟨S_, .f32⟩ : BufTy).Contents (Elt F))) : (⟨S4096x20x12x2, .f32⟩ : BufTy).Contents (Elt F)))) shapeCasts_S4096x20x20x2_S4096x20x40) (shapeCast S128x40 (((extractStridedSlice S1x128x40 ![1, 0, 0] · slices_S8x128x40_S1x128x40_1_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![1, 0] · slices_S8x128_S1x128_1_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 0#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) (shapeCast S4096x20x40 (((fun a b => concatenate S4096x20x20x2 2 [⟨S4096x20x8x2, a⟩, ⟨S4096x20x12x2, b⟩] concatenates_S4096x20x8x2_S4096x20x12x2_S4096x20x20x2_d2) : (⟨S4096x20x8x2, .f32⟩ : BufTy).Contents (Elt F) → (⟨S4096x20x12x2, .f32⟩ : BufTy).Contents (Elt F) → (⟨S4096x20x20x2, .f32⟩ : BufTy).Contents (Elt F)) ((broadcastInDim S4096x20x8x2 ![0, 1, 2, 3] bcast_S4096x1x8x2_S4096x20x8x2_0_1_2_3 : (⟨S4096x1x8x2, .f32⟩ : BufTy).Contents (Elt F) → (⟨S4096x20x8x2, .f32⟩ : BufTy).Contents (Elt F)) ((broadcastInDim S4096x1x8x2 ![0, 2, 3] bcast_S4096x8x2_S4096x1x8x2_0_2_3 : (⟨S4096x8x2, .f32⟩ : BufTy).Contents (Elt F) → (⟨S4096x1x8x2, .f32⟩ : BufTy).Contents (Elt F)) i_main_arg0)) (select (((broadcastInDim S4096x20x12x2 ![0] bcast_S4096_S4096x20x12x2_0) (((fun x v => Host.reduce IntOp.andi x v reducesTo_S4096x1_S4096_d1 h_S_) ((andi (((cmpi .sge) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![] bcast_S_S4096x1) ((constantI S_ 32 0#32) : (⟨S_, .i32⟩ : BufTy).Contents (Elt F))) : (⟨S4096x1, .i32⟩ : BufTy).Contents (Elt F))) : (⟨S4096x1, .i1⟩ : BufTy).Contents (Elt F)) (((cmpi .sle) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F)) (((broadcastInDim S4096x1 ![0, 1] bcast_S1x1_S4096x1_0_1) (((broadcastInDim S1x1 ![1] bcast_S1_S1x1_1) ((constantI S1 32 7#32) : (⟨S1, .i32⟩ : BufTy).Contents (Elt F))) : (⟨S1x1, .i32⟩ : BufTy).Contents (Elt F))) : (⟨S4096x1, .i32⟩ : BufTy).Contents (Elt F))) : (⟨S4096x1, .i1⟩ : BufTy).Contents (Elt F))) : (⟨S4096x1, .i1⟩ : BufTy).Contents (Elt F)) ((constantI S_ 1 1#1) : (⟨S_, .i1⟩ : BufTy).Contents (Elt F))) : (⟨S4096, .i1⟩ : BufTy).Contents (Elt F))) : (⟨S4096x20x12x2, .i1⟩ : BufTy).Contents (Elt F)) (((fun x i => Host.gather gather_S8x20x12x2_S4096x1_S4096x20x12x2_123_0_n_n_0_1_120122 x i) (i_main_arg4 : (⟨S8x20x12x2, .f32⟩ : BufTy).Contents (Elt F)) (((broadcastInDim S4096x1 ![0] bcast_S4096_S4096x1_0) ((select (((cmpi .slt) (i_main_arg2 : (⟨S4096, .i32⟩ : BufTy).Contents (Elt F)) (((broadcastInDim S4096 ![] bcast_S_S4096) ((constantI S_ 32 0#32) : (⟨S_, .i32⟩ : BufTy).Contents (Elt F))) : (⟨S4096, .i32⟩ : BufTy).Contents (Elt F))) : (⟨S4096, .i1⟩ : BufTy).Contents (Elt F)) ((addi (i_main_arg2 : (⟨S4096, .i32⟩ : BufTy).Contents (Elt F)) (((broadcastInDim S4096 ![] bcast_S_S4096) ((constantI S_ 32 8#32) : (⟨S_, .i32⟩ : BufTy).Contents (Elt F))) : (⟨S4096, .i32⟩ : BufTy).Contents (Elt F))) : (⟨S4096, .i32⟩ : BufTy).Contents (Elt F)) (i_main_arg2 : (⟨S4096, .i32⟩ : BufTy).Contents (Elt F))) : (⟨S4096, .i32⟩ : BufTy).Contents (Elt F))) : (⟨S4096x1, .i32⟩ : BufTy).Contents (Elt F))) : (⟨S4096x20x12x2, .f32⟩ : BufTy).Contents (Elt F)) (((broadcastInDim S4096x20x12x2 ![] bcast_S_S4096x20x12x2) ((constant S_ .f32 0x7FC00000#32) : (⟨S_, .f32⟩ : BufTy).Contents (Elt F))) : (⟨S4096x20x12x2, .f32⟩ : BufTy).Contents (Elt F)))) shapeCasts_S4096x20x20x2_S4096x20x40) (shapeCast S128x40 (((extractStridedSlice S1x128x40 ![0, 0, 0] · slices_S8x128x40_S1x128x40_0_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![0, 0] · slices_S8x128_S1x128_0_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) (((broadcastInDim S4096x20x128 ![] bcast_S_S4096x20x128 : (⟨S_, .f32⟩ : BufTy).Contents (Elt F) → (⟨S4096x20x128, .f32⟩ : BufTy).Contents (Elt F)) (constant S_ .f32 0x00000000#32)) : (⟨S4096x20x128, .f32⟩ : BufTy).Contents (Elt F))) : (⟨S4096x20x128, .f32⟩ : BufTy).Contents (Elt F))) : (⟨S4096x20x128, .f32⟩ : BufTy).Contents (Elt F))) : (⟨S4096x20x128, .f32⟩ : BufTy).Contents (Elt F)))

set_option maxRecDepth 8192 in
set_option maxHeartbeats 4000000 in
theorem w0_v53 (V : Valuation τ sig (Elt F)) : after ops0 V (main_v53 : DevRef τ sig)
    = w0_v53_fn (V (main_arg0 : DevRef τ sig)) (V (main_arg2 : DevRef τ sig)) (V (main_arg4 : DevRef τ sig)) (V (main_arg5 : DevRef τ sig)) (V (main_arg6 : DevRef τ sig)) := by
  unfold ops0; after_results_simp; rfl

/-- What the window leaves in the buffer of value v54, from the buffers it reads. -/
def w0_v54_fn (i_main_arg5 : (⟨S8x128x40, .f32⟩ : BufTy).Contents (Elt F)) :
    (⟨S1x128x40, .f32⟩ : BufTy).Contents (Elt F) :=
  (((extractStridedSlice S1x128x40 ![4, 0, 0] · slices_S8x128x40_S1x128x40_4_0_0) : (⟨S8x128x40, .f32⟩ : BufTy).Contents (Elt F) → (⟨S1x128x40, .f32⟩ : BufTy).Contents (Elt F)) i_main_arg5)

set_option maxRecDepth 8192 in
set_option maxHeartbeats 4000000 in
theorem w0_v54 (V : Valuation τ sig (Elt F)) : after ops0 V (main_v54 : DevRef τ sig)
    = w0_v54_fn (V (main_arg5 : DevRef τ sig)) := by
  unfold ops0; after_results_simp; rfl

end Cert.ReferenceIdeal.RefRun

end
-- ==== Proof.RefOps1.lean ====
import proofs.«108484_g15788299780126_cont_week2b_740_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 1 in order (64), the bodies of the functions it calls written out at the calls. -/
def ops1 : List (HloOp τ sig (Elt F)) :=
  [ StableHlo.reshape main_v54 main_v55 rfl shapeCasts_S1x128x40_S128x40,
    StableHlo.binary main_v4 main_v55 main_v56 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v57 ((extractStridedSlice S1x128 ![4, 0] · slices_S8x128_S1x128_4_0) : (⟨S8x128, .f32⟩ : BufTy).Contents (Elt F) → (⟨S1x128, .f32⟩ : BufTy).Contents (Elt F)),
    StableHlo.reshape main_v57 main_v58 rfl shapeCasts_S1x128_S128,
    StableHlo.unary main_v58 main_v59 (broadcastInDim S1x1x128 ![2] bcast_S128_S1x1x128_2 : (⟨S128, .f32⟩ : BufTy).Contents (Elt F) → (⟨S1x1x128, .f32⟩ : BufTy).Contents (Elt F)),
    StableHlo.unary main_v59 main_v60 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v56 main_v60 main_v61 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_3 (constantI S_ 32 4#32),
    StableHlo.unary main_c_3 main_v62 (broadcastInDim S4096 ![] bcast_S_S4096 : (⟨S_, .i32⟩ : BufTy).Contents (Elt F) → (⟨S4096, .i32⟩ : BufTy).Contents (Elt F)),
    StableHlo.binary main_arg2 main_v62 main_v63 (cmpi .eq : (⟨S4096, .i32⟩ : BufTy).Contents (Elt F) → (⟨S4096, .i32⟩ : BufTy).Contents (Elt F) → (⟨S4096, .i1⟩ : BufTy).Contents (Elt F)),
    StableHlo.unary main_v63 main_v64 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v64 : StableHlo.TRef sig ⟨S4096x1x1, .i1⟩) main_call5.v0 (broadcastInDim S4096x20x128 ![0, 1, 2] bcast_S4096x1x1_S4096x20x128_0_1_2),
    StableHlo.TRef.ternary main_call5.v0 (.of main_v61 : StableHlo.TRef sig ⟨S4096x20x128, .f32⟩) (.of main_v53 : StableHlo.TRef sig ⟨S4096x20x128, .f32⟩) main_call5.v1 select,
    StableHlo.unary main_arg5 main_v66 ((extractStridedSlice S1x128x40 ![5, 0, 0] · slices_S8x128x40_S1x128x40_5_0_0) : (⟨S8x128x40, .f32⟩ : BufTy).Contents (Elt F) → (⟨S1x128x40, .f32⟩ : BufTy).Contents (Elt F)),
    StableHlo.reshape main_v66 main_v67 rfl shapeCasts_S1x128x40_S128x40,
    StableHlo.binary main_v4 main_v67 main_v68 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v69 ((extractStridedSlice S1x128 ![5, 0] · slices_S8x128_S1x128_5_0) : (⟨S8x128, .f32⟩ : BufTy).Contents (Elt F) → (⟨S1x128, .f32⟩ : BufTy).Contents (Elt F)),
    StableHlo.reshape main_v69 main_v70 rfl shapeCasts_S1x128_S128,
    StableHlo.unary main_v70 main_v71 (broadcastInDim S1x1x128 ![2] bcast_S128_S1x1x128_2 : (⟨S128, .f32⟩ : BufTy).Contents (Elt F) → (⟨S1x1x128, .f32⟩ : BufTy).Contents (Elt F)),
    StableHlo.unary main_v71 main_v72 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v68 main_v72 main_v73 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_4 (constantI S_ 32 5#32),
    StableHlo.unary main_c_4 main_v74 (broadcastInDim S4096 ![] bcast_S_S4096 : (⟨S_, .i32⟩ : BufTy).Contents (Elt F) → (⟨S4096, .i32⟩ : BufTy).Contents (Elt F)),
    StableHlo.binary main_arg2 main_v74 main_v75 (cmpi .eq : (⟨S4096, .i32⟩ : BufTy).Contents (Elt F) → (⟨S4096, .i32⟩ : BufTy).Contents (Elt F) → (⟨S4096, .i1⟩ : BufTy).Contents (Elt F)),
    StableHlo.unary main_v75 main_v76 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v76 : StableHlo.TRef sig ⟨S4096x1x1, .i1⟩) main_call6.v0 (broadcastInDim S4096x20x128 ![0, 1, 2] bcast_S4096x1x1_S4096x20x128_0_1_2),
    StableHlo.TRef.ternary main_call6.v0 (.of main_v73 : StableHlo.TRef sig ⟨S4096x20x128, .f32⟩) (.of main_v65 : StableHlo.TRef sig ⟨S4096x20x128, .f32⟩) main_call6.v1 select,
    StableHlo.unary main_arg5 main_v78 ((extractStridedSlice S1x128x40 ![6, 0, 0] · slices_S8x128x40_S1x128x40_6_0_0) : (⟨S8x128x40, .f32⟩ : BufTy).Contents (Elt F) → (⟨S1x128x40, .f32⟩ : BufTy).Contents (Elt F)),
    StableHlo.reshape main_v78 main_v79 rfl shapeCasts_S1x128x40_S128x40,
    StableHlo.binary main_v4 main_v79 main_v80 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v81 ((extractStridedSlice S1x128 ![6, 0] · slices_S8x128_S1x128_6_0) : (⟨S8x128, .f32⟩ : BufTy).Contents (Elt F) → (⟨S1x128, .f32⟩ : BufTy).Contents (Elt F)),
    StableHlo.reshape main_v81 main_v82 rfl shapeCasts_S1x128_S128,
    StableHlo.unary main_v82 main_v83 (broadcastInDim S1x1x128 ![2] bcast_S128_S1x1x128_2 : (⟨S128, .f32⟩ : BufTy).Contents (Elt F) → (⟨S1x1x128, .f32⟩ : BufTy).Contents (Elt F)),
    StableHlo.unary main_v83 main_v84 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v80 main_v84 main_v85 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_5 (constantI S_ 32 6#32),
    StableHlo.unary main_c_5 main_v86 (broadcastInDim S4096 ![] bcast_S_S4096 : (⟨S_, .i32⟩ : BufTy).Contents (Elt F) → (⟨S4096, .i32⟩ : BufTy).Contents (Elt F)),
    StableHlo.binary main_arg2 main_v86 main_v87 (cmpi .eq : (⟨S4096, .i32⟩ : BufTy).Contents (Elt F) → (⟨S4096, .i32⟩ : BufTy).Contents (Elt F) → (⟨S4096, .i1⟩ : BufTy).Contents (Elt F)),
    StableHlo.unary main_v87 main_v88 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v88 : StableHlo.TRef sig ⟨S4096x1x1, .i1⟩) main_call7.v0 (broadcastInDim S4096x20x128 ![0, 1, 2] bcast_S4096x1x1_S4096x20x128_0_1_2),
    StableHlo.TRef.ternary main_call7.v0 (.of main_v85 : StableHlo.TRef sig ⟨S4096x20x128, .f32⟩) (.of main_v77 : StableHlo.TRef sig ⟨S4096x20x128, .f32⟩) main_call7.v1 select,
    StableHlo.unary main_arg5 main_v90 ((extractStridedSlice S1x128x40 ![7, 0, 0] · slices_S8x128x40_S1x128x40_7_0_0) : (⟨S8x128x40, .f32⟩ : BufTy).Contents (Elt F) → (⟨S1x128x40, .f32⟩ : BufTy).Contents (Elt F)),
    StableHlo.reshape main_v90 main_v91 rfl shapeCasts_S1x128x40_S128x40,
    StableHlo.binary main_v4 main_v91 main_v92 ((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)),
    StableHlo.unary main_arg6 main_v93 ((extractStridedSlice S1x128 ![7, 0] · slices_S8x128_S1x128_7_0) : (⟨S8x128, .f32⟩ : BufTy).Contents (Elt F) → (⟨S1x128, .f32⟩ : BufTy).Contents (Elt F)),
    StableHlo.reshape main_v93 main_v94 rfl shapeCasts_S1x128_S128,
    StableHlo.unary main_v94 main_v95 (broadcastInDim S1x1x128 ![2] bcast_S128_S1x1x128_2 : (⟨S128, .f32⟩ : BufTy).Contents (Elt F) → (⟨S1x1x128, .f32⟩ : BufTy).Contents (Elt F)),
    StableHlo.unary main_v95 main_v96 (broadcastInDim S4096x20x128 ![0, 1, 2] bcast_S1x1x128_S4096x20x128_0_1_2 : (⟨S1x1x128, .f32⟩ : BufTy).Contents (Elt F) → (⟨S4096x20x128, .f32⟩ : BufTy).Contents (Elt F)),
    StableHlo.binary main_v92 main_v96 main_v97 (addf : (⟨S4096x20x128, .f32⟩ : BufTy).Contents (Elt F) → (⟨S4096x20x128, .f32⟩ : BufTy).Contents (Elt F) → (⟨S4096x20x128, .f32⟩ : BufTy).Contents (Elt F)),
    StableHlo.nullary main_c_6 (constantI S_ 32 7#32),
    StableHlo.unary main_c_6 main_v98 (broadcastInDim S4096 ![] bcast_S_S4096 : (⟨S_, .i32⟩ : BufTy).Contents (Elt F) → (⟨S4096, .i32⟩ : BufTy).Contents (Elt F)),
    StableHlo.binary main_arg2 main_v98 main_v99 (cmpi .eq : (⟨S4096, .i32⟩ : BufTy).Contents (Elt F) → (⟨S4096, .i32⟩ : BufTy).Contents (Elt F) → (⟨S4096, .i1⟩ : BufTy).Contents (Elt F)),
    StableHlo.unary main_v99 main_v100 (broadcastInDim S4096x1x1 ![0] bcast_S4096_S4096x1x1_0 : (⟨S4096, .i1⟩ : BufTy).Contents (Elt F) → (⟨S4096x1x1, .i1⟩ : BufTy).Contents (Elt F)),
    StableHlo.TRef.unary (.of main_v100 : StableHlo.TRef sig ⟨S4096x1x1, .i1⟩) main_call8.v0 (broadcastInDim S4096x20x128 ![0, 1, 2] bcast_S4096x1x1_S4096x20x128_0_1_2),
    StableHlo.TRef.ternary main_call8.v0 (.of main_v97 : StableHlo.TRef sig ⟨S4096x20x128, .f32⟩) (.of main_v89 : StableHlo.TRef sig ⟨S4096x20x128, .f32⟩) main_call8.v1 select,
    StableHlo.reshape main_arg1 main_v102 rfl shapeCasts_S4096x64x8x2_S4096x64x16,
    StableHlo.nullary main_cst_7 (constant S_ .f32 0x00000000#32),
    StableHlo.unary main_cst_7 main_v103 (broadcastInDim S4096x64x16 ![] bcast_S_S4096x64x16 : (⟨S_, .f32⟩ : BufTy).Contents (Elt F) → (⟨S4096x64x16, .f32⟩ : BufTy).Contents (Elt F)),
    StableHlo.binary main_v102 main_v103 main_v104 (cmpf .oge : (⟨S4096x64x16, .f32⟩ : BufTy).Contents (Elt F) → (⟨S4096x64x16, .f32⟩ : BufTy).Contents (Elt F) → (⟨S4096x64x16, .i1⟩ : BufTy).Contents (Elt F)),
    StableHlo.nullary main_cst_8 (constant S_ .f32 0x38D1B717#32),
    StableHlo.unary main_cst_8 main_v105 (broadcastInDim S4096x64x16 ![] bcast_S_S4096x64x16 : (⟨S_, .f32⟩ : BufTy).Contents (Elt F) → (⟨S4096x64x16, .f32⟩ : BufTy).Contents (Elt F)),
    StableHlo.binary main_v102 main_v105 main_v106 (addf : (⟨S4096x64x16, .f32⟩ : BufTy).Contents (Elt F) → (⟨S4096x64x16, .f32⟩ : BufTy).Contents (Elt F) → (⟨S4096x64x16, .f32⟩ : BufTy).Contents (Elt F)),
    StableHlo.nullary main_cst_9 (constant S_ .f32 0x3F800000#32),
    StableHlo.unary main_cst_9 main_v107 (broadcastInDim S4096x64x16 ![] bcast_S_S4096x64x16 : (⟨S_, .f32⟩ : BufTy).Contents (Elt F) → (⟨S4096x64x16, .f32⟩ : BufTy).Contents (Elt F)) ]

set_option maxRecDepth 8192 in
set_option maxHeartbeats 4000000 in
/-- The window is that line: the called functions unfolded, both sides are one chain of steps. -/
theorem part1_eq (c : Dev nD) : main_part1 (F := F) c = seq ops1 := by
  rfl

theorem ops1_sub : (ops1 : List (HloOp τ sig (Elt F))).Forall fun op => op.bufs ⊆ tcRefs τ sig :=
  ⟨reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., reshape_bufs_sub .., nullary_bufs_sub .., unary_bufs_sub .., binary_bufs_sub .., nullary_bufs_sub .., unary_bufs_sub .., binary_bufs_sub .., nullary_bufs_sub .., unary_bufs_sub ..⟩

set_option maxRecDepth 8192 in
/-- Every operation of the window determines its results. -/
theorem ops1_fresh : ∀ op ∈ (ops1 : List (HloOp τ sig (Elt F))), op.fresh = ∅ := by
  intro op h; unfold ops1 at h; (repeat (cases h with | head => rfl | tail _ h => ?_)); exact nomatch h

end Cert.ReferenceIdeal.RefRun

end
-- ==== Proof.RefWin1.lean ====
import proofs.«108484_g15788299780126_cont_week2b_740_2_alg».proof.Proof.RefOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem w1_arg0 (V : Valuation τ sig (Elt F)) : after ops1 V (main_arg0 : DevRef τ sig) = V (main_arg0 : DevRef τ sig) := by
  unfold ops1; after_results_simp

theorem w1_arg1 (V : Valuation τ sig (Elt F)) : after ops1 V (main_arg1 : DevRef τ sig) = V (main_arg1 : DevRef τ sig) := by
  unfold ops1; after_results_simp

theorem w1_arg2 (V : Valuation τ sig (Elt F)) : after ops1 V (main_arg2 : DevRef τ sig) = V (main_arg2 : DevRef τ sig) := by
  unfold ops1; after_results_simp

theorem w1_arg3 (V : Valuation τ sig (Elt F)) : after ops1 V (main_arg3 : DevRef τ sig) = V (main_arg3 : DevRef τ sig) := by
  unfold ops1; after_results_simp

theorem w1_arg4 (V : Valuation τ sig (Elt F)) : after ops1 V (main_arg4 : DevRef τ sig) = V (main_arg4 : DevRef τ sig) := by
  unfold ops1; after_results_simp

theorem w1_arg5 (V : Valuation τ sig (Elt F)) : after ops1 V (main_arg5 : DevRef τ sig) = V (main_arg5 : DevRef τ sig) := by
  unfold ops1; after_results_simp

theorem w1_arg6 (V : Valuation τ sig (Elt F)) : after ops1 V (main_arg6 : DevRef τ sig) = V (main_arg6 : DevRef τ sig) := by
  unfold ops1; after_results_simp

theorem w1_arg7 (V : Valuation τ sig (Elt F)) : after ops1 V (main_arg7 : DevRef τ sig) = V (main_arg7 : DevRef τ sig) := by
  unfold ops1; after_results_simp

theorem w1_arg8 (V : Valuation τ sig (Elt F)) : after ops1 V (main_arg8 : DevRef τ sig) = V (main_arg8 : DevRef τ sig) := by
  unfold ops1; after_results_simp

/-- What the window leaves in the buffer of value v101, from the buffers it reads. -/
def w1_v101_fn (i_main_arg2 : (⟨S4096, .i32⟩ : BufTy).Contents (Elt F)) (i_main_arg5 : (⟨S8x128x40, .f32⟩ : BufTy).Contents (Elt F)) (i_main_arg6 : (⟨S8x128, .f32⟩ : BufTy).Contents (Elt F)) (i_main_v4 : (⟨S4096x20x40, .f32⟩ : BufTy).Contents (Elt F)) (i_main_v53 : (⟨S4096x20x128, .f32⟩ : BufTy).Contents (Elt F)) (i_main_v54 : (⟨S1x128x40, .f32⟩ : BufTy).Contents (Elt F)) :
    (⟨S4096x20x128, .f32⟩ : BufTy).Contents (Elt F) :=
  (select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 7#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) i_main_v4 (shapeCast S128x40 (((extractStridedSlice S1x128x40 ![7, 0, 0] · slices_S8x128x40_S1x128x40_7_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![7, 0] · slices_S8x128_S1x128_7_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 6#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) i_main_v4 (shapeCast S128x40 (((extractStridedSlice S1x128x40 ![6, 0, 0] · slices_S8x128x40_S1x128x40_6_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![6, 0] · slices_S8x128_S1x128_6_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 5#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) i_main_v4 (shapeCast S128x40 (((extractStridedSlice S1x128x40 ![5, 0, 0] · slices_S8x128x40_S1x128x40_5_0_0) : (⟨S8x128x40, .f32⟩ : BufTy).Contents (Elt F) → (⟨S1x128x40, .f32⟩ : BufTy).Contents (Elt F)) i_main_arg5) shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![5, 0] · slices_S8x128_S1x128_5_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) ((select (((broadcastInDim S4096x20x128 ![0, 1, 2] bcast_S4096x1x1_S4096x20x128_0_1_2) (((broadcastInDim S4096x1x1 ![0] bcast_S4096_S4096x1x1_0 : (⟨S4096, .i1⟩ : BufTy).Contents (Elt F) → (⟨S4096x1x1, .i1⟩ : BufTy).Contents (Elt F)) ((cmpi .eq : (⟨S4096, .i32⟩ : BufTy).Contents (Elt F) → (⟨S4096, .i32⟩ : BufTy).Contents (Elt F) → (⟨S4096, .i1⟩ : BufTy).Contents (Elt F)) i_main_arg2 ((broadcastInDim S4096 ![] bcast_S_S4096 : (⟨S_, .i32⟩ : BufTy).Contents (Elt F) → (⟨S4096, .i32⟩ : BufTy).Contents (Elt F)) (constantI S_ 32 4#32)))) : (⟨S4096x1x1, .i1⟩ : BufTy).Contents (Elt F))) : (⟨S4096x20x128, .i1⟩ : BufTy).Contents (Elt F)) (((addf : (⟨S4096x20x128, .f32⟩ : BufTy).Contents (Elt F) → (⟨S4096x20x128, .f32⟩ : BufTy).Contents (Elt F) → (⟨S4096x20x128, .f32⟩ : BufTy).Contents (Elt F)) (((fun l r => Host.dotGeneral dot_S4096x20x40_S128x40_S4096x20x128_2_1_01_0_n_n none l r) : (⟨S4096x20x40, .f32⟩ : BufTy).Contents (Elt F) → (⟨S128x40, .f32⟩ : BufTy).Contents (Elt F) → (⟨S4096x20x128, .f32⟩ : BufTy).Contents (Elt F)) i_main_v4 (shapeCast S128x40 i_main_v54 shapeCasts_S1x128x40_S128x40)) ((broadcastInDim S4096x20x128 ![0, 1, 2] bcast_S1x1x128_S4096x20x128_0_1_2 : (⟨S1x1x128, .f32⟩ : BufTy).Contents (Elt F) → (⟨S4096x20x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![4, 0] · slices_S8x128_S1x128_4_0) : (⟨S8x128, .f32⟩ : BufTy).Contents (Elt F) → (⟨S1x128, .f32⟩ : BufTy).Contents (Elt F)) i_main_arg6) shapeCasts_S1x128_S128)))) : (⟨S4096x20x128, .f32⟩ : BufTy).Contents (Elt F)) (i_main_v53 : (⟨S4096x20x128, .f32⟩ : BufTy).Contents (Elt F))) : (⟨S4096x20x128, .f32⟩ : BufTy).Contents (Elt F))) : (⟨S4096x20x128, .f32⟩ : BufTy).Contents (Elt F))) : (⟨S4096x20x128, .f32⟩ : BufTy).Contents (Elt F)))

set_option maxRecDepth 8192 in
set_option maxHeartbeats 4000000 in
theorem w1_v101 (V : Valuation τ sig (Elt F)) : after ops1 V (main_v101 : DevRef τ sig)
    = w1_v101_fn (V (main_arg2 : DevRef τ sig)) (V (main_arg5 : DevRef τ sig)) (V (main_arg6 : DevRef τ sig)) (V (main_v4 : DevRef τ sig)) (V (main_v53 : DevRef τ sig)) (V (main_v54 : DevRef τ sig)) := by
  unfold ops1; after_results_simp; rfl

/-- What the window leaves in the buffer of value v102, from the buffers it reads. -/
def w1_v102_fn (i_main_arg1 : (⟨S4096x64x8x2, .f32⟩ : BufTy).Contents (Elt F)) :
    (⟨S4096x64x16, .f32⟩ : BufTy).Contents (Elt F) :=
  (shapeCast S4096x64x16 i_main_arg1 shapeCasts_S4096x64x8x2_S4096x64x16)

set_option maxRecDepth 8192 in
set_option maxHeartbeats 4000000 in
theorem w1_v102 (V : Valuation τ sig (Elt F)) : after ops1 V (main_v102 : DevRef τ sig)
    = w1_v102_fn (V (main_arg1 : DevRef τ sig)) := by
  unfold ops1; after_results_simp; rfl

/-- What the window leaves in the buffer of value v104, from the buffers it reads. -/
def w1_v104_fn (i_main_arg1 : (⟨S4096x64x8x2, .f32⟩ : BufTy).Contents (Elt F)) :
    (⟨S4096x64x16, .i1⟩ : BufTy).Contents (Elt F) :=
  ((cmpf .oge : (⟨S4096x64x16, .f32⟩ : BufTy).Contents (Elt F) → (⟨S4096x64x16, .f32⟩ : BufTy).Contents (Elt F) → (⟨S4096x64x16, .i1⟩ : BufTy).Contents (Elt F)) (shapeCast S4096x64x16 i_main_arg1 shapeCasts_S4096x64x8x2_S4096x64x16) ((broadcastInDim S4096x64x16 ![] bcast_S_S4096x64x16 : (⟨S_, .f32⟩ : BufTy).Contents (Elt F) → (⟨S4096x64x16, .f32⟩ : BufTy).Contents (Elt F)) (constant S_ .f32 0x00000000#32)))

set_option maxRecDepth 8192 in
set_option maxHeartbeats 4000000 in
theorem w1_v104 (V : Valuation τ sig (Elt F)) : after ops1 V (main_v104 : DevRef τ sig)
    = w1_v104_fn (V (main_arg1 : DevRef τ sig)) := by
  unfold ops1; after_results_simp; rfl

/-- What the window leaves in the buffer of value v106, from the buffers it reads. -/
def w1_v106_fn (i_main_arg1 : (⟨S4096x64x8x2, .f32⟩ : BufTy).Contents (Elt F)) :
    (⟨S4096x64x16, .f32⟩ : BufTy).Contents (Elt F) :=
  ((addf : (⟨S4096x64x16, .f32⟩ : BufTy).Contents (Elt F) → (⟨S4096x64x16, .f32⟩ : BufTy).Contents (Elt F) → (⟨S4096x64x16, .f32⟩ : BufTy).Contents (Elt F)) (shapeCast S4096x64x16 i_main_arg1 shapeCasts_S4096x64x8x2_S4096x64x16) ((broadcastInDim S4096x64x16 ![] bcast_S_S4096x64x16 : (⟨S_, .f32⟩ : BufTy).Contents (Elt F) → (⟨S4096x64x16, .f32⟩ : BufTy).Contents (Elt F)) (constant S_ .f32 0x38D1B717#32)))

set_option maxRecDepth 8192 in
set_option maxHeartbeats 4000000 in
theorem w1_v106 (V : Valuation τ sig (Elt F)) : after ops1 V (main_v106 : DevRef τ sig)
    = w1_v106_fn (V (main_arg1 : DevRef τ sig)) := by
  unfold ops1; after_results_simp; rfl

/-- What the window leaves in the buffer of value v107, from the buffers it reads. -/
def w1_v107_fn  :
    (⟨S4096x64x16, .f32⟩ : BufTy).Contents (Elt F) :=
  ((broadcastInDim S4096x64x16 ![] bcast_S_S4096x64x16 : (⟨S_, .f32⟩ : BufTy).Contents (Elt F) → (⟨S4096x64x16, .f32⟩ : BufTy).Contents (Elt F)) (constant S_ .f32 0x3F800000#32))

set_option maxRecDepth 8192 in
set_option maxHeartbeats 4000000 in
theorem w1_v107 (V : Valuation τ sig (Elt F)) : after ops1 V (main_v107 : DevRef τ sig)
    = w1_v107_fn  := by
  unfold ops1; after_results_simp; rfl

end Cert.ReferenceIdeal.RefRun

end
-- ==== Proof.RefOps2.lean ====
import proofs.«108484_g15788299780126_cont_week2b_740_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 2 in order (63), the bodies of the functions it calls written out at the calls. -/
def ops2 : List (HloOp τ sig (Elt F)) :=
  [ StableHlo.binary main_v107 main_v106 main_v108 (Host.divf : (⟨S4096x64x16, .f32⟩ : BufTy).Contents (Elt F) → (⟨S4096x64x16, .f32⟩ : BufTy).Contents (Elt F) → (⟨S4096x64x16, .f32⟩ : BufTy).Contents (Elt F)),
    StableHlo.nullary main_cst_10 (constant S_ .f32 0x38D1B717#32),
    StableHlo.unary main_cst_10 main_v109 (broadcastInDim S4096x64x16 ![] bcast_S_S4096x64x16 : (⟨S_, .f32⟩ : BufTy).Contents (Elt F) → (⟨S4096x64x16, .f32⟩ : BufTy).Contents (Elt F)),
    StableHlo.binary main_v102 main_v109 main_v110 (subf : (⟨S4096x64x16, .f32⟩ : BufTy).Contents (Elt F) → (⟨S4096x64x16, .f32⟩ : BufTy).Contents (Elt F) → (⟨S4096x64x16, .f32⟩ : BufTy).Contents (Elt F)),
    StableHlo.nullary main_cst_11 (constant S_ .f32 0x3F800000#32),
    StableHlo.unary main_cst_11 main_v111 (broadcastInDim S4096x64x16 ![] bcast_S_S4096x64x16 : (⟨S_, .f32⟩ : BufTy).Contents (Elt F) → (⟨S4096x64x16, .f32⟩ : BufTy).Contents (Elt F)),
    StableHlo.binary main_v111 main_v110 main_v112 (Host.divf : (⟨S4096x64x16, .f32⟩ : BufTy).Contents (Elt F) → (⟨S4096x64x16, .f32⟩ : BufTy).Contents (Elt F) → (⟨S4096x64x16, .f32⟩ : BufTy).Contents (Elt F)),
    StableHlo.TRef.ternary (.of main_v104 : StableHlo.TRef sig ⟨S4096x64x16, .i1⟩) (.of main_v108 : StableHlo.TRef sig ⟨S4096x64x16, .f32⟩) (.of main_v112 : StableHlo.TRef sig ⟨S4096x64x16, .f32⟩) main_call9.v0 select,
    StableHlo.nullary main_cst_12 (constant S_ .f32 0x00000000#32),
    StableHlo.unary main_cst_12 main_v114 (broadcastInDim S4096x64x128 ![] bcast_S_S4096x64x128 : (⟨S_, .f32⟩ : BufTy).Contents (Elt F) → (⟨S4096x64x128, .f32⟩ : BufTy).Contents (Elt F)),
    StableHlo.unary main_arg7 main_v115 ((extractStridedSlice S1x128x16 ![0, 0, 0] · slices_S9x128x16_S1x128x16_0_0_0) : (⟨S9x128x16, .f32⟩ : BufTy).Contents (Elt F) → (⟨S1x128x16, .f32⟩ : BufTy).Contents (Elt F)),
    StableHlo.reshape main_v115 main_v116 rfl shapeCasts_S1x128x16_S128x16,
    StableHlo.binary main_v113 main_v116 main_v117 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v118 ((extractStridedSlice S1x128 ![0, 0] · slices_S9x128_S1x128_0_0) : (⟨S9x128, .f32⟩ : BufTy).Contents (Elt F) → (⟨S1x128, .f32⟩ : BufTy).Contents (Elt F)),
    StableHlo.reshape main_v118 main_v119 rfl shapeCasts_S1x128_S128,
    StableHlo.unary main_v119 main_v120 (broadcastInDim S1x1x128 ![2] bcast_S128_S1x1x128_2 : (⟨S128, .f32⟩ : BufTy).Contents (Elt F) → (⟨S1x1x128, .f32⟩ : BufTy).Contents (Elt F)),
    StableHlo.unary main_v120 main_v121 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v117 main_v121 main_v122 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_13 (constantI S_ 32 0#32),
    StableHlo.unary main_c_13 main_v123 (broadcastInDim S4096x64 ![] bcast_S_S4096x64 : (⟨S_, .i32⟩ : BufTy).Contents (Elt F) → (⟨S4096x64, .i32⟩ : BufTy).Contents (Elt F)),
    StableHlo.binary main_arg3 main_v123 main_v124 (cmpi .eq : (⟨S4096x64, .i32⟩ : BufTy).Contents (Elt F) → (⟨S4096x64, .i32⟩ : BufTy).Contents (Elt F) → (⟨S4096x64, .i1⟩ : BufTy).Contents (Elt F)),
    StableHlo.unary main_v124 main_v125 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v125 : StableHlo.TRef sig ⟨S4096x64x1, .i1⟩) main_call10.v0 (broadcastInDim S4096x64x128 ![0, 1, 2] bcast_S4096x64x1_S4096x64x128_0_1_2),
    StableHlo.TRef.ternary main_call10.v0 (.of main_v122 : StableHlo.TRef sig ⟨S4096x64x128, .f32⟩) (.of main_v114 : StableHlo.TRef sig ⟨S4096x64x128, .f32⟩) main_call10.v1 select,
    StableHlo.unary main_arg7 main_v127 ((extractStridedSlice S1x128x16 ![1, 0, 0] · slices_S9x128x16_S1x128x16_1_0_0) : (⟨S9x128x16, .f32⟩ : BufTy).Contents (Elt F) → (⟨S1x128x16, .f32⟩ : BufTy).Contents (Elt F)),
    StableHlo.reshape main_v127 main_v128 rfl shapeCasts_S1x128x16_S128x16,
    StableHlo.binary main_v113 main_v128 main_v129 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v130 ((extractStridedSlice S1x128 ![1, 0] · slices_S9x128_S1x128_1_0) : (⟨S9x128, .f32⟩ : BufTy).Contents (Elt F) → (⟨S1x128, .f32⟩ : BufTy).Contents (Elt F)),
    StableHlo.reshape main_v130 main_v131 rfl shapeCasts_S1x128_S128,
    StableHlo.unary main_v131 main_v132 (broadcastInDim S1x1x128 ![2] bcast_S128_S1x1x128_2 : (⟨S128, .f32⟩ : BufTy).Contents (Elt F) → (⟨S1x1x128, .f32⟩ : BufTy).Contents (Elt F)),
    StableHlo.unary main_v132 main_v133 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v129 main_v133 main_v134 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_14 (constantI S_ 32 1#32),
    StableHlo.unary main_c_14 main_v135 (broadcastInDim S4096x64 ![] bcast_S_S4096x64 : (⟨S_, .i32⟩ : BufTy).Contents (Elt F) → (⟨S4096x64, .i32⟩ : BufTy).Contents (Elt F)),
    StableHlo.binary main_arg3 main_v135 main_v136 (cmpi .eq : (⟨S4096x64, .i32⟩ : BufTy).Contents (Elt F) → (⟨S4096x64, .i32⟩ : BufTy).Contents (Elt F) → (⟨S4096x64, .i1⟩ : BufTy).Contents (Elt F)),
    StableHlo.unary main_v136 main_v137 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v137 : StableHlo.TRef sig ⟨S4096x64x1, .i1⟩) main_call11.v0 (broadcastInDim S4096x64x128 ![0, 1, 2] bcast_S4096x64x1_S4096x64x128_0_1_2),
    StableHlo.TRef.ternary main_call11.v0 (.of main_v134 : StableHlo.TRef sig ⟨S4096x64x128, .f32⟩) (.of main_v126 : StableHlo.TRef sig ⟨S4096x64x128, .f32⟩) main_call11.v1 select,
    StableHlo.unary main_arg7 main_v139 ((extractStridedSlice S1x128x16 ![2, 0, 0] · slices_S9x128x16_S1x128x16_2_0_0) : (⟨S9x128x16, .f32⟩ : BufTy).Contents (Elt F) → (⟨S1x128x16, .f32⟩ : BufTy).Contents (Elt F)),
    StableHlo.reshape main_v139 main_v140 rfl shapeCasts_S1x128x16_S128x16,
    StableHlo.binary main_v113 main_v140 main_v141 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v142 ((extractStridedSlice S1x128 ![2, 0] · slices_S9x128_S1x128_2_0) : (⟨S9x128, .f32⟩ : BufTy).Contents (Elt F) → (⟨S1x128, .f32⟩ : BufTy).Contents (Elt F)),
    StableHlo.reshape main_v142 main_v143 rfl shapeCasts_S1x128_S128,
    StableHlo.unary main_v143 main_v144 (broadcastInDim S1x1x128 ![2] bcast_S128_S1x1x128_2 : (⟨S128, .f32⟩ : BufTy).Contents (Elt F) → (⟨S1x1x128, .f32⟩ : BufTy).Contents (Elt F)),
    StableHlo.unary main_v144 main_v145 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v141 main_v145 main_v146 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_15 (constantI S_ 32 2#32),
    StableHlo.unary main_c_15 main_v147 (broadcastInDim S4096x64 ![] bcast_S_S4096x64 : (⟨S_, .i32⟩ : BufTy).Contents (Elt F) → (⟨S4096x64, .i32⟩ : BufTy).Contents (Elt F)),
    StableHlo.binary main_arg3 main_v147 main_v148 (cmpi .eq : (⟨S4096x64, .i32⟩ : BufTy).Contents (Elt F) → (⟨S4096x64, .i32⟩ : BufTy).Contents (Elt F) → (⟨S4096x64, .i1⟩ : BufTy).Contents (Elt F)),
    StableHlo.unary main_v148 main_v149 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v149 : StableHlo.TRef sig ⟨S4096x64x1, .i1⟩) main_call12.v0 (broadcastInDim S4096x64x128 ![0, 1, 2] bcast_S4096x64x1_S4096x64x128_0_1_2),
    StableHlo.TRef.ternary main_call12.v0 (.of main_v146 : StableHlo.TRef sig ⟨S4096x64x128, .f32⟩) (.of main_v138 : StableHlo.TRef sig ⟨S4096x64x128, .f32⟩) main_call12.v1 select,
    StableHlo.unary main_arg7 main_v151 ((extractStridedSlice S1x128x16 ![3, 0, 0] · slices_S9x128x16_S1x128x16_3_0_0) : (⟨S9x128x16, .f32⟩ : BufTy).Contents (Elt F) → (⟨S1x128x16, .f32⟩ : BufTy).Contents (Elt F)),
    StableHlo.reshape main_v151 main_v152 rfl shapeCasts_S1x128x16_S128x16,
    StableHlo.binary main_v113 main_v152 main_v153 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v154 ((extractStridedSlice S1x128 ![3, 0] · slices_S9x128_S1x128_3_0) : (⟨S9x128, .f32⟩ : BufTy).Contents (Elt F) → (⟨S1x128, .f32⟩ : BufTy).Contents (Elt F)),
    StableHlo.reshape main_v154 main_v155 rfl shapeCasts_S1x128_S128,
    StableHlo.unary main_v155 main_v156 (broadcastInDim S1x1x128 ![2] bcast_S128_S1x1x128_2 : (⟨S128, .f32⟩ : BufTy).Contents (Elt F) → (⟨S1x1x128, .f32⟩ : BufTy).Contents (Elt F)),
    StableHlo.unary main_v156 main_v157 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v153 main_v157 main_v158 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_16 (constantI S_ 32 3#32),
    StableHlo.unary main_c_16 main_v159 (broadcastInDim S4096x64 ![] bcast_S_S4096x64 : (⟨S_, .i32⟩ : BufTy).Contents (Elt F) → (⟨S4096x64, .i32⟩ : BufTy).Contents (Elt F)),
    StableHlo.binary main_arg3 main_v159 main_v160 (cmpi .eq : (⟨S4096x64, .i32⟩ : BufTy).Contents (Elt F) → (⟨S4096x64, .i32⟩ : BufTy).Contents (Elt F) → (⟨S4096x64, .i1⟩ : BufTy).Contents (Elt F)) ]

set_option maxRecDepth 8192 in
set_option maxHeartbeats 4000000 in
/-- The window is that line: the called functions unfolded, both sides are one chain of steps. -/
theorem part2_eq (c : Dev nD) : main_part2 (F := F) c = seq ops2 := by
  rfl

theorem ops2_sub : (ops2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., nullary_bufs_sub .., unary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub ..⟩

set_option maxRecDepth 8192 in
/-- Every operation of the window determines its results. -/
theorem ops2_fresh : ∀ op ∈ (ops2 : List (HloOp τ sig (Elt F))), op.fresh = ∅ := by
  intro op h; unfold ops2 at h; (repeat (cases h with | head => rfl | tail _ h => ?_)); exact nomatch h

end Cert.ReferenceIdeal.RefRun

end
-- ==== Proof.RefWin2.lean ====
import proofs.«108484_g15788299780126_cont_week2b_740_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem w2_arg0 (V : Valuation τ sig (Elt F)) : after ops2 V (main_arg0 : DevRef τ sig) = V (main_arg0 : DevRef τ sig) := by
  unfold ops2; after_results_simp

theorem w2_arg1 (V : Valuation τ sig (Elt F)) : after ops2 V (main_arg1 : DevRef τ sig) = V (main_arg1 : DevRef τ sig) := by
  unfold ops2; after_results_simp

theorem w2_arg2 (V : Valuation τ sig (Elt F)) : after ops2 V (main_arg2 : DevRef τ sig) = V (main_arg2 : DevRef τ sig) := by
  unfold ops2; after_results_simp

theorem w2_arg3 (V : Valuation τ sig (Elt F)) : after ops2 V (main_arg3 : DevRef τ sig) = V (main_arg3 : DevRef τ sig) := by
  unfold ops2; after_results_simp

theorem w2_arg4 (V : Valuation τ sig (Elt F)) : after ops2 V (main_arg4 : DevRef τ sig) = V (main_arg4 : DevRef τ sig) := by
  unfold ops2; after_results_simp

theorem w2_arg5 (V : Valuation τ sig (Elt F)) : after ops2 V (main_arg5 : DevRef τ sig) = V (main_arg5 : DevRef τ sig) := by
  unfold ops2; after_results_simp

theorem w2_arg6 (V : Valuation τ sig (Elt F)) : after ops2 V (main_arg6 : DevRef τ sig) = V (main_arg6 : DevRef τ sig) := by
  unfold ops2; after_results_simp

theorem w2_arg7 (V : Valuation τ sig (Elt F)) : after ops2 V (main_arg7 : DevRef τ sig) = V (main_arg7 : DevRef τ sig) := by
  unfold ops2; after_results_simp

theorem w2_arg8 (V : Valuation τ sig (Elt F)) : after ops2 V (main_arg8 : DevRef τ sig) = V (main_arg8 : DevRef τ sig) := by
  unfold ops2; after_results_simp

theorem w2_v101 (V : Valuation τ sig (Elt F)) : after ops2 V (main_v101 : DevRef τ sig) = V (main_v101 : DevRef τ sig) := by
  unfold ops2; after_results_simp

/-- What the window leaves in the buffer of value v113, from the buffers it reads. -/
def w2_v113_fn (i_main_v102 : (⟨S4096x64x16, .f32⟩ : BufTy).Contents (Elt F)) (i_main_v104 : (⟨S4096x64x16, .i1⟩ : BufTy).Contents (Elt F)) (i_main_v106 : (⟨S4096x64x16, .f32⟩ : BufTy).Contents (Elt F)) (i_main_v107 : (⟨S4096x64x16, .f32⟩ : BufTy).Contents (Elt F)) :
    (⟨S4096x64x16, .f32⟩ : BufTy).Contents (Elt F) :=
  (select (i_main_v104 : (⟨S4096x64x16, .i1⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) i_main_v107 i_main_v106) : (⟨S4096x64x16, .f32⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) ((broadcastInDim S4096x64x16 ![] bcast_S_S4096x64x16 : (⟨S_, .f32⟩ : BufTy).Contents (Elt F) → (⟨S4096x64x16, .f32⟩ : BufTy).Contents (Elt F)) (constant S_ .f32 0x3F800000#32)) ((subf : (⟨S4096x64x16, .f32⟩ : BufTy).Contents (Elt F) → (⟨S4096x64x16, .f32⟩ : BufTy).Contents (Elt F) → (⟨S4096x64x16, .f32⟩ : BufTy).Contents (Elt F)) i_main_v102 ((broadcastInDim S4096x64x16 ![] bcast_S_S4096x64x16 : (⟨S_, .f32⟩ : BufTy).Contents (Elt F) → (⟨S4096x64x16, .f32⟩ : BufTy).Contents (Elt F)) (constant S_ .f32 0x38D1B717#32)))) : (⟨S4096x64x16, .f32⟩ : BufTy).Contents (Elt F)))

set_option maxRecDepth 8192 in
set_option maxHeartbeats 4000000 in
theorem w2_v113 (V : Valuation τ sig (Elt F)) : after ops2 V (main_v113 : DevRef τ sig)
    = w2_v113_fn (V (main_v102 : DevRef τ sig)) (V (main_v104 : DevRef τ sig)) (V (main_v106 : DevRef τ sig)) (V (main_v107 : DevRef τ sig)) := by
  unfold ops2; after_results_simp; rfl

/-- What the window leaves in the buffer of value v150, from the buffers it reads. -/
def w2_v150_fn (i_main_arg3 : (⟨S4096x64, .i32⟩ : BufTy).Contents (Elt F)) (i_main_arg7 : (⟨S9x128x16, .f32⟩ : BufTy).Contents (Elt F)) (i_main_arg8 : (⟨S9x128, .f32⟩ : BufTy).Contents (Elt F)) (i_main_v102 : (⟨S4096x64x16, .f32⟩ : BufTy).Contents (Elt F)) (i_main_v104 : (⟨S4096x64x16, .i1⟩ : BufTy).Contents (Elt F)) (i_main_v106 : (⟨S4096x64x16, .f32⟩ : BufTy).Contents (Elt F)) (i_main_v107 : (⟨S4096x64x16, .f32⟩ : BufTy).Contents (Elt F)) :
    (⟨S4096x64x128, .f32⟩ : BufTy).Contents (Elt F) :=
  (select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 2#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) (select (i_main_v104 : (⟨S4096x64x16, .i1⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) i_main_v107 i_main_v106) : (⟨S4096x64x16, .f32⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) ((broadcastInDim S4096x64x16 ![] bcast_S_S4096x64x16 : (⟨S_, .f32⟩ : BufTy).Contents (Elt F) → (⟨S4096x64x16, .f32⟩ : BufTy).Contents (Elt F)) (constant S_ .f32 0x3F800000#32)) ((subf : (⟨S4096x64x16, .f32⟩ : BufTy).Contents (Elt F) → (⟨S4096x64x16, .f32⟩ : BufTy).Contents (Elt F) → (⟨S4096x64x16, .f32⟩ : BufTy).Contents (Elt F)) i_main_v102 ((broadcastInDim S4096x64x16 ![] bcast_S_S4096x64x16 : (⟨S_, .f32⟩ : BufTy).Contents (Elt F) → (⟨S4096x64x16, .f32⟩ : BufTy).Contents (Elt F)) (constant S_ .f32 0x38D1B717#32)))) : (⟨S4096x64x16, .f32⟩ : BufTy).Contents (Elt F))) (shapeCast S128x16 (((extractStridedSlice S1x128x16 ![2, 0, 0] · slices_S9x128x16_S1x128x16_2_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![2, 0] · slices_S9x128_S1x128_2_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 1#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) (select (i_main_v104 : (⟨S4096x64x16, .i1⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) i_main_v107 i_main_v106) : (⟨S4096x64x16, .f32⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) ((broadcastInDim S4096x64x16 ![] bcast_S_S4096x64x16 : (⟨S_, .f32⟩ : BufTy).Contents (Elt F) → (⟨S4096x64x16, .f32⟩ : BufTy).Contents (Elt F)) (constant S_ .f32 0x3F800000#32)) ((subf : (⟨S4096x64x16, .f32⟩ : BufTy).Contents (Elt F) → (⟨S4096x64x16, .f32⟩ : BufTy).Contents (Elt F) → (⟨S4096x64x16, .f32⟩ : BufTy).Contents (Elt F)) i_main_v102 ((broadcastInDim S4096x64x16 ![] bcast_S_S4096x64x16 : (⟨S_, .f32⟩ : BufTy).Contents (Elt F) → (⟨S4096x64x16, .f32⟩ : BufTy).Contents (Elt F)) (constant S_ .f32 0x38D1B717#32)))) : (⟨S4096x64x16, .f32⟩ : BufTy).Contents (Elt F))) (shapeCast S128x16 (((extractStridedSlice S1x128x16 ![1, 0, 0] · slices_S9x128x16_S1x128x16_1_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![1, 0] · slices_S9x128_S1x128_1_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 0#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) (select (i_main_v104 : (⟨S4096x64x16, .i1⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) i_main_v107 i_main_v106) : (⟨S4096x64x16, .f32⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) ((broadcastInDim S4096x64x16 ![] bcast_S_S4096x64x16 : (⟨S_, .f32⟩ : BufTy).Contents (Elt F) → (⟨S4096x64x16, .f32⟩ : BufTy).Contents (Elt F)) (constant S_ .f32 0x3F800000#32)) ((subf : (⟨S4096x64x16, .f32⟩ : BufTy).Contents (Elt F) → (⟨S4096x64x16, .f32⟩ : BufTy).Contents (Elt F) → (⟨S4096x64x16, .f32⟩ : BufTy).Contents (Elt F)) i_main_v102 ((broadcastInDim S4096x64x16 ![] bcast_S_S4096x64x16 : (⟨S_, .f32⟩ : BufTy).Contents (Elt F) → (⟨S4096x64x16, .f32⟩ : BufTy).Contents (Elt F)) (constant S_ .f32 0x38D1B717#32)))) : (⟨S4096x64x16, .f32⟩ : BufTy).Contents (Elt F))) (shapeCast S128x16 (((extractStridedSlice S1x128x16 ![0, 0, 0] · slices_S9x128x16_S1x128x16_0_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![0, 0] · slices_S9x128_S1x128_0_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) (((broadcastInDim S4096x64x128 ![] bcast_S_S4096x64x128 : (⟨S_, .f32⟩ : BufTy).Contents (Elt F) → (⟨S4096x64x128, .f32⟩ : BufTy).Contents (Elt F)) (constant S_ .f32 0x00000000#32)) : (⟨S4096x64x128, .f32⟩ : BufTy).Contents (Elt F))) : (⟨S4096x64x128, .f32⟩ : BufTy).Contents (Elt F))) : (⟨S4096x64x128, .f32⟩ : BufTy).Contents (Elt F)))

set_option maxRecDepth 8192 in
set_option maxHeartbeats 4000000 in
theorem w2_v150 (V : Valuation τ sig (Elt F)) : after ops2 V (main_v150 : DevRef τ sig)
    = w2_v150_fn (V (main_arg3 : DevRef τ sig)) (V (main_arg7 : DevRef τ sig)) (V (main_arg8 : DevRef τ sig)) (V (main_v102 : DevRef τ sig)) (V (main_v104 : DevRef τ sig)) (V (main_v106 : DevRef τ sig)) (V (main_v107 : DevRef τ sig)) := by
  unfold ops2; after_results_simp; rfl

/-- What the window leaves in the buffer of value v158, from the buffers it reads. -/
def w2_v158_fn (i_main_arg7 : (⟨S9x128x16, .f32⟩ : BufTy).Contents (Elt F)) (i_main_arg8 : (⟨S9x128, .f32⟩ : BufTy).Contents (Elt F)) (i_main_v102 : (⟨S4096x64x16, .f32⟩ : BufTy).Contents (Elt F)) (i_main_v104 : (⟨S4096x64x16, .i1⟩ : BufTy).Contents (Elt F)) (i_main_v106 : (⟨S4096x64x16, .f32⟩ : BufTy).Contents (Elt F)) (i_main_v107 : (⟨S4096x64x16, .f32⟩ : BufTy).Contents (Elt F)) :
    (⟨S4096x64x128, .f32⟩ : BufTy).Contents (Elt F) :=
  ((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) (select (i_main_v104 : (⟨S4096x64x16, .i1⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) i_main_v107 i_main_v106) : (⟨S4096x64x16, .f32⟩ : BufTy).Contents (Elt F)) (((Host.divf : (⟨S4096x64x16, .f32⟩ : BufTy).Contents (Elt F) → (⟨S4096x64x16, .f32⟩ : BufTy).Contents (Elt F) → (⟨S4096x64x16, .f32⟩ : BufTy).Contents (Elt F)) ((broadcastInDim S4096x64x16 ![] bcast_S_S4096x64x16 : (⟨S_, .f32⟩ : BufTy).Contents (Elt F) → (⟨S4096x64x16, .f32⟩ : BufTy).Contents (Elt F)) (constant S_ .f32 0x3F800000#32)) ((subf : (⟨S4096x64x16, .f32⟩ : BufTy).Contents (Elt F) → (⟨S4096x64x16, .f32⟩ : BufTy).Contents (Elt F) → (⟨S4096x64x16, .f32⟩ : BufTy).Contents (Elt F)) i_main_v102 ((broadcastInDim S4096x64x16 ![] bcast_S_S4096x64x16 : (⟨S_, .f32⟩ : BufTy).Contents (Elt F) → (⟨S4096x64x16, .f32⟩ : BufTy).Contents (Elt F)) (constant S_ .f32 0x38D1B717#32)))) : (⟨S4096x64x16, .f32⟩ : BufTy).Contents (Elt F))) (shapeCast S128x16 (((extractStridedSlice S1x128x16 ![3, 0, 0] · slices_S9x128x16_S1x128x16_3_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![3, 0] · slices_S9x128_S1x128_3_0) : (⟨S9x128, .f32⟩ : BufTy).Contents (Elt F) → (⟨S1x128, .f32⟩ : BufTy).Contents (Elt F)) i_main_arg8) shapeCasts_S1x128_S128))))

set_option maxRecDepth 8192 in
set_option maxHeartbeats 4000000 in
theorem w2_v158 (V : Valuation τ sig (Elt F)) : after ops2 V (main_v158 : DevRef τ sig)
    = w2_v158_fn (V (main_arg7 : DevRef τ sig)) (V (main_arg8 : DevRef τ sig)) (V (main_v102 : DevRef τ sig)) (V (main_v104 : DevRef τ sig)) (V (main_v106 : DevRef τ sig)) (V (main_v107 : DevRef τ sig)) := by
  unfold ops2; after_results_simp; rfl

/-- What the window leaves in the buffer of value v160, from the buffers it reads. -/
def w2_v160_fn (i_main_arg3 : (⟨S4096x64, .i32⟩ : BufTy).Contents (Elt F)) :
    (⟨S4096x64, .i1⟩ : BufTy).Contents (Elt F) :=
  ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 3#32)))

set_option maxRecDepth 8192 in
set_option maxHeartbeats 4000000 in
theorem w2_v160 (V : Valuation τ sig (Elt F)) : after ops2 V (main_v160 : DevRef τ sig)
    = w2_v160_fn (V (main_arg3 : DevRef τ sig)) := by
  unfold ops2; after_results_simp; rfl

end Cert.ReferenceIdeal.RefRun

end
-- ==== Proof.RefOps3.lean ====
import proofs.«108484_g15788299780126_cont_week2b_740_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 3 in order (65), the bodies of the functions it calls written out at the calls. -/
def ops3 : List (HloOp τ sig (Elt F)) :=
  [ StableHlo.unary main_v160 main_v161 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v161 : StableHlo.TRef sig ⟨S4096x64x1, .i1⟩) main_call13.v0 (broadcastInDim S4096x64x128 ![0, 1, 2] bcast_S4096x64x1_S4096x64x128_0_1_2),
    StableHlo.TRef.ternary main_call13.v0 (.of main_v158 : StableHlo.TRef sig ⟨S4096x64x128, .f32⟩) (.of main_v150 : StableHlo.TRef sig ⟨S4096x64x128, .f32⟩) main_call13.v1 select,
    StableHlo.unary main_arg7 main_v163 ((extractStridedSlice S1x128x16 ![4, 0, 0] · slices_S9x128x16_S1x128x16_4_0_0) : (⟨S9x128x16, .f32⟩ : BufTy).Contents (Elt F) → (⟨S1x128x16, .f32⟩ : BufTy).Contents (Elt F)),
    StableHlo.reshape main_v163 main_v164 rfl shapeCasts_S1x128x16_S128x16,
    StableHlo.binary main_v113 main_v164 main_v165 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v166 ((extractStridedSlice S1x128 ![4, 0] · slices_S9x128_S1x128_4_0) : (⟨S9x128, .f32⟩ : BufTy).Contents (Elt F) → (⟨S1x128, .f32⟩ : BufTy).Contents (Elt F)),
    StableHlo.reshape main_v166 main_v167 rfl shapeCasts_S1x128_S128,
    StableHlo.unary main_v167 main_v168 (broadcastInDim S1x1x128 ![2] bcast_S128_S1x1x128_2 : (⟨S128, .f32⟩ : BufTy).Contents (Elt F) → (⟨S1x1x128, .f32⟩ : BufTy).Contents (Elt F)),
    StableHlo.unary main_v168 main_v169 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v165 main_v169 main_v170 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_17 (constantI S_ 32 4#32),
    StableHlo.unary main_c_17 main_v171 (broadcastInDim S4096x64 ![] bcast_S_S4096x64 : (⟨S_, .i32⟩ : BufTy).Contents (Elt F) → (⟨S4096x64, .i32⟩ : BufTy).Contents (Elt F)),
    StableHlo.binary main_arg3 main_v171 main_v172 (cmpi .eq : (⟨S4096x64, .i32⟩ : BufTy).Contents (Elt F) → (⟨S4096x64, .i32⟩ : BufTy).Contents (Elt F) → (⟨S4096x64, .i1⟩ : BufTy).Contents (Elt F)),
    StableHlo.unary main_v172 main_v173 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v173 : StableHlo.TRef sig ⟨S4096x64x1, .i1⟩) main_call14.v0 (broadcastInDim S4096x64x128 ![0, 1, 2] bcast_S4096x64x1_S4096x64x128_0_1_2),
    StableHlo.TRef.ternary main_call14.v0 (.of main_v170 : StableHlo.TRef sig ⟨S4096x64x128, .f32⟩) (.of main_v162 : StableHlo.TRef sig ⟨S4096x64x128, .f32⟩) main_call14.v1 select,
    StableHlo.unary main_arg7 main_v175 ((extractStridedSlice S1x128x16 ![5, 0, 0] · slices_S9x128x16_S1x128x16_5_0_0) : (⟨S9x128x16, .f32⟩ : BufTy).Contents (Elt F) → (⟨S1x128x16, .f32⟩ : BufTy).Contents (Elt F)),
    StableHlo.reshape main_v175 main_v176 rfl shapeCasts_S1x128x16_S128x16,
    StableHlo.binary main_v113 main_v176 main_v177 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v178 ((extractStridedSlice S1x128 ![5, 0] · slices_S9x128_S1x128_5_0) : (⟨S9x128, .f32⟩ : BufTy).Contents (Elt F) → (⟨S1x128, .f32⟩ : BufTy).Contents (Elt F)),
    StableHlo.reshape main_v178 main_v179 rfl shapeCasts_S1x128_S128,
    StableHlo.unary main_v179 main_v180 (broadcastInDim S1x1x128 ![2] bcast_S128_S1x1x128_2 : (⟨S128, .f32⟩ : BufTy).Contents (Elt F) → (⟨S1x1x128, .f32⟩ : BufTy).Contents (Elt F)),
    StableHlo.unary main_v180 main_v181 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v177 main_v181 main_v182 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_18 (constantI S_ 32 5#32),
    StableHlo.unary main_c_18 main_v183 (broadcastInDim S4096x64 ![] bcast_S_S4096x64 : (⟨S_, .i32⟩ : BufTy).Contents (Elt F) → (⟨S4096x64, .i32⟩ : BufTy).Contents (Elt F)),
    StableHlo.binary main_arg3 main_v183 main_v184 (cmpi .eq : (⟨S4096x64, .i32⟩ : BufTy).Contents (Elt F) → (⟨S4096x64, .i32⟩ : BufTy).Contents (Elt F) → (⟨S4096x64, .i1⟩ : BufTy).Contents (Elt F)),
    StableHlo.unary main_v184 main_v185 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v185 : StableHlo.TRef sig ⟨S4096x64x1, .i1⟩) main_call15.v0 (broadcastInDim S4096x64x128 ![0, 1, 2] bcast_S4096x64x1_S4096x64x128_0_1_2),
    StableHlo.TRef.ternary main_call15.v0 (.of main_v182 : StableHlo.TRef sig ⟨S4096x64x128, .f32⟩) (.of main_v174 : StableHlo.TRef sig ⟨S4096x64x128, .f32⟩) main_call15.v1 select,
    StableHlo.unary main_arg7 main_v187 ((extractStridedSlice S1x128x16 ![6, 0, 0] · slices_S9x128x16_S1x128x16_6_0_0) : (⟨S9x128x16, .f32⟩ : BufTy).Contents (Elt F) → (⟨S1x128x16, .f32⟩ : BufTy).Contents (Elt F)),
    StableHlo.reshape main_v187 main_v188 rfl shapeCasts_S1x128x16_S128x16,
    StableHlo.binary main_v113 main_v188 main_v189 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v190 ((extractStridedSlice S1x128 ![6, 0] · slices_S9x128_S1x128_6_0) : (⟨S9x128, .f32⟩ : BufTy).Contents (Elt F) → (⟨S1x128, .f32⟩ : BufTy).Contents (Elt F)),
    StableHlo.reshape main_v190 main_v191 rfl shapeCasts_S1x128_S128,
    StableHlo.unary main_v191 main_v192 (broadcastInDim S1x1x128 ![2] bcast_S128_S1x1x128_2 : (⟨S128, .f32⟩ : BufTy).Contents (Elt F) → (⟨S1x1x128, .f32⟩ : BufTy).Contents (Elt F)),
    StableHlo.unary main_v192 main_v193 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v189 main_v193 main_v194 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_19 (constantI S_ 32 6#32),
    StableHlo.unary main_c_19 main_v195 (broadcastInDim S4096x64 ![] bcast_S_S4096x64 : (⟨S_, .i32⟩ : BufTy).Contents (Elt F) → (⟨S4096x64, .i32⟩ : BufTy).Contents (Elt F)),
    StableHlo.binary main_arg3 main_v195 main_v196 (cmpi .eq : (⟨S4096x64, .i32⟩ : BufTy).Contents (Elt F) → (⟨S4096x64, .i32⟩ : BufTy).Contents (Elt F) → (⟨S4096x64, .i1⟩ : BufTy).Contents (Elt F)),
    StableHlo.unary main_v196 main_v197 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v197 : StableHlo.TRef sig ⟨S4096x64x1, .i1⟩) main_call16.v0 (broadcastInDim S4096x64x128 ![0, 1, 2] bcast_S4096x64x1_S4096x64x128_0_1_2),
    StableHlo.TRef.ternary main_call16.v0 (.of main_v194 : StableHlo.TRef sig ⟨S4096x64x128, .f32⟩) (.of main_v186 : StableHlo.TRef sig ⟨S4096x64x128, .f32⟩) main_call16.v1 select,
    StableHlo.unary main_arg7 main_v199 ((extractStridedSlice S1x128x16 ![7, 0, 0] · slices_S9x128x16_S1x128x16_7_0_0) : (⟨S9x128x16, .f32⟩ : BufTy).Contents (Elt F) → (⟨S1x128x16, .f32⟩ : BufTy).Contents (Elt F)),
    StableHlo.reshape main_v199 main_v200 rfl shapeCasts_S1x128x16_S128x16,
    StableHlo.binary main_v113 main_v200 main_v201 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v202 ((extractStridedSlice S1x128 ![7, 0] · slices_S9x128_S1x128_7_0) : (⟨S9x128, .f32⟩ : BufTy).Contents (Elt F) → (⟨S1x128, .f32⟩ : BufTy).Contents (Elt F)),
    StableHlo.reshape main_v202 main_v203 rfl shapeCasts_S1x128_S128,
    StableHlo.unary main_v203 main_v204 (broadcastInDim S1x1x128 ![2] bcast_S128_S1x1x128_2 : (⟨S128, .f32⟩ : BufTy).Contents (Elt F) → (⟨S1x1x128, .f32⟩ : BufTy).Contents (Elt F)),
    StableHlo.unary main_v204 main_v205 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v201 main_v205 main_v206 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_20 (constantI S_ 32 7#32),
    StableHlo.unary main_c_20 main_v207 (broadcastInDim S4096x64 ![] bcast_S_S4096x64 : (⟨S_, .i32⟩ : BufTy).Contents (Elt F) → (⟨S4096x64, .i32⟩ : BufTy).Contents (Elt F)),
    StableHlo.binary main_arg3 main_v207 main_v208 (cmpi .eq : (⟨S4096x64, .i32⟩ : BufTy).Contents (Elt F) → (⟨S4096x64, .i32⟩ : BufTy).Contents (Elt F) → (⟨S4096x64, .i1⟩ : BufTy).Contents (Elt F)),
    StableHlo.unary main_v208 main_v209 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v209 : StableHlo.TRef sig ⟨S4096x64x1, .i1⟩) main_call17.v0 (broadcastInDim S4096x64x128 ![0, 1, 2] bcast_S4096x64x1_S4096x64x128_0_1_2),
    StableHlo.TRef.ternary main_call17.v0 (.of main_v206 : StableHlo.TRef sig ⟨S4096x64x128, .f32⟩) (.of main_v198 : StableHlo.TRef sig ⟨S4096x64x128, .f32⟩) main_call17.v1 select,
    StableHlo.unary main_arg7 main_v211 ((extractStridedSlice S1x128x16 ![8, 0, 0] · slices_S9x128x16_S1x128x16_8_0_0) : (⟨S9x128x16, .f32⟩ : BufTy).Contents (Elt F) → (⟨S1x128x16, .f32⟩ : BufTy).Contents (Elt F)),
    StableHlo.reshape main_v211 main_v212 rfl shapeCasts_S1x128x16_S128x16,
    StableHlo.binary main_v113 main_v212 main_v213 ((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)),
    StableHlo.unary main_arg8 main_v214 ((extractStridedSlice S1x128 ![8, 0] · slices_S9x128_S1x128_8_0) : (⟨S9x128, .f32⟩ : BufTy).Contents (Elt F) → (⟨S1x128, .f32⟩ : BufTy).Contents (Elt F)),
    StableHlo.reshape main_v214 main_v215 rfl shapeCasts_S1x128_S128,
    StableHlo.unary main_v215 main_v216 (broadcastInDim S1x1x128 ![2] bcast_S128_S1x1x128_2 : (⟨S128, .f32⟩ : BufTy).Contents (Elt F) → (⟨S1x1x128, .f32⟩ : BufTy).Contents (Elt F)) ]

set_option maxRecDepth 8192 in
set_option maxHeartbeats 4000000 in
/-- The window is that line: the called functions unfolded, both sides are one chain of steps. -/
theorem part3_eq (c : Dev nD) : main_part3 (F := F) c = seq ops3 := by
  rfl

theorem ops3_sub : (ops3 : List (HloOp τ sig (Elt F))).Forall fun op => op.bufs ⊆ tcRefs τ sig :=
  ⟨unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., unary_bufs_sub .., ternary_bufs_sub .., unary_bufs_sub .., reshape_bufs_sub .., binary_bufs_sub .., unary_bufs_sub .., reshape_bufs_sub .., unary_bufs_sub ..⟩

set_option maxRecDepth 8192 in
/-- Every operation of the window determines its results. -/
theorem ops3_fresh : ∀ op ∈ (ops3 : List (HloOp τ sig (Elt F))), op.fresh = ∅ := by
  intro op h; unfold ops3 at h; (repeat (cases h with | head => rfl | tail _ h => ?_)); exact nomatch h

end Cert.ReferenceIdeal.RefRun

end
-- ==== Proof.RefWin3.lean ====
import proofs.«108484_g15788299780126_cont_week2b_740_2_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem w3_arg0 (V : Valuation τ sig (Elt F)) : after ops3 V (main_arg0 : DevRef τ sig) = V (main_arg0 : DevRef τ sig) := by
  unfold ops3; after_results_simp

theorem w3_arg1 (V : Valuation τ sig (Elt F)) : after ops3 V (main_arg1 : DevRef τ sig) = V (main_arg1 : DevRef τ sig) := by
  unfold ops3; after_results_simp

theorem w3_arg2 (V : Valuation τ sig (Elt F)) : after ops3 V (main_arg2 : DevRef τ sig) = V (main_arg2 : DevRef τ sig) := by
  unfold ops3; after_results_simp

theorem w3_arg3 (V : Valuation τ sig (Elt F)) : after ops3 V (main_arg3 : DevRef τ sig) = V (main_arg3 : DevRef τ sig) := by
  unfold ops3; after_results_simp

theorem w3_arg4 (V : Valuation τ sig (Elt F)) : after ops3 V (main_arg4 : DevRef τ sig) = V (main_arg4 : DevRef τ sig) := by
  unfold ops3; after_results_simp

theorem w3_arg5 (V : Valuation τ sig (Elt F)) : after ops3 V (main_arg5 : DevRef τ sig) = V (main_arg5 : DevRef τ sig) := by
  unfold ops3; after_results_simp

theorem w3_arg6 (V : Valuation τ sig (Elt F)) : after ops3 V (main_arg6 : DevRef τ sig) = V (main_arg6 : DevRef τ sig) := by
  unfold ops3; after_results_simp

theorem w3_arg7 (V : Valuation τ sig (Elt F)) : after ops3 V (main_arg7 : DevRef τ sig) = V (main_arg7 : DevRef τ sig) := by
  unfold ops3; after_results_simp

theorem w3_arg8 (V : Valuation τ sig (Elt F)) : after ops3 V (main_arg8 : DevRef τ sig) = V (main_arg8 : DevRef τ sig) := by
  unfold ops3; after_results_simp

theorem w3_v101 (V : Valuation τ sig (Elt F)) : after ops3 V (main_v101 : DevRef τ sig) = V (main_v101 : DevRef τ sig) := by
  unfold ops3; after_results_simp

/-- What the window leaves in the buffer of value v210, from the buffers it reads. -/
def w3_v210_fn (i_main_arg3 : (⟨S4096x64, .i32⟩ : BufTy).Contents (Elt F)) (i_main_arg7 : (⟨S9x128x16, .f32⟩ : BufTy).Contents (Elt F)) (i_main_arg8 : (⟨S9x128, .f32⟩ : BufTy).Contents (Elt F)) (i_main_v113 : (⟨S4096x64x16, .f32⟩ : BufTy).Contents (Elt F)) (i_main_v150 : (⟨S4096x64x128, .f32⟩ : BufTy).Contents (Elt F)) (i_main_v158 : (⟨S4096x64x128, .f32⟩ : BufTy).Contents (Elt F)) (i_main_v160 : (⟨S4096x64, .i1⟩ : BufTy).Contents (Elt F)) :
    (⟨S4096x64x128, .f32⟩ : BufTy).Contents (Elt F) :=
  (select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 7#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) i_main_v113 (shapeCast S128x16 (((extractStridedSlice S1x128x16 ![7, 0, 0] · slices_S9x128x16_S1x128x16_7_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![7, 0] · slices_S9x128_S1x128_7_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 6#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) i_main_v113 (shapeCast S128x16 (((extractStridedSlice S1x128x16 ![6, 0, 0] · slices_S9x128x16_S1x128x16_6_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![6, 0] · slices_S9x128_S1x128_6_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 5#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) i_main_v113 (shapeCast S128x16 (((extractStridedSlice S1x128x16 ![5, 0, 0] · slices_S9x128x16_S1x128x16_5_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![5, 0] · slices_S9x128_S1x128_5_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 4#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) i_main_v113 (shapeCast S128x16 (((extractStridedSlice S1x128x16 ![4, 0, 0] · slices_S9x128x16_S1x128x16_4_0_0) : (⟨S9x128x16, .f32⟩ : BufTy).Contents (Elt F) → (⟨S1x128x16, .f32⟩ : BufTy).Contents (Elt F)) i_main_arg7) shapeCasts_S1x128x16_S128x16)) ((broadcastInDim S4096x64x128 ![0, 1, 2] bcast_S1x1x128_S4096x64x128_0_1_2 : (⟨S1x1x128, .f32⟩ : BufTy).Contents (Elt F) → (⟨S4096x64x128, .f32⟩ : BufTy).Contents (Elt F)) ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![4, 0] · slices_S9x128_S1x128_4_0) : (⟨S9x128, .f32⟩ : BufTy).Contents (Elt F) → (⟨S1x128, .f32⟩ : BufTy).Contents (Elt F)) i_main_arg8) shapeCasts_S1x128_S128)))) : (⟨S4096x64x128, .f32⟩ : BufTy).Contents (Elt F)) ((select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) i_main_v160) : (⟨S4096x64x1, .i1⟩ : BufTy).Contents (Elt F))) : (⟨S4096x64x128, .i1⟩ : BufTy).Contents (Elt F)) (i_main_v158 : (⟨S4096x64x128, .f32⟩ : BufTy).Contents (Elt F)) (i_main_v150 : (⟨S4096x64x128, .f32⟩ : BufTy).Contents (Elt F))) : (⟨S4096x64x128, .f32⟩ : BufTy).Contents (Elt F))) : (⟨S4096x64x128, .f32⟩ : BufTy).Contents (Elt F))) : (⟨S4096x64x128, .f32⟩ : BufTy).Contents (Elt F))) : (⟨S4096x64x128, .f32⟩ : BufTy).Contents (Elt F)))

set_option maxRecDepth 8192 in
set_option maxHeartbeats 4000000 in
theorem w3_v210 (V : Valuation τ sig (Elt F)) : after ops3 V (main_v210 : DevRef τ sig)
    = w3_v210_fn (V (main_arg3 : DevRef τ sig)) (V (main_arg7 : DevRef τ sig)) (V (main_arg8 : DevRef τ sig)) (V (main_v113 : DevRef τ sig)) (V (main_v150 : DevRef τ sig)) (V (main_v158 : DevRef τ sig)) (V (main_v160 : DevRef τ sig)) := by
  unfold ops3; after_results_simp; rfl

/-- What the window leaves in the buffer of value v213, from the buffers it reads. -/
def w3_v213_fn (i_main_arg7 : (⟨S9x128x16, .f32⟩ : BufTy).Contents (Elt F)) (i_main_v113 : (⟨S4096x64x16, .f32⟩ : BufTy).Contents (Elt F)) :
    (⟨S4096x64x128, .f32⟩ : BufTy).Contents (Elt F) :=
  (((fun l r => Host.dotGeneral dot_S4096x64x16_S128x16_S4096x64x128_2_1_01_0_n_n none l r) : (⟨S4096x64x16, .f32⟩ : BufTy).Contents (Elt F) → (⟨S128x16, .f32⟩ : BufTy).Contents (Elt F) → (⟨S4096x64x128, .f32⟩ : BufTy).Contents (Elt F)) i_main_v113 (shapeCast S128x16 (((extractStridedSlice S1x128x16 ![8, 0, 0] · slices_S9x128x16_S1x128x16_8_0_0) : (⟨S9x128x16, .f32⟩ : BufTy).Contents (Elt F) → (⟨S1x128x16, .f32⟩ : BufTy).Contents (Elt F)) i_main_arg7) shapeCasts_S1x128x16_S128x16))

set_option maxRecDepth 8192 in
set_option maxHeartbeats 4000000 in
theorem w3_v213 (V : Valuation τ sig (Elt F)) : after ops3 V (main_v213 : DevRef τ sig)
    = w3_v213_fn (V (main_arg7 : DevRef τ sig)) (V (main_v113 : DevRef τ sig)) := by
  unfold ops3; after_results_simp; rfl

/-- What the window leaves in the buffer of value v216, from the buffers it reads. -/
def w3_v216_fn (i_main_arg8 : (⟨S9x128, .f32⟩ : BufTy).Contents (Elt F)) :
    (⟨S1x1x128, .f32⟩ : BufTy).Contents (Elt F) :=
  ((broadcastInDim S1x1x128 ![2] bcast_S128_S1x1x128_2 : (⟨S128, .f32⟩ : BufTy).Contents (Elt F) → (⟨S1x1x128, .f32⟩ : BufTy).Contents (Elt F)) (shapeCast S128 (((extractStridedSlice S1x128 ![8, 0] · slices_S9x128_S1x128_8_0) : (⟨S9x128, .f32⟩ : BufTy).Contents (Elt F) → (⟨S1x128, .f32⟩ : BufTy).Contents (Elt F)) i_main_arg8) shapeCasts_S1x128_S128))

set_option maxRecDepth 8192 in
set_option maxHeartbeats 4000000 in
theorem w3_v216 (V : Valuation τ sig (Elt F)) : after ops3 V (main_v216 : DevRef τ sig)
    = w3_v216_fn (V (main_arg8 : DevRef τ sig)) := by
  unfold ops3; after_results_simp; rfl

end Cert.ReferenceIdeal.RefRun

end
-- ==== Proof.RefOps4.lean ====
import proofs.«108484_g15788299780126_cont_week2b_740_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of the program's window 4 in order (8), the bodies of the functions it calls written out at the calls. -/
def ops4 : List (HloOp τ sig (Elt F)) :=
  [ StableHlo.unary main_v216 main_v217 (broadcastInDim S4096x64x128 ![0, 1, 2] bcast_S1x1x128_S4096x64x128_0_1_2 : (⟨S1x1x128, .f32⟩ : BufTy).Contents (Elt F) → (⟨S4096x64x128, .f32⟩ : BufTy).Contents (Elt F)),
    StableHlo.binary main_v213 main_v217 main_v218 (addf : (⟨S4096x64x128, .f32⟩ : BufTy).Contents (Elt F) → (⟨S4096x64x128, .f32⟩ : BufTy).Contents (Elt F) → (⟨S4096x64x128, .f32⟩ : BufTy).Contents (Elt F)),
    StableHlo.nullary main_c_21 (constantI S_ 32 8#32),
    StableHlo.unary main_c_21 main_v219 (broadcastInDim S4096x64 ![] bcast_S_S4096x64 : (⟨S_, .i32⟩ : BufTy).Contents (Elt F) → (⟨S4096x64, .i32⟩ : BufTy).Contents (Elt F)),
    StableHlo.binary main_arg3 main_v219 main_v220 (cmpi .eq : (⟨S4096x64, .i32⟩ : BufTy).Contents (Elt F) → (⟨S4096x64, .i32⟩ : BufTy).Contents (Elt F) → (⟨S4096x64, .i1⟩ : BufTy).Contents (Elt F)),
    StableHlo.unary main_v220 main_v221 (broadcastInDim S4096x64x1 ![0, 1] bcast_S4096x64_S4096x64x1_0_1 : (⟨S4096x64, .i1⟩ : BufTy).Contents (Elt F) → (⟨S4096x64x1, .i1⟩ : BufTy).Contents (Elt F)),
    StableHlo.TRef.unary (.of main_v221 : StableHlo.TRef sig ⟨S4096x64x1, .i1⟩) main_call18.v0 (broadcastInDim S4096x64x128 ![0, 1, 2] bcast_S4096x64x1_S4096x64x128_0_1_2),
    StableHlo.TRef.ternary main_call18.v0 (.of main_v218 : StableHlo.TRef sig ⟨S4096x64x128, .f32⟩) (.of main_v210 : StableHlo.TRef sig ⟨S4096x64x128, .f32⟩) main_call18.v1 select ]

set_option maxRecDepth 8192 in
set_option maxHeartbeats 4000000 in
/-- The window is that line: the called functions unfolded, both sides are one chain of steps. -/
theorem part4_eq (c : Dev nD) : main_part4 (F := F) c = seq ops4 := by
  rfl

theorem ops4_sub : (ops4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., ternary_bufs_sub ..⟩

set_option maxRecDepth 8192 in
/-- Every operation of the window determines its results. -/
theorem ops4_fresh : ∀ op ∈ (ops4 : List (HloOp τ sig (Elt F))), op.fresh = ∅ := by
  intro op h; unfold ops4 at h; (repeat (cases h with | head => rfl | tail _ h => ?_)); exact nomatch h

end Cert.ReferenceIdeal.RefRun

end
-- ==== Proof.RefWin4.lean ====
import proofs.«108484_g15788299780126_cont_week2b_740_2_alg».proof.Proof.RefOps4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem w4_arg0 (V : Valuation τ sig (Elt F)) : after ops4 V (main_arg0 : DevRef τ sig) = V (main_arg0 : DevRef τ sig) := by
  unfold ops4; after_results_simp

theorem w4_arg1 (V : Valuation τ sig (Elt F)) : after ops4 V (main_arg1 : DevRef τ sig) = V (main_arg1 : DevRef τ sig) := by
  unfold ops4; after_results_simp

theorem w4_arg2 (V : Valuation τ sig (Elt F)) : after ops4 V (main_arg2 : DevRef τ sig) = V (main_arg2 : DevRef τ sig) := by
  unfold ops4; after_results_simp

theorem w4_arg3 (V : Valuation τ sig (Elt F)) : after ops4 V (main_arg3 : DevRef τ sig) = V (main_arg3 : DevRef τ sig) := by
  unfold ops4; after_results_simp

theorem w4_arg4 (V : Valuation τ sig (Elt F)) : after ops4 V (main_arg4 : DevRef τ sig) = V (main_arg4 : DevRef τ sig) := by
  unfold ops4; after_results_simp

theorem w4_arg5 (V : Valuation τ sig (Elt F)) : after ops4 V (main_arg5 : DevRef τ sig) = V (main_arg5 : DevRef τ sig) := by
  unfold ops4; after_results_simp

theorem w4_arg6 (V : Valuation τ sig (Elt F)) : after ops4 V (main_arg6 : DevRef τ sig) = V (main_arg6 : DevRef τ sig) := by
  unfold ops4; after_results_simp

theorem w4_arg7 (V : Valuation τ sig (Elt F)) : after ops4 V (main_arg7 : DevRef τ sig) = V (main_arg7 : DevRef τ sig) := by
  unfold ops4; after_results_simp

theorem w4_arg8 (V : Valuation τ sig (Elt F)) : after ops4 V (main_arg8 : DevRef τ sig) = V (main_arg8 : DevRef τ sig) := by
  unfold ops4; after_results_simp

theorem w4_v101 (V : Valuation τ sig (Elt F)) : after ops4 V (main_v101 : DevRef τ sig) = V (main_v101 : DevRef τ sig) := by
  unfold ops4; after_results_simp

/-- What the window leaves in the buffer of value v222, from the buffers it reads. -/
def w4_v222_fn (i_main_arg3 : (⟨S4096x64, .i32⟩ : BufTy).Contents (Elt F)) (i_main_v210 : (⟨S4096x64x128, .f32⟩ : BufTy).Contents (Elt F)) (i_main_v213 : (⟨S4096x64x128, .f32⟩ : BufTy).Contents (Elt F)) (i_main_v216 : (⟨S1x1x128, .f32⟩ : BufTy).Contents (Elt F)) :
    (⟨S4096x64x128, .f32⟩ : BufTy).Contents (Elt F) :=
  (select (((broadcastInDim S4096x64x128 ![0, 1, 2] bcast_S4096x64x1_S4096x64x128_0_1_2) (((broadcastInDim S4096x64x1 ![0, 1] bcast_S4096x64_S4096x64x1_0_1 : (⟨S4096x64, .i1⟩ : BufTy).Contents (Elt F) → (⟨S4096x64x1, .i1⟩ : BufTy).Contents (Elt F)) ((cmpi .eq : (⟨S4096x64, .i32⟩ : BufTy).Contents (Elt F) → (⟨S4096x64, .i32⟩ : BufTy).Contents (Elt F) → (⟨S4096x64, .i1⟩ : BufTy).Contents (Elt F)) i_main_arg3 ((broadcastInDim S4096x64 ![] bcast_S_S4096x64 : (⟨S_, .i32⟩ : BufTy).Contents (Elt F) → (⟨S4096x64, .i32⟩ : BufTy).Contents (Elt F)) (constantI S_ 32 8#32)))) : (⟨S4096x64x1, .i1⟩ : BufTy).Contents (Elt F))) : (⟨S4096x64x128, .i1⟩ : BufTy).Contents (Elt F)) (((addf : (⟨S4096x64x128, .f32⟩ : BufTy).Contents (Elt F) → (⟨S4096x64x128, .f32⟩ : BufTy).Contents (Elt F) → (⟨S4096x64x128, .f32⟩ : BufTy).Contents (Elt F)) i_main_v213 ((broadcastInDim S4096x64x128 ![0, 1, 2] bcast_S1x1x128_S4096x64x128_0_1_2 : (⟨S1x1x128, .f32⟩ : BufTy).Contents (Elt F) → (⟨S4096x64x128, .f32⟩ : BufTy).Contents (Elt F)) i_main_v216)) : (⟨S4096x64x128, .f32⟩ : BufTy).Contents (Elt F)) (i_main_v210 : (⟨S4096x64x128, .f32⟩ : BufTy).Contents (Elt F)))

set_option maxRecDepth 8192 in
set_option maxHeartbeats 4000000 in
theorem w4_v222 (V : Valuation τ sig (Elt F)) : after ops4 V (main_v222 : DevRef τ sig)
    = w4_v222_fn (V (main_arg3 : DevRef τ sig)) (V (main_v210 : DevRef τ sig)) (V (main_v213 : DevRef τ sig)) (V (main_v216 : DevRef τ sig)) := by
  unfold ops4; after_results_simp; rfl

end Cert.ReferenceIdeal.RefRun

end
-- ==== Proof.RefSelfTerm.lean ====
/-
  The reference's self stage as a value: the pure functions of its operations, composed in the
  order the program applies them.  Every definition is the operations' functions themselves,
  at the shape facts the program cites.
-/
import proofs.«108484_g15788299780126_cont_week2b_740_2_alg».proof.ReferenceIdeal

noncomputable section

namespace Cert.ReferenceIdeal.RefSelf

open Idealize.ShloMosaic Idealize.SL.Sem
open Cert.ReferenceIdeal

variable {F : FTy → Type} [FloatOps F] [Facts₀]
open Facts₀

/-! ## The take: rows of the initial trajectories at the labels -/

/-- The labels with a negative one moved up by 8: `select (sl < 0) (sl + 8) sl`. -/
def takeWrap (sl : IVec S4096 32) : IVec S4096 32 :=
  select (cmpi .slt sl (broadcastInDim S4096 ![] bcast_S_S4096 (constantI S_ 32 0#32)))
    (addi sl (broadcastInDim S4096 ![] bcast_S_S4096 (constantI S_ 32 8#32)))
    sl

/-- The wrapped labels as an index column [4096,1]. -/
def takeIdx (sl : IVec S4096 32) : IVec S4096x1 32 :=
  broadcastInDim S4096x1 ![0] bcast_S4096_S4096x1_0 (takeWrap sl)

/-- The range mask: `0 ≤ idx ∧ idx ≤ 7` (signed), and-reduced over the column axis. -/
def takeOk (sl : IVec S4096 32) : IVec S4096 1 :=
  Host.reduce IntOp.andi
    (andi
      (cmpi .sge (takeIdx sl) (broadcastInDim S4096x1 ![] bcast_S_S4096x1 (constantI S_ 32 0#32)))
      (cmpi .sle (takeIdx sl)
        (broadcastInDim S4096x1 ![0, 1] bcast_S1x1_S4096x1_0_1
          (broadcastInDim S1x1 ![1] bcast_S1_S1x1_1 (constantI S1 32 7#32)))))
    (constantI S_ 1 1#1) reducesTo_S4096x1_S4096_d1 h_S_

/-- The gathered rows of the initial trajectories, one [20,12,2] block per agent. -/
def takeRows (init : FVec F S8x20x12x2 .f32) (sl : IVec S4096 32) : FVec F S4096x20x12x2 .f32 :=
  Host.gather gather_S8x20x12x2_S4096x1_S4096x20x12x2_123_0_n_n_0_1_120122 init (takeIdx sl)

/-- The take: the gathered block where the label is in range, the fill constant elsewhere. -/
def take (init : FVec F S8x20x12x2 .f32) (sl : IVec S4096 32) : FVec F S4096x20x12x2 .f32 :=
  select (broadcastInDim S4096x20x12x2 ![0] bcast_S4096_S4096x20x12x2_0 (takeOk sl))
    (takeRows init sl)
    (broadcastInDim S4096x20x12x2 ![] bcast_S_S4096x20x12x2 (constant S_ .f32 0x7FC00000#32))

/-! ## The trajectories -/

/-- The observation repeated for each of the 20 trajectories: [4096,8,2] → [4096,1,8,2] → [4096,20,8,2]. -/
def obsRep (obs : FVec F S4096x8x2 .f32) : FVec F S4096x20x8x2 .f32 :=
  broadcastInDim S4096x20x8x2 ![0, 1, 2, 3] bcast_S4096x1x8x2_S4096x20x8x2_0_1_2_3
    (broadcastInDim S4096x1x8x2 ![0, 2, 3] bcast_S4096x8x2_S4096x1x8x2_0_2_3 obs)

/-- Observation points then taken points along axis 2: [4096,20,20,2]. -/
def trajPts (obs : FVec F S4096x8x2 .f32) (init : FVec F S8x20x12x2 .f32) (sl : IVec S4096 32) :
    FVec F S4096x20x20x2 .f32 :=
  concatenate S4096x20x20x2 2 [⟨S4096x20x8x2, obsRep obs⟩, ⟨S4096x20x12x2, take init sl⟩]
    concatenates_S4096x20x8x2_S4096x20x12x2_S4096x20x20x2_d2

/-- The trajectories as 40 numbers each: [4096,20,40]. -/
def traj (obs : FVec F S4096x8x2 .f32) (init : FVec F S8x20x12x2 .f32) (sl : IVec S4096 32) :
    FVec F S4096x20x40 .f32 :=
  shapeCast S4096x20x40 (trajPts obs init sl) shapeCasts_S4096x20x20x2_S4096x20x40

/-- The all-zero start of the chain of selects. -/
def zeros : FVec F S4096x20x128 .f32 :=
  broadcastInDim S4096x20x128 ![] bcast_S_S4096x20x128 (constant S_ .f32 0x00000000#32)

/-! ## One level of the chain -/

/-- The class mask of one level: `sl = i` per agent, spread over [4096,20,128]. -/
def levelMask (i : BitVec 32) (sl : IVec S4096 32) : IVec S4096x20x128 1 :=
  broadcastInDim S4096x20x128 ![0, 1, 2] bcast_S4096x1x1_S4096x20x128_0_1_2
    (broadcastInDim S4096x1x1 ![0] bcast_S4096_S4096x1x1_0
      (cmpi .eq sl (broadcastInDim S4096 ![] bcast_S_S4096 (constantI S_ 32 i))))

/-- The expert of one level: trajectories times the class's weights (contracting the 40), plus its bias. -/
def levelOut (Wi : FVec F S128x40 .f32) (bi : FVec F S128 .f32) (tr : FVec F S4096x20x40 .f32) :
    FVec F S4096x20x128 .f32 :=
  addf (Host.dotGeneral dot_S4096x20x40_S128x40_S4096x20x128_2_1_01_0_n_n none tr Wi)
    (broadcastInDim S4096x20x128 ![0, 1, 2] bcast_S1x1x128_S4096x20x128_0_1_2
      (broadcastInDim S1x1x128 ![2] bcast_S128_S1x1x128_2 bi))

/-- One level: where the label is class `i` the class's expert, elsewhere the previous level. -/
def level (i : BitVec 32) (Wi : FVec F S128x40 .f32) (bi : FVec F S128 .f32) (tr : FVec F S4096x20x40 .f32)
    (sl : IVec S4096 32) (prev : FVec F S4096x20x128 .f32) : FVec F S4096x20x128 .f32 :=
  select (levelMask i sl) (levelOut Wi bi tr) prev

/-! ## The eight slices of the weights and biases -/

/-- Class 0's weight matrix: rows 0:1 of the weight array, as a [128,40] matrix. -/
def W0 (Ws : FVec F S8x128x40 .f32) : FVec F S128x40 .f32 :=
  shapeCast S128x40 (extractStridedSlice S1x128x40 ![0, 0, 0] Ws slices_S8x128x40_S1x128x40_0_0_0) shapeCasts_S1x128x40_S128x40

/-- Class 0's bias: row 0 of the bias array, as a [128] vector. -/
def b0 (bs : FVec F S8x128 .f32) : FVec F S128 .f32 :=
  shapeCast S128 (extractStridedSlice S1x128 ![0, 0] bs slices_S8x128_S1x128_0_0) shapeCasts_S1x128_S128

/-- Class 1's weight matrix: rows 1:2 of the weight array, as a [128,40] matrix. -/
def W1 (Ws : FVec F S8x128x40 .f32) : FVec F S128x40 .f32 :=
  shapeCast S128x40 (extractStridedSlice S1x128x40 ![1, 0, 0] Ws slices_S8x128x40_S1x128x40_1_0_0) shapeCasts_S1x128x40_S128x40

/-- Class 1's bias: row 1 of the bias array, as a [128] vector. -/
def b1 (bs : FVec F S8x128 .f32) : FVec F S128 .f32 :=
  shapeCast S128 (extractStridedSlice S1x128 ![1, 0] bs slices_S8x128_S1x128_1_0) shapeCasts_S1x128_S128

/-- Class 2's weight matrix: rows 2:3 of the weight array, as a [128,40] matrix. -/
def W2 (Ws : FVec F S8x128x40 .f32) : FVec F S128x40 .f32 :=
  shapeCast S128x40 (extractStridedSlice S1x128x40 ![2, 0, 0] Ws slices_S8x128x40_S1x128x40_2_0_0) shapeCasts_S1x128x40_S128x40

/-- Class 2's bias: row 2 of the bias array, as a [128] vector. -/
def b2 (bs : FVec F S8x128 .f32) : FVec F S128 .f32 :=
  shapeCast S128 (extractStridedSlice S1x128 ![2, 0] bs slices_S8x128_S1x128_2_0) shapeCasts_S1x128_S128

/-- Class 3's weight matrix: rows 3:4 of the weight array, as a [128,40] matrix. -/
def W3 (Ws : FVec F S8x128x40 .f32) : FVec F S128x40 .f32 :=
  shapeCast S128x40 (extractStridedSlice S1x128x40 ![3, 0, 0] Ws slices_S8x128x40_S1x128x40_3_0_0) shapeCasts_S1x128x40_S128x40

/-- Class 3's bias: row 3 of the bias array, as a [128] vector. -/
def b3 (bs : FVec F S8x128 .f32) : FVec F S128 .f32 :=
  shapeCast S128 (extractStridedSlice S1x128 ![3, 0] bs slices_S8x128_S1x128_3_0) shapeCasts_S1x128_S128

/-- Class 4's weight matrix: rows 4:5 of the weight array, as a [128,40] matrix. -/
def W4 (Ws : FVec F S8x128x40 .f32) : FVec F S128x40 .f32 :=
  shapeCast S128x40 (extractStridedSlice S1x128x40 ![4, 0, 0] Ws slices_S8x128x40_S1x128x40_4_0_0) shapeCasts_S1x128x40_S128x40

/-- Class 4's bias: row 4 of the bias array, as a [128] vector. -/
def b4 (bs : FVec F S8x128 .f32) : FVec F S128 .f32 :=
  shapeCast S128 (extractStridedSlice S1x128 ![4, 0] bs slices_S8x128_S1x128_4_0) shapeCasts_S1x128_S128

/-- Class 5's weight matrix: rows 5:6 of the weight array, as a [128,40] matrix. -/
def W5 (Ws : FVec F S8x128x40 .f32) : FVec F S128x40 .f32 :=
  shapeCast S128x40 (extractStridedSlice S1x128x40 ![5, 0, 0] Ws slices_S8x128x40_S1x128x40_5_0_0) shapeCasts_S1x128x40_S128x40

/-- Class 5's bias: row 5 of the bias array, as a [128] vector. -/
def b5 (bs : FVec F S8x128 .f32) : FVec F S128 .f32 :=
  shapeCast S128 (extractStridedSlice S1x128 ![5, 0] bs slices_S8x128_S1x128_5_0) shapeCasts_S1x128_S128

/-- Class 6's weight matrix: rows 6:7 of the weight array, as a [128,40] matrix. -/
def W6 (Ws : FVec F S8x128x40 .f32) : FVec F S128x40 .f32 :=
  shapeCast S128x40 (extractStridedSlice S1x128x40 ![6, 0, 0] Ws slices_S8x128x40_S1x128x40_6_0_0) shapeCasts_S1x128x40_S128x40

/-- Class 6's bias: row 6 of the bias array, as a [128] vector. -/
def b6 (bs : FVec F S8x128 .f32) : FVec F S128 .f32 :=
  shapeCast S128 (extractStridedSlice S1x128 ![6, 0] bs slices_S8x128_S1x128_6_0) shapeCasts_S1x128_S128

/-- Class 7's weight matrix: rows 7:8 of the weight array, as a [128,40] matrix. -/
def W7 (Ws : FVec F S8x128x40 .f32) : FVec F S128x40 .f32 :=
  shapeCast S128x40 (extractStridedSlice S1x128x40 ![7, 0, 0] Ws slices_S8x128x40_S1x128x40_7_0_0) shapeCasts_S1x128x40_S128x40

/-- Class 7's bias: row 7 of the bias array, as a [128] vector. -/
def b7 (bs : FVec F S8x128 .f32) : FVec F S128 .f32 :=
  shapeCast S128 (extractStridedSlice S1x128 ![7, 0] bs slices_S8x128_S1x128_7_0) shapeCasts_S1x128_S128

/-! ## The stage -/

/-- The chain of eight levels over given trajectories, class 0 innermost. -/
def chain (tr : FVec F S4096x20x40 .f32) (sl : IVec S4096 32) (Ws : FVec F S8x128x40 .f32)
    (bs : FVec F S8x128 .f32) : FVec F S4096x20x128 .f32 :=
  level 7#32 (W7 Ws) (b7 bs) tr sl
   (level 6#32 (W6 Ws) (b6 bs) tr sl
    (level 5#32 (W5 Ws) (b5 bs) tr sl
     (level 4#32 (W4 Ws) (b4 bs) tr sl
      (level 3#32 (W3 Ws) (b3 bs) tr sl
       (level 2#32 (W2 Ws) (b2 bs) tr sl
        (level 1#32 (W1 Ws) (b1 bs) tr sl
         (level 0#32 (W0 Ws) (b0 bs) tr sl zeros)))))))

/-- The self stage's result: the last select. -/
def term (obs : FVec F S4096x8x2 .f32) (sl : IVec S4096 32) (init : FVec F S8x20x12x2 .f32)
    (Ws : FVec F S8x128x40 .f32) (bs : FVec F S8x128 .f32) : FVec F S4096x20x128 .f32 :=
  chain (traj obs init sl) sl Ws bs

end Cert.ReferenceIdeal.RefSelf

end
-- ==== Proof.RefNeiTerm.lean ====
/-
  The reference's neighbour stage as one composed term: the printed operations from the reshape of the
  neighbour coordinates to the last of the nine selects, each definition the pure function its printed
  line applies, in the printed argument order.
-/
import proofs.«108484_g15788299780126_cont_week2b_740_2_alg».proof.ReferenceIdeal

noncomputable section

namespace Cert.ReferenceIdeal.RefNei

open Idealize.ShloMosaic
open Cert.ReferenceIdeal
open Cert.ReferenceIdeal.Facts₀ Cert.ReferenceIdeal.Facts

variable {F : FTy → Type} [FloatOps F] [Facts]

/-- The neighbour coordinates as `[4096, 64, 16]` (row-major reshape of `[4096, 64, 8, 2]`). -/
def flat (neis : FVec F S4096x64x8x2 .f32) : FVec F S4096x64x16 .f32 :=
  shapeCast S4096x64x16 neis shapeCasts_S4096x64x8x2_S4096x64x16

/-- Where a coordinate is `≥ 0`. -/
def nonneg (x : FVec F S4096x64x16 .f32) : IVec S4096x64x16 1 :=
  cmpf .oge x (broadcastInDim S4096x64x16 ![] bcast_S_S4096x64x16 (constant S_ .f32 0x00000000#32))

/-- `1 / (x + ε)`. -/
def recipPlus (x : FVec F S4096x64x16 .f32) : FVec F S4096x64x16 .f32 :=
  Host.divf (broadcastInDim S4096x64x16 ![] bcast_S_S4096x64x16 (constant S_ .f32 0x3F800000#32))
    (addf x (broadcastInDim S4096x64x16 ![] bcast_S_S4096x64x16 (constant S_ .f32 0x38D1B717#32)))

/-- `1 / (x - ε)`. -/
def recipMinus (x : FVec F S4096x64x16 .f32) : FVec F S4096x64x16 .f32 :=
  Host.divf (broadcastInDim S4096x64x16 ![] bcast_S_S4096x64x16 (constant S_ .f32 0x3F800000#32))
    (subf x (broadcastInDim S4096x64x16 ![] bcast_S_S4096x64x16 (constant S_ .f32 0x38D1B717#32)))

/-- The transformed neighbour coordinates: `1 / (x + ε)` where `x ≥ 0`, `1 / (x - ε)` elsewhere. -/
def tneis (neis : FVec F S4096x64x8x2 .f32) : FVec F S4096x64x16 .f32 :=
  select (nonneg (flat neis)) (recipPlus (flat neis)) (recipMinus (flat neis))

/-- The stage's initial value: zeros. -/
def zeros : FVec F S4096x64x128 .f32 :=
  broadcastInDim S4096x64x128 ![] bcast_S_S4096x64x128 (constant S_ .f32 0x00000000#32)

/-- Class 0's weight matrix: the slice `[0:1]` of the weights, cast to `[128, 16]`. -/
def W0 (Wn : FVec F S9x128x16 .f32) : FVec F S128x16 .f32 :=
  shapeCast S128x16 (extractStridedSlice S1x128x16 ![0, 0, 0] Wn slices_S9x128x16_S1x128x16_0_0_0) shapeCasts_S1x128x16_S128x16

/-- Class 0's bias row: the slice `[0:1]` of the biases, cast to `[128]`. -/
def b0 (bn : FVec F S9x128 .f32) : FVec F S128 .f32 :=
  shapeCast S128 (extractStridedSlice S1x128 ![0, 0] bn slices_S9x128_S1x128_0_0) shapeCasts_S1x128_S128

/-- Class 1's weight matrix: the slice `[1:2]` of the weights, cast to `[128, 16]`. -/
def W1 (Wn : FVec F S9x128x16 .f32) : FVec F S128x16 .f32 :=
  shapeCast S128x16 (extractStridedSlice S1x128x16 ![1, 0, 0] Wn slices_S9x128x16_S1x128x16_1_0_0) shapeCasts_S1x128x16_S128x16

/-- Class 1's bias row: the slice `[1:2]` of the biases, cast to `[128]`. -/
def b1 (bn : FVec F S9x128 .f32) : FVec F S128 .f32 :=
  shapeCast S128 (extractStridedSlice S1x128 ![1, 0] bn slices_S9x128_S1x128_1_0) shapeCasts_S1x128_S128

/-- Class 2's weight matrix: the slice `[2:3]` of the weights, cast to `[128, 16]`. -/
def W2 (Wn : FVec F S9x128x16 .f32) : FVec F S128x16 .f32 :=
  shapeCast S128x16 (extractStridedSlice S1x128x16 ![2, 0, 0] Wn slices_S9x128x16_S1x128x16_2_0_0) shapeCasts_S1x128x16_S128x16

/-- Class 2's bias row: the slice `[2:3]` of the biases, cast to `[128]`. -/
def b2 (bn : FVec F S9x128 .f32) : FVec F S128 .f32 :=
  shapeCast S128 (extractStridedSlice S1x128 ![2, 0] bn slices_S9x128_S1x128_2_0) shapeCasts_S1x128_S128

/-- Class 3's weight matrix: the slice `[3:4]` of the weights, cast to `[128, 16]`. -/
def W3 (Wn : FVec F S9x128x16 .f32) : FVec F S128x16 .f32 :=
  shapeCast S128x16 (extractStridedSlice S1x128x16 ![3, 0, 0] Wn slices_S9x128x16_S1x128x16_3_0_0) shapeCasts_S1x128x16_S128x16

/-- Class 3's bias row: the slice `[3:4]` of the biases, cast to `[128]`. -/
def b3 (bn : FVec F S9x128 .f32) : FVec F S128 .f32 :=
  shapeCast S128 (extractStridedSlice S1x128 ![3, 0] bn slices_S9x128_S1x128_3_0) shapeCasts_S1x128_S128

/-- Class 4's weight matrix: the slice `[4:5]` of the weights, cast to `[128, 16]`. -/
def W4 (Wn : FVec F S9x128x16 .f32) : FVec F S128x16 .f32 :=
  shapeCast S128x16 (extractStridedSlice S1x128x16 ![4, 0, 0] Wn slices_S9x128x16_S1x128x16_4_0_0) shapeCasts_S1x128x16_S128x16

/-- Class 4's bias row: the slice `[4:5]` of the biases, cast to `[128]`. -/
def b4 (bn : FVec F S9x128 .f32) : FVec F S128 .f32 :=
  shapeCast S128 (extractStridedSlice S1x128 ![4, 0] bn slices_S9x128_S1x128_4_0) shapeCasts_S1x128_S128

/-- Class 5's weight matrix: the slice `[5:6]` of the weights, cast to `[128, 16]`. -/
def W5 (Wn : FVec F S9x128x16 .f32) : FVec F S128x16 .f32 :=
  shapeCast S128x16 (extractStridedSlice S1x128x16 ![5, 0, 0] Wn slices_S9x128x16_S1x128x16_5_0_0) shapeCasts_S1x128x16_S128x16

/-- Class 5's bias row: the slice `[5:6]` of the biases, cast to `[128]`. -/
def b5 (bn : FVec F S9x128 .f32) : FVec F S128 .f32 :=
  shapeCast S128 (extractStridedSlice S1x128 ![5, 0] bn slices_S9x128_S1x128_5_0) shapeCasts_S1x128_S128

/-- Class 6's weight matrix: the slice `[6:7]` of the weights, cast to `[128, 16]`. -/
def W6 (Wn : FVec F S9x128x16 .f32) : FVec F S128x16 .f32 :=
  shapeCast S128x16 (extractStridedSlice S1x128x16 ![6, 0, 0] Wn slices_S9x128x16_S1x128x16_6_0_0) shapeCasts_S1x128x16_S128x16

/-- Class 6's bias row: the slice `[6:7]` of the biases, cast to `[128]`. -/
def b6 (bn : FVec F S9x128 .f32) : FVec F S128 .f32 :=
  shapeCast S128 (extractStridedSlice S1x128 ![6, 0] bn slices_S9x128_S1x128_6_0) shapeCasts_S1x128_S128

/-- Class 7's weight matrix: the slice `[7:8]` of the weights, cast to `[128, 16]`. -/
def W7 (Wn : FVec F S9x128x16 .f32) : FVec F S128x16 .f32 :=
  shapeCast S128x16 (extractStridedSlice S1x128x16 ![7, 0, 0] Wn slices_S9x128x16_S1x128x16_7_0_0) shapeCasts_S1x128x16_S128x16

/-- Class 7's bias row: the slice `[7:8]` of the biases, cast to `[128]`. -/
def b7 (bn : FVec F S9x128 .f32) : FVec F S128 .f32 :=
  shapeCast S128 (extractStridedSlice S1x128 ![7, 0] bn slices_S9x128_S1x128_7_0) shapeCasts_S1x128_S128

/-- Class 8's weight matrix: the slice `[8:9]` of the weights, cast to `[128, 16]`. -/
def W8 (Wn : FVec F S9x128x16 .f32) : FVec F S128x16 .f32 :=
  shapeCast S128x16 (extractStridedSlice S1x128x16 ![8, 0, 0] Wn slices_S9x128x16_S1x128x16_8_0_0) shapeCasts_S1x128x16_S128x16

/-- Class 8's bias row: the slice `[8:9]` of the biases, cast to `[128]`. -/
def b8 (bn : FVec F S9x128 .f32) : FVec F S128 .f32 :=
  shapeCast S128 (extractStridedSlice S1x128 ![8, 0] bn slices_S9x128_S1x128_8_0) shapeCasts_S1x128_S128

/-- One class's expert on every neighbour: the transformed coordinates times the class's weights, plus its bias. -/
def expert (Wi : FVec F S128x16 .f32) (bi : FVec F S128 .f32) (t : FVec F S4096x64x16 .f32) : FVec F S4096x64x128 .f32 :=
  addf (Host.dotGeneral dot_S4096x64x16_S128x16_S4096x64x128_2_1_01_0_n_n none t Wi)
    (broadcastInDim S4096x64x128 ![0, 1, 2] bcast_S1x1x128_S4096x64x128_0_1_2
      (broadcastInDim S1x1x128 ![2] bcast_S128_S1x1x128_2 bi))

/-- Where the label is the word `i`, as a `[4096, 64, 1]` mask. -/
def mask (i : BitVec 32) (nl : IVec S4096x64 32) : IVec S4096x64x1 1 :=
  broadcastInDim S4096x64x1 ![0, 1] bcast_S4096x64_S4096x64x1_0_1
    (cmpi .eq nl (broadcastInDim S4096x64 ![] bcast_S_S4096x64 (constantI S_ 32 i)))

/-- One routing level: class `i`'s expert where the label is `i`, the previous value elsewhere. -/
def level (i : BitVec 32) (Wi : FVec F S128x16 .f32) (bi : FVec F S128 .f32) (t : FVec F S4096x64x16 .f32)
    (nl : IVec S4096x64 32) (prev : FVec F S4096x64x128 .f32) : FVec F S4096x64x128 .f32 :=
  select (broadcastInDim S4096x64x128 ![0, 1, 2] bcast_S4096x64x1_S4096x64x128_0_1_2 (mask i nl)) (expert Wi bi t) prev

/-- The neighbour stage: nine routing levels over the transformed coordinates, from zeros. -/
def term (neis : FVec F S4096x64x8x2 .f32) (nl : IVec S4096x64 32) (Wn : FVec F S9x128x16 .f32)
    (bn : FVec F S9x128 .f32) : FVec F S4096x64x128 .f32 :=
  level 8#32 (W8 Wn) (b8 bn) (tneis neis) nl
   (level 7#32 (W7 Wn) (b7 bn) (tneis neis) nl
    (level 6#32 (W6 Wn) (b6 bn) (tneis neis) nl
     (level 5#32 (W5 Wn) (b5 bn) (tneis neis) nl
      (level 4#32 (W4 Wn) (b4 bn) (tneis neis) nl
       (level 3#32 (W3 Wn) (b3 bn) (tneis neis) nl
        (level 2#32 (W2 Wn) (b2 bn) (tneis neis) nl
         (level 1#32 (W1 Wn) (b1 bn) (tneis neis) nl
          (level 0#32 (W0 Wn) (b0 bn) (tneis neis) nl zeros))))))))

end Cert.ReferenceIdeal.RefNei

end
-- ==== Proof.LibHostLine.lean ====
/-
  Two general facts about a straight line of host array operations.

  1. The buffers after a concatenated line `l₁ ++ l₂` are the buffers after `l₂` from the buffers after `l₁`: a long
     line can be cut into short parts and each part read on its own, at an arbitrary state of the buffers.
  2. The operations of a called function read and write each buffer through its tensor type: a value is carried into the
     buffer's type (`TRef.toBuf`) and back (`TRef.ofBuf`) along the equation between the two types. There and back is
     the identity, for ANY typed reference (by substituting the equation, without evaluating the buffer table), and
     either way the carried value is the value it was (as a heterogeneous equation, which becomes an equation wherever
     the two types are the same by computation).
-/
import Idealize.ShloMosaic.Lib.StableHlo.Run

namespace Cert.HostLine

open Idealize.ShloMosaic Idealize.ShloMosaic.StableHlo

/-- The fold of a concatenated line is the fold of its second part over the fold of its first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Into a buffer's type and back is the identity. -/
theorem ofBuf_toBuf {sig : RefSig} {T : BufTy} {Val : EltTy → Type} (x : TRef sig T) (v : T.Contents Val) :
    x.ofBuf (x.toBuf v) = v := by
  obtain ⟨r, h, h1, h2⟩ := x
  subst h
  rfl

/-- A value carried into a buffer's type is that value. -/
theorem toBuf_heq {sig : RefSig} {T : BufTy} {Val : EltTy → Type} (x : TRef sig T) (v : T.Contents Val) : HEq (x.toBuf v) v :=
  cast_heq _ _

/-- A buffer's contents read at its tensor type are those contents. -/
theorem ofBuf_heq {sig : RefSig} {T : BufTy} {Val : EltTy → Type} (x : TRef sig T) (v : x.ref.ty.Contents Val) : HEq (x.ofBuf v) v :=
  cast_heq _ _

end Cert.HostLine
-- ==== Proof.RefRun.lean ====
import proofs.«108484_g15788299780126_cont_week2b_740_2_alg».proof.Proof.RefWin0
import proofs.«108484_g15788299780126_cont_week2b_740_2_alg».proof.Proof.RefWin1
import proofs.«108484_g15788299780126_cont_week2b_740_2_alg».proof.Proof.RefWin2
import proofs.«108484_g15788299780126_cont_week2b_740_2_alg».proof.Proof.RefWin3
import proofs.«108484_g15788299780126_cont_week2b_740_2_alg».proof.Proof.RefWin4
import proofs.«108484_g15788299780126_cont_week2b_740_2_alg».proof.Proof.RefSelfTerm
import proofs.«108484_g15788299780126_cont_week2b_740_2_alg».proof.Proof.RefNeiTerm
import proofs.«108484_g15788299780126_cont_week2b_740_2_alg».proof.Proof.LibHostLine

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Cert.HostLine

/-- The program's operations in order: the five windows one after the other. -/
def ops : List (HloOp τ sig (Elt F)) := ops0 ++ (ops1 ++ (ops2 ++ (ops3 ++ ops4)))

/-- The program is that line: each window is its own line, and lines run in order are their concatenation. -/
theorem main_eq (c : Dev nD) : main (F := F) c = seq ops := by
  unfold ops
  rw [seq_append, seq_append, seq_append, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

theorem ops_fresh : ∀ op ∈ (ops : List (HloOp τ sig (Elt F))), op.fresh = ∅ := fun op h => by
  simp only [ops, List.mem_append] at h
  rcases h with h | h | h | h | h
  exacts [ops0_fresh op h, ops1_fresh op h, ops2_fresh op h, ops3_fresh op h, ops4_fresh op h]

/-- From any memory with zero counters every weakly fair execution of the program terminates, each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The windows' values composed: what the buffer of v101 holds at the end, from the arguments. -/
def selfTerm (i_main_arg0 : (⟨S4096x8x2, .f32⟩ : BufTy).Contents (Elt F)) (i_main_arg2 : (⟨S4096, .i32⟩ : BufTy).Contents (Elt F)) (i_main_arg4 : (⟨S8x20x12x2, .f32⟩ : BufTy).Contents (Elt F)) (i_main_arg5 : (⟨S8x128x40, .f32⟩ : BufTy).Contents (Elt F)) (i_main_arg6 : (⟨S8x128, .f32⟩ : BufTy).Contents (Elt F)) :
    (⟨S4096x20x128, .f32⟩ : BufTy).Contents (Elt F) :=
  (w1_v101_fn i_main_arg2 i_main_arg5 i_main_arg6 (w0_v4_fn i_main_arg0 i_main_arg2 i_main_arg4) (w0_v53_fn i_main_arg0 i_main_arg2 i_main_arg4 i_main_arg5 i_main_arg6) (w0_v54_fn i_main_arg5))

theorem after_v101 (V : Valuation τ sig (Elt F)) : after ops V (main_v101 : DevRef τ sig)
    = selfTerm (V (main_arg0 : DevRef τ sig)) (V (main_arg2 : DevRef τ sig)) (V (main_arg4 : DevRef τ sig)) (V (main_arg5 : DevRef τ sig)) (V (main_arg6 : DevRef τ sig)) := by
  unfold ops selfTerm
  rw [after_append, after_append, after_append, after_append]
  rw [w4_v101, w3_v101, w2_v101, w1_v101, w0_arg2, w0_arg5, w0_arg6, w0_v4, w0_v53, w0_v54]

/-- The windows' values composed: what the buffer of v222 holds at the end, from the arguments. -/
def neiTerm (i_main_arg1 : (⟨S4096x64x8x2, .f32⟩ : BufTy).Contents (Elt F)) (i_main_arg3 : (⟨S4096x64, .i32⟩ : BufTy).Contents (Elt F)) (i_main_arg7 : (⟨S9x128x16, .f32⟩ : BufTy).Contents (Elt F)) (i_main_arg8 : (⟨S9x128, .f32⟩ : BufTy).Contents (Elt F)) :
    (⟨S4096x64x128, .f32⟩ : BufTy).Contents (Elt F) :=
  (w4_v222_fn i_main_arg3 (w3_v210_fn i_main_arg3 i_main_arg7 i_main_arg8 (w2_v113_fn (w1_v102_fn i_main_arg1) (w1_v104_fn i_main_arg1) (w1_v106_fn i_main_arg1) (w1_v107_fn )) (w2_v150_fn i_main_arg3 i_main_arg7 i_main_arg8 (w1_v102_fn i_main_arg1) (w1_v104_fn i_main_arg1) (w1_v106_fn i_main_arg1) (w1_v107_fn )) (w2_v158_fn i_main_arg7 i_main_arg8 (w1_v102_fn i_main_arg1) (w1_v104_fn i_main_arg1) (w1_v106_fn i_main_arg1) (w1_v107_fn )) (w2_v160_fn i_main_arg3)) (w3_v213_fn i_main_arg7 (w2_v113_fn (w1_v102_fn i_main_arg1) (w1_v104_fn i_main_arg1) (w1_v106_fn i_main_arg1) (w1_v107_fn ))) (w3_v216_fn i_main_arg8))

theorem after_v222 (V : Valuation τ sig (Elt F)) : after ops V (main_v222 : DevRef τ sig)
    = neiTerm (V (main_arg1 : DevRef τ sig)) (V (main_arg3 : DevRef τ sig)) (V (main_arg7 : DevRef τ sig)) (V (main_arg8 : DevRef τ sig)) := by
  unfold ops neiTerm
  rw [after_append, after_append, after_append, after_append]
  rw [w4_v222, w3_arg3, w3_v210, w3_v213, w3_v216, w2_arg3, w2_arg7, w2_arg8, w2_v113, w2_v150, w2_v158, w2_v160, w1_arg3, w1_arg7, w1_arg8, w1_v102, w1_v104, w1_v106, w1_v107, w0_arg1, w0_arg3, w0_arg7, w0_arg8]

theorem after_arg0 (V : Valuation τ sig (Elt F)) : after ops V (main_arg0 : DevRef τ sig) = V (main_arg0 : DevRef τ sig) := by
  unfold ops
  rw [after_append, after_append, after_append, after_append]
  rw [w4_arg0, w3_arg0, w2_arg0, w1_arg0, w0_arg0]

theorem after_arg1 (V : Valuation τ sig (Elt F)) : after ops V (main_arg1 : DevRef τ sig) = V (main_arg1 : DevRef τ sig) := by
  unfold ops
  rw [after_append, after_append, after_append, after_append]
  rw [w4_arg1, w3_arg1, w2_arg1, w1_arg1, w0_arg1]

theorem after_arg2 (V : Valuation τ sig (Elt F)) : after ops V (main_arg2 : DevRef τ sig) = V (main_arg2 : DevRef τ sig) := by
  unfold ops
  rw [after_append, after_append, after_append, after_append]
  rw [w4_arg2, w3_arg2, w2_arg2, w1_arg2, w0_arg2]

theorem after_arg3 (V : Valuation τ sig (Elt F)) : after ops V (main_arg3 : DevRef τ sig) = V (main_arg3 : DevRef τ sig) := by
  unfold ops
  rw [after_append, after_append, after_append, after_append]
  rw [w4_arg3, w3_arg3, w2_arg3, w1_arg3, w0_arg3]

theorem after_arg4 (V : Valuation τ sig (Elt F)) : after ops V (main_arg4 : DevRef τ sig) = V (main_arg4 : DevRef τ sig) := by
  unfold ops
  rw [after_append, after_append, after_append, after_append]
  rw [w4_arg4, w3_arg4, w2_arg4, w1_arg4, w0_arg4]

theorem after_arg5 (V : Valuation τ sig (Elt F)) : after ops V (main_arg5 : DevRef τ sig) = V (main_arg5 : DevRef τ sig) := by
  unfold ops
  rw [after_append, after_append, after_append, after_append]
  rw [w4_arg5, w3_arg5, w2_arg5, w1_arg5, w0_arg5]

theorem after_arg6 (V : Valuation τ sig (Elt F)) : after ops V (main_arg6 : DevRef τ sig) = V (main_arg6 : DevRef τ sig) := by
  unfold ops
  rw [after_append, after_append, after_append, after_append]
  rw [w4_arg6, w3_arg6, w2_arg6, w1_arg6, w0_arg6]

theorem after_arg7 (V : Valuation τ sig (Elt F)) : after ops V (main_arg7 : DevRef τ sig) = V (main_arg7 : DevRef τ sig) := by
  unfold ops
  rw [after_append, after_append, after_append, after_append]
  rw [w4_arg7, w3_arg7, w2_arg7, w1_arg7, w0_arg7]

theorem after_arg8 (V : Valuation τ sig (Elt F)) : after ops V (main_arg8 : DevRef τ sig) = V (main_arg8 : DevRef τ sig) := by
  unfold ops
  rw [after_append, after_append, after_append, after_append]
  rw [w4_arg8, w3_arg8, w2_arg8, w1_arg8, w0_arg8]

/-- The composed value of the first result is the self stage's term: both are the printed operations composed. -/
theorem selfTerm_eq (i_main_arg0 : (⟨S4096x8x2, .f32⟩ : BufTy).Contents (Elt F)) (i_main_arg2 : (⟨S4096, .i32⟩ : BufTy).Contents (Elt F)) (i_main_arg4 : (⟨S8x20x12x2, .f32⟩ : BufTy).Contents (Elt F)) (i_main_arg5 : (⟨S8x128x40, .f32⟩ : BufTy).Contents (Elt F)) (i_main_arg6 : (⟨S8x128, .f32⟩ : BufTy).Contents (Elt F)) :
    selfTerm i_main_arg0 i_main_arg2 i_main_arg4 i_main_arg5 i_main_arg6 = RefSelf.term (F := F) i_main_arg0 i_main_arg2 i_main_arg4 i_main_arg5 i_main_arg6 := rfl

/-- The composed value of the second result is the neighbour stage's term. -/
theorem neiTerm_eq (i_main_arg1 : (⟨S4096x64x8x2, .f32⟩ : BufTy).Contents (Elt F)) (i_main_arg3 : (⟨S4096x64, .i32⟩ : BufTy).Contents (Elt F)) (i_main_arg7 : (⟨S9x128x16, .f32⟩ : BufTy).Contents (Elt F)) (i_main_arg8 : (⟨S9x128, .f32⟩ : BufTy).Contents (Elt F)) :
    neiTerm i_main_arg1 i_main_arg3 i_main_arg7 i_main_arg8 = RefNei.term (F := F) i_main_arg1 i_main_arg3 i_main_arg7 i_main_arg8 := rfl

/-- On every device, from any memory with zero counters: every weakly fair execution of the program terminates with the two results at the two
    stages' terms of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v101) = RefSelf.term (F := F) (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6))
      ∧ r.2.mem ((c.tc : Thread nD τ).loc main_v222) = RefNei.term (F := F) (m ((c.tc : Thread nD τ).loc main_arg1)) (m ((c.tc : Thread nD τ).loc main_arg3)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v101).trans ((after_v101 _).trans (selfTerm_eq ..)),
      (h c main_v222).trans ((after_v222 _).trans (neiTerm_eq ..)),
      (h c main_arg0).trans (after_arg0 _),
      (h c main_arg1).trans (after_arg1 _),
      (h c main_arg2).trans (after_arg2 _),
      (h c main_arg3).trans (after_arg3 _),
      (h c main_arg4).trans (after_arg4 _),
      (h c main_arg5).trans (after_arg5 _),
      (h c main_arg6).trans (after_arg6 _),
      (h c main_arg7).trans (after_arg7 _),
      (h c main_arg8).trans (after_arg8 _)⟩)
    (run_main m ρ)

end Cert.ReferenceIdeal.RefRun

end
-- ==== Proof.RefSelfTake.lean ====
/-
  The take of the initial trajectories, read at a row whose label is a class number.

  The take wraps a negative label by 8, stands the labels up as an index column, gathers one
  [20,12,2] block of the [8,20,12,2] array per row (the start index read signed and clamped into
  the eight classes), and keeps the block where the label is in range.  At a row whose label is
  the word of a class number c < 8 nothing is wrapped, the range mask is 1 and the clamp does
  nothing: the row's block is class c's.
-/
import Idealize.ShloMosaic.Lib.Pipeline.Value
import Idealize.ShloMosaic.Lib.ValueIdx
import Idealize.ShloMosaic.Lib.Affine
import Idealize.ShloMosaic.PureOps.Reduce
import proofs.«108484_g15788299780126_cont_week2b_740_2_alg».proof.Proof.RefSelfTerm

noncomputable section

open scoped BigOperators

namespace Cert.ReferenceIdeal.RefSelfValue

open Idealize.ShloMosaic Idealize.ShloMosaic.ValueIdx
open Cert.ReferenceIdeal Cert.ReferenceIdeal.RefSelf

variable {F : FTy → Type} [FloatOps F] [Facts₀]
open Facts₀

/-- A left fold of `and` from 1 over a list whose words are all 1 is 1. -/
theorem foldl_andi_one_of_mem {ι : Type} (f : ι → BitVec 1) :
    ∀ (l : List ι) (init : BitVec 1), init = 1#1 → (∀ n ∈ l, f n = 1#1) →
      l.foldl (fun r n => IntOp.andi r (f n)) init = 1#1
  | [], init, hi, _ => hi
  | a :: l, init, hi, hf => by
    rw [List.foldl_cons]
    refine foldl_andi_one_of_mem f l _ ?_ (fun n hn => hf n (List.mem_cons_of_mem _ hn))
    rw [hi, hf a (List.mem_cons_self ..)]
    decide

/-- An `and`-reduction from 1 is 1 at a result index all of whose operand words are 1. -/
theorem reduce_andi_one_at {s t u : Shape} {axes : List (Fin s.rank)} (x : s.Idx → BitVec 1) (init : u.Idx → BitVec 1)
    (h : s.ReducesTo axes t) (hu : 0 < u.numel) (j : t.Idx) (hi : ∀ z, init z = 1#1)
    (hx : ∀ i, h.drop i = j → x i = 1#1) : Host.reduce IntOp.andi x init h hu j = 1#1 := by
  rw [Host.reduce_eq_foldl]
  refine foldl_andi_one_of_mem x _ _ (hi _) fun i hi' => ?_
  exact hx i (by simpa using (List.mem_filter.1 hi').2)

section
variable (sl : IVec S4096 32) (b : Fin 4096) (c : Fin 8) (hc : sl (ix1 b) = BitVec.ofNat 32 c.val)
include hc

/-- The word of a class number read signed is the number. -/
theorem toInt_label : (sl (ix1 b)).toInt = (c.val : Int) := by
  rw [hc]
  have hlt := c.isLt
  have h1 : (BitVec.ofNat 32 c.val).toNat = c.val := by
    rw [BitVec.toNat_ofNat]; exact Nat.mod_eq_of_lt (by omega)
  rw [BitVec.toInt_eq_toNat_cond, h1]
  split <;> omega

/-- Nothing is wrapped at a row whose label is a class number. -/
theorem takeWrap_apply : takeWrap sl (ix1 b) = sl (ix1 b) := by
  unfold takeWrap
  rw [select_apply]
  have h0 : cmpi .slt sl (broadcastInDim S4096 ![] bcast_S_S4096 (constantI S_ 32 0#32)) (ix1 b) = 0#1 := by
    refine eq_zero_of_ne_one fun h1 => ?_
    have h2 : (sl (ix1 b)).toInt < (0#32 : BitVec 32).toInt := IntOp.cmpi_slt.mp h1
    rw [toInt_label sl b c hc] at h2
    simp at h2
    omega
  rw [h0, select_zero]

end

/-- The index column reads, at `(b, u)`, the wrapped label of row `b`. -/
theorem takeIdx_apply (sl : IVec S4096 32) (b : Fin 4096) (u : Fin 1) :
    RefSelf.takeIdx sl (ix2 b u) = takeWrap sl (ix1 b) := by
  unfold RefSelf.takeIdx
  refine broadcastInDim_apply _ _ _ _ (ix1 b) fun a => ?_
  match a with
  | ⟨0, _⟩ => rfl

/-- The gather read at `(b, k, p, q)`: the operand at the row "start index of `b`, read signed and clamped into
    the eight classes", and at `(k, p, q)` on the three offset axes. -/
theorem gather_apply {α : Type} (x : S8x20x12x2.Idx → α) (idx : IVec S4096x1 32) (b : Fin 4096) (k : Fin 20)
    (p : Fin 12) (q : Fin 2) :
    Host.gather gather_S8x20x12x2_S4096x1_S4096x20x12x2_123_0_n_n_0_1_120122 x idx (ix4 b k p q)
      = x (ix4 (⟨min (idx (ix2 b ⟨0, Nat.one_pos⟩)).toInt.toNat 7, by omega⟩ : Fin 8) k p q) := by
  unfold Host.gather
  congr 1
  funext a
  refine Fin.ext ?_
  match a with
  | ⟨0, _⟩ =>
    show gather_S8x20x12x2_S4096x1_S4096x20x12x2_123_0_n_n_0_1_120122.start (ix4 b k p q) idx (0 : Fin 4) + gather_S8x20x12x2_S4096x1_S4096x20x12x2_123_0_n_n_0_1_120122.batchCoord (ix4 b k p q) (0 : Fin 4)
      + gather_S8x20x12x2_S4096x1_S4096x20x12x2_123_0_n_n_0_1_120122.offCoord (ix4 b k p q) (0 : Fin 4) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 4) ∈ gather_S8x20x12x2_S4096x1_S4096x20x12x2_123_0_n_n_0_1_120122.startIndexMap from List.mem_singleton.mpr rfl)]
    have hsi : gather_S8x20x12x2_S4096x1_S4096x20x12x2_123_0_n_n_0_1_120122.siIdx (ix4 b k p q) ⟨List.idxOf (0 : Fin 4) gather_S8x20x12x2_S4096x1_S4096x20x12x2_123_0_n_n_0_1_120122.startIndexMap,
        List.idxOf_lt_length_iff.2 (List.mem_singleton.mpr rfl)⟩ = ix2 b ⟨0, Nat.one_pos⟩ := by
      funext e; refine Fin.ext ?_
      match e with
      | ⟨0, _⟩ => rfl
      | ⟨1, _⟩ => rfl
    rw [hsi]
    rfl
  | ⟨1, _⟩ =>
    show gather_S8x20x12x2_S4096x1_S4096x20x12x2_123_0_n_n_0_1_120122.start (ix4 b k p q) idx (1 : Fin 4) + gather_S8x20x12x2_S4096x1_S4096x20x12x2_123_0_n_n_0_1_120122.batchCoord (ix4 b k p q) (1 : Fin 4)
      + gather_S8x20x12x2_S4096x1_S4096x20x12x2_123_0_n_n_0_1_120122.offCoord (ix4 b k p q) (1 : Fin 4) = _
    have hst : gather_S8x20x12x2_S4096x1_S4096x20x12x2_123_0_n_n_0_1_120122.start (ix4 b k p q) idx (1 : Fin 4) = 0 := by
      unfold GatherDims.start
      rw [dif_neg (show ¬ (1 : Fin 4) ∈ gather_S8x20x12x2_S4096x1_S4096x20x12x2_123_0_n_n_0_1_120122.startIndexMap from
        (by decide : (1 : Fin 4) ∉ ([0] : List (Fin 4))))]
    have hk : (1 : Fin 4) ∈ gather_S8x20x12x2_S4096x1_S4096x20x12x2_123_0_n_n_0_1_120122.sKept :=
      (GatherDims.mem_sKept _ _).mpr ⟨(by decide : (1 : Fin 4) ∉ ([0] : List (Fin 4))), List.not_mem_nil⟩
    rw [hst, GatherDims.batchCoord_eq_zero _ _ _ List.not_mem_nil]
    simp only [Nat.zero_add]
    unfold GatherDims.offCoord
    rw [dif_pos hk]
    rfl
  | ⟨2, _⟩ =>
    show gather_S8x20x12x2_S4096x1_S4096x20x12x2_123_0_n_n_0_1_120122.start (ix4 b k p q) idx (2 : Fin 4) + gather_S8x20x12x2_S4096x1_S4096x20x12x2_123_0_n_n_0_1_120122.batchCoord (ix4 b k p q) (2 : Fin 4)
      + gather_S8x20x12x2_S4096x1_S4096x20x12x2_123_0_n_n_0_1_120122.offCoord (ix4 b k p q) (2 : Fin 4) = _
    have hst : gather_S8x20x12x2_S4096x1_S4096x20x12x2_123_0_n_n_0_1_120122.start (ix4 b k p q) idx (2 : Fin 4) = 0 := by
      unfold GatherDims.start
      rw [dif_neg (show ¬ (2 : Fin 4) ∈ gather_S8x20x12x2_S4096x1_S4096x20x12x2_123_0_n_n_0_1_120122.startIndexMap from
        (by decide : (2 : Fin 4) ∉ ([0] : List (Fin 4))))]
    have hk : (2 : Fin 4) ∈ gather_S8x20x12x2_S4096x1_S4096x20x12x2_123_0_n_n_0_1_120122.sKept :=
      (GatherDims.mem_sKept _ _).mpr ⟨(by decide : (2 : Fin 4) ∉ ([0] : List (Fin 4))), List.not_mem_nil⟩
    rw [hst, GatherDims.batchCoord_eq_zero _ _ _ List.not_mem_nil]
    simp only [Nat.zero_add]
    unfold GatherDims.offCoord
    rw [dif_pos hk]
    rfl
  | ⟨3, _⟩ =>
    show gather_S8x20x12x2_S4096x1_S4096x20x12x2_123_0_n_n_0_1_120122.start (ix4 b k p q) idx (3 : Fin 4) + gather_S8x20x12x2_S4096x1_S4096x20x12x2_123_0_n_n_0_1_120122.batchCoord (ix4 b k p q) (3 : Fin 4)
      + gather_S8x20x12x2_S4096x1_S4096x20x12x2_123_0_n_n_0_1_120122.offCoord (ix4 b k p q) (3 : Fin 4) = _
    have hst : gather_S8x20x12x2_S4096x1_S4096x20x12x2_123_0_n_n_0_1_120122.start (ix4 b k p q) idx (3 : Fin 4) = 0 := by
      unfold GatherDims.start
      rw [dif_neg (show ¬ (3 : Fin 4) ∈ gather_S8x20x12x2_S4096x1_S4096x20x12x2_123_0_n_n_0_1_120122.startIndexMap from
        (by decide : (3 : Fin 4) ∉ ([0] : List (Fin 4))))]
    have hk : (3 : Fin 4) ∈ gather_S8x20x12x2_S4096x1_S4096x20x12x2_123_0_n_n_0_1_120122.sKept :=
      (GatherDims.mem_sKept _ _).mpr ⟨(by decide : (3 : Fin 4) ∉ ([0] : List (Fin 4))), List.not_mem_nil⟩
    rw [hst, GatherDims.batchCoord_eq_zero _ _ _ List.not_mem_nil]
    simp only [Nat.zero_add]
    unfold GatherDims.offCoord
    rw [dif_pos hk]
    rfl

section
variable (sl : IVec S4096 32) (b : Fin 4096) (c : Fin 8) (hc : sl (ix1 b) = BitVec.ofNat 32 c.val)
include hc

/-- The range mask is 1 at a row whose label is a class number. -/
theorem takeOk_apply : takeOk sl (ix1 b) = 1#1 := by
  unfold takeOk
  refine reduce_andi_one_at _ _ _ _ _ (fun _ => rfl) fun i hi => ?_
  obtain ⟨b', u, rfl⟩ : ∃ (b' : Fin 4096) (u : Fin 1), i = ix2 b' u := ⟨i 0, i 1, eq_ix2 i⟩
  have hb : b' = b := by
    have h0 := Shape.ReducesTo.drop_apply_val_of_eq reducesTo_S4096x1_S4096_d1 (ix2 b' u) ⟨0, by decide⟩ ⟨0, by decide⟩
    rw [hi] at h0
    exact Fin.ext h0.symm
  subst hb
  show IntOp.andi (IntOp.cmpi .sge (RefSelf.takeIdx sl (ix2 b' u)) 0#32) (IntOp.cmpi .sle (RefSelf.takeIdx sl (ix2 b' u)) 7#32) = 1#1
  rw [takeIdx_apply, takeWrap_apply sl b' c hc]
  have hlt := c.isLt
  have h7 : (7#32 : BitVec 32).toInt = 7 := by decide
  have h0 : (0#32 : BitVec 32).toInt = 0 := by decide
  have ha : IntOp.cmpi .sge (sl (ix1 b')) 0#32 = 1#1 :=
    IntOp.cmpi_sge.mpr (by rw [toInt_label sl b' c hc, h0]; omega)
  have hb : IntOp.cmpi .sle (sl (ix1 b')) 7#32 = 1#1 :=
    IntOp.cmpi_sle.mpr (by rw [toInt_label sl b' c hc, h7]; omega)
  rw [ha, hb]; decide

/-- THE TAKE AT A ROW WHOSE LABEL IS CLASS `c`: class `c`'s block, whatever the fill value. -/
theorem take_apply (init : FVec F S8x20x12x2 .f32) (k : Fin 20) (p : Fin 12) (q : Fin 2) :
    take init sl (ix4 b k p q) = init (ix4 c k p q) := by
  unfold take
  rw [select_apply]
  have hm : broadcastInDim S4096x20x12x2 ![0] bcast_S4096_S4096x20x12x2_0 (takeOk sl) (ix4 b k p q) = 1#1 := by
    refine (broadcastInDim_apply _ _ _ _ (ix1 b) fun a => ?_).trans
      (takeOk_apply sl b c hc)
    match a with
    | ⟨0, _⟩ => rfl
  rw [hm, select_one]
  unfold takeRows
  rw [gather_apply]
  refine congrArg init (congrArg (fun r => ix4 r k p q) (Fin.ext ?_))
  show min (RefSelf.takeIdx sl (ix2 b ⟨0, Nat.one_pos⟩)).toInt.toNat 7 = c.val
  rw [takeIdx_apply, takeWrap_apply sl b c hc, toInt_label sl b c hc]
  have := c.isLt
  omega

end

end Cert.ReferenceIdeal.RefSelfValue

end
-- ==== Proof.RefSelfTraj.lean ====
/-
  The reference's trajectories read at an index.

  The 40 numbers of a trajectory are the row-major reading of 20 points of 2 numbers: the first 8 points are the
  observation's (the same for every trajectory of an agent), the last 12 the taken block's.  So number `d < 16` is
  the observation at point `d / 2`, coordinate `d % 2`, and number `d ≥ 16` the taken block at point
  `(d - 16) / 2`, coordinate `(d - 16) % 2`; at a row whose label is class `c` the taken block is class `c`'s.
-/
import Idealize.ShloMosaic.Lib.Pipeline.Value
import Idealize.ShloMosaic.Lib.ValueIdx
import proofs.«108484_g15788299780126_cont_week2b_740_2_alg».proof.Proof.Spec
import proofs.«108484_g15788299780126_cont_week2b_740_2_alg».proof.Proof.RefSelfTake

noncomputable section

open scoped BigOperators

namespace Cert.ReferenceIdeal.RefSelfValue

open Idealize.ShloMosaic Idealize.ShloMosaic.ValueIdx
open Cert.ReferenceIdeal Cert.ReferenceIdeal.RefSelf

variable {F : FTy → Type} [FloatOps F] [Facts₀]
open Facts₀

/-- The repeated observation at `(b, k, p, q)` is the observation at `(b, p, q)`. -/
theorem obsRep_apply (obs : FVec F S4096x8x2 .f32) (b : Fin 4096) (k : Fin 20) (p : Fin 8) (q : Fin 2) :
    obsRep obs (ix4 b k p q) = obs (ix3 b p q) := by
  unfold obsRep
  refine (broadcastInDim_apply _ _ _ _ (ix4 b (0 : Fin 1) p q) fun a => ?_).trans ?_
  · match a with
    | ⟨0, _⟩ => rfl
    | ⟨1, _⟩ => rfl
    | ⟨2, _⟩ => rfl
    | ⟨3, _⟩ => rfl
  · refine broadcastInDim_apply _ _ _ _ (ix3 b p q) fun a => ?_
    match a with
    | ⟨0, _⟩ => rfl
    | ⟨1, _⟩ => rfl
    | ⟨2, _⟩ => rfl

/-- The first 8 points of a trajectory are the observation's. -/
theorem trajPts_apply_obs (obs : FVec F S4096x8x2 .f32) (init : FVec F S8x20x12x2 .f32) (sl : IVec S4096 32)
    (b : Fin 4096) (k : Fin 20) (p : Fin 8) (q : Fin 2) :
    trajPts obs init sl (ix4 b k (⟨p.val, by omega⟩ : Fin 20) q) = obs (ix3 b p q) := by
  unfold trajPts
  refine (concatenate_pair_apply_left (t := S4096x20x20x2) (s₁ := S4096x20x8x2) (s₂ := S4096x20x12x2) _ _ _ _ _ rfl (ix4 b k p q) fun a => ?_).trans (obsRep_apply obs b k p q)
  match a with
  | ⟨0, _⟩ => rfl
  | ⟨1, _⟩ => rfl
  | ⟨2, _⟩ => rfl
  | ⟨3, _⟩ => rfl

/-- The last 12 points of a trajectory are the taken block's. -/
theorem trajPts_apply_take (obs : FVec F S4096x8x2 .f32) (init : FVec F S8x20x12x2 .f32) (sl : IVec S4096 32)
    (b : Fin 4096) (k : Fin 20) (p : Fin 12) (q : Fin 2) :
    trajPts obs init sl (ix4 b k (⟨p.val + 8, by omega⟩ : Fin 20) q) = take init sl (ix4 b k p q) := by
  unfold trajPts
  refine concatenate_pair_apply_right (t := S4096x20x20x2) (s₁ := S4096x20x8x2) (s₂ := S4096x20x12x2) _ _ _ _ _ rfl rfl (ix4 b k p q) (fun a ha => ?_) ?_
  · match a, ha with
    | ⟨0, _⟩, _ => rfl
    | ⟨1, _⟩, _ => rfl
    | ⟨2, _⟩, ha => exact absurd (Fin.ext rfl) ha
    | ⟨3, _⟩, _ => rfl
  · rfl

/-- Number `d < 16` of a trajectory is the observation at point `d / 2`, coordinate `d % 2`. -/
theorem traj_apply_obs (obs : FVec F S4096x8x2 .f32) (init : FVec F S8x20x12x2 .f32) (sl : IVec S4096 32)
    (b : Fin 4096) (k : Fin 20) (d : Fin 40) (hd : d.val < 16) :
    RefSelf.traj obs init sl (ix3 b k d)
      = obs (ix3 b (⟨d.val / 2, by omega⟩ : Fin 8) (⟨d.val % 2, by omega⟩ : Fin 2)) := by
  unfold RefSelf.traj
  refine (shapeCast_apply _ _ _ (ix4 b k (⟨(⟨d.val / 2, by omega⟩ : Fin 8).val, by omega⟩ : Fin 20)
    (⟨d.val % 2, by omega⟩ : Fin 2)) ?_).trans (trajPts_apply_obs obs init sl b k _ _)
  rw [Shape.rowMajor_val_four, Shape.rowMajor_val_three]
  show ((b.val * 20 + k.val) * 20 + d.val / 2) * 2 + d.val % 2 = (b.val * 20 + k.val) * 40 + d.val
  omega

/-- Number `d ≥ 16` of a trajectory is the taken block at point `(d - 16) / 2`, coordinate `(d - 16) % 2`. -/
theorem traj_apply_take (obs : FVec F S4096x8x2 .f32) (init : FVec F S8x20x12x2 .f32) (sl : IVec S4096 32)
    (b : Fin 4096) (k : Fin 20) (d : Fin 40) (hd : ¬ d.val < 16) :
    RefSelf.traj obs init sl (ix3 b k d)
      = take init sl (ix4 b k (⟨(d.val - 16) / 2, by omega⟩ : Fin 12) (⟨(d.val - 16) % 2, by omega⟩ : Fin 2)) := by
  unfold RefSelf.traj
  refine (shapeCast_apply _ _ _ (ix4 b k (⟨(⟨(d.val - 16) / 2, by omega⟩ : Fin 12).val + 8, by omega⟩ : Fin 20)
    (⟨(d.val - 16) % 2, by omega⟩ : Fin 2)) ?_).trans (trajPts_apply_take obs init sl b k _ _)
  rw [Shape.rowMajor_val_four, Shape.rowMajor_val_three]
  show ((b.val * 20 + k.val) * 20 + ((d.val - 16) / 2 + 8)) * 2 + (d.val - 16) % 2 = (b.val * 20 + k.val) * 40 + d.val
  have := d.isLt
  omega

/-- THE TRAJECTORY AT A ROW WHOSE LABEL IS CLASS `c` is the specification's trajectory under class `c`. -/
theorem traj_eq_spec (obs : FVec Ideal S4096x8x2 .f32) (init : FVec Ideal S8x20x12x2 .f32) (sl : IVec S4096 32)
    (b : Fin 4096) (c : Fin 8) (hc : sl (ix1 b) = BitVec.ofNat 32 c.val) (k : Fin 20) (d : Fin 40) :
    RefSelf.traj (F := Ideal) obs init sl (ix3 b k d) = Cert.Spec.traj obs init c b k d := by
  unfold Cert.Spec.traj
  split
  · next h => exact traj_apply_obs obs init sl b k d h
  · next h => rw [traj_apply_take obs init sl b k d h, take_apply sl b c hc]

end Cert.ReferenceIdeal.RefSelfValue

end
-- ==== Proof.RefSelfLevel.lean ====
/-
  One level's expert read at an index, over the extended reals: the contraction of the trajectory's
  40 numbers with the class's weight row, plus the bias.
-/
import Idealize.ShloMosaic.Lib.Pipeline.Value
import Idealize.ShloMosaic.Lib.ValueIdx
import Idealize.ShloMosaic.PureOps.Ideal.Laws
import proofs.«108484_g15788299780126_cont_week2b_740_2_alg».proof.Proof.RefSelfTerm

noncomputable section

open scoped BigOperators

namespace Cert.ReferenceIdeal.RefSelfValue

open Idealize.ShloMosaic Idealize.ShloMosaic.ValueIdx
open Cert.ReferenceIdeal Cert.ReferenceIdeal.RefSelf

variable [Facts₀]
open Facts₀

/-- The contraction has one axis … -/
theorem dot_rank : dot_S4096x20x40_S128x40_S4096x20x128_2_1_01_0_n_n.contr.rank = 1 := rfl
/-- … of extent 40. -/
theorem dot_size : dot_S4096x20x40_S128x40_S4096x20x128_2_1_01_0_n_n.contr.size ⟨0, by rw [dot_rank]; exact Nat.one_pos⟩ = 40 := rfl

/-- At result index `(b, k, e)` and contraction position `d` the left operand is read at `(b, k, d)`, the right at `(e, d)`. -/
theorem dot_idx (b : Fin 4096) (k : Fin 20) (e : Fin 128) (d : Fin 40) :
    dot_S4096x20x40_S128x40_S4096x20x128_2_1_01_0_n_n.lhsIdx (ix3 b k e) ((contrEquiv1 dot_S4096x20x40_S128x40_S4096x20x128_2_1_01_0_n_n 40 dot_rank dot_size).symm d) = ix3 b k d
      ∧ dot_S4096x20x40_S128x40_S4096x20x128_2_1_01_0_n_n.rhsIdx (ix3 b k e) ((contrEquiv1 dot_S4096x20x40_S128x40_S4096x20x128_2_1_01_0_n_n 40 dot_rank dot_size).symm d) = ix2 e d := by
  constructor
  · funext a
    refine Fin.ext ?_
    match a with
    | ⟨0, _⟩ => rfl
    | ⟨1, _⟩ => rfl
    | ⟨2, _⟩ =>
      show (dot_S4096x20x40_S128x40_S4096x20x128_2_1_01_0_n_n.lhsIdx (ix3 b k e) ((contrEquiv1 dot_S4096x20x40_S128x40_S4096x20x128_2_1_01_0_n_n 40 dot_rank dot_size).symm d) (2 : Fin 3)).val = d.val
      rw [DotDims.lhsIdx_val_of_single dot_S4096x20x40_S128x40_S4096x20x128_2_1_01_0_n_n (cl := (2 : Fin 3)) rfl]
      exact contrEquiv1_symm_val dot_S4096x20x40_S128x40_S4096x20x128_2_1_01_0_n_n 40 dot_rank dot_size d
  · funext a
    refine Fin.ext ?_
    match a with
    | ⟨0, _⟩ => rfl
    | ⟨1, _⟩ =>
      show (dot_S4096x20x40_S128x40_S4096x20x128_2_1_01_0_n_n.rhsIdx (ix3 b k e) ((contrEquiv1 dot_S4096x20x40_S128x40_S4096x20x128_2_1_01_0_n_n 40 dot_rank dot_size).symm d) (1 : Fin 2)).val = d.val
      rw [DotDims.rhsIdx_val_of_single dot_S4096x20x40_S128x40_S4096x20x128_2_1_01_0_n_n (cr := (1 : Fin 2)) rfl]
      exact contrEquiv1_symm_val dot_S4096x20x40_S128x40_S4096x20x128_2_1_01_0_n_n 40 dot_rank dot_size d

/-- The host's `dot_general` of trajectories and a weight matrix over the extended reals, at `(b, k, e)`. -/
theorem dot_apply (tr : FVec Ideal S4096x20x40 .f32) (Wi : FVec Ideal S128x40 .f32) (b : Fin 4096) (k : Fin 20) (e : Fin 128) :
    Host.dotGeneral (F := Ideal) dot_S4096x20x40_S128x40_S4096x20x128_2_1_01_0_n_n none tr Wi (ix3 b k e) = ∑ d : Fin 40, tr (ix3 b k d) * Wi (ix2 e d) := by
  unfold Host.dotGeneral
  rw [Ideal.dotGeneral_apply]
  rw [← Equiv.sum_comp (contrEquiv1 dot_S4096x20x40_S128x40_S4096x20x128_2_1_01_0_n_n 40 dot_rank dot_size).symm]
  refine Finset.sum_congr rfl fun d _ => ?_
  obtain ⟨hl, hr⟩ := dot_idx b k e d
  rw [hl, hr]

/-- The bias spread over `[4096,20,128]` reads, at `(b, k, e)`, its entry `e`. -/
theorem biasRep_apply {α : Type} (bi : S128.Idx → α) (b : Fin 4096) (k : Fin 20) (e : Fin 128) :
    broadcastInDim S4096x20x128 ![0, 1, 2] bcast_S1x1x128_S4096x20x128_0_1_2
      (broadcastInDim S1x1x128 ![2] bcast_S128_S1x1x128_2 bi) (ix3 b k e) = bi (ix1 e) := by
  refine (broadcastInDim_apply _ _ _ _ (ix3 (0 : Fin 1) (0 : Fin 1) e) fun a => ?_).trans ?_
  · match a with
    | ⟨0, _⟩ => rfl
    | ⟨1, _⟩ => rfl
    | ⟨2, _⟩ => rfl
  · refine broadcastInDim_apply _ _ _ _ (ix1 e) fun a => ?_
    match a with
    | ⟨0, _⟩ => rfl

/-- ONE LEVEL'S EXPERT AT `(b, k, e)`: `Σ_d tr(b,k,d) · Wi(e,d) + bi(e)`. -/
theorem levelOut_apply (Wi : FVec Ideal S128x40 .f32) (bi : FVec Ideal S128 .f32) (tr : FVec Ideal S4096x20x40 .f32)
    (b : Fin 4096) (k : Fin 20) (e : Fin 128) :
    levelOut (F := Ideal) Wi bi tr (ix3 b k e) = (∑ d : Fin 40, tr (ix3 b k d) * Wi (ix2 e d)) + bi (ix1 e) := by
  unfold levelOut
  rw [addf_apply, dot_apply, biasRep_apply]

end Cert.ReferenceIdeal.RefSelfValue

end
-- ==== Proof.RefSelfSlices.lean ====
/-
  The eight slices of the weights and of the biases, read at an index: class `i`'s weight matrix at `(e, d)` is the
  weight array at `(i, e, d)`, its bias at `e` the bias array at `(i, e)`.
-/
import Idealize.ShloMosaic.Lib.Pipeline.Value
import Idealize.ShloMosaic.Lib.ValueIdx
import proofs.«108484_g15788299780126_cont_week2b_740_2_alg».proof.Proof.RefSelfTerm

noncomputable section

open scoped BigOperators

namespace Cert.ReferenceIdeal.RefSelfValue

open Idealize.ShloMosaic Idealize.ShloMosaic.ValueIdx
open Cert.ReferenceIdeal Cert.ReferenceIdeal.RefSelf

variable {F : FTy → Type} [FloatOps F] [Facts₀]
open Facts₀

/-- Class 0's weight matrix at `(e, d)` is the weight array at `(0, e, d)`. -/
theorem W0_apply (Ws : FVec F S8x128x40 .f32) (e : Fin 128) (d : Fin 40) :
    W0 Ws (ix2 e d) = Ws (ix3 (0 : Fin 8) e d) := by
  unfold W0
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (0 : Fin 8) e d) fun a => ?_
    match a with
    | ⟨0, _⟩ => rfl
    | ⟨1, _⟩ => exact (Nat.zero_add _).symm
    | ⟨2, _⟩ => exact (Nat.zero_add _).symm

/-- Class 0's bias at `e` is the bias array at `(0, e)`. -/
theorem b0_apply (bs : FVec F S8x128 .f32) (e : Fin 128) :
    b0 bs (ix1 e) = bs (ix2 (0 : Fin 8) e) := by
  unfold b0
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (0 : Fin 8) e) fun a => ?_
    match a with
    | ⟨0, _⟩ => rfl
    | ⟨1, _⟩ => exact (Nat.zero_add _).symm

/-- Class 1's weight matrix at `(e, d)` is the weight array at `(1, e, d)`. -/
theorem W1_apply (Ws : FVec F S8x128x40 .f32) (e : Fin 128) (d : Fin 40) :
    W1 Ws (ix2 e d) = Ws (ix3 (1 : Fin 8) e d) := by
  unfold W1
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (1 : Fin 8) e d) fun a => ?_
    match a with
    | ⟨0, _⟩ => rfl
    | ⟨1, _⟩ => exact (Nat.zero_add _).symm
    | ⟨2, _⟩ => exact (Nat.zero_add _).symm

/-- Class 1's bias at `e` is the bias array at `(1, e)`. -/
theorem b1_apply (bs : FVec F S8x128 .f32) (e : Fin 128) :
    b1 bs (ix1 e) = bs (ix2 (1 : Fin 8) e) := by
  unfold b1
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (1 : Fin 8) e) fun a => ?_
    match a with
    | ⟨0, _⟩ => rfl
    | ⟨1, _⟩ => exact (Nat.zero_add _).symm

/-- Class 2's weight matrix at `(e, d)` is the weight array at `(2, e, d)`. -/
theorem W2_apply (Ws : FVec F S8x128x40 .f32) (e : Fin 128) (d : Fin 40) :
    W2 Ws (ix2 e d) = Ws (ix3 (2 : Fin 8) e d) := by
  unfold W2
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (2 : Fin 8) e d) fun a => ?_
    match a with
    | ⟨0, _⟩ => rfl
    | ⟨1, _⟩ => exact (Nat.zero_add _).symm
    | ⟨2, _⟩ => exact (Nat.zero_add _).symm

/-- Class 2's bias at `e` is the bias array at `(2, e)`. -/
theorem b2_apply (bs : FVec F S8x128 .f32) (e : Fin 128) :
    b2 bs (ix1 e) = bs (ix2 (2 : Fin 8) e) := by
  unfold b2
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (2 : Fin 8) e) fun a => ?_
    match a with
    | ⟨0, _⟩ => rfl
    | ⟨1, _⟩ => exact (Nat.zero_add _).symm

/-- Class 3's weight matrix at `(e, d)` is the weight array at `(3, e, d)`. -/
theorem W3_apply (Ws : FVec F S8x128x40 .f32) (e : Fin 128) (d : Fin 40) :
    W3 Ws (ix2 e d) = Ws (ix3 (3 : Fin 8) e d) := by
  unfold W3
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (3 : Fin 8) e d) fun a => ?_
    match a with
    | ⟨0, _⟩ => rfl
    | ⟨1, _⟩ => exact (Nat.zero_add _).symm
    | ⟨2, _⟩ => exact (Nat.zero_add _).symm

/-- Class 3's bias at `e` is the bias array at `(3, e)`. -/
theorem b3_apply (bs : FVec F S8x128 .f32) (e : Fin 128) :
    b3 bs (ix1 e) = bs (ix2 (3 : Fin 8) e) := by
  unfold b3
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (3 : Fin 8) e) fun a => ?_
    match a with
    | ⟨0, _⟩ => rfl
    | ⟨1, _⟩ => exact (Nat.zero_add _).symm

/-- Class 4's weight matrix at `(e, d)` is the weight array at `(4, e, d)`. -/
theorem W4_apply (Ws : FVec F S8x128x40 .f32) (e : Fin 128) (d : Fin 40) :
    W4 Ws (ix2 e d) = Ws (ix3 (4 : Fin 8) e d) := by
  unfold W4
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (4 : Fin 8) e d) fun a => ?_
    match a with
    | ⟨0, _⟩ => rfl
    | ⟨1, _⟩ => exact (Nat.zero_add _).symm
    | ⟨2, _⟩ => exact (Nat.zero_add _).symm

/-- Class 4's bias at `e` is the bias array at `(4, e)`. -/
theorem b4_apply (bs : FVec F S8x128 .f32) (e : Fin 128) :
    b4 bs (ix1 e) = bs (ix2 (4 : Fin 8) e) := by
  unfold b4
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (4 : Fin 8) e) fun a => ?_
    match a with
    | ⟨0, _⟩ => rfl
    | ⟨1, _⟩ => exact (Nat.zero_add _).symm

/-- Class 5's weight matrix at `(e, d)` is the weight array at `(5, e, d)`. -/
theorem W5_apply (Ws : FVec F S8x128x40 .f32) (e : Fin 128) (d : Fin 40) :
    W5 Ws (ix2 e d) = Ws (ix3 (5 : Fin 8) e d) := by
  unfold W5
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (5 : Fin 8) e d) fun a => ?_
    match a with
    | ⟨0, _⟩ => rfl
    | ⟨1, _⟩ => exact (Nat.zero_add _).symm
    | ⟨2, _⟩ => exact (Nat.zero_add _).symm

/-- Class 5's bias at `e` is the bias array at `(5, e)`. -/
theorem b5_apply (bs : FVec F S8x128 .f32) (e : Fin 128) :
    b5 bs (ix1 e) = bs (ix2 (5 : Fin 8) e) := by
  unfold b5
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (5 : Fin 8) e) fun a => ?_
    match a with
    | ⟨0, _⟩ => rfl
    | ⟨1, _⟩ => exact (Nat.zero_add _).symm

/-- Class 6's weight matrix at `(e, d)` is the weight array at `(6, e, d)`. -/
theorem W6_apply (Ws : FVec F S8x128x40 .f32) (e : Fin 128) (d : Fin 40) :
    W6 Ws (ix2 e d) = Ws (ix3 (6 : Fin 8) e d) := by
  unfold W6
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (6 : Fin 8) e d) fun a => ?_
    match a with
    | ⟨0, _⟩ => rfl
    | ⟨1, _⟩ => exact (Nat.zero_add _).symm
    | ⟨2, _⟩ => exact (Nat.zero_add _).symm

/-- Class 6's bias at `e` is the bias array at `(6, e)`. -/
theorem b6_apply (bs : FVec F S8x128 .f32) (e : Fin 128) :
    b6 bs (ix1 e) = bs (ix2 (6 : Fin 8) e) := by
  unfold b6
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (6 : Fin 8) e) fun a => ?_
    match a with
    | ⟨0, _⟩ => rfl
    | ⟨1, _⟩ => exact (Nat.zero_add _).symm

/-- Class 7's weight matrix at `(e, d)` is the weight array at `(7, e, d)`. -/
theorem W7_apply (Ws : FVec F S8x128x40 .f32) (e : Fin 128) (d : Fin 40) :
    W7 Ws (ix2 e d) = Ws (ix3 (7 : Fin 8) e d) := by
  unfold W7
  refine (shapeCast_apply _ _ _ (ix3 (0 : Fin 1) e d) ?_).trans ?_
  · rw [Shape.rowMajor_val_three, Shape.rowMajor_val_two]
    show (0 * 128 + e.val) * 40 + d.val = e.val * 40 + d.val
    omega
  · refine extractStridedSlice_apply _ _ _ _ (ix3 (7 : Fin 8) e d) fun a => ?_
    match a with
    | ⟨0, _⟩ => rfl
    | ⟨1, _⟩ => exact (Nat.zero_add _).symm
    | ⟨2, _⟩ => exact (Nat.zero_add _).symm

/-- Class 7's bias at `e` is the bias array at `(7, e)`. -/
theorem b7_apply (bs : FVec F S8x128 .f32) (e : Fin 128) :
    b7 bs (ix1 e) = bs (ix2 (7 : Fin 8) e) := by
  unfold b7
  refine (shapeCast_apply _ _ _ (ix2 (0 : Fin 1) e) ?_).trans ?_
  · rw [Shape.rowMajor_val_two, Shape.rowMajor_val_one]
    show 0 * 128 + e.val = e.val
    omega
  · refine extractStridedSlice_apply _ _ _ _ (ix2 (7 : Fin 8) e) fun a => ?_
    match a with
    | ⟨0, _⟩ => rfl
    | ⟨1, _⟩ => exact (Nat.zero_add _).symm

end Cert.ReferenceIdeal.RefSelfValue

end
-- ==== Proof.RefSelfValue.lean ====
/-
  The chain of eight selects is the specification.

  At `(b, k, e)` one level is "if the label of `b` is class `i`'s word then class `i`'s expert else the previous
  level", so the chain is the expert of the first class, from 7 down to 0, whose word the label is, and the zero
  constant if it is none's.  Where the label is class `c`'s word the trajectory the expert reads is the
  specification's under class `c` (the take reads class `c`'s block there), so the level's expert is the
  specification's expert of class `c`; and the specification's routed sum has that one live term, or none.
-/
import Idealize.ShloMosaic.Lib.Pipeline.Value
import Idealize.ShloMosaic.Lib.ValueIdx
import Idealize.ShloMosaic.Lib.Affine
import Idealize.ShloMosaic.PureOps.Ideal.Laws
import proofs.«108484_g15788299780126_cont_week2b_740_2_alg».proof.Proof.Spec
import proofs.«108484_g15788299780126_cont_week2b_740_2_alg».proof.Proof.RefSelfTraj
import proofs.«108484_g15788299780126_cont_week2b_740_2_alg».proof.Proof.RefSelfLevel
import proofs.«108484_g15788299780126_cont_week2b_740_2_alg».proof.Proof.RefSelfSlices

noncomputable section

open scoped BigOperators

namespace Cert.ReferenceIdeal.RefSelfValue

open Idealize.ShloMosaic Idealize.ShloMosaic.ValueIdx
open Cert.ReferenceIdeal Cert.ReferenceIdeal.RefSelf

variable [Facts₀]
open Facts₀

/-- The class mask at `(b, k, e)` is the comparison of row `b`'s label with the class's word. -/
theorem levelMask_apply (i : BitVec 32) (sl : IVec S4096 32) (b : Fin 4096) (k : Fin 20) (e : Fin 128) :
    levelMask i sl (ix3 b k e) = IntOp.cmpi .eq (sl (ix1 b)) i := by
  unfold levelMask
  refine (broadcastInDim_apply _ _ _ _ (ix3 b (0 : Fin 1) (0 : Fin 1)) fun a => ?_).trans ?_
  · match a with
    | ⟨0, _⟩ => rfl
    | ⟨1, _⟩ => rfl
    | ⟨2, _⟩ => rfl
  · refine (broadcastInDim_apply _ _ _ _ (ix1 b) fun a => ?_).trans rfl
    match a with
    | ⟨0, _⟩ => rfl

/-- One level at `(b, k, e)`: the class's expert if the label is the class's word, else the previous level. -/
theorem level_apply {F : FTy → Type} [FloatOps F] (i : BitVec 32) (Wi : FVec F S128x40 .f32) (bi : FVec F S128 .f32)
    (tr : FVec F S4096x20x40 .f32) (sl : IVec S4096 32) (prev : FVec F S4096x20x128 .f32)
    (b : Fin 4096) (k : Fin 20) (e : Fin 128) :
    level i Wi bi tr sl prev (ix3 b k e)
      = if sl (ix1 b) = i then levelOut Wi bi tr (ix3 b k e) else prev (ix3 b k e) := by
  unfold level
  rw [select_apply, levelMask_apply]
  by_cases h : sl (ix1 b) = i
  · rw [if_pos h, IntOp.cmpi_eq.mpr h, select_one]
  · rw [if_neg h, eq_zero_of_ne_one (fun h1 => h (IntOp.cmpi_eq.mp h1)), select_zero]

/-- The start of the chain is the extended real 0 everywhere. -/
theorem zeros_apply (j : S4096x20x128.Idx) : zeros (F := Ideal) j = 0 := by
  show Ideal.ofBits .f32 0x00000000#32 = 0
  exact Ideal.ofBits_zero_f32

/-- A level's expert over the reference's trajectories, at a row whose label is class `c`'s word and with class `c`'s
    weights and bias, is the specification's expert of class `c`. -/
theorem levelOut_eq_spec (obs : FVec Ideal S4096x8x2 .f32) (sl : IVec S4096 32) (init : FVec Ideal S8x20x12x2 .f32)
    (Ws : FVec Ideal S8x128x40 .f32) (bs : FVec Ideal S8x128 .f32) (b : Fin 4096) (c : Fin 8)
    (hc : sl (ix1 b) = BitVec.ofNat 32 c.val) (Wi : FVec Ideal S128x40 .f32) (bi : FVec Ideal S128 .f32)
    (hW : ∀ e d, Wi (ix2 e d) = Ws (ix3 c e d)) (hb : ∀ e, bi (ix1 e) = bs (ix2 c e)) (k : Fin 20) (e : Fin 128) :
    levelOut (F := Ideal) Wi bi (RefSelf.traj obs init sl) (ix3 b k e) = Cert.Spec.selfExpert obs init Ws bs c b k e := by
  rw [levelOut_apply, hb]
  unfold Cert.Spec.selfExpert
  congr 1
  refine Finset.sum_congr rfl fun d _ => ?_
  rw [traj_eq_spec obs init sl b c hc, hW]

/-- THE STAGE AT `(b, k, e)` is the specification's routed sum. -/
theorem term_apply (obs : FVec Ideal S4096x8x2 .f32) (sl : IVec S4096 32) (init : FVec Ideal S8x20x12x2 .f32)
    (Ws : FVec Ideal S8x128x40 .f32) (bs : FVec Ideal S8x128 .f32) (b : Fin 4096) (k : Fin 20) (e : Fin 128) :
    RefSelf.term (F := Ideal) obs sl init Ws bs (ix3 b k e) = Cert.Spec.selfAt obs sl init Ws bs b k e := by
  unfold RefSelf.term chain Cert.Spec.selfAt
  simp only [level_apply]
  by_cases h7 : sl (ix1 b) = 7#32
  · rw [if_pos h7, Cert.Spec.routed_hit (n := 8) (by omega) (sl (ix1 b))
      (fun c => Cert.Spec.selfExpert obs init Ws bs c b k e) (7 : Fin 8) h7]
    exact levelOut_eq_spec obs sl init Ws bs b (7 : Fin 8) h7 _ _ (W7_apply Ws) (b7_apply bs) k e
  rw [if_neg h7]
  by_cases h6 : sl (ix1 b) = 6#32
  · rw [if_pos h6, Cert.Spec.routed_hit (n := 8) (by omega) (sl (ix1 b))
      (fun c => Cert.Spec.selfExpert obs init Ws bs c b k e) (6 : Fin 8) h6]
    exact levelOut_eq_spec obs sl init Ws bs b (6 : Fin 8) h6 _ _ (W6_apply Ws) (b6_apply bs) k e
  rw [if_neg h6]
  by_cases h5 : sl (ix1 b) = 5#32
  · rw [if_pos h5, Cert.Spec.routed_hit (n := 8) (by omega) (sl (ix1 b))
      (fun c => Cert.Spec.selfExpert obs init Ws bs c b k e) (5 : Fin 8) h5]
    exact levelOut_eq_spec obs sl init Ws bs b (5 : Fin 8) h5 _ _ (W5_apply Ws) (b5_apply bs) k e
  rw [if_neg h5]
  by_cases h4 : sl (ix1 b) = 4#32
  · rw [if_pos h4, Cert.Spec.routed_hit (n := 8) (by omega) (sl (ix1 b))
      (fun c => Cert.Spec.selfExpert obs init Ws bs c b k e) (4 : Fin 8) h4]
    exact levelOut_eq_spec obs sl init Ws bs b (4 : Fin 8) h4 _ _ (W4_apply Ws) (b4_apply bs) k e
  rw [if_neg h4]
  by_cases h3 : sl (ix1 b) = 3#32
  · rw [if_pos h3, Cert.Spec.routed_hit (n := 8) (by omega) (sl (ix1 b))
      (fun c => Cert.Spec.selfExpert obs init Ws bs c b k e) (3 : Fin 8) h3]
    exact levelOut_eq_spec obs sl init Ws bs b (3 : Fin 8) h3 _ _ (W3_apply Ws) (b3_apply bs) k e
  rw [if_neg h3]
  by_cases h2 : sl (ix1 b) = 2#32
  · rw [if_pos h2, Cert.Spec.routed_hit (n := 8) (by omega) (sl (ix1 b))
      (fun c => Cert.Spec.selfExpert obs init Ws bs c b k e) (2 : Fin 8) h2]
    exact levelOut_eq_spec obs sl init Ws bs b (2 : Fin 8) h2 _ _ (W2_apply Ws) (b2_apply bs) k e
  rw [if_neg h2]
  by_cases h1 : sl (ix1 b) = 1#32
  · rw [if_pos h1, Cert.Spec.routed_hit (n := 8) (by omega) (sl (ix1 b))
      (fun c => Cert.Spec.selfExpert obs init Ws bs c b k e) (1 : Fin 8) h1]
    exact levelOut_eq_spec obs sl init Ws bs b (1 : Fin 8) h1 _ _ (W1_apply Ws) (b1_apply bs) k e
  rw [if_neg h1]
  by_cases h0 : sl (ix1 b) = 0#32
  · rw [if_pos h0, Cert.Spec.routed_hit (n := 8) (by omega) (sl (ix1 b))
      (fun c => Cert.Spec.selfExpert obs init Ws bs c b k e) (0 : Fin 8) h0]
    exact levelOut_eq_spec obs sl init Ws bs b (0 : Fin 8) h0 _ _ (W0_apply Ws) (b0_apply bs) k e
  rw [if_neg h0]
  rw [zeros_apply, Cert.Spec.routed_miss]
  intro c
  fin_cases c
  · exact h0
  · exact h1
  · exact h2
  · exact h3
  · exact h4
  · exact h5
  · exact h6
  · exact h7

/-- THE REFERENCE'S SELF STAGE IS THE SPECIFICATION. -/
theorem term_eq_spec (obs : FVec Ideal S4096x8x2 .f32) (sl : IVec S4096 32) (init : FVec Ideal S8x20x12x2 .f32)
    (Ws : FVec Ideal S8x128x40 .f32) (bs : FVec Ideal S8x128 .f32) :
    RefSelf.term (F := Ideal) obs sl init Ws bs = Cert.Spec.selfSpec obs sl init Ws bs := by
  funext j
  obtain ⟨b, k, e, rfl⟩ : ∃ (b : Fin 4096) (k : Fin 20) (e : Fin 128), j = ix3 b k e := ⟨j 0, j 1, j 2, eq_ix3 j⟩
  rw [Cert.Spec.selfSpec_ix3]
  exact term_apply obs sl init Ws bs b k e

end Cert.ReferenceIdeal.RefSelfValue

end
-- ==== Proof.LibStackDot.lean ====
/-
  A product of a stack of matrices with one matrix contracted on its second axis, read at an index.

  For the dimension numbers of a `[B, N, K] × [E, K] → [B, N, E]` product — the left operand contracted on its last
  axis, the right on its second, no batch axis, that is `x[b] · wᵀ` for every `b` — the contraction index has one
  coordinate, ranging over `Fin K`; at the result index `(b, n, e)` and contraction position `k` the left operand is
  read at `(b, n, k)` and the right at `(e, k)`. So a sum over the contraction index of any function of the two operand
  indices is the sum over `k : Fin K` of that function at `(b, n, k)` and `(e, k)`; in particular the host's
  `dot_general` with these dimension numbers, over the extended reals, is at `(b, n, e)` the sum over `k` of
  `x (b, n, k) · w (e, k)`. Nothing here uses finiteness: it is a re-indexing of one sum.
-/
import Idealize.ShloMosaic.PureOps.Dims
import Idealize.ShloMosaic.PureOps.Ideal.Laws
import Idealize.ShloMosaic.Lib.ValueIdx

noncomputable section

namespace Cert.StackDot

open Idealize.ShloMosaic Idealize.ShloMosaic.ValueIdx

/-- The left operand's index at result index `(b, n, e)` and contraction position `k` is `(b, n, k)`, the right
    operand's `(e, k)`, for any record with these dimension numbers. -/
theorem stack_idx {B N K E : Nat} (d : DotDims ⟨3, ![B, N, K]⟩ ⟨2, ![E, K]⟩ ⟨3, ![B, N, E]⟩)
    (h1 : d.lhsContracting = [2]) (h2 : d.rhsContracting = [1]) (h3 : d.lhsNonContracting = [0, 1])
    (h4 : d.rhsNonContracting = [0]) (h5 : d.lhsBatch = []) (h6 : d.rhsBatch = [])
    (hr : d.contr.rank = 1) (hs : d.contr.size ⟨0, by omega⟩ = K) (b : Fin B) (n : Fin N) (e : Fin E) (k : Fin K) :
    d.lhsIdx (ix3 b n e) ((contrEquiv1 d K hr hs).symm k) = ix3 b n k
      ∧ d.rhsIdx (ix3 b n e) ((contrEquiv1 d K hr hs).symm k) = ix2 e k := by
  have key : ∀ (p q : Nat) (hp : p < 3) (hq : q < 3), p = q →
      ((ix3 b n e : (⟨3, ![B, N, E]⟩ : Shape).Idx) ⟨p, hp⟩).val = ((ix3 b n e : (⟨3, ![B, N, E]⟩ : Shape).Idx) ⟨q, hq⟩).val :=
    fun p q hp hq h => by subst h; rfl
  constructor
  · funext a
    refine Fin.ext ?_
    match a with
    | ⟨0, _⟩ =>
      show (d.lhsIdx (ix3 b n e) ((contrEquiv1 d K hr hs).symm k) 0).val = b.val
      unfold DotDims.lhsIdx
      rw [dif_neg (by rw [h5]; exact List.not_mem_nil), dif_pos (by rw [h3]; simp)]
      simp only [Fin.val_cast]
      exact key _ 0 _ (by decide) (by simp [h5, h3])
    | ⟨1, _⟩ =>
      show (d.lhsIdx (ix3 b n e) ((contrEquiv1 d K hr hs).symm k) 1).val = n.val
      unfold DotDims.lhsIdx
      rw [dif_neg (by rw [h5]; exact List.not_mem_nil), dif_pos (by rw [h3]; simp)]
      simp only [Fin.val_cast]
      exact key _ 1 _ (by decide) (by simp [h5, h3])
    | ⟨2, _⟩ =>
      show (d.lhsIdx (ix3 b n e) ((contrEquiv1 d K hr hs).symm k) 2).val = k.val
      rw [d.lhsIdx_val_of_single h1]
      exact contrEquiv1_symm_val d K hr hs k
  · funext a
    refine Fin.ext ?_
    match a with
    | ⟨0, _⟩ =>
      show (d.rhsIdx (ix3 b n e) ((contrEquiv1 d K hr hs).symm k) 0).val = e.val
      unfold DotDims.rhsIdx
      rw [dif_neg (by rw [h6]; exact List.not_mem_nil), dif_pos (by rw [h4]; exact List.mem_singleton.mpr rfl)]
      simp only [Fin.val_cast]
      exact key _ 2 _ (by decide) (by simp [h5, h3, h4])
    | ⟨1, _⟩ =>
      show (d.rhsIdx (ix3 b n e) ((contrEquiv1 d K hr hs).symm k) 1).val = k.val
      rw [d.rhsIdx_val_of_single h2]
      exact contrEquiv1_symm_val d K hr hs k

/-- THE CONTRACTION SUM at `(b, n, e)`: the sum over `k : Fin K` at the operand indices `(b, n, k)` and `(e, k)`, in
    any commutative additive monoid. -/
theorem stack_sum {β : Type*} [AddCommMonoid β] {B N K E : Nat} (d : DotDims ⟨3, ![B, N, K]⟩ ⟨2, ![E, K]⟩ ⟨3, ![B, N, E]⟩)
    (h1 : d.lhsContracting = [2]) (h2 : d.rhsContracting = [1]) (h3 : d.lhsNonContracting = [0, 1])
    (h4 : d.rhsNonContracting = [0]) (h5 : d.lhsBatch = []) (h6 : d.rhsBatch = [])
    (hr : d.contr.rank = 1) (hs : d.contr.size ⟨0, by omega⟩ = K)
    (f : (⟨3, ![B, N, K]⟩ : Shape).Idx → (⟨2, ![E, K]⟩ : Shape).Idx → β) (b : Fin B) (n : Fin N) (e : Fin E) :
    ∑ q : d.contr.Idx, f (d.lhsIdx (ix3 b n e) q) (d.rhsIdx (ix3 b n e) q) = ∑ k : Fin K, f (ix3 b n k) (ix2 e k) := by
  rw [← Equiv.sum_comp (contrEquiv1 d K hr hs).symm]
  refine Finset.sum_congr rfl fun k _ => ?_
  obtain ⟨hl, hr'⟩ := stack_idx d h1 h2 h3 h4 h5 h6 hr hs b n e k
  rw [hl, hr']

/-- The host's `dot_general` of `x[b] · wᵀ` over the extended reals, at `(b, n, e)`: the sum over `k` of
    `x (b, n, k) · w (e, k)`. -/
theorem hostDot_apply {B N K E : Nat} {φ₁ φ₂ : FTy} (d : DotDims ⟨3, ![B, N, K]⟩ ⟨2, ![E, K]⟩ ⟨3, ![B, N, E]⟩)
    (h1 : d.lhsContracting = [2]) (h2 : d.rhsContracting = [1]) (h3 : d.lhsNonContracting = [0, 1])
    (h4 : d.rhsNonContracting = [0]) (h5 : d.lhsBatch = []) (h6 : d.rhsBatch = [])
    (hr : d.contr.rank = 1) (hs : d.contr.size ⟨0, by omega⟩ = K) (prec : Option ContractPrecision)
    (x : FVec Ideal ⟨3, ![B, N, K]⟩ φ₁) (w : FVec Ideal ⟨2, ![E, K]⟩ φ₂) (b : Fin B) (n : Fin N) (e : Fin E) :
    Host.dotGeneral (F := Ideal) d prec x w (ix3 b n e) = ∑ k : Fin K, x (ix3 b n k) * w (ix2 e k) := by
  unfold Host.dotGeneral
  rw [Ideal.dotGeneral_apply]
  exact stack_sum d h1 h2 h3 h4 h5 h6 hr hs (fun i j => x i * w j) b n e

end Cert.StackDot

end
-- ==== Proof.RefNeiRead.lean ====
/-
  The reference's neighbour stage, read at an index, piece by piece.

  * The row-major reshape `[4096, 64, 8, 2] → [4096, 64, 16]` reads column `d` at `(d / 2, d % 2)`.
  * The transformed coordinates are the specification's `tnei` of the neighbour coordinates, entry by entry.
  * A class's weight slice cast to `[128, 16]` reads the weights at that class; likewise its bias row.
  * One class's expert at `(b, n, e)` is the specification's `neiExpert`: the contraction is the sum over the sixteen
    coordinates (no finiteness: a re-indexing of one sum).
-/
import proofs.«108484_g15788299780126_cont_week2b_740_2_alg».proof.Proof.RefNeiTerm
import proofs.«108484_g15788299780126_cont_week2b_740_2_alg».proof.Proof.Spec
import proofs.«108484_g15788299780126_cont_week2b_740_2_alg».proof.Proof.LibStackDot
import Idealize.ShloMosaic.Lib.ValueLayout
import Idealize.ShloMosaic.Lib.Pipeline.Value

noncomputable section

open scoped BigOperators

namespace Cert.ReferenceIdeal.RefNeiValue

open Idealize.ShloMosaic Idealize.ShloMosaic.ValueIdx
open Cert.ReferenceIdeal
open Cert.ReferenceIdeal.Facts₀ Cert.ReferenceIdeal.Facts

variable [Facts]

/-- The reshape reads column `d` of row `(b, n)` at `(b, n, d / 2, d % 2)`. -/
theorem flat_apply (neis : FVec Ideal S4096x64x8x2 .f32) (b : Fin 4096) (n : Fin 64) (d : Fin 16) :
    RefNei.flat neis (ix3 b n d)
      = neis (ix4 b n (⟨d.val / 2, by omega⟩ : Fin 8) (⟨d.val % 2, by omega⟩ : Fin 2)) := by
  unfold RefNei.flat
  refine shapeCast_apply neis shapeCasts_S4096x64x8x2_S4096x64x16 _ _ ?_
  rw [Shape.rowMajor_val_four, Shape.rowMajor_val_three]
  show ((b.val * 64 + n.val) * 8 + d.val / 2) * 2 + d.val % 2 = (b.val * 64 + n.val) * 16 + d.val
  omega

/-- The transformed coordinates, entry by entry. -/
theorem tneis_apply (neis : FVec Ideal S4096x64x8x2 .f32) (b : Fin 4096) (n : Fin 64) (d : Fin 16) :
    RefNei.tneis neis (ix3 b n d)
      = Cert.Spec.tnei (neis (ix4 b n (⟨d.val / 2, by omega⟩ : Fin 8) (⟨d.val % 2, by omega⟩ : Fin 2))) := by
  have h : RefNei.tneis neis (ix3 b n d) = Cert.Spec.tnei (RefNei.flat neis (ix3 b n d)) := rfl
  rw [h, flat_apply]

/-- A class's weight slice, cast to `[128, 16]`, reads the weights at that class. -/
theorem sliceW (o : Nat) (ho : o < 9) (h : S9x128x16.Slices ![o, 0, 0] S1x128x16) (Wn : FVec Ideal S9x128x16 .f32)
    (e : Fin 128) (k : Fin 16) :
    shapeCast S128x16 (extractStridedSlice S1x128x16 ![o, 0, 0] Wn h) shapeCasts_S1x128x16_S128x16 (ix2 e k)
      = Wn (ix3 (⟨o, ho⟩ : Fin 9) e k) := by
  refine (shapeCast_1ab_ab_apply _ shapeCasts_S1x128x16_S128x16 e k).trans ?_
  refine extractStridedSlice_apply _ Wn h _ _ fun a => ?_
  match a with
  | ⟨0, _⟩ => rfl
  | ⟨1, _⟩ => exact (Nat.zero_add _).symm
  | ⟨2, _⟩ => exact (Nat.zero_add _).symm

/-- A class's bias slice, cast to `[128]`, reads the biases at that class. -/
theorem sliceB (o : Nat) (ho : o < 9) (h : S9x128.Slices ![o, 0] S1x128) (bn : FVec Ideal S9x128 .f32) (e : Fin 128) :
    shapeCast S128 (extractStridedSlice S1x128 ![o, 0] bn h) shapeCasts_S1x128_S128 (ix1 e)
      = bn (ix2 (⟨o, ho⟩ : Fin 9) e) := by
  refine (shapeCast_1a_a_apply _ shapeCasts_S1x128_S128 e).trans ?_
  refine extractStridedSlice_apply _ bn h _ _ fun a => ?_
  match a with
  | ⟨0, _⟩ => rfl
  | ⟨1, _⟩ => exact (Nat.zero_add _).symm

theorem W0_apply (Wn : FVec Ideal S9x128x16 .f32) (e : Fin 128) (k : Fin 16) :
    RefNei.W0 Wn (ix2 e k) = Wn (ix3 (0 : Fin 9) e k) :=
  sliceW 0 (by omega) slices_S9x128x16_S1x128x16_0_0_0 Wn e k

theorem b0_apply (bn : FVec Ideal S9x128 .f32) (e : Fin 128) :
    RefNei.b0 bn (ix1 e) = bn (ix2 (0 : Fin 9) e) :=
  sliceB 0 (by omega) slices_S9x128_S1x128_0_0 bn e

theorem W1_apply (Wn : FVec Ideal S9x128x16 .f32) (e : Fin 128) (k : Fin 16) :
    RefNei.W1 Wn (ix2 e k) = Wn (ix3 (1 : Fin 9) e k) :=
  sliceW 1 (by omega) slices_S9x128x16_S1x128x16_1_0_0 Wn e k

theorem b1_apply (bn : FVec Ideal S9x128 .f32) (e : Fin 128) :
    RefNei.b1 bn (ix1 e) = bn (ix2 (1 : Fin 9) e) :=
  sliceB 1 (by omega) slices_S9x128_S1x128_1_0 bn e

theorem W2_apply (Wn : FVec Ideal S9x128x16 .f32) (e : Fin 128) (k : Fin 16) :
    RefNei.W2 Wn (ix2 e k) = Wn (ix3 (2 : Fin 9) e k) :=
  sliceW 2 (by omega) slices_S9x128x16_S1x128x16_2_0_0 Wn e k

theorem b2_apply (bn : FVec Ideal S9x128 .f32) (e : Fin 128) :
    RefNei.b2 bn (ix1 e) = bn (ix2 (2 : Fin 9) e) :=
  sliceB 2 (by omega) slices_S9x128_S1x128_2_0 bn e

theorem W3_apply (Wn : FVec Ideal S9x128x16 .f32) (e : Fin 128) (k : Fin 16) :
    RefNei.W3 Wn (ix2 e k) = Wn (ix3 (3 : Fin 9) e k) :=
  sliceW 3 (by omega) slices_S9x128x16_S1x128x16_3_0_0 Wn e k

theorem b3_apply (bn : FVec Ideal S9x128 .f32) (e : Fin 128) :
    RefNei.b3 bn (ix1 e) = bn (ix2 (3 : Fin 9) e) :=
  sliceB 3 (by omega) slices_S9x128_S1x128_3_0 bn e

theorem W4_apply (Wn : FVec Ideal S9x128x16 .f32) (e : Fin 128) (k : Fin 16) :
    RefNei.W4 Wn (ix2 e k) = Wn (ix3 (4 : Fin 9) e k) :=
  sliceW 4 (by omega) slices_S9x128x16_S1x128x16_4_0_0 Wn e k

theorem b4_apply (bn : FVec Ideal S9x128 .f32) (e : Fin 128) :
    RefNei.b4 bn (ix1 e) = bn (ix2 (4 : Fin 9) e) :=
  sliceB 4 (by omega) slices_S9x128_S1x128_4_0 bn e

theorem W5_apply (Wn : FVec Ideal S9x128x16 .f32) (e : Fin 128) (k : Fin 16) :
    RefNei.W5 Wn (ix2 e k) = Wn (ix3 (5 : Fin 9) e k) :=
  sliceW 5 (by omega) slices_S9x128x16_S1x128x16_5_0_0 Wn e k

theorem b5_apply (bn : FVec Ideal S9x128 .f32) (e : Fin 128) :
    RefNei.b5 bn (ix1 e) = bn (ix2 (5 : Fin 9) e) :=
  sliceB 5 (by omega) slices_S9x128_S1x128_5_0 bn e

theorem W6_apply (Wn : FVec Ideal S9x128x16 .f32) (e : Fin 128) (k : Fin 16) :
    RefNei.W6 Wn (ix2 e k) = Wn (ix3 (6 : Fin 9) e k) :=
  sliceW 6 (by omega) slices_S9x128x16_S1x128x16_6_0_0 Wn e k

theorem b6_apply (bn : FVec Ideal S9x128 .f32) (e : Fin 128) :
    RefNei.b6 bn (ix1 e) = bn (ix2 (6 : Fin 9) e) :=
  sliceB 6 (by omega) slices_S9x128_S1x128_6_0 bn e

theorem W7_apply (Wn : FVec Ideal S9x128x16 .f32) (e : Fin 128) (k : Fin 16) :
    RefNei.W7 Wn (ix2 e k) = Wn (ix3 (7 : Fin 9) e k) :=
  sliceW 7 (by omega) slices_S9x128x16_S1x128x16_7_0_0 Wn e k

theorem b7_apply (bn : FVec Ideal S9x128 .f32) (e : Fin 128) :
    RefNei.b7 bn (ix1 e) = bn (ix2 (7 : Fin 9) e) :=
  sliceB 7 (by omega) slices_S9x128_S1x128_7_0 bn e

theorem W8_apply (Wn : FVec Ideal S9x128x16 .f32) (e : Fin 128) (k : Fin 16) :
    RefNei.W8 Wn (ix2 e k) = Wn (ix3 (8 : Fin 9) e k) :=
  sliceW 8 (by omega) slices_S9x128x16_S1x128x16_8_0_0 Wn e k

theorem b8_apply (bn : FVec Ideal S9x128 .f32) (e : Fin 128) :
    RefNei.b8 bn (ix1 e) = bn (ix2 (8 : Fin 9) e) :=
  sliceB 8 (by omega) slices_S9x128_S1x128_8_0 bn e

/-- A bias row broadcast over the rows `(b, n)` reads, at `(b, n, e)`, its entry `e`. -/
theorem bias_apply (bi : FVec Ideal S128 .f32) (b : Fin 4096) (n : Fin 64) (e : Fin 128) :
    broadcastInDim S4096x64x128 ![0, 1, 2] bcast_S1x1x128_S4096x64x128_0_1_2
        (broadcastInDim S1x1x128 ![2] bcast_S128_S1x1x128_2 bi) (ix3 b n e) = bi (ix1 e) := by
  refine (broadcastInDim_apply _ bcast_S1x1x128_S4096x64x128_0_1_2 _ (ix3 b n e) (ix3 (0 : Fin 1) (0 : Fin 1) e) fun a => ?_).trans ?_
  · match a with
    | ⟨0, _⟩ => rfl
    | ⟨1, _⟩ => rfl
    | ⟨2, _⟩ => rfl
  · refine broadcastInDim_apply _ bcast_S128_S1x1x128_2 bi _ (ix1 e) fun a => ?_
    match a with
    | ⟨0, _⟩ => rfl

/-- One class's expert at `(b, n, e)`: the sum over the sixteen coordinates plus the bias. -/
theorem expert_apply (Wi : FVec Ideal S128x16 .f32) (bi : FVec Ideal S128 .f32) (t : FVec Ideal S4096x64x16 .f32)
    (b : Fin 4096) (n : Fin 64) (e : Fin 128) :
    RefNei.expert Wi bi t (ix3 b n e) = (∑ k : Fin 16, t (ix3 b n k) * Wi (ix2 e k)) + bi (ix1 e) := by
  unfold RefNei.expert
  rw [addf_apply]
  rw [Cert.StackDot.hostDot_apply dot_S4096x64x16_S128x16_S4096x64x128_2_1_01_0_n_n rfl rfl rfl rfl rfl rfl rfl rfl none t Wi b n e,
    bias_apply]

theorem out0 (neis : FVec Ideal S4096x64x8x2 .f32) (Wn : FVec Ideal S9x128x16 .f32) (bn : FVec Ideal S9x128 .f32)
    (b : Fin 4096) (n : Fin 64) (e : Fin 128) :
    RefNei.expert (RefNei.W0 Wn) (RefNei.b0 bn) (RefNei.tneis neis) (ix3 b n e) = Cert.Spec.neiExpert neis Wn bn (0 : Fin 9) b n e := by
  rw [expert_apply, b0_apply]
  unfold Cert.Spec.neiExpert
  refine congrArg (· + bn (ix2 (0 : Fin 9) e)) (Finset.sum_congr rfl fun k _ => ?_)
  rw [tneis_apply, W0_apply]

theorem out1 (neis : FVec Ideal S4096x64x8x2 .f32) (Wn : FVec Ideal S9x128x16 .f32) (bn : FVec Ideal S9x128 .f32)
    (b : Fin 4096) (n : Fin 64) (e : Fin 128) :
    RefNei.expert (RefNei.W1 Wn) (RefNei.b1 bn) (RefNei.tneis neis) (ix3 b n e) = Cert.Spec.neiExpert neis Wn bn (1 : Fin 9) b n e := by
  rw [expert_apply, b1_apply]
  unfold Cert.Spec.neiExpert
  refine congrArg (· + bn (ix2 (1 : Fin 9) e)) (Finset.sum_congr rfl fun k _ => ?_)
  rw [tneis_apply, W1_apply]

theorem out2 (neis : FVec Ideal S4096x64x8x2 .f32) (Wn : FVec Ideal S9x128x16 .f32) (bn : FVec Ideal S9x128 .f32)
    (b : Fin 4096) (n : Fin 64) (e : Fin 128) :
    RefNei.expert (RefNei.W2 Wn) (RefNei.b2 bn) (RefNei.tneis neis) (ix3 b n e) = Cert.Spec.neiExpert neis Wn bn (2 : Fin 9) b n e := by
  rw [expert_apply, b2_apply]
  unfold Cert.Spec.neiExpert
  refine congrArg (· + bn (ix2 (2 : Fin 9) e)) (Finset.sum_congr rfl fun k _ => ?_)
  rw [tneis_apply, W2_apply]

theorem out3 (neis : FVec Ideal S4096x64x8x2 .f32) (Wn : FVec Ideal S9x128x16 .f32) (bn : FVec Ideal S9x128 .f32)
    (b : Fin 4096) (n : Fin 64) (e : Fin 128) :
    RefNei.expert (RefNei.W3 Wn) (RefNei.b3 bn) (RefNei.tneis neis) (ix3 b n e) = Cert.Spec.neiExpert neis Wn bn (3 : Fin 9) b n e := by
  rw [expert_apply, b3_apply]
  unfold Cert.Spec.neiExpert
  refine congrArg (· + bn (ix2 (3 : Fin 9) e)) (Finset.sum_congr rfl fun k _ => ?_)
  rw [tneis_apply, W3_apply]

theorem out4 (neis : FVec Ideal S4096x64x8x2 .f32) (Wn : FVec Ideal S9x128x16 .f32) (bn : FVec Ideal S9x128 .f32)
    (b : Fin 4096) (n : Fin 64) (e : Fin 128) :
    RefNei.expert (RefNei.W4 Wn) (RefNei.b4 bn) (RefNei.tneis neis) (ix3 b n e) = Cert.Spec.neiExpert neis Wn bn (4 : Fin 9) b n e := by
  rw [expert_apply, b4_apply]
  unfold Cert.Spec.neiExpert
  refine congrArg (· + bn (ix2 (4 : Fin 9) e)) (Finset.sum_congr rfl fun k _ => ?_)
  rw [tneis_apply, W4_apply]

theorem out5 (neis : FVec Ideal S4096x64x8x2 .f32) (Wn : FVec Ideal S9x128x16 .f32) (bn : FVec Ideal S9x128 .f32)
    (b : Fin 4096) (n : Fin 64) (e : Fin 128) :
    RefNei.expert (RefNei.W5 Wn) (RefNei.b5 bn) (RefNei.tneis neis) (ix3 b n e) = Cert.Spec.neiExpert neis Wn bn (5 : Fin 9) b n e := by
  rw [expert_apply, b5_apply]
  unfold Cert.Spec.neiExpert
  refine congrArg (· + bn (ix2 (5 : Fin 9) e)) (Finset.sum_congr rfl fun k _ => ?_)
  rw [tneis_apply, W5_apply]

theorem out6 (neis : FVec Ideal S4096x64x8x2 .f32) (Wn : FVec Ideal S9x128x16 .f32) (bn : FVec Ideal S9x128 .f32)
    (b : Fin 4096) (n : Fin 64) (e : Fin 128) :
    RefNei.expert (RefNei.W6 Wn) (RefNei.b6 bn) (RefNei.tneis neis) (ix3 b n e) = Cert.Spec.neiExpert neis Wn bn (6 : Fin 9) b n e := by
  rw [expert_apply, b6_apply]
  unfold Cert.Spec.neiExpert
  refine congrArg (· + bn (ix2 (6 : Fin 9) e)) (Finset.sum_congr rfl fun k _ => ?_)
  rw [tneis_apply, W6_apply]

theorem out7 (neis : FVec Ideal S4096x64x8x2 .f32) (Wn : FVec Ideal S9x128x16 .f32) (bn : FVec Ideal S9x128 .f32)
    (b : Fin 4096) (n : Fin 64) (e : Fin 128) :
    RefNei.expert (RefNei.W7 Wn) (RefNei.b7 bn) (RefNei.tneis neis) (ix3 b n e) = Cert.Spec.neiExpert neis Wn bn (7 : Fin 9) b n e := by
  rw [expert_apply, b7_apply]
  unfold Cert.Spec.neiExpert
  refine congrArg (· + bn (ix2 (7 : Fin 9) e)) (Finset.sum_congr rfl fun k _ => ?_)
  rw [tneis_apply, W7_apply]

theorem out8 (neis : FVec Ideal S4096x64x8x2 .f32) (Wn : FVec Ideal S9x128x16 .f32) (bn : FVec Ideal S9x128 .f32)
    (b : Fin 4096) (n : Fin 64) (e : Fin 128) :
    RefNei.expert (RefNei.W8 Wn) (RefNei.b8 bn) (RefNei.tneis neis) (ix3 b n e) = Cert.Spec.neiExpert neis Wn bn (8 : Fin 9) b n e := by
  rw [expert_apply, b8_apply]
  unfold Cert.Spec.neiExpert
  refine congrArg (· + bn (ix2 (8 : Fin 9) e)) (Finset.sum_congr rfl fun k _ => ?_)
  rw [tneis_apply, W8_apply]

end Cert.ReferenceIdeal.RefNeiValue

end
-- ==== Proof.RefNeiValue.lean ====
/-
  The reference's neighbour stage is the specification.

  A routing level keeps the previous value except where the label is the level's class number, where it takes that
  class's expert. Nine levels from zeros are therefore: the expert of class 8 if the label is 8, else that of class 7
  if it is 7, …, else that of class 0 if it is 0, else 0. The nine class numbers are distinct words, so this chain is the
  sum over the classes of "the expert if the label is this class, else 0" (at most one term is not 0; when the label is
  no class number every term is 0). No finiteness is used.
-/
import proofs.«108484_g15788299780126_cont_week2b_740_2_alg».proof.Proof.RefNeiRead
import Idealize.ShloMosaic.Lib.Affine

noncomputable section

open scoped BigOperators

namespace Cert.ReferenceIdeal.RefNeiValue

open Idealize.ShloMosaic Idealize.ShloMosaic.ValueIdx
open Cert.ReferenceIdeal
open Cert.ReferenceIdeal.Facts₀ Cert.ReferenceIdeal.Facts

variable [Facts]

/-- The mask of a level, broadcast over the output channels, reads at `(b, n, e)` the bit of "the label of `(b, n)` is
    the level's word". -/
theorem mask_apply (i : BitVec 32) (nl : IVec S4096x64 32) (b : Fin 4096) (n : Fin 64) (e : Fin 128) :
    broadcastInDim S4096x64x128 ![0, 1, 2] bcast_S4096x64x1_S4096x64x128_0_1_2 (RefNei.mask i nl) (ix3 b n e)
      = IntOp.cmpi .eq (nl (ix2 b n)) i := by
  unfold RefNei.mask
  refine (broadcastInDim_apply _ bcast_S4096x64x1_S4096x64x128_0_1_2 _ (ix3 b n e) (ix3 b n (0 : Fin 1)) fun a => ?_).trans ?_
  · match a with
    | ⟨0, _⟩ => rfl
    | ⟨1, _⟩ => rfl
    | ⟨2, _⟩ => rfl
  · refine (broadcastInDim_apply _ bcast_S4096x64_S4096x64x1_0_1 _ (ix3 b n (0 : Fin 1)) (ix2 b n) fun a => ?_).trans ?_
    · match a with
      | ⟨0, _⟩ => rfl
      | ⟨1, _⟩ => rfl
    · rfl

/-- One routing level at `(b, n, e)`. -/
theorem level_apply (i : BitVec 32) (Wi : FVec Ideal S128x16 .f32) (bi : FVec Ideal S128 .f32) (t : FVec Ideal S4096x64x16 .f32)
    (nl : IVec S4096x64 32) (prev : FVec Ideal S4096x64x128 .f32) (b : Fin 4096) (n : Fin 64) (e : Fin 128) :
    RefNei.level i Wi bi t nl prev (ix3 b n e)
      = if nl (ix2 b n) = i then RefNei.expert Wi bi t (ix3 b n e) else prev (ix3 b n e) := by
  unfold RefNei.level
  rw [select_apply, mask_apply]
  by_cases h : nl (ix2 b n) = i
  · rw [if_pos h, IntOp.cmpi_eq.mpr h, select_one]
  · rw [if_neg h, eq_zero_of_ne_one (fun h' => h (IntOp.cmpi_eq.mp h')), select_zero]

/-- The initial value is zero everywhere. -/
theorem zeros_apply (j : S4096x64x128.Idx) : RefNei.zeros (F := Ideal) j = 0 := Ideal.ofBits_zero_f32

/-- The chain of nine tests against the distinct class numbers is the routed sum. -/
theorem chain_eq (x : BitVec 32) (f : Fin 9 → EReal) :
    (if x = 8#32 then f (8 : Fin 9) else
      (if x = 7#32 then f (7 : Fin 9) else
      (if x = 6#32 then f (6 : Fin 9) else
      (if x = 5#32 then f (5 : Fin 9) else
      (if x = 4#32 then f (4 : Fin 9) else
      (if x = 3#32 then f (3 : Fin 9) else
      (if x = 2#32 then f (2 : Fin 9) else
      (if x = 1#32 then f (1 : Fin 9) else
      (if x = 0#32 then f (0 : Fin 9) else
      (0))))))))))
      = ∑ c : Fin 9, if x = BitVec.ofNat 32 c.val then f c else 0 := by
  by_cases h8 : x = 8#32
  · rw [if_pos h8]; exact (Cert.Spec.routed_hit (le_refl 9) x f (8 : Fin 9) h8).symm
  rw [if_neg h8]
  by_cases h7 : x = 7#32
  · rw [if_pos h7]; exact (Cert.Spec.routed_hit (le_refl 9) x f (7 : Fin 9) h7).symm
  rw [if_neg h7]
  by_cases h6 : x = 6#32
  · rw [if_pos h6]; exact (Cert.Spec.routed_hit (le_refl 9) x f (6 : Fin 9) h6).symm
  rw [if_neg h6]
  by_cases h5 : x = 5#32
  · rw [if_pos h5]; exact (Cert.Spec.routed_hit (le_refl 9) x f (5 : Fin 9) h5).symm
  rw [if_neg h5]
  by_cases h4 : x = 4#32
  · rw [if_pos h4]; exact (Cert.Spec.routed_hit (le_refl 9) x f (4 : Fin 9) h4).symm
  rw [if_neg h4]
  by_cases h3 : x = 3#32
  · rw [if_pos h3]; exact (Cert.Spec.routed_hit (le_refl 9) x f (3 : Fin 9) h3).symm
  rw [if_neg h3]
  by_cases h2 : x = 2#32
  · rw [if_pos h2]; exact (Cert.Spec.routed_hit (le_refl 9) x f (2 : Fin 9) h2).symm
  rw [if_neg h2]
  by_cases h1 : x = 1#32
  · rw [if_pos h1]; exact (Cert.Spec.routed_hit (le_refl 9) x f (1 : Fin 9) h1).symm
  rw [if_neg h1]
  by_cases h0 : x = 0#32
  · rw [if_pos h0]; exact (Cert.Spec.routed_hit (le_refl 9) x f (0 : Fin 9) h0).symm
  rw [if_neg h0]
  refine (Cert.Spec.routed_miss x f fun c => ?_).symm
  match c with
  | ⟨0, _⟩ => exact h0
  | ⟨1, _⟩ => exact h1
  | ⟨2, _⟩ => exact h2
  | ⟨3, _⟩ => exact h3
  | ⟨4, _⟩ => exact h4
  | ⟨5, _⟩ => exact h5
  | ⟨6, _⟩ => exact h6
  | ⟨7, _⟩ => exact h7
  | ⟨8, _⟩ => exact h8

/-- THE REFERENCE'S NEIGHBOUR STAGE IS THE SPECIFICATION. -/
theorem term_eq_spec (neis : FVec Ideal S4096x64x8x2 .f32) (nl : IVec S4096x64 32) (Wn : FVec Ideal S9x128x16 .f32)
    (bn : FVec Ideal S9x128 .f32) :
    RefNei.term (F := Ideal) neis nl Wn bn = Cert.Spec.neiSpec neis nl Wn bn := by
  funext j
  obtain ⟨b, n, e, rfl⟩ : ∃ (b : Fin 4096) (n : Fin 64) (e : Fin 128), j = ix3 b n e := ⟨j 0, j 1, j 2, eq_ix3 j⟩
  rw [Cert.Spec.neiSpec_ix3]
  unfold RefNei.term
  simp only [level_apply, zeros_apply, out0, out1, out2, out3, out4, out5, out6, out7, out8]
  exact chain_eq (nl (ix2 b n)) (fun c => Cert.Spec.neiExpert neis Wn bn c b n e)

end Cert.ReferenceIdeal.RefNeiValue

end
-- ==== Proof.lean ====
/-
  The certificate's claim.  Both idealized programs compute, on the extended reals, the same two arrays of the
  arguments (Proof/Spec.lean): a label-routed linear map per agent trajectory, and the same routing over the
  neighbours' reciprocal-shifted coordinates.

  The kernel builds, per row, a block one-hot vector — the row's data in its class's column slot, zeros elsewhere,
  and a one-hot tail that picks the bias row — and multiplies by the stacked weights: at the ideal instance the
  product's sum has `0 · w = 0` in every slot of another class and `1 · x = x` in the label's own, so it is the
  label's expert, or `0` when the label is no class (no finiteness is used: `0 · w = 0` holds for every extended
  real).  The reference computes every class's expert and keeps, by a chain of selects, the one whose number the
  label is, starting from zeros.  The neighbour stage's `1 / (f + (±ε))` and `1 / (f ± ε)` agree because the word
  of `-ε` denotes the negative of the word of `ε`.

  The three frames: the two kernel programs' are the generated ones; the reference's is its run with the results
  dropped.  The idealization rewrote nothing, so `preserves` is `True`.
-/
import proofs.«108484_g15788299780126_cont_week2b_740_2_alg».proof.Defs
import proofs.«108484_g15788299780126_cont_week2b_740_2_alg».proof.Proof.Gen.Kernel
import proofs.«108484_g15788299780126_cont_week2b_740_2_alg».proof.Proof.Gen.Kernel.Frame
import proofs.«108484_g15788299780126_cont_week2b_740_2_alg».proof.Proof.Gen.KernelIdeal
import proofs.«108484_g15788299780126_cont_week2b_740_2_alg».proof.Proof.Gen.KernelIdeal.Frame
import proofs.«108484_g15788299780126_cont_week2b_740_2_alg».proof.Proof.Gen.ReferenceIdeal
import proofs.«108484_g15788299780126_cont_week2b_740_2_alg».proof.Proof.Gen.Pre_finite_inputs
import proofs.«108484_g15788299780126_cont_week2b_740_2_alg».proof.Proof.KernelValue
import proofs.«108484_g15788299780126_cont_week2b_740_2_alg».proof.Proof.RefRun
import proofs.«108484_g15788299780126_cont_week2b_740_2_alg».proof.Proof.RefSelfValue
import proofs.«108484_g15788299780126_cont_week2b_740_2_alg».proof.Proof.RefNeiValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.RefRun.run m ρ)

/-- Both runs end with the results at the specification of the arguments, and the arguments agree. -/
theorem algebraic : Cert.algebraic_KernelIdeal_ReferenceIdeal := by
  intro m ρ m' ρ' _ hagree
  refine ⟨_, _, Cert.KernelIdeal.Value.run m ρ, ?_⟩
  refine (θ_run Cert.ReferenceIdeal.defs _ _).mono (fun _ h c => ⟨?_, ?_, (h c).2.2⟩)
    (Cert.ReferenceIdeal.RefRun.run m' ρ')
  · obtain ⟨a0, a1, a2, a3, a4, a5, a6, a7, a8⟩ := hagree c
    rw [(h c).1, Cert.ReferenceIdeal.RefSelfValue.term_eq_spec, a0, a2, a4, a5, a6]
  · obtain ⟨a0, a1, a2, a3, a4, a5, a6, a7, a8⟩ := hagree c
    rw [(h c).2.1, Cert.ReferenceIdeal.RefNeiValue.term_eq_spec, a1, a3, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
